-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S50000x1024 : Shape := ⟨2, ![50000, 1024]⟩
abbrev S2x800000 : Shape := ⟨2, ![2, 800000]⟩
abbrev S50000 : Shape := ⟨1, ![50000]⟩
abbrev S2x1024 : Shape := ⟨2, ![2, 1024]⟩
abbrev S2 : Shape := ⟨1, ![2]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg1 : IVec S2x800000 32) (main_arg2 : IVec S50000 32) (main_v13 : IVec S_ 1) (main_v15 : IVec S2x800000 1) (main_c_5 : IVec S_ 32) : IVec S_ 1 :=
  let main_v16 : IVec S2x800000 32 := broadcastInDim S2x800000 ![] bcast_S_S2x800000 main_c_5
  let main_v17 : IVec S2x800000 1 := cmpi .sle main_arg1 main_v16
  let main_v18 : IVec S2x800000 1 := andi main_v15 main_v17
  let main_c_6 : IVec S_ 1 := constantI S_ 1 1#1
  let main_v19 : IVec S_ 1 := (fun x v => Host.reduce IntOp.andi x v reducesTo_S2x800000_S_d0_1 h_S_) main_v18 main_c_6
  let main_v20 : IVec S_ 1 := andi main_v13 main_v19
  let main_c_7 : IVec S_ 32 := constantI S_ 32 0#32
  let main_v21 : IVec S50000 32 := broadcastInDim S50000 ![] bcast_S_S50000 main_c_7
  let main_v22 : IVec S50000 1 := cmpi .sge main_arg2 main_v21
  let main_c_8 : IVec S_ 32 := constantI S_ 32 63#32
  let main_v23 : IVec S50000 32 := broadcastInDim S50000 ![] bcast_S_S50000 main_c_8
  let main_v24 : IVec S50000 1 := cmpi .sle main_arg2 main_v23
  let main_v25 : IVec S50000 1 := andi main_v22 main_v24
  let main_c_9 : IVec S_ 1 := constantI S_ 1 1#1
  let main_v26 : IVec S_ 1 := (fun x v => Host.reduce IntOp.andi x v reducesTo_S50000_S_d0 h_S_) main_v25 main_c_9
  let main_v27 : IVec S_ 1 := andi main_v20 main_v26
  main_v27

def fn {F : FTy → Type} [FloatOps F] (main_arg0 : FVec F S50000x1024 .f32) (main_arg1 : IVec S2x800000 32) (main_arg2 : IVec S50000 32) (main_arg3 : FVec F S2x1024 .f32) (main_arg4 : FVec F S2 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S2x1024 .f32 := Host.absf main_arg3
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2 .f32 := Host.absf main_arg4
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S2x800000 32 := broadcastInDim S2x800000 ![] bcast_S_S2x800000 main_c_4
  let main_v15 : IVec S2x800000 1 := cmpi .sge main_arg1 main_v14
  let main_c_5 : IVec S_ 32 := constantI S_ 32 49999#32
  fn_part1 (F := F) main_arg1 main_arg2 main_v13 main_v15 main_c_5
-- ==== Kernel.lean ====
abbrev S50000x1024 : Shape := ⟨2, ![50000, 1024]⟩
abbrev S2x800000 : Shape := ⟨2, ![2, 800000]⟩
abbrev S50000 : Shape := ⟨1, ![50000]⟩
abbrev S2x1024 : Shape := ⟨2, ![2, 1024]⟩
abbrev S2 : Shape := ⟨1, ![2]⟩
abbrev S2048 : Shape := ⟨1, ![2048]⟩
abbrev S1568 : Shape := ⟨1, ![1568]⟩
abbrev S64 : Shape := ⟨1, ![64]⟩
abbrev S_ : Shape := ⟨0, ![]⟩
abbrev S1392 : Shape := ⟨1, ![1392]⟩
abbrev S16 : Shape := ⟨1, ![16]⟩
abbrev S2x64 : Shape := ⟨2, ![2, 64]⟩
abbrev S2048x1024 : Shape := ⟨2, ![2048, 1024]⟩
abbrev S2x2048 : Shape := ⟨2, ![2, 2048]⟩
abbrev S1x2048 : Shape := ⟨2, ![1, 2048]⟩
abbrev S64x2048 : Shape := ⟨2, ![64, 2048]⟩
abbrev S2x1 : Shape := ⟨2, ![2, 1]⟩
abbrev S1x64 : Shape := ⟨2, ![1, 64]⟩
abbrev S64x2 : Shape := ⟨2, ![64, 2]⟩

abbrev nBuf : Table → Nat
  | .hbm => 10
  | .local .tc .vmem => 10
  | .local .scVector .vmem => 2
  | _ => 0

abbrev bufTy : (tb : Table) → Fin (nBuf tb) → BufTy
  | .hbm, ⟨0, _⟩ => ⟨S50000x1024, .f32⟩
  | .hbm, ⟨1, _⟩ => ⟨S2x800000, .i32⟩
  | .hbm, ⟨2, _⟩ => ⟨S50000, .i32⟩
  | .hbm, ⟨3, _⟩ => ⟨S2x1024, .f32⟩
  | .hbm, ⟨4, _⟩ => ⟨S2, .f32⟩
  | .hbm, ⟨5, _⟩ => ⟨S2048, .f32⟩
  | .hbm, ⟨6, _⟩ => ⟨S2x64, .f32⟩
  | .hbm, ⟨7, _⟩ => ⟨S2x1, .f32⟩
  | .hbm, ⟨8, _⟩ => ⟨S2x64, .f32⟩
  | .hbm, ⟨9, _⟩ => ⟨S64x2, .f32⟩
  | .local .tc .vmem, ⟨0, _⟩ => ⟨S2048x1024, .f32⟩
  | .local .tc .vmem, ⟨1, _⟩ => ⟨S2048x1024, .f32⟩
  | .local .tc .vmem, ⟨2, _⟩ => ⟨S2048, .i32⟩
  | .local .tc .vmem, ⟨3, _⟩ => ⟨S2048, .i32⟩
  | .local .tc .vmem, ⟨4, _⟩ => ⟨S2x1024, .f32⟩
  | .local .tc .vmem, ⟨5, _⟩ => ⟨S2x64, .f32⟩
  | .local .tc .vmem, ⟨6, _⟩ => ⟨S2048, .f32⟩
  | .local .tc .vmem, ⟨7, _⟩ => ⟨S2x64, .f32⟩
  | .local .tc .vmem, ⟨8, _⟩ => ⟨S2x1, .f32⟩
  | .local .tc .vmem, ⟨9, _⟩ => ⟨S2x64, .f32⟩
  | .local .scVector .vmem, ⟨0, _⟩ => ⟨S1568, .i32⟩
  | .local .scVector .vmem, ⟨1, _⟩ => ⟨S64, .f32⟩
  | _, _ => ⟨S50000x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg2_scv : Ref sig .scVector := ⟨.hbm, 2, rfl⟩
abbrev main_v0_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc2_sem0_0 : DmaSem sig := 9
abbrev cc2_sem1_0 : DmaSem sig := 10
abbrev cc2_sem2_0 : DmaSem sig := 11
abbrev cc2_sem3_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let v_true : BitVec 1 := 1#1
  let v4 : BitVec 1 := Scalar.xori v3 v_true
  let v5 : BitVec 32 := Scalar.extui v4
  let c0_i32 : BitVec 32 := 0#32
  let v6 : BitVec 1 := Scalar.cmpi .ne v5 c0_i32
  v6

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1568_i32 : BitVec 32 := 1568#32
  let v2 : BitVec 32 := Scalar.muli v1 c1568_i32
  ![v2.toNat]
@[reducible] def k0_t1_loop (i : grid0.Coords) : Scf.Loop 32 :=
  let c0_i32_3 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v15 : BitVec 32 := Scalar.select v3 c87_i32 c98_i32
  let v16 : BitVec 32 := Scalar.subi v15 c0_i32_3
  let c1_i32 : BitVec 32 := 1#32
  let v18 : BitVec 32 := Scalar.divsi v16 c1_i32
  let v19 : BitVec 32 := Scalar.muli v18 c1_i32
  let v20 : BitVec 32 := Scalar.addi c0_i32_3 v19
  let c1_i32_4 : BitVec 32 := 1#32
  ⟨c0_i32_3, v20, c1_i32_4⟩
def k0_off2 (i : grid0.Coords) (k0_t1 : Fin (k0_t1_loop i).trips) : Fin 1 → Nat :=
  let c0_i32_3 : BitVec 32 := 0#32
  let c1_i32_4 : BitVec 32 := 1#32
  let arg6 : BitVec 32 := Scf.iv c0_i32_3 c1_i32_4 k0_t1
  let c16_i32_6 : BitVec 32 := 16#32
  let v22 : BitVec 32 := Scalar.muli arg6 c16_i32_6
  let v23 : Index := Scalar.indexCast v22
  ![v23.toNat]

def k0_chk1 (v24 : IVec S16 32) : Prop :=
  (∀ a x, ((![v24] : Fin 1 → IVec S16 32) a x).toNat < S64.size a)
instance k0_chk1.dec : ∀ (v24 : IVec S16 32), Decidable (k0_chk1 v24) := fun v24 => decidable_of_iff' _ (Iff.of_eq (k0_chk1.eq_1 v24))
theorem k0_idx1_inb : ∀ (v24 : IVec S16 32) (k0_hw1 : k0_chk1 v24), ∀ a x, ((![v24] : Fin 1 → IVec S16 32) a x).toNat < S64.size a := fun v24 k0_hw1 => k0_hw1
@[reducible] def k0_t2_loop (i : grid0.Coords) : Scf.Loop 32 :=
  let c0_i32_3 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v15 : BitVec 32 := Scalar.select v3 c87_i32 c98_i32
  let v16 : BitVec 32 := Scalar.subi v15 c0_i32_3
  let c1_i32 : BitVec 32 := 1#32
  let v18 : BitVec 32 := Scalar.divsi v16 c1_i32
  let v19 : BitVec 32 := Scalar.muli v18 c1_i32
  let v20 : BitVec 32 := Scalar.addi c0_i32_3 v19
  let v17 : BitVec 32 := Scalar.addi c0_i32_3 v16
  let c1_i32_5 : BitVec 32 := 1#32
  ⟨v20, v17, c1_i32_5⟩
def k0_off3 (i : grid0.Coords) (k0_t2 : Fin (k0_t2_loop i).trips) : Fin 1 → Nat :=
  let c0_i32_3 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v3 : BitVec 1 := Scalar.cmpi .eq v1 c31_i32
  let c87_i32 : BitVec 32 := 87#32
  let c98_i32 : BitVec 32 := 98#32
  let v15 : BitVec 32 := Scalar.select v3 c87_i32 c98_i32
  let v16 : BitVec 32 := Scalar.subi v15 c0_i32_3
  let c1_i32 : BitVec 32 := 1#32
  let v18 : BitVec 32 := Scalar.divsi v16 c1_i32
  let v19 : BitVec 32 := Scalar.muli v18 c1_i32
  let v20 : BitVec 32 := Scalar.addi c0_i32_3 v19
  let c1_i32_5 : BitVec 32 := 1#32
  let arg6 : BitVec 32 := Scf.iv v20 c1_i32_5 k0_t2
  let c16_i32_6 : BitVec 32 := 16#32
  let v22 : BitVec 32 := Scalar.muli arg6 c16_i32_6
  let v23 : Index := Scalar.indexCast v22
  ![v23.toNat]

def k0_chk2 (v24 : IVec S16 32) : Prop :=
  (∀ a x, ((![v24] : Fin 1 → IVec S16 32) a x).toNat < S64.size a)
instance k0_chk2.dec : ∀ (v24 : IVec S16 32), Decidable (k0_chk2 v24) := fun v24 => decidable_of_iff' _ (Iff.of_eq (k0_chk2.eq_1 v24))
theorem k0_idx2_inb : ∀ (v24 : IVec S16 32) (k0_hw2 : k0_chk2 v24), ∀ a x, ((![v24] : Fin 1 → IVec S16 32) a x).toNat < S64.size a := fun v24 k0_hw2 => k0_hw2
def k0_off4 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v21 : BitVec 32 := Scalar.muli v1 c64_i32
  ![v21.toNat]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1568_S1392_0 : ∀ a, (![0] : Fin 1 → Nat) a + S1392.size a ≤ S1568.size a
  inb_S50000_S1392_48608 : ∀ a, (![48608] : Fin 1 → Nat) a + S1392.size a ≤ S50000.size a
  inb_S64_S16_0 : ∀ a, (![0] : Fin 1 → Nat) a + S16.size a ≤ S64.size a
  h_S16 : 0 < S16.numel
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  h_S64 : 0 < S64.numel
  inb_S2x64_S2x64_0_0 : ∀ a, (![0, 0] : Fin 2 → Nat) a + S2x64.size a ≤ S2x64.size a
  h_S2x64 : 0 < S2x64.numel
  inb_S2x1024_S2x1024_0_0 : ∀ a, (![0, 0] : Fin 2 → Nat) a + S2x1024.size a ≤ S2x1024.size a
  h_S2x1024 : 0 < S2x1024.numel
  inb_S2048x1024_S2048x1024_0_0 : ∀ a, (![0, 0] : Fin 2 → Nat) a + S2048x1024.size a ≤ S2048x1024.size a
  h_S2048x1024 : 0 < S2048x1024.numel
  iota_S1x2048_d1_w32 : S1x2048.Iotas .tc 32 [1]
  shapeCasts_S1x2048_S1x2048 : S1x2048.ShapeCasts S1x2048
  broadcasts_S1x2048_S2x2048 : S1x2048.Broadcasts S2x2048
  inb_S2048_S2048_0 : ∀ a, (![0] : Fin 1 → Nat) a + S2048.size a ≤ S2048.size a
  h_S2048 : 0 < S2048.numel
  shapeCasts_S2048_S1x2048 : S2048.ShapeCasts S1x2048
  iota_S64x2048_d0_w32 : S64x2048.Iotas .tc 32 [0]
  broadcasts_S1x2048_S64x2048 : S1x2048.Broadcasts S64x2048
  natLt_1_32 : 1 < 32
  shapeCasts_S2x64_S2x64 : S2x64.ShapeCasts S2x64
  shapeCasts_S2_S2x1 : S2.ShapeCasts S2x1
  inb_S2048_S64_0 : ∀ a, (![0] : Fin 1 → Nat) a + S64.size a ≤ S2048.size a
  shapeCasts_S64_S64 : S64.ShapeCasts S64
  inb_S2048_S64_64 : ∀ a, (![64] : Fin 1 → Nat) a + S64.size a ≤ S2048.size a
  inb_S2048_S64_128 : ∀ a, (![128] : Fin 1 → Nat) a + S64.size a ≤ S2048.size a
  inb_S2048_S64_192 : ∀ a, (![192] : Fin 1 → Nat) a + S64.size a ≤ S2048.size a
  inb_S2048_S64_256 : ∀ a, (![256] : Fin 1 → Nat) a + S64.size a ≤ S2048.size a
  inb_S2048_S64_320 : ∀ a, (![320] : Fin 1 → Nat) a + S64.size a ≤ S2048.size a
  inb_S2048_S64_384 : ∀ a, (![384] : Fin 1 → Nat) a + S64.size a ≤ S2048.size a
  inb_S2048_S64_448 : ∀ a, (![448] : Fin 1 → Nat) a + S64.size a ≤ S2048.size a
  inb_S2048_S64_512 : ∀ a, (![512] : Fin 1 → Nat) a + S64.size a ≤ S2048.size a
  inb_S2048_S64_576 : ∀ a, (![576] : Fin 1 → Nat) a + S64.size a ≤ S2048.size a
  inb_S2048_S64_640 : ∀ a, (![640] : Fin 1 → Nat) a + S64.size a ≤ S2048.size a
  inb_S2048_S64_704 : ∀ a, (![704] : Fin 1 → Nat) a + S64.size a ≤ S2048.size a
  inb_S2048_S64_768 : ∀ a, (![768] : Fin 1 → Nat) a + S64.size a ≤ S2048.size a
  inb_S2048_S64_832 : ∀ a, (![832] : Fin 1 → Nat) a + S64.size a ≤ S2048.size a
  inb_S2048_S64_896 : ∀ a, (![896] : Fin 1 → Nat) a + S64.size a ≤ S2048.size a
  inb_S2048_S64_960 : ∀ a, (![960] : Fin 1 → Nat) a + S64.size a ≤ S2048.size a
  inb_S2048_S64_1024 : ∀ a, (![1024] : Fin 1 → Nat) a + S64.size a ≤ S2048.size a
  inb_S2048_S64_1088 : ∀ a, (![1088] : Fin 1 → Nat) a + S64.size a ≤ S2048.size a
  inb_S2048_S64_1152 : ∀ a, (![1152] : Fin 1 → Nat) a + S64.size a ≤ S2048.size a
  inb_S2048_S64_1216 : ∀ a, (![1216] : Fin 1 → Nat) a + S64.size a ≤ S2048.size a
  inb_S2048_S64_1280 : ∀ a, (![1280] : Fin 1 → Nat) a + S64.size a ≤ S2048.size a
  inb_S2048_S64_1344 : ∀ a, (![1344] : Fin 1 → Nat) a + S64.size a ≤ S2048.size a
  inb_S2048_S64_1408 : ∀ a, (![1408] : Fin 1 → Nat) a + S64.size a ≤ S2048.size a
  inb_S2048_S64_1472 : ∀ a, (![1472] : Fin 1 → Nat) a + S64.size a ≤ S2048.size a
  inb_S2048_S64_1536 : ∀ a, (![1536] : Fin 1 → Nat) a + S64.size a ≤ S2048.size a
  inb_S2048_S64_1600 : ∀ a, (![1600] : Fin 1 → Nat) a + S64.size a ≤ S2048.size a
  inb_S2048_S64_1664 : ∀ a, (![1664] : Fin 1 → Nat) a + S64.size a ≤ S2048.size a
  inb_S2048_S64_1728 : ∀ a, (![1728] : Fin 1 → Nat) a + S64.size a ≤ S2048.size a
  inb_S2048_S64_1792 : ∀ a, (![1792] : Fin 1 → Nat) a + S64.size a ≤ S2048.size a
  inb_S2048_S64_1856 : ∀ a, (![1856] : Fin 1 → Nat) a + S64.size a ≤ S2048.size a
  inb_S2048_S64_1920 : ∀ a, (![1920] : Fin 1 → Nat) a + S64.size a ≤ S2048.size a
  inb_S2048_S64_1984 : ∀ a, (![1984] : Fin 1 → Nat) a + S64.size a ≤ S2048.size a
  shapeCasts_S64_S1x64 : S64.ShapeCasts S1x64
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S1x64_S2x64 : S1x64.Broadcasts S2x64
  broadcasts_S2x1_S2x64 : S2x1.Broadcasts S2x64
  transposes_S2x64_S64x2_1_0 : S2x64.Transposes [1, 0] S64x2
  dot_S2x1024_S2048x1024_S2x2048_1_1_0_0_n_n_wf : DotDims.WF S2x1024 S2048x1024 S2x2048 [1] [1] [0] [0] [] []
  dot_S2x2048_S64x2048_S2x64_1_1_0_0_n_n_wf : DotDims.WF S2x2048 S64x2048 S2x64 [1] [1] [0] [0] [] []
  hcc0_scoped0 : 0 + S_.numel ≤ 13
  hcc0_scoped1 : 1 + S_.numel ≤ 13
  hcc0_scoped2 : 2 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S1568.size a ≤ S50000.size a
  k0_t1_ok : ∀ i : grid0.Coords, (k0_t1_loop i).OK
  k0_off2_inb : ∀ (i : grid0.Coords) (k0_t1 : Fin (k0_t1_loop i).trips), ∀ a, (k0_off2 i k0_t1) a + S16.size a ≤ S1568.size a
  k0_t2_ok : ∀ i : grid0.Coords, (k0_t2_loop i).OK
  k0_off3_inb : ∀ (i : grid0.Coords) (k0_t2 : Fin (k0_t2_loop i).trips), ∀ a, (k0_off3 i k0_t2) a + S16.size a ≤ S1568.size a
  k0_off4_inb : ∀ i : grid0.Coords, ∀ a, (k0_off4 i) a + S64.size a ≤ S2048.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x1024.size a < S50000x1024.size a
  hwx1_0 : ∀ i : grid1.Coords, EltTy.bits .f32 = 32 ∨ (Rect.unit (s := S50000x1024) (fun a => cc1_transform_0 i a * S2048x1024.size a) (fun a => (Pipeline.Clip.of (cc1_transform_0 i a) (S2048x1024.size a) (S50000x1024.size a)).extent (S2048x1024.size a)) fun a => Pipeline.Clip.inb (Pipeline.Clip.ok_of (hstart1_0 i a))).WholeWords (EltTy.packing .f32)
  hwxs1_0 : ∀ i : grid1.Coords, EltTy.bits .f32 = 32 ∨ (Rect.unit (s := S2048x1024) (fun _ => 0) (fun a => (Pipeline.Clip.of (cc1_transform_0 i a) (S2048x1024.size a) (S50000x1024.size a)).extent (S2048x1024.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048.size a < S50000.size a
  hwx1_1 : ∀ i : grid1.Coords, EltTy.bits .i32 = 32 ∨ (Rect.unit (s := S50000) (fun a => cc1_transform_1 i a * S2048.size a) (fun a => (Pipeline.Clip.of (cc1_transform_1 i a) (S2048.size a) (S50000.size a)).extent (S2048.size a)) fun a => Pipeline.Clip.inb (Pipeline.Clip.ok_of (hstart1_1 i a))).WholeWords (EltTy.packing .i32)
  hwxs1_1 : ∀ i : grid1.Coords, EltTy.bits .i32 = 32 ∨ (Rect.unit (s := S2048) (fun _ => 0) (fun a => (Pipeline.Clip.of (cc1_transform_1 i a) (S2048.size a) (S50000.size a)).extent (S2048.size a)) fun a => (Nat.zero_add _).trans_le (Pipeline.Clip.extent_le (Pipeline.Clip.ok_of (hstart1_1 i a)))).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1024.size a ≤ S2x1024.size a
  hwx1_2 : ∀ i : grid1.Coords, EltTy.bits .f32 = 32 ∨ (Rect.block (s := S2x1024) S2x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64.size a ≤ S2x64.size a
  hwx1_3 : ∀ i : grid1.Coords, EltTy.bits .f32 = 32 ∨ (Rect.block (s := S2x64) S2x64.size (cc1_transform_3 i) (hinb1_3 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S2x1024_S2048x1024_S2x2048_1_1_0_0_n_n : DotDims S2x1024 S2048x1024 S2x2048 where
  lhsContracting := [1]
  rhsContracting := [1]
  lhsNonContracting := [0]
  rhsNonContracting := [0]
  lhsBatch := []
  rhsBatch := []
  wf := dot_S2x1024_S2048x1024_S2x2048_1_1_0_0_n_n_wf
def dot_S2x2048_S64x2048_S2x64_1_1_0_0_n_n : DotDims S2x2048 S64x2048 S2x64 where
  lhsContracting := [1]
  rhsContracting := [1]
  lhsNonContracting := [0]
  rhsNonContracting := [0]
  lhsBatch := []
  rhsBatch := []
  wf := dot_S2x2048_S64x2048_S2x64_1_1_0_0_n_n_wf

abbrev win1_0 : Pipeline.Window sig grid1 :=
  Pipeline.Window.ofSpecClip (Memref.whole main_arg0) S2048x1024.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg2) S2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_arg3) S2x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.whole (Memref.whole main_v0) false false (stage2_0 0) (sem2_0 0) (Memref.isWhole_whole _) (hstage2_0 0)

abbrev win2_1 : Pipeline.Window sig grid2 :=
  Pipeline.Window.whole (Memref.whole main_v1) false false (stage2_1 0) (sem2_1 0) (Memref.isWhole_whole _) (hstage2_1 0)

abbrev win2_2 : Pipeline.Window sig grid2 :=
  Pipeline.Window.whole (Memref.whole main_v2) false false (stage2_2 0) (sem2_2 0) (Memref.isWhole_whole _) (hstage2_2 0)

abbrev win2_3 : Pipeline.Window sig grid2 :=
  Pipeline.Window.whole (Memref.whole main_v3) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x1024 : Shape := ⟨2, ![50000, 1024]⟩
abbrev S2x800000 : Shape := ⟨2, ![2, 800000]⟩
abbrev S50000 : Shape := ⟨1, ![50000]⟩
abbrev S2x1024 : Shape := ⟨2, ![2, 1024]⟩
abbrev S2 : Shape := ⟨1, ![2]⟩
abbrev S1024x2 : Shape := ⟨2, ![1024, 2]⟩
abbrev S50000x2 : Shape := ⟨2, ![50000, 2]⟩
abbrev S1x2 : Shape := ⟨2, ![1, 2]⟩
abbrev S_ : Shape := ⟨0, ![]⟩
abbrev S64x2 : Shape := ⟨2, ![64, 2]⟩
abbrev S50000x1 : Shape := ⟨2, ![50000, 1]⟩
abbrev S64x1 : Shape := ⟨2, ![64, 1]⟩

abbrev nBuf : Space → Nat
  | .hbm => 25
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x800000, .i32⟩
  | .hbm, ⟨2, _⟩ => ⟨S50000, .i32⟩
  | .hbm, ⟨3, _⟩ => ⟨S2x1024, .f32⟩
  | .hbm, ⟨4, _⟩ => ⟨S2, .f32⟩
  | .hbm, ⟨5, _⟩ => ⟨S1024x2, .f32⟩
  | .hbm, ⟨6, _⟩ => ⟨S50000x2, .f32⟩
  | .hbm, ⟨7, _⟩ => ⟨S1x2, .f32⟩
  | .hbm, ⟨8, _⟩ => ⟨S50000x2, .f32⟩
  | .hbm, ⟨9, _⟩ => ⟨S50000x2, .f32⟩
  | .hbm, ⟨10, _⟩ => ⟨S_, .f32⟩
  | .hbm, ⟨11, _⟩ => ⟨S64x2, .f32⟩
  | .hbm, ⟨12, _⟩ => ⟨S50000x1, .i32⟩
  | .hbm, ⟨13, _⟩ => ⟨S64x2, .f32⟩
  | .hbm, ⟨14, _⟩ => ⟨S_, .f32⟩
  | .hbm, ⟨15, _⟩ => ⟨S50000x1, .f32⟩
  | .hbm, ⟨16, _⟩ => ⟨S_, .f32⟩
  | .hbm, ⟨17, _⟩ => ⟨S64x1, .f32⟩
  | .hbm, ⟨18, _⟩ => ⟨S50000x1, .i32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .f32⟩
  | .hbm, ⟨23, _⟩ => ⟨S64x2, .f32⟩
  | .hbm, ⟨24, _⟩ => ⟨S64x2, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  transposes_S2x1024_S1024x2_1_0 : S2x1024.Transposes [1, 0] S1024x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S64x2 : S_.BroadcastsInDim S64x2 (![] : Fin 0 → Fin S64x2.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x2_0_1 : S64x1.BroadcastsInDim S64x2 (![0, 1] : Fin 2 → Fin S64x2.rank)
  dot_S50000x1024_S1024x2_S50000x2_1_0_0_1_n_n_wf : DotDims.WF S50000x1024 S1024x2 S50000x2 [1] [0] [0] [1] [] []
  scatter_S64x2_S50000x1_S50000x2_1_0_0_1_wf : ScatterDims.WF S64x2 S50000x1 S50000x2 [1] [0] [0] 1
  scatter_S64x1_S50000x1_S50000x1_1_0_0_1_wf : ScatterDims.WF S64x1 S50000x1 S50000x1 [1] [0] [0] 1

variable [Facts₀]

def dot_S50000x1024_S1024x2_S50000x2_1_0_0_1_n_n : DotDims S50000x1024 S1024x2 S50000x2 where
  lhsContracting := [1]
  rhsContracting := [0]
  lhsNonContracting := [0]
  rhsNonContracting := [1]
  lhsBatch := []
  rhsBatch := []
  wf := dot_S50000x1024_S1024x2_S50000x2_1_0_0_1_n_n_wf
def scatter_S64x2_S50000x1_S50000x2_1_0_0_1 : ScatterDims S64x2 S50000x1 S50000x2 where
  updateWindowDims := [1]
  insertedWindowDims := [0]
  scatterDimsToOperandDims := [0]
  indexVectorDim := 1
  wf := scatter_S64x2_S50000x1_S50000x2_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.Kernel.Setup.lean ====
/-
  The common setting of the kernel program's run: the program as a SparseCore launch sees it (one vector-subcore
  call over two SparseCores of sixteen tiles, two TensorCore pipelines after it), the ghost state (the launch
  handshakes' rounds, the pipelines' staging cells' rounds, the counters of the tiles' own copies), the arrays'
  locations, and the pure functions the three kernels compute.
-/
import proofs.«211348_g14766097563893_cont_week2b_353_46_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«211348_g14766097563893_cont_week2b_353_46_alg».proof.Proof.Gen.Kernel
import proofs.«211348_g14766097563893_cont_week2b_353_46_alg».proof.Proof.Gen.Kernel.Skeleton
import proofs.«211348_g14766097563893_cont_week2b_353_46_alg».proof.Proof.Gen.Kernel.Launch
import proofs.«211348_g14766097563893_cont_week2b_353_46_alg».proof.Proof.Gen.Kernel.Points

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof.Kernel

end
-- ==== Proof.Kernel.TileDefs.lean ====
/-
  One tile's task of the counting kernel: it copies its chunk of the segment ids into its own memory, clears its
  sixty-four counters, adds one to the counter each id names, sixteen ids at a time, and copies the counters out to its
  sixty-four words of the per-tile counts array. Stated once for every tile and either float instance: what the tile
  leaves is named by the fold of the indexed add over the chunk's vectors (`CntUpTo`), and every id it reads is one of
  the segment-id array's own words at the tile's offset (`ChunkHeld`).
-/
import proofs.«211348_g14766097563893_cont_week2b_353_46_alg».proof.Proof.Kernel.Setup
import Idealize.ShloMosaic.Lib.ValueIdx

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

/-- The segment ids and the per-tile counts, as locations of device `d`. -/
abbrev bLoc (d : Dev nD) : Loc nD τ sig := (SparseCore.T d).loc main_arg2
abbrev cLoc (d : Dev nD) : Loc nD τ sig := (SparseCore.T d).loc main_v0

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)
/-- The tile's number among the thirty-two. -/
abbrev wid (L : grid0.Coords) : ℕ := 16 * (L 0).val + (L 1).val

/-- The sixty-four words of the counts array a tile writes, as the kernel slices them. -/
abbrev cSl (L : grid0.Coords) : Memref sig .scVector .hbm S64 .f32 :=
  (cW).slice (Rect.unit (s := S2048) (k0_off4 L) S64.size (k0_off4_inb L)) (fun _ => rfl)

/-- How many vectors of sixteen ids the tile counts: the last tile's chunk is shorter. -/
theorem trips_eq : ∀ L : grid0.Coords, (k0_t1_loop L).trips = if wid L = 31 then 87 else 98 := by decide +kernel
theorem trips2_eq (L : grid0.Coords) : (k0_t2_loop L).trips = 0 := Nat.le_zero.mp (k0_t2_abs L).2.1
theorem cond1_iff : ∀ L : grid0.Coords, k0_cond1 L = 1#1 ↔ wid L ≠ 31 := by decide +kernel
theorem cond2_iff : ∀ L : grid0.Coords,
    (Scalar.cmpi .ne (Scalar.extui (Scalar.cmpi .eq (Scalar.addi (Scalar.muli (BitVec.ofNat 32 (L 0).val) 16#32) (BitVec.ofNat 32 (L 1).val)) 31#32)) 0#32 = 1#1) ↔ wid L = 31 := by
  decide +kernel

/-- The `k`-th vector of sixteen ids of the tile's chunk, as the counting loop loads it. -/
abbrev vecAt (s : Buf (Elt F) ((thrV d L).loc cc0_scratch0)) (k : Fin (k0_t1_loop L).trips) : IVec S16 32 :=
  (s0W).view.readAt (Elt F) (Rect.unit (s := S1568) (k0_off2 L k) S16.size (k0_off2_inb L k)).toLoadRect s

/-- One trip of the counting loop on the counters: one added at the counter each of the sixteen ids names. -/
def stepG (s : Buf (Elt F) ((thrV d L).loc cc0_scratch0)) (g : Buf (Elt F) ((thrV d L).loc cc0_scratch1)) (k : Fin (k0_t1_loop L).trips)
    (h : k0_chk1 (vecAt (F := F) d L s k)) : Buf (Elt F) ((thrV d L).loc cc0_scratch1) :=
  ((s1W).access (.whole S64)).write (Elt F) g
    (storeIdx (((s1W).access (.whole S64)).read (Elt F) g) ![vecAt (F := F) d L s k] (k0_pay2 (F := F)) (fun _ => 1#1) true (k0_idx1_inb _ h)) Finset.univ

/-- The counters after `n` trips over the chunk `s`: cleared, then `n` trips' adds. -/
def CntUpTo (s : Buf (Elt F) ((thrV d L).loc cc0_scratch0)) : ℕ → Buf (Elt F) ((thrV d L).loc cc0_scratch1) → Prop
  | 0, g => ∀ j, g j = Scalar.ofBits .f32 0x00000000#32
  | n + 1, g => ∃ (hn : n < (k0_t1_loop L).trips) (g0 : Buf (Elt F) ((thrV d L).loc cc0_scratch1)) (h : k0_chk1 (vecAt (F := F) d L s ⟨n, hn⟩)),
      CntUpTo s n g0 ∧ g = stepG (F := F) d L s g0 ⟨n, hn⟩ h

/-- The ids the tile counts are the segment-id array's words from the tile's offset on. -/
def ChunkHeld (s : Buf (Elt F) ((thrV d L).loc cc0_scratch0)) : Prop :=
  ∀ (j : S1568.Idx) (i : S50000.Idx), (j 0).val < 16 * (k0_t1_loop L).trips → (i 0).val = 1568 * wid L + (j 0).val → s j = m (bLoc d) i

/-- What a tile leaves in its sixty-four words of the counts array. -/
def TileDone (fo : Buf (Elt F) (cLoc d)) : Prop :=
  ∃ (s : Buf (Elt F) ((thrV d L).loc cc0_scratch0)) (g : Buf (Elt F) ((thrV d L).loc cc0_scratch1)),
    ChunkHeld m d L s ∧ CntUpTo (F := F) d L s (k0_t1_loop L).trips g ∧ ∀ j : S64.Idx, fo ((cSl L).view.emb j) = g j

/-- Every segment id names one of the sixty-four counters (the certificate's precondition says so). -/
def PreOK : Prop := ∀ (d : Dev nD) (i : S50000.Idx), (m (bLoc d) i).toNat < 64

/-- The counting loop's invariant: the chunk kept, the counters after `k` trips. -/
def inv (s : Buf (Elt F) ((thrV d L).loc cc0_scratch0)) (k : Nat) (_ : Unit) : sProp 𝕄 :=
  iprop(((s0W).view.loc (thrV d L) ↦{fullShare} s)
    ∗ ∃ g, ⌜CntUpTo (F := F) d L s k g⌝ ∗ ((s1W).view.loc (thrV d L) ↦{fullShare} g))

/-- The remainder loop's: it runs no trip. -/
def inv2 (s : Buf (Elt F) ((thrV d L).loc cc0_scratch0)) (_ : Nat) (_ : Unit) : sProp 𝕄 := inv (F := F) d L s (k0_t1_loop L).trips ()

/-- What a tile's task starts from, past the launch's bookkeeping. -/
def tilePre (q : PosShare TreeShare) (O : CellTallies nD τ sig (HIx 1)) (W : Waits sig (HIx 1))
    (fs : Buf (Elt F) ((thrV d L).loc cc0_scratch0)) (fc : Buf (Elt F) ((thrV d L).loc cc0_scratch1)) (fo : Buf (Elt F) (cLoc d)) : sProp 𝕄 :=
  (iprop(Transfers.MayWaits (thrV d L) (none : HIx 1) O
      ∗ ((bW).view.loc (thrV d L) ↦{q} m (bLoc d))
      ∗ ((s0W).view.loc (thrV d L) ↦{fullShare} fs)
      ∗ ((s1W).view.loc (thrV d L) ↦{fullShare} fc)
      ∗ ((cSl L).view.loc (thrV d L) ↦[(cSl L).view.set]{fullShare} fo)
      ∗ semVal (thrV d L, SemLoc.dma cc0_scoped0.sem) 0 ∗ semVal (thrV d L, SemLoc.dma cc0_scoped1.sem) 0 ∗ semVal (thrV d L, SemLoc.dma cc0_scoped2.sem) 0
      ∗ owes (thrV d L) O W) : sProp 𝕄)

/-- and what it ends with. -/
def tilePost (q : PosShare TreeShare) (O : CellTallies nD τ sig (HIx 1)) (W : Waits sig (HIx 1)) : sProp 𝕄 :=
  (iprop(((bW).view.loc (thrV d L) ↦{q} m (bLoc d))
      ∗ (∃ fs, (s0W).view.loc (thrV d L) ↦{fullShare} fs)
      ∗ (∃ fc, (s1W).view.loc (thrV d L) ↦{fullShare} fc)
      ∗ (∃ fo, ⌜TileDone m d L fo⌝ ∗ (cSl L).view.loc (thrV d L) ↦[(cSl L).view.set]{fullShare} fo)
      ∗ semVal (thrV d L, SemLoc.dma cc0_scoped0.sem) 0 ∗ semVal (thrV d L, SemLoc.dma cc0_scoped1.sem) 0 ∗ semVal (thrV d L, SemLoc.dma cc0_scoped2.sem) 0
      ∗ ∃ W', ⌜∀ p ∈ W', p ∈ W ∨ p.2 = none⌝ ∗ owes (thrV d L) O W') : sProp 𝕄)

omit [FloatOps F] in
theorem pts_s1_access (g : Buf (Elt F) ((thrV d L).loc cc0_scratch1)) :
    ((((s1W).access (.whole S64)).loc (thrV d L) ↦[((s1W).access (.whole S64)).set]{fullShare} g : sProp 𝕄))
      = ((s1W).view.loc (thrV d L) ↦{fullShare} g) := by
  have h : ((s1W).access (.whole S64)).set = Finset.univ := Memref.set_access_whole cc0_scratch1
  rw [h]

/-- Ids below sixty-four over the part of the chunk the loop reads pass the loop's check at every trip. -/
theorem chk_of_lt64 (s : Buf (Elt F) ((thrV d L).loc cc0_scratch0))
    (hs : ∀ j : S1568.Idx, (j 0).val < 16 * (k0_t1_loop L).trips → (s j).toNat < 64) (k : Fin (k0_t1_loop L).trips) :
    k0_chk1 (vecAt (F := F) d L s k) := by
  intro a x
  obtain rfl : a = 0 := Subsingleton.elim _ _
  show ((s0W).view.readAt (Elt F) (Rect.unit (s := S1568) (k0_off2 L k) S16.size (k0_off2_inb L k)).toLoadRect s x).toNat < 64
  simp only [View.readAt_apply, Memref.view_whole, View.read_whole]
  apply hs
  rw [LoadRect.idx_apply]
  show (k0_off2 L k) 0 + 1 * (x 0).val < 16 * (k0_t1_loop L).trips
  rw [k0_off2_eq]
  have hx : (x 0).val < 16 := (x 0).isLt
  have hk := k.isLt
  simp only [Matrix.cons_val_zero]
  omega

/-- The four cleared quarters are the whole of the counters. -/
theorem cleared (f : Buf (Elt F) ((thrV d L).loc cc0_scratch1)) (j) :
    (s1W).view.writes (Elt F) f
      [⟨Rect.unit (s := S64) ![48] S16.size inb_S64_S16_48, k0_pay1 (F := F)⟩, ⟨Rect.unit (s := S64) ![32] S16.size inb_S64_S16_32, k0_pay1 (F := F)⟩,
       ⟨Rect.unit (s := S64) ![16] S16.size inb_S64_S16_16, k0_pay1 (F := F)⟩, ⟨Rect.unit (s := S64) ![0] S16.size inb_S64_S16_0, k0_pay1 (F := F)⟩] j
      = Scalar.ofBits .f32 0x00000000#32 := by
  have h := View.read_writes_apply_of_pieces (v := (s1W).view) (Val := Elt F) (f := f) (fun _ => (Scalar.ofBits .f32 0x00000000#32 : F .f32))
    [⟨Rect.unit (s := S64) ![48] S16.size inb_S64_S16_48, k0_pay1 (F := F)⟩, ⟨Rect.unit (s := S64) ![32] S16.size inb_S64_S16_32, k0_pay1 (F := F)⟩,
       ⟨Rect.unit (s := S64) ![16] S16.size inb_S64_S16_16, k0_pay1 (F := F)⟩, ⟨Rect.unit (s := S64) ![0] S16.size inb_S64_S16_0, k0_pay1 (F := F)⟩]
    (by
      intro p hp x
      rcases List.mem_cons.mp hp with rfl | hp; · rfl
      rcases List.mem_cons.mp hp with rfl | hp; · rfl
      rcases List.mem_cons.mp hp with rfl | hp; · rfl
      rcases List.mem_cons.mp hp with rfl | hp; · rfl
      exact absurd hp List.not_mem_nil)
    j (View.cover_of_tiled (s := S64) _ ![16] (by rfl) j)
  simpa only [Memref.view_whole, View.read_whole] using h

omit [FloatOps F] in
/-- An element of the tile's chunk, read through the slice the kernel copies, is the array's word at the tile's offset. -/
theorem chunk_read (h1 : k0_cond1 L = 1#1) (j : S1568.Idx) (i : S50000.Idx) (hi : (i 0).val = 1568 * wid L + (j 0).val) :
    View.read (Elt F) ((bW).slice (Rect.unit (s := S50000) (k0_off1 L) S1568.size (k0_off1_inb L h1)) (fun _ => rfl)).view (m (bLoc d)) j = m (bLoc d) i := by
  have he : ((bW).slice (Rect.unit (s := S50000) (k0_off1 L) S1568.size (k0_off1_inb L h1)) (fun _ => rfl)).view.emb j = i := by
    refine funext fun (a : Fin 1) => ?_
    obtain rfl : a = 0 := Subsingleton.elim _ _; apply Fin.ext
    show (k0_off1 L) 0 + 1 * (j 0).val = (i 0).val
    rw [k0_off1_eq, hi]; simp only [Matrix.cons_val_zero, wid]; omega
  exact (View.read_apply _ _).trans ((cast_eq _ _).trans (congrArg (m (bLoc d)) he))

end Tile
end Cert.Proof.Kernel
end
-- ==== Proof.Kernel.TileA.lean ====
/-
  A tile's task when the tile is not the last: its chunk is a full one, copied whole.
-/
import proofs.«211348_g14766097563893_cont_week2b_353_46_alg».proof.Proof.Kernel.TileDefs

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

variable [FloatOps F]

section Tile
variable (d : Dev nD) (L : grid0.Coords)

theorem tile_body_A (hpre : PreOK m) (q : PosShare TreeShare) (O : CellTallies nD τ sig (HIx 1)) (W : Waits sig (HIx 1))
    (fs : Buf (Elt F) ((thrV d L).loc cc0_scratch0)) (fc : Buf (Elt F) ((thrV d L).loc cc0_scratch1)) (fo : Buf (Elt F) (cLoc d))
    (k0_h1 : k0_cond1 L = 1#1) :
    tilePre m d L q O W fs fc fo
      ⊢ wp frame (wpE (defs₀ (F := F)) 𝒱₀ (thrV d L) none) Set.univ
          (cc0__sc_counts L bW (Memref.isWhole_whole _) cW (Memref.isWhole_whole _) s0W (Memref.isWhole_whole _) s1W (Memref.isWhole_whole _) cc0_scoped0 cc0_scoped1 cc0_scoped2)
          fun _ => tilePost m d L q O W := by
  have k0_h2 : ¬ (Scalar.cmpi .ne (Scalar.extui (Scalar.cmpi .eq (Scalar.addi (Scalar.muli (BitVec.ofNat 32 (L 0).val) 16#32) (BitVec.ofNat 32 (L 1).val)) 31#32)) 0#32 = 1#1) :=
    fun h => (cond1_iff L).mp k0_h1 ((cond2_iff L).mp h)
  simp only [cc0__sc_counts_eq_skeleton]; unfold cc0__sc_counts_skel
  unfold tilePre
  iintro ⟨Hmw, Hb, Hs0, Hs1, Hc, Hsem0, Hsem1, Hsem2, HO⟩
  sl_exec
  have hheld : ChunkHeld m d L (View.write (Elt F) (s0W).view fs (tile_body_A.sl.dma0 m d L k0_h1) Finset.univ) := by
    intro j i hj hi
    rw [View.write_whole_univ]; unfold tile_body_A.sl.dma0
    exact chunk_read (F := F) m d L k0_h1 j i hi
  have hs64 : ∀ j : S1568.Idx, (j 0).val < 16 * (k0_t1_loop L).trips → (View.write (Elt F) (s0W).view fs (tile_body_A.sl.dma0 m d L k0_h1) Finset.univ j).toNat < 64 := by
    intro j hj
    have hw : wid L ≠ 31 := (cond1_iff L).mp k0_h1
    have hL0 : (L 0).val < 2 := (L 0).isLt
    have hL1 : (L 1).val < 16 := (L 1).isLt
    have hj' : (j 0).val < 1568 := (j 0).isLt
    have hb : 1568 * wid L + (j 0).val < 50000 := by
      have : wid L ≤ 30 := by unfold wid at hw ⊢; omega
      omega
    rw [hheld j (Idealize.ShloMosaic.ValueIdx.ix1 ⟨1568 * wid L + (j 0).val, hb⟩) hj rfl]
    exact hpre d _
  sl_for (inv (F := F) d L (View.write (Elt F) (s0W).view fs (tile_body_A.sl.dma0 m d L k0_h1) Finset.univ)) $$ [Hs0 Hs1]
  case region =>
    intro k _
    unfold inv
    iintro ⟨Hs0, %g, %hg, Hs1⟩
    sl_exec
    have hchk : k0_chk1 (vecAt (F := F) d L (View.write (Elt F) (s0W).view fs (tile_body_A.sl.dma0 m d L k0_h1) Finset.univ) k) :=
      chk_of_lt64 (F := F) d L _ hs64 k
    rw [wp_assume_of _ _ _ _ hchk]
    ihave Hs1' := (Entails.of_eq (pts_s1_access (F := F) d L g).symm) $$ Hs1
    iapply (SparseCore.wp_vectorStoreIdx 𝒱₀ (thrV d L) none Set.univ (base := (s1W))) $$ Hs1'
    iintro Hs1'
    rw [Prog.pure_eq_ret, wp_ret]; imodintro
    isplitl [Hs0]; · iexact Hs0
    iexists (stepG (F := F) d L _ g k hchk)
    isplitr
    · ipureintro; exact ⟨k.isLt, g, hchk, hg, rfl⟩
    · iapply (Entails.of_eq (pts_s1_access (F := F) d L _)); iexact Hs1'
  · unfold inv
    isplitl [Hs0]; · iexact Hs0
    iexists ((s1W).view.writes (Elt F) (s1W).view.junk (tile_body_A.sl.Hs1_4 (F := F))); isplitr
    · ipureintro; show ∀ j, _ = _; unfold tile_body_A.sl.Hs1_4; exact cleared (F := F) d L _
    · iexact Hs1
  iintro %_ HI
  unfold inv
  icases HI with ⟨Hs0, %g, %hg, Hs1⟩
  sl_exec
  sl_for (inv2 (F := F) d L (View.write (Elt F) (s0W).view fs (tile_body_A.sl.dma0 m d L k0_h1) Finset.univ)) $$ [Hs0 Hs1]
  case region =>
    intro k _
    exact absurd (show k.val < (k0_t2_loop L).trips from k.isLt) (by rw [trips2_eq L]; exact Nat.not_lt_zero _)
  · unfold inv2 inv
    isplitl [Hs0]; · iexact Hs0
    iexists g; isplitr
    · ipureintro; exact hg
    · iexact Hs1
  iintro %_ HI
  unfold inv2 inv
  icases HI with ⟨Hs0, %g', %hg', Hs1⟩
  sl_exec
  rw [wp_ret]; imodintro
  unfold tilePost
  isplitl [Hb]; · iexact Hb
  isplitl [Hs0]; · iexists _; iexact Hs0
  isplitl [Hs1]; · iexists _; iexact Hs1
  isplitl [Hc]
  · iexists _; isplitr
    swap; · iexact Hc
    ipureintro
    refine ⟨_, g', hheld, hg', fun j => ?_⟩
    have h := View.read_writes_cons_emb (v := (cSl L).view) (Val := Elt F) (f := fo) (Rect.whole S64) (tile_body_A.sl.dma0_1 (F := F) d L g') [] j
    rw [View.read_apply, Rect.emb_whole_apply] at h
    unfold tile_body_A.sl.dma0_1 at h ⊢
    exact (cast_eq _ _).symm.trans (h.trans rfl)
  isplitl [Hsem0]; · iexact Hsem0
  isplitl [Hsem1]; · iexact Hsem1
  isplitl [Hsem2]; · iexact Hsem2
  iexists _; isplitr
  swap; · iexact HO
  ipureintro; intro p hp
  rcases Finset.mem_insert.mp hp with rfl | hp
  · exact .inr rfl
  rcases Finset.mem_insert.mp hp with rfl | hp
  · exact .inr rfl
  · exact .inl hp

end Tile
end Cert.Proof.Kernel
end
-- ==== Proof.Kernel.TileB.lean ====
/-
  The last tile's task: its chunk is the array's tail, shorter than the others', copied into the head of the tile's buffer.
-/
import proofs.«211348_g14766097563893_cont_week2b_353_46_alg».proof.Proof.Kernel.TileDefs

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

variable [FloatOps F]

section Tile
variable (d : Dev nD) (L : grid0.Coords)

omit [FloatOps F] in
/-- An element of the last tile's chunk: the head of the buffer holds the array's tail. -/
theorem chunk_read_B (fs : Buf (Elt F) ((thrV d L).loc cc0_scratch0)) (j : S1568.Idx) (hj : (j 0).val < 1392) (i : S50000.Idx) (hi : (i 0).val = 48608 + (j 0).val) :
    (s0W).view.writes (Elt F) fs
      [⟨Rect.unit (s := S1568) ![0] S1392.size inb_S1568_S1392_0,
        ReadAs.same.apply (View.read (Elt F) ((bW).slice (Rect.unit (s := S50000) ![48608] S1392.size inb_S50000_S1392_48608) (fun _ => rfl)).view (m (bLoc d)))⟩] j
      = m (bLoc d) i := by
  have hjx : (Rect.unit (s := S1568) ![0] S1392.size inb_S1568_S1392_0).emb (Idealize.ShloMosaic.ValueIdx.ix1 ⟨(j 0).val, hj⟩) = j := by
    refine funext fun (a : Fin 1) => ?_
    obtain rfl : a = 0 := Subsingleton.elim _ _; apply Fin.ext
    show 0 + 1 * (j 0).val = (j 0).val
    omega
  have he : ((bW).slice (Rect.unit (s := S50000) ![48608] S1392.size inb_S50000_S1392_48608) (fun _ => rfl)).view.emb (Idealize.ShloMosaic.ValueIdx.ix1 ⟨(j 0).val, hj⟩) = i := by
    refine funext fun (a : Fin 1) => ?_
    obtain rfl : a = 0 := Subsingleton.elim _ _; apply Fin.ext
    show 48608 + 1 * (j 0).val = (i 0).val
    omega
  have h := View.read_writes_cons_emb (v := (s0W).view) (Val := Elt F) (f := fs) (Rect.unit (s := S1568) ![0] S1392.size inb_S1568_S1392_0)
    (ReadAs.same.apply (View.read (Elt F) ((bW).slice (Rect.unit (s := S50000) ![48608] S1392.size inb_S50000_S1392_48608) (fun _ => rfl)).view (m (bLoc d)))) []
    (Idealize.ShloMosaic.ValueIdx.ix1 ⟨(j 0).val, hj⟩)
  rw [hjx] at h
  simp only [Memref.view_whole, View.read_whole] at h
  rw [h]
  exact (View.read_apply _ _).trans ((cast_eq _ _).trans (congrArg (m (bLoc d)) he))

theorem tile_body_B (hpre : PreOK m) (q : PosShare TreeShare) (O : CellTallies nD τ sig (HIx 1)) (W : Waits sig (HIx 1))
    (fs : Buf (Elt F) ((thrV d L).loc cc0_scratch0)) (fc : Buf (Elt F) ((thrV d L).loc cc0_scratch1)) (fo : Buf (Elt F) (cLoc d))
    (k0_h1 : ¬ k0_cond1 L = 1#1) :
    tilePre m d L q O W fs fc fo
      ⊢ wp frame (wpE (defs₀ (F := F)) 𝒱₀ (thrV d L) none) Set.univ
          (cc0__sc_counts L bW (Memref.isWhole_whole _) cW (Memref.isWhole_whole _) s0W (Memref.isWhole_whole _) s1W (Memref.isWhole_whole _) cc0_scoped0 cc0_scoped1 cc0_scoped2)
          fun _ => tilePost m d L q O W := by
  have hw : wid L = 31 := by by_contra h; exact k0_h1 ((cond1_iff L).mpr h)
  have k0_h2 : (Scalar.cmpi .ne (Scalar.extui (Scalar.cmpi .eq (Scalar.addi (Scalar.muli (BitVec.ofNat 32 (L 0).val) 16#32) (BitVec.ofNat 32 (L 1).val)) 31#32)) 0#32 = 1#1) :=
    (cond2_iff L).mpr hw
  have ht : (k0_t1_loop L).trips = 87 := by rw [trips_eq L, if_pos hw]
  simp only [cc0__sc_counts_eq_skeleton]; unfold cc0__sc_counts_skel
  unfold tilePre
  iintro ⟨Hmw, Hb, Hs0, Hs1, Hc, Hsem0, Hsem1, Hsem2, HO⟩
  sl_exec
  have hheld : ChunkHeld m d L ((s0W).view.writes (Elt F) fs [⟨Rect.unit (s := S1568) ![0] S1392.size inb_S1568_S1392_0, tile_body_B.sl.dma0 m d⟩]) := by
    intro j i hj hi
    rw [ht] at hj; rw [hw] at hi
    unfold tile_body_B.sl.dma0
    exact chunk_read_B (F := F) m d L fs j (by omega) i (by omega)
  have hs64 : ∀ j : S1568.Idx, (j 0).val < 16 * (k0_t1_loop L).trips →
      ((s0W).view.writes (Elt F) fs [⟨Rect.unit (s := S1568) ![0] S1392.size inb_S1568_S1392_0, tile_body_B.sl.dma0 m d⟩] j).toNat < 64 := by
    intro j hj
    have hb : 1568 * wid L + (j 0).val < 50000 := by rw [ht] at hj; rw [hw]; omega
    rw [hheld j (Idealize.ShloMosaic.ValueIdx.ix1 ⟨1568 * wid L + (j 0).val, hb⟩) hj rfl]
    exact hpre d _
  sl_for (inv (F := F) d L ((s0W).view.writes (Elt F) fs [⟨Rect.unit (s := S1568) ![0] S1392.size inb_S1568_S1392_0, tile_body_B.sl.dma0 m d⟩])) $$ [Hs0 Hs1]
  case region =>
    intro k _
    unfold inv
    iintro ⟨Hs0, %g, %hg, Hs1⟩
    sl_exec
    have hchk : k0_chk1 (vecAt (F := F) d L ((s0W).view.writes (Elt F) fs [⟨Rect.unit (s := S1568) ![0] S1392.size inb_S1568_S1392_0, tile_body_B.sl.dma0 m d⟩]) k) :=
      chk_of_lt64 (F := F) d L _ hs64 k
    unfold tile_body_B.sl.v24
    rw [wp_assume_of _ _ _ _ hchk]
    ihave Hs1' := (Entails.of_eq (pts_s1_access (F := F) d L g).symm) $$ Hs1
    iapply (SparseCore.wp_vectorStoreIdx 𝒱₀ (thrV d L) none Set.univ (base := (s1W))) $$ Hs1'
    iintro Hs1'
    rw [Prog.pure_eq_ret, wp_ret]; imodintro
    isplitl [Hs0]; · iexact Hs0
    iexists (stepG (F := F) d L _ g k hchk)
    isplitr
    · ipureintro; exact ⟨k.isLt, g, hchk, hg, rfl⟩
    · iapply (Entails.of_eq (pts_s1_access (F := F) d L _)); iexact Hs1'
  · unfold inv
    isplitl [Hs0]; · iexact Hs0
    iexists ((s1W).view.writes (Elt F) (s1W).view.junk (tile_body_B.sl.Hs1_4 (F := F))); isplitr
    · ipureintro; show ∀ j, _ = _; unfold tile_body_B.sl.Hs1_4; exact cleared (F := F) d L _
    · iexact Hs1
  iintro %_ HI
  unfold inv
  icases HI with ⟨Hs0, %g, %hg, Hs1⟩
  sl_exec
  sl_for (inv2 (F := F) d L ((s0W).view.writes (Elt F) fs [⟨Rect.unit (s := S1568) ![0] S1392.size inb_S1568_S1392_0, tile_body_B.sl.dma0 m d⟩])) $$ [Hs0 Hs1]
  case region =>
    intro k _
    exact absurd (show k.val < (k0_t2_loop L).trips from k.isLt) (by rw [trips2_eq L]; exact Nat.not_lt_zero _)
  · unfold inv2 inv
    isplitl [Hs0]; · iexact Hs0
    iexists g; isplitr
    · ipureintro; exact hg
    · iexact Hs1
  iintro %_ HI
  unfold inv2 inv
  icases HI with ⟨Hs0, %g', %hg', Hs1⟩
  sl_exec
  rw [wp_ret]; imodintro
  unfold tilePost
  isplitl [Hb]; · iexact Hb
  isplitl [Hs0]; · iexists _; iexact Hs0
  isplitl [Hs1]; · iexists _; iexact Hs1
  isplitl [Hc]
  · iexists _; isplitr
    swap; · iexact Hc
    ipureintro
    refine ⟨_, g', hheld, hg', fun j => ?_⟩
    have h := View.read_writes_cons_emb (v := (cSl L).view) (Val := Elt F) (f := fo) (Rect.whole S64) (tile_body_B.sl.dma0_1 (F := F) d L g') [] j
    rw [View.read_apply, Rect.emb_whole_apply] at h
    unfold tile_body_B.sl.dma0_1 at h ⊢
    exact (cast_eq _ _).symm.trans (h.trans rfl)
  isplitl [Hsem0]; · iexact Hsem0
  isplitl [Hsem1]; · iexact Hsem1
  isplitl [Hsem2]; · iexact Hsem2
  iexists _; isplitr
  swap; · iexact HO
  ipureintro; intro p hp
  rcases Finset.mem_insert.mp hp with rfl | hp
  · exact .inr rfl
  rcases Finset.mem_insert.mp hp with rfl | hp
  · exact .inr rfl
  · exact .inl hp

end Tile
end Cert.Proof.Kernel
end
-- ==== Proof.Kernel.TileObl.lean ====
/-
  The counting kernel's part of the launch: what the one SparseCore call hands each tile and takes back (a read share of
  the segment ids and the tile's sixty-four words of the counts array, back with the counts written), the tile's task from
  the launch's own spelling of it, and the call's split of a SparseCore's operands among its sixteen tiles.
-/
import proofs.«211348_g14766097563893_cont_week2b_353_46_alg».proof.Proof.Kernel.TileA
import proofs.«211348_g14766097563893_cont_week2b_353_46_alg».proof.Proof.Kernel.TileB

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

variable [FloatOps F]

/-- A tile's coordinates from its SparseCore and its place in it. -/
def coordsV (c : Fin (grid0.bound 0)) (s : Fin (grid0.bound 1)) : grid0.Coords :=
  fun | 0 => c | 1 => s | ⟨_ + 2, h⟩ => absurd h (Nat.not_lt.2 (Nat.le_add_left _ _))

/-- A tile's read share of the segment ids: its SparseCore's share of the whole, split again among the sixteen tiles. -/
abbrev tokOf (L : grid0.Coords) : PosShare TreeShare := Transfers.shareTokN (Transfers.shareTokN fullShare (L 0).val) (L 1).val

/-- What the call hands a tile: a read share of the segment ids, and its words of the counts array at any contents. -/
def goOf (d : Dev nD) (L : grid0.Coords) : sProp 𝕄 :=
  iprop((bLoc d ↦{tokOf L} m (bLoc d)) ∗ ∃ f : Buf (Elt F) (cLoc d), cLoc d ↦[(cSl L).view.set]{fullShare} f)
/-- What the tile hands back: the share, and its words at the chunk's counts. -/
def tdOf (d : Dev nD) (L : grid0.Coords) : sProp 𝕄 :=
  iprop((bLoc d ↦{tokOf L} m (bLoc d)) ∗ ∃ f : Buf (Elt F) (cLoc d), ⌜TileDone m d L f⌝ ∗ cLoc d ↦[(cSl L).view.set]{fullShare} f)

/-- What is left of a SparseCore's share once its sixteen tiles have theirs. -/
def restOf (d : Dev nD) (c : ℕ) : sProp 𝕄 := bLoc d ↦{Transfers.shareDrop (Transfers.shareTokN fullShare c) 16} m (bLoc d)

/-- The one call: each SparseCore takes its sixteen tiles' parts and brings them back. -/
def P : (K (F := F)).Pay (nD := nD) (Val := Elt F) (Name := ℕ) (U := UU) where
  st := fun q d c => match q with
    | 0 => iprop(restOf m d c.val ∗ bigSep Finset.univ fun i : Fin ((K (F := F)).nSub 0) => goOf m d (coordsV (Fin.cast nCore_zero c) (Fin.cast nSub_zero i)))
  dn := fun q d c => match q with
    | 0 => iprop(restOf m d c.val ∗ bigSep Finset.univ fun i : Fin ((K (F := F)).nSub 0) => tdOf m d (coordsV (Fin.cast nCore_zero c) (Fin.cast nSub_zero i)))
  go := fun q d c i => match q with
    | 0 => goOf m d (coordsV (Fin.cast nCore_zero c) (Fin.cast nSub_zero i))
  td := fun q d c i => match q with
    | 0 => tdOf m d (coordsV (Fin.cast nCore_zero c) (Fin.cast nSub_zero i))
  x := fun _ _ => iprop(emp)

instance restOf_storable (d : Dev nD) (c : ℕ) : BI.Storable (upEmb : UEmb _ 𝕄) (restOf m d c) := by unfold restOf; infer_instance
instance goOf_storable (d : Dev nD) (L : grid0.Coords) : BI.Storable (upEmb : UEmb _ 𝕄) (goOf m d L) := by unfold goOf; infer_instance
instance tdOf_storable (d : Dev nD) (L : grid0.Coords) : BI.Storable (upEmb : UEmb _ 𝕄) (tdOf m d L) := by unfold tdOf; infer_instance

instance P_storable : (P (F := F) m).IsStorable where
  st q d c := match q with | 0 => (inferInstance : BI.Storable (upEmb : UEmb _ 𝕄) iprop(restOf m d c.val ∗ bigSep Finset.univ fun i : Fin ((K (F := F)).nSub 0) => goOf m d (coordsV (Fin.cast nCore_zero c) (Fin.cast nSub_zero i))))
  dn q d c := match q with | 0 => (inferInstance : BI.Storable (upEmb : UEmb _ 𝕄) iprop(restOf m d c.val ∗ bigSep Finset.univ fun i : Fin ((K (F := F)).nSub 0) => tdOf m d (coordsV (Fin.cast nCore_zero c) (Fin.cast nSub_zero i))))
  go q d c i := match q with | 0 => (inferInstance : BI.Storable (upEmb : UEmb _ 𝕄) (goOf m d (coordsV (Fin.cast nCore_zero c) (Fin.cast nSub_zero i))))
  td q d c i := match q with | 0 => (inferInstance : BI.Storable (upEmb : UEmb _ 𝕄) (tdOf m d (coordsV (Fin.cast nCore_zero c) (Fin.cast nSub_zero i))))

variable [FloatOps F]

section Tile
variable (d : Dev nD) (L : grid0.Coords)

abbrev c0cell (d : Dev nD) (L : grid0.Coords) : GSem nD τ sig := (thrV d L, .dma cc0_scoped0.sem)
abbrev c1cell (d : Dev nD) (L : grid0.Coords) : GSem nD τ sig := (thrV d L, .dma cc0_scoped1.sem)
abbrev c2cell (d : Dev nD) (L : grid0.Coords) : GSem nD τ sig := (thrV d L, .dma cc0_scoped2.sem)

omit [FloatOps F] in
theorem ownSems0_V :
    (ownSems0 (thrV d L) : sProp 𝕄)
      = iprop(semVal (c0cell d L) 0 ∗ semVal (c1cell d L) 0 ∗ semVal (c2cell d L) 0
          ∗ bigSep ((((ownCells (thrV d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

omit [FloatOps F] in
/-- The two scratch buffers are among the tile's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The tile's task from what the launch deals a tile: the scoped storage opened into the two buffers and the three
    semaphores, the waits admissible under what the tile owes the launch, the task run, the storage closed again. -/
theorem tile_task (hF : (K (F := F)).Facts) (hpre : PreOK m) (O : CellTallies nD τ sig (HIx 1)) (W : Waits sig (HIx 1)) (hO : ∀ g, O g none = 0) :
    iprop(levAts (K (F := F)).L (K (F := F)).lev ∗ emp ∗ goOf m d L
        ∗ scopedBufs (thrV d L) ∗ scopedSems0 (thrV d L) ∗ owes (thrV d L) O W)
      ⊢ wp frame (wpE (defs₀ (F := F)) 𝒱₀ (thrV d L) none) Set.univ
          (cc0__sc_counts L bW (Memref.isWhole_whole _) cW (Memref.isWhole_whole _) s0W (Memref.isWhole_whole _) s1W (Memref.isWhole_whole _) cc0_scoped0 cc0_scoped1 cc0_scoped2)
          fun _ => iprop(tdOf m d L ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), ownSems0_V, ownBufs_V]
  unfold goOf
  iintro ⟨#Hlv, -, ⟨Hb, %fo, Hc⟩, ⟨⟨%fs, Hs0⟩, ⟨%fc, Hs1⟩, Hbufs⟩, ⟨Hsem0, Hsem1, Hsem2, Hsems⟩, HO⟩
  ihave Hmw := ((K (F := F)).mayWaits_none (thr := thrV d L) hO) $$ Hlv
  iapply (wp_wand_r frame _ Set.univ)
  isplitl [Hmw Hb Hc Hs0 Hs1 Hsem0 Hsem1 Hsem2 HO]
  · by_cases h1 : k0_cond1 L = 1#1
    · iapply (tile_body_A (F := F) m d L hpre (tokOf L) O W fs fc fo h1)
      unfold tilePre
      isplitl [Hmw]; · iexact Hmw
      isplitl [Hb]; · iexact Hb
      isplitl [Hs0]; · iexact Hs0
      isplitl [Hs1]; · iexact Hs1
      isplitl [Hc]; · iexact Hc
      isplitl [Hsem0]; · iexact Hsem0
      isplitl [Hsem1]; · iexact Hsem1
      isplitl [Hsem2]; · iexact Hsem2
      iexact HO
    · iapply (tile_body_B (F := F) m d L hpre (tokOf L) O W fs fc fo h1)
      unfold tilePre
      isplitl [Hmw]; · iexact Hmw
      isplitl [Hb]; · iexact Hb
      isplitl [Hs0]; · iexact Hs0
      isplitl [Hs1]; · iexact Hs1
      isplitl [Hc]; · iexact Hc
      isplitl [Hsem0]; · iexact Hsem0
      isplitl [Hsem1]; · iexact Hsem1
      isplitl [Hsem2]; · iexact Hsem2
      iexact HO
  iintro %_ Hpost
  unfold tilePost tdOf
  icases Hpost with ⟨Hb, ⟨%fs', Hs0⟩, ⟨%fc', Hs1⟩, ⟨%fo', %hdone, Hc⟩, Hsem0, Hsem1, Hsem2, HW⟩
  isplitl [Hb Hc]
  · isplitl [Hb]; · iexact Hb
    iexists fo'; isplitr
    · ipureintro; exact hdone
    · iexact Hc
  isplitl [Hs0 Hs1 Hbufs]
  · isplitl [Hs0]; · iexists _; iexact Hs0
    isplitl [Hs1]; · iexists _; iexact Hs1
    iexact Hbufs
  isplitl [Hsem0 Hsem1 Hsem2 Hsems]
  · isplitl [Hsem0]; · iexact Hsem0
    isplitl [Hsem1]; · iexact Hsem1
    isplitl [Hsem2]; · iexact Hsem2
    iexact Hsems
  iexact HW

end Tile

theorem defs₀_vector (c : Fin τ.nSC) (s : Fin τ.nSub) :
    defs₀ (F := F) (.scVector c s) 0 ()
      = SparseCore.onTile hcore0 hsub0 (fun c s => cc0__sc_counts (coordsV c s)
          bW (Memref.isWhole_whole _) cW (Memref.isWhole_whole _) s0W (Memref.isWhole_whole _) s1W (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the counting kernel as a tile's task. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF hpre O W hO).trans (wp_mono frame _ _ fun _ => obl_post)

/-- The call's operands for a SparseCore are its sixteen tiles' parts, and its results theirs. -/
theorem vecSplit : (K (F := F)).VecSplit' (P m) 0 := by
  intro d c
  show iprop(restOf m d c.val ∗ bigSep Finset.univ fun i : Fin ((K (F := F)).nSub 0) => goOf m d (coordsV (Fin.cast nCore_zero c) (Fin.cast nSub_zero i)))
    ⊢ |={Set.univ}=> iprop((bigSep Finset.univ fun i : Fin ((K (F := F)).nSub 0) => goOf m d (coordsV (Fin.cast nCore_zero c) (Fin.cast nSub_zero i)))
      ∗ ((bigSep Finset.univ fun i : Fin ((K (F := F)).nSub 0) => tdOf m d (coordsV (Fin.cast nCore_zero c) (Fin.cast nSub_zero i)))
        -∗ iprop(restOf m d c.val ∗ bigSep Finset.univ fun i : Fin ((K (F := F)).nSub 0) => tdOf m d (coordsV (Fin.cast nCore_zero c) (Fin.cast nSub_zero i)))))
  iintro ⟨Hr, H⟩; imodintro
  isplitl [H]; · iexact H
  iintro H
  isplitl [Hr]; · iexact Hr
  iexact H

end Cert.Proof.Kernel
end
-- ==== Proof.Kernel.LaunchSplit.lean ====
/-
  How the one SparseCore call's operands are cut out of the TensorCore's arrays and put back: the segment ids go out as
  read shares (one per SparseCore, each split again among its sixteen tiles), the counts array as its thirty-two runs of
  sixty-four words, which tile it; what comes back is the counts array whole, each run as its tile left it.
-/
import proofs.«211348_g14766097563893_cont_week2b_353_46_alg».proof.Proof.Kernel.TileObl

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

variable [FloatOps F]

variable [FloatOps F]

/-- The counts array once every tile has written its run. -/
def CountsDone (d : Dev nD) (g : Buf (Elt F) (cLoc d)) : Prop := ∀ L : grid0.Coords, TileDone m d L g

/-- A tile's run of the counts array. -/
abbrev cSet (L : grid0.Coords) : Finset S2048.Idx := (cSl L).view.set

omit [FloatOps F] in
theorem mem_cSet (L : grid0.Coords) (i : S2048.Idx) : i ∈ cSet L ↔ 64 * wid L ≤ (i 0).val ∧ (i 0).val < 64 * wid L + 64 := by
  show i ∈ ((View.whole (main_v0_scv : Ref sig .scVector)).slice (Rect.unit (s := S2048) (k0_off4 L) S64.size (k0_off4_inb L))).set ↔ _
  rw [View.set_slice_whole, Rect.mem_set_unit]
  constructor
  · intro h; have := h 0; rw [k0_off4_eq] at this; simp only [Matrix.cons_val_zero, wid] at this ⊢
    have e : S64.size 0 = 64 := rfl
    omega
  · intro h a; have ha : a = (0 : Fin 1) := Subsingleton.elim (α := Fin 1) a 0
    subst ha
    rw [k0_off4_eq]; simp only [Matrix.cons_val_zero, wid] at h ⊢
    have e : S64.size 0 = 64 := rfl
    omega

omit [FloatOps F] in
theorem coords_ext {L L' : grid0.Coords} (h : wid L = wid L') : L = L' := by
  have h0 : (L 0).val < 2 := (L 0).isLt; have h1 : (L 1).val < 16 := (L 1).isLt
  have h0' : (L' 0).val < 2 := (L' 0).isLt; have h1' : (L' 1).val < 16 := (L' 1).isLt
  unfold wid at h
  funext a
  match a with
  | ⟨0, _⟩ => exact Fin.ext (by show (L 0).val = (L' 0).val; omega)
  | ⟨1, _⟩ => exact Fin.ext (by show (L 1).val = (L' 1).val; omega)

omit [FloatOps F] in
theorem cSet_disjoint {L L' : grid0.Coords} (h : L ≠ L') : Disjoint (cSet L) (cSet L') := by
  rw [Finset.disjoint_left]; intro i hi hi'
  rw [mem_cSet] at hi hi'
  exact h (coords_ext (by omega))

/-- The pairs (SparseCore, tile) as coordinates. -/
abbrev Lof (ci : Fin (grid0.bound 0) × Fin (grid0.bound 1)) : grid0.Coords := coordsV ci.1 ci.2

omit [FloatOps F] in
theorem Lof_inj : Function.Injective Lof := by
  rintro ⟨c, i⟩ ⟨c', i'⟩ e
  have h0 := congrFun e 0; have h1 := congrFun e 1
  exact Prod.ext h0 h1

omit [FloatOps F] in
theorem cSet_cover : (Finset.univ : Finset (Fin (grid0.bound 0) × Fin (grid0.bound 1))).biUnion (fun ci => cSet (Lof ci)) = Finset.univ := by
  ext i; simp only [Finset.mem_biUnion, Finset.mem_univ, true_and, iff_true]
  have hi : (i 0).val < 2048 := (i 0).isLt
  refine ⟨(⟨(i 0).val / 1024, by show _ < 2; omega⟩, ⟨(i 0).val % 1024 / 64, by show _ < 16; omega⟩), ?_⟩
  rw [mem_cSet]
  show 64 * (16 * ((i 0).val / 1024) + (i 0).val % 1024 / 64) ≤ (i 0).val ∧ (i 0).val < 64 * (16 * ((i 0).val / 1024) + (i 0).val % 1024 / 64) + 64
  omega

omit [FloatOps F] in
theorem cPts_split (d : Dev nD) (f : Buf (Elt F) (cLoc d)) :
    (cLoc d ↦{fullShare} f : sProp 𝕄)
      = bigSep Finset.univ fun c : Fin (grid0.bound 0) => bigSep Finset.univ fun i : Fin (grid0.bound 1) => cLoc d ↦[cSet (coordsV c i)]{fullShare} f := by
  rw [← bigSep_univ_prod (fun ci : Fin (grid0.bound 0) × Fin (grid0.bound 1) => (cLoc d ↦[cSet (Lof ci)]{fullShare} f : sProp 𝕄)),
    ← pointsTo_biUnion Finset.univ (ℓ := cLoc d) (fun ci => cSet (Lof ci)) (fun ci _ ci' _ h => cSet_disjoint fun e => h (Lof_inj e)), cSet_cover]

/-- One SparseCore's operands from its share of the segment ids and its sixteen runs of the counts array. -/
theorem core_intro (d : Dev nD) (f : Buf (Elt F) (cLoc d)) (c : Fin (grid0.bound 0)) :
    iprop((bLoc d ↦{Transfers.shareTok fullShare 2 c} m (bLoc d))
        ∗ bigSep Finset.univ fun i : Fin (grid0.bound 1) => cLoc d ↦[cSet (coordsV c i)]{fullShare} f)
      ⊢ (iprop(restOf m d c.val ∗ bigSep Finset.univ fun i : Fin (grid0.bound 1) => goOf m d (coordsV c i)) : sProp 𝕄) := by
  iintro ⟨HA, HB⟩
  ihave H := (Transfers.pointsTo_toks_split (ℓ := bLoc d) (S := Finset.univ) (f := m (bLoc d)) (Transfers.shareTokN fullShare c.val) 16) $$ HA
  icases H with ⟨Hr, Ht⟩
  isplitl [Hr]; · unfold restOf; iexact Hr
  ihave H2 := (Entails.of_eq (bigSep_sep' (Finset.univ : Finset (Fin (grid0.bound 1)))
    (fun i => (bLoc d ↦{tokOf (coordsV c i)} m (bLoc d) : sProp 𝕄)) (fun i => (cLoc d ↦[cSet (coordsV c i)]{fullShare} f : sProp 𝕄))).symm) $$ [Ht HB]
  · isplitl [Ht]; · iexact Ht
    iexact HB
  have hm : (bigSep (Finset.univ : Finset (Fin (grid0.bound 1))) fun i => iprop((bLoc d ↦{tokOf (coordsV c i)} m (bLoc d)) ∗ (cLoc d ↦[cSet (coordsV c i)]{fullShare} f)) : sProp 𝕄)
      ⊢ bigSep Finset.univ fun i : Fin (grid0.bound 1) => goOf m d (coordsV c i) :=
    bigSep_mono fun i _ => show (iprop((bLoc d ↦{tokOf (coordsV c i)} m (bLoc d)) ∗ (cLoc d ↦[cSet (coordsV c i)]{fullShare} f)) : sProp 𝕄) ⊢ goOf m d (coordsV c i) from by
      unfold goOf
      iintro ⟨H1, H2⟩
      isplitl [H1]; · iexact H1
      iexists f; iexact H2
  iapply hm; iexact H2

/-- The call's operands out of the TensorCore's arrays: what is left is the share no SparseCore took. -/
theorem st_intro (d : Dev nD) (f : Buf (Elt F) (cLoc d)) :
    iprop((bLoc d ↦{fullShare} m (bLoc d)) ∗ cLoc d ↦{fullShare} f)
      ⊢ iprop((bLoc d ↦{Transfers.shareDrop fullShare 2} m (bLoc d)) ∗ bigSep Finset.univ fun c : Fin ((K (F := F)).nCore 0) => (P m).st 0 d c) := by
  show _ ⊢ iprop(_ ∗ bigSep Finset.univ fun c : Fin (grid0.bound 0) =>
    iprop(restOf m d c.val ∗ bigSep Finset.univ fun i : Fin (grid0.bound 1) => goOf m d (coordsV c i)))
  rw [cPts_split]
  iintro ⟨Hb, Hc⟩
  ihave H := (Transfers.pointsTo_toks_split (ℓ := bLoc d) (S := Finset.univ) (f := m (bLoc d)) fullShare 2) $$ Hb
  icases H with ⟨Hd, Ht⟩
  isplitl [Hd]; · iexact Hd
  ihave H2 := (Entails.of_eq (bigSep_sep' (Finset.univ : Finset (Fin (grid0.bound 0)))
    (fun c => (bLoc d ↦{Transfers.shareTok fullShare 2 c} m (bLoc d) : sProp 𝕄))
    (fun c => bigSep Finset.univ fun i : Fin (grid0.bound 1) => (cLoc d ↦[cSet (coordsV c i)]{fullShare} f : sProp 𝕄))).symm) $$ [Ht Hc]
  · isplitl [Ht]; · iexact Ht
    iexact Hc
  have hm : (bigSep (Finset.univ : Finset (Fin (grid0.bound 0))) fun c => iprop((bLoc d ↦{Transfers.shareTok fullShare 2 c} m (bLoc d))
        ∗ bigSep Finset.univ fun i : Fin (grid0.bound 1) => (cLoc d ↦[cSet (coordsV c i)]{fullShare} f : sProp 𝕄)) : sProp 𝕄)
      ⊢ bigSep Finset.univ fun c : Fin (grid0.bound 0) => iprop(restOf m d c.val ∗ bigSep Finset.univ fun i : Fin (grid0.bound 1) => goOf m d (coordsV c i)) :=
    bigSep_mono fun c _ => core_intro m d f c
  iapply hm; iexact H2

/-- What a tile wrote is what the joined array holds on the tile's run. -/
theorem tileDone_congr (d : Dev nD) (L : grid0.Coords) {f g : Buf (Elt F) (cLoc d)} (h : TileDone m d L f) (hfg : ∀ i ∈ cSet L, g i = f i) : TileDone m d L g := by
  obtain ⟨s, gg, h1, h2, h3⟩ := h
  exact ⟨s, gg, h1, h2, fun j => (hfg _ ((cSl L).view.emb_mem_set j)).trans (h3 j)⟩

/-- One SparseCore's results: its share of the segment ids back, and its sixteen runs, each as its tile left it. -/
theorem core_elim (d : Dev nD) (c : Fin (grid0.bound 0)) :
    (iprop(restOf m d c.val ∗ bigSep Finset.univ fun i : Fin (grid0.bound 1) => tdOf m d (coordsV c i)) : sProp 𝕄)
      ⊢ iprop((bLoc d ↦{Transfers.shareTok fullShare 2 c} m (bLoc d))
        ∗ bigSep Finset.univ fun i : Fin (grid0.bound 1) => iprop(∃ f : Buf (Elt F) (cLoc d), ⌜TileDone m d (coordsV c i) f⌝ ∗ cLoc d ↦[cSet (coordsV c i)]{fullShare} f)) := by
  unfold tdOf restOf
  rw [bigSep_sep']
  iintro ⟨Hr, Ht, Hc⟩
  isplitl [Hr Ht]
  · iapply (Transfers.pointsTo_toks_join (ℓ := bLoc d) (S := Finset.univ) (f := m (bLoc d)) (Transfers.shareTokN fullShare c.val) 16)
    isplitl [Hr]; · iexact Hr
    iexact Ht
  iexact Hc

/-- The call's results back into the TensorCore's arrays: the segment ids whole, the counts array whole at every tile's counts. -/
theorem dn_elim' (d : Dev nD) :
    (iprop((bLoc d ↦{Transfers.shareDrop fullShare 2} m (bLoc d)) ∗ bigSep Finset.univ fun c : Fin (grid0.bound 0) =>
        iprop(restOf m d c.val ∗ bigSep Finset.univ fun i : Fin (grid0.bound 1) => tdOf m d (coordsV c i))) : sProp 𝕄)
      ⊢ iprop((bLoc d ↦{fullShare} m (bLoc d)) ∗ ∃ g : Buf (Elt F) (cLoc d), ⌜CountsDone m d g⌝ ∗ cLoc d ↦{fullShare} g) := by
  iintro ⟨Hd, H⟩
  have hm : (bigSep (Finset.univ : Finset (Fin (grid0.bound 0))) fun c => iprop(restOf m d c.val ∗ bigSep Finset.univ fun i : Fin (grid0.bound 1) => tdOf m d (coordsV c i)) : sProp 𝕄)
      ⊢ bigSep Finset.univ fun c : Fin (grid0.bound 0) => iprop((bLoc d ↦{Transfers.shareTok fullShare 2 c} m (bLoc d))
        ∗ bigSep Finset.univ fun i : Fin (grid0.bound 1) => iprop(∃ f : Buf (Elt F) (cLoc d), ⌜TileDone m d (coordsV c i) f⌝ ∗ cLoc d ↦[cSet (coordsV c i)]{fullShare} f)) :=
    bigSep_mono fun c _ => core_elim m d c
  ihave H1 := hm $$ H
  ihave H2 := (Entails.of_eq (bigSep_sep' (Finset.univ : Finset (Fin (grid0.bound 0)))
    (fun c => (bLoc d ↦{Transfers.shareTok fullShare 2 c} m (bLoc d) : sProp 𝕄))
    (fun c => bigSep Finset.univ fun i : Fin (grid0.bound 1) => iprop(∃ f : Buf (Elt F) (cLoc d), ⌜TileDone m d (coordsV c i) f⌝ ∗ cLoc d ↦[cSet (coordsV c i)]{fullShare} f)))) $$ H1
  icases H2 with ⟨Ht, Hc⟩
  isplitl [Hd Ht]
  · iapply (Transfers.pointsTo_toks_join (ℓ := bLoc d) (S := Finset.univ) (f := m (bLoc d)) fullShare 2)
    isplitl [Hd]; · iexact Hd
    iexact Ht
  ihave Hc2 := (Entails.of_eq (bigSep_univ_prod (fun ci : Fin (grid0.bound 0) × Fin (grid0.bound 1) =>
    iprop(∃ f : Buf (Elt F) (cLoc d), ⌜TileDone m d (Lof ci) f⌝ ∗ cLoc d ↦[cSet (Lof ci)]{fullShare} f))).symm) $$ Hc
  ihave Hc3 := (bigSep_exists_pi Finset.univ (fun (ci : Fin (grid0.bound 0) × Fin (grid0.bound 1)) (f : Buf (Elt F) (cLoc d)) =>
    iprop(⌜TileDone m d (Lof ci) f⌝ ∗ cLoc d ↦[cSet (Lof ci)]{fullShare} f))) $$ Hc2
  icases Hc3 with ⟨%fs, Hc3⟩
  ihave Hc4 := (bigSep_pure_sep Finset.univ (fun ci : Fin (grid0.bound 0) × Fin (grid0.bound 1) => TileDone m d (Lof ci) (fs ci))
    (fun ci => (cLoc d ↦[cSet (Lof ci)]{fullShare} fs ci : sProp 𝕄))) $$ Hc3
  icases Hc4 with ⟨%hdone, Hc4⟩
  ihave Hc5 := (pointsTo_biUnion_join Finset.univ (fun ci : Fin (grid0.bound 0) × Fin (grid0.bound 1) => cSet (Lof ci)) fs (fs (⟨0, by decide⟩, ⟨0, by decide⟩))
    (fun ci _ ci' _ h => cSet_disjoint fun e => h (Lof_inj e))) $$ Hc4
  icases Hc5 with ⟨%g, %hg, Hg⟩
  rw [cSet_cover]
  iexists g; isplitr
  · ipureintro
    intro L
    have hL : Lof (L 0, L 1) = L := by
      funext a; match a with | ⟨0, _⟩ => rfl | ⟨1, _⟩ => rfl
    rw [← hL]
    exact tileDone_congr m d _ (hdone (L 0, L 1) (Finset.mem_univ _)) (hg (L 0, L 1) (Finset.mem_univ _))
  · iexact Hg

theorem dn_elim (d : Dev nD) :
    iprop((bLoc d ↦{Transfers.shareDrop fullShare 2} m (bLoc d)) ∗ bigSep Finset.univ fun c : Fin ((K (F := F)).nCore 0) => (P m).dn 0 d c)
      ⊢ iprop((bLoc d ↦{fullShare} m (bLoc d)) ∗ ∃ g : Buf (Elt F) (cLoc d), ⌜CountsDone m d g⌝ ∗ cLoc d ↦{fullShare} g) :=
  dn_elim' m d

end Cert.Proof.Kernel
end
-- ==== Proof.Kernel.LaunchVals.lean ====
/-
  The TensorCore's buffer contents at each boundary of @main, as a fold from the launch memory: after the SparseCore
  call (the counts array written), after the accumulating pipeline (its arrays at what it leaves), after the reshape of the
  bias, after the combining pipeline, after the transpose.
-/
import proofs.«211348_g14766097563893_cont_week2b_353_46_alg».proof.Proof.Kernel.LaunchSplit
import Idealize.ShloMosaic.Lib.Pipeline.FrameSuffix

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

variable [FloatOps F]

open Idealize.ShloMosaic.StableHlo (held held_split held_sdiff_result wp_hlo_within held_sub_split held_congr)
open Idealize.ShloMosaic.TcCoe

variable [FloatOps F]

/-- The segment ids and the counts array, as the TensorCore's references. -/
abbrev b' : DevRef τ sig := Proc.devRef .tc (main_arg2 : Ref sig .tc)
abbrev c' : DevRef τ sig := Proc.devRef .tc (main_v0 : Ref sig .tc)
abbrev S2 : Finset (DevRef τ sig) := {b', c'}

omit [FloatOps F] in
theorem S2_sub : S2 ⊆ Pipeline.ucRefs τ sig := by decide

/-- The reshape of the bias and the final transpose, as host operations. -/
abbrev opR : HloOp τ sig (Elt F) := StableHlo.reshape main_arg4 main_v2 rfl shapeCasts_S2_S2x1
abbrev opT : HloOp τ sig (Elt F) :=
  StableHlo.unary main_v3 main_v4 ((transpose S64x2 [1, 0] · transposes_S2x64_S64x2_1_0) : (⟨S2x64, .f32⟩ : BufTy).Contents (Elt F) → (⟨S64x2, .f32⟩ : BufTy).Contents (Elt F))

theorem opR_sub : (opR (F := F)).bufs ⊆ Pipeline.ucRefs τ sig :=
  show ({Proc.devRef .tc (main_arg4 : Ref sig .tc), Proc.devRef .tc (main_v2 : Ref sig .tc)} : Finset (DevRef τ sig)) ⊆ Pipeline.ucRefs τ sig by decide
theorem opT_sub : (opT (F := F)).bufs ⊆ Pipeline.ucRefs τ sig :=
  show ({Proc.devRef .tc (main_v3 : Ref sig .tc), Proc.devRef .tc (main_v4 : Ref sig .tc)} : Finset (DevRef τ sig)) ⊆ Pipeline.ucRefs τ sig by decide

section Vals
variable (d : Dev nD) (g : Buf (Elt F) (cLoc d))
  (Fs1 : (w : Fin cfg1.W) → Buf (Elt F) ((cfg1.win w).arr.view.loc (d.tc : Thread nD τ)))
  (Fs2 : (w : Fin cfg2.W) → Buf (Elt F) ((cfg2.win w).arr.view.loc (d.tc : Thread nD τ)))

/-- The launch contents. -/
abbrev W0 : Valuation τ sig (Elt F) := fun b => m (d, b)
/-- Once the SparseCore call has written the counts. -/
def W1 : Valuation τ sig (Elt F) := Function.update (W0 m d) c' g
/-- Once the accumulating pipeline has left its arrays at `Fs1`. -/
def W2 : Valuation τ sig (Elt F) := Pipeline.withArrays spec1 d (W1 m d g) Fs1
/-- Once the bias is reshaped. -/
def W3 : Valuation τ sig (Elt F) := (opR (F := F)).result (W2 m d g Fs1)
/-- Once the combining pipeline has left its arrays at `Fs2`. -/
def W4 : Valuation τ sig (Elt F) := Pipeline.withArrays spec2 d (W3 m d g Fs1) Fs2
/-- At the return. -/
def W5 : Valuation τ sig (Elt F) := (opT (F := F)).result (W4 m d g Fs1 Fs2)

/-- The same read at the TensorCore's references, on any core (the mesh has one). -/
abbrev V1 : (c : Dev nD) → (b : Ref sig .tc) → Buf (Elt F) ((c : Thread nD τ).loc b) := fun _ b => W1 m d g b
abbrev V3 : (c : Dev nD) → (b : Ref sig .tc) → Buf (Elt F) ((c : Thread nD τ).loc b) := fun _ b => W3 m d g Fs1 b

end Vals

end Cert.Proof.Kernel
end
-- ==== Proof.Kernel.LaunchElem.lean ====
/-
  The launch element: the launch handshakes' rounds beside the two pipelines' staging cells' rounds and the copies'
  counters; from it the handshakes' initial rounds and, per device, each pipeline's cells' ghost state and duty tokens.
-/
import proofs.«211348_g14766097563893_cont_week2b_353_46_alg».proof.Proof.Kernel.TileObl
import Idealize.ShloMosaic.Lib.Pipeline.Sound
import Idealize.ShloMosaic.Lib.Pipeline.Kit

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

/-- The launch element: the handshakes' rounds; the pipelines' staging cells' rounds; the counters at their unit. -/
def u₀ : UU :=
  (initOf (K (F := F)).hsCells (K (F := F)).hsToks,
    (initOf (Pipeline.cells cfgs cellOf_inj) (Pipeline.launchToks cfgs cellOf_inj), 1))

/-- What the launch deals a device beside the handshakes: each pipeline's cells' ghost state and duty tokens. -/
def G (d : Dev nD) : sProp 𝕄 :=
  bigSep Finset.univ fun p : Fin 2 =>
    iprop(Pipeline.cellsGhost (Ix := HIx 1) (Name := ℕ) (U := UU) (Lvl := ℕ) (Val := Elt F) cfgs EP p d
      ∗ Pipeline.toksInit (Ix := HIx 1) (Name := ℕ) (U := UU) (Lvl := ℕ) (Val := Elt F) cfgs EP p d)

theorem bigSep_emp' {I : Type} (s : Finset I) : (bigSep s fun _ => iprop(emp)) = (iprop(emp) : sProp 𝕄) := bigSep_emp_const s

variable [FloatOps F]

theorem hu₀ : iprop(ownU (u₀ (F := F)) ∗ (P m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  have hEP : ∀ a : UP, (BI.own (((Emb.inl : Emb UP (UP × Counters)).trans
      (embR : Emb (UP × Counters) (MT nD τ sig (HIx 1) (Elt F) ℕ (UH × (UP × Counters)) ℕ))) a) : sProp 𝕄) ⊢ BI.own (EP a) := fun a => by
    unfold EP embR; exact BI.Entails.refl _
  unfold u₀
  iintro ⟨Hu, -, -⟩
  ihave H := (ownU_pair _ _) $$ Hu
  icases H with ⟨HH, HR⟩
  ihave H2 := (own_pair_emb _ _ _) $$ HR
  icases H2 with ⟨HP, -⟩
  ihave HP' := (hEP _) $$ HP
  imod (Pipeline.fund_ghost (Ix := HIx 1) (Name := ℕ) (U := UU) (Lvl := ℕ) (Val := Elt F) cfgs EP cellOf_inj) $$ HP' with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Kernel

end
-- ==== Proof.Kernel.Region1Run.lean ====
/-
  The accumulating matmul kernel's body, run whole on its four staging memrefs, in each of its two control cases:
  at the first grid point the output block is zeroed before the partial sums are added to it (case A); at every later
  point they are added to what the block holds (case B). Each run finds, as its witness, the pieces the body's
  stores leave in the output's staging memref.
-/
import proofs.«211348_g14766097563893_cont_week2b_353_46_alg».proof.Proof.Kernel.Setup
import Idealize.ShloMosaic.Lib.Pipeline.FrameBody
import Idealize.ShloMosaic.Lib.Ring
import Idealize.ShloMosaic.Lib.Tactic

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The body's branch condition -/

/-- The condition of the body's one conditional, from the grid coordinate: the coordinate is zero. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val = 0 :=
  (by decide +kernel : ∀ t : Fin grid1.N, cond1_0 (grid1.coords t) ↔ t.val = 0)

/-! ## The staging memrefs at a point -/

/-- One staging buffer of the output window, through which its contents are stated. -/
abbrev VO1_3 : View sig .tc .vmem S2x64 .f32 := (Memref.whole cc1_stg3_0 : Memref sig .tc .vmem S2x64 .f32).view
/-- Each window's current staging memref at point `t`, as the pipeline passes it to the body, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x64 .f32 := win1_3.stage (cfg1.slots t 3)
abbrev hs1_3 (t : Fin cfg1.N) : (ms1_3 t).IsWhole := hstage1_3 ((cfg1.slots t 3).cast nbuf1_3)

/-! ## The body's runs -/

set_option maxHeartbeats 4000000 in
/-- CASE A (the conditional taken: the first point). On whole staging memrefs, the three inputs' at contents
    `x0`, `x1`, `x2` and the output's at anything, the body runs to the continuation holding the inputs' as they
    were and the output's with the pieces its two stores wrote (last first): the witness the run finds. -/
noncomputable def kernelRun1_A (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : cond1_0 i)
    (x0 : Vec F S2048x1024 .f32) (x1 : Vec F S2048 .i32) (x2 : Vec F S2x1024 .f32) :
    { L3 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__tc_body i arg1 harg1 arg2 harg2 arg3 harg3 arg4 harg4) K } := by
  refine ⟨?_, fun E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- CASE B (the conditional not taken: every later point). As case A, the output's memref at its running contents
    `xo3`, which the body reads before it covers the block. -/
noncomputable def kernelRun1_B (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : ¬cond1_0 i)
    (x0 : Vec F S2048x1024 .f32) (x1 : Vec F S2048 .i32) (x2 : Vec F S2x1024 .f32) (xo3 : Vec F S2x64 .f32) :
    { L3 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__tc_body i arg1 harg1 arg2 harg2 arg3 harg3 arg4 harg4) K } := by
  refine ⟨?_, fun E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Proof.Kernel

end
-- ==== Proof.Kernel.Region1.lean ====
/-
  Region 1, the accumulating matmul pipeline over the row blocks of its two clipped inputs: its relational proof data
  and its body obligation, for any float values. The body leaves each of its three inputs' staging buffers as it found
  them, whatever they held (past the arrays' end a clipped block's buffer holds words nothing names), and its output's
  buffer at some contents, of which nothing is stated here.
-/
import proofs.«211348_g14766097563893_cont_week2b_353_46_alg».proof.Proof.Kernel.Region1Run

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The body on any contents -/

set_option maxHeartbeats 1000000 in
/-- The body at any grid coordinate, on whole staging memrefs at any contents: it runs to the continuation holding
    the three inputs' memrefs as they were and the output's at some contents. By cases on the one conditional: the
    block is zeroed first (the first point), or is read and added to (every later point). -/
theorem sound_kernel1 (c : Dev nD) (E : Set ℕ) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole)
    (x0 : Vec F S2048x1024 .f32) (x1 : Vec F S2048 .i32) (x2 : Vec F S2x1024 .f32) (xo3 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo3
        ∗ (iprop(owns (c : Thread nD τ) arg1 fullShare x0 ∗ owns (c : Thread nD τ) arg2 fullShare x1 ∗ owns (c : Thread nD τ) arg3 fullShare x2 ∗ (∃ X, owns (c : Thread nD τ) arg4 fullShare X)) -∗ K ⟨⟩))
      ⊢ wp frame (wpE (defs₀ (F := F)) Variants.none c none) E (cc1__tc_body i arg1 harg1 arg2 harg2 arg3 harg3 arg4 harg4) K := by
  by_cases hc0 : cond1_0 i
  · iintro ⟨H0, H1, H2, H3, Hk⟩
    iapply ((kernelRun1_A c i arg1 harg1 arg2 harg2 arg3 harg3 arg4 harg4 hc0 x0 x1 x2).2 E K)
    isplitl [H0]; · iexact H0
    isplitl [H1]; · iexact H1
    isplitl [H2]; · iexact H2
    isplitl [H3]; · iexists _; iexact H3
    iintro ⟨H0, H1, H2, ⟨%f, H3⟩⟩
    iapply Hk
    isplitl [H0]; · iexact H0
    isplitl [H1]; · iexact H1
    isplitl [H2]; · iexact H2
    unfold owns; iexists _; iexists _; isplitr
    swap; · iexact H3
    ipureintro; rfl
  · iintro ⟨H0, H1, H2, H3, Hk⟩
    iapply ((kernelRun1_B c i arg1 harg1 arg2 harg2 arg3 harg3 arg4 harg4 hc0 x0 x1 x2 xo3).2 E K)
    isplitl [H0]; · iexact H0
    isplitl [H1]; · iexact H1
    isplitl [H2]; · iexact H2
    isplitl [H3]; · iexact H3
    iintro ⟨H0, H1, H2, ⟨%f, H3⟩⟩
    iapply Hk
    isplitl [H0]; · iexact H0
    isplitl [H1]; · iexact H1
    isplitl [H2]; · iexact H2
    unfold owns; iexists _; iexists _; isplitr
    swap; · iexact H3
    ipureintro; rfl

/-! ## The pipeline's proof data -/

/-- The region's invariant on core `c`: the core's scoped buffers that are no staging buffer of this pipeline, each at
    some contents, and its generator register at some state. The body uses neither. -/
def Φreg1 (c : Dev nD) : sProp 𝕄 :=
  iprop(Pipeline.scopedRest (Ix := HIx 1) (Name := ℕ) (U := UU) (Lvl := ℕ) (Val := Elt F) spec1 c ∗ ∃ r, prngReg c r)

variable (V : (c : Dev nD) → (b : Ref sig .tc) → Buf (Elt F) ((c : Thread nD τ).loc b))

/-- The relational proof data of the pipeline on core `c`: the arrays as the region finds them (`V`); the body leaves
    each input's current buffer as it found it, and of what it leaves in the output's nothing is said; the invariant
    `Φreg1`; nothing owed; full shares; the recorded wait pairs within `B`. -/
def rdat1 (B : Set (SemLoc sig × HIx 1)) (c : Dev nD) : Pipeline.RDat τ (Elt F) (HIx 1) ℕ UU ℕ cfg1 c where
  A w := V c (Pipeline.arrRef spec1 w)
  after w _ Y X := match w with
    | ⟨0, _⟩ => X = Y
    | ⟨1, _⟩ => X = Y
    | ⟨2, _⟩ => X = Y
    | ⟨3, _⟩ => True
  Φ _ := Φreg1 c
  q _ := fullShare
  owed _ := 0
  recorded _ := B

/-- The proof data's arrays are the region-entry contents. -/
theorem A_eq1 (B : Set (SemLoc sig × HIx 1)) (c : Dev nD) (w : Fin cfg1.W) : (rdat1 V B c).A w = V c (Pipeline.arrRef spec1 w) := by
  dsimp only [rdat1]

/-- What the relation says, window by window. -/
theorem after1_0 (B : Set (SemLoc sig × HIx 1)) (c : Dev nD) (t : Fin cfg1.N) (Y X) : (rdat1 V B c).after 0 t Y X ↔ X = Y := Iff.rfl
theorem after1_1 (B : Set (SemLoc sig × HIx 1)) (c : Dev nD) (t : Fin cfg1.N) (Y X) : (rdat1 V B c).after 1 t Y X ↔ X = Y := Iff.rfl
theorem after1_2 (B : Set (SemLoc sig × HIx 1)) (c : Dev nD) (t : Fin cfg1.N) (Y X) : (rdat1 V B c).after 2 t Y X ↔ X = Y := Iff.rfl
theorem after1_3 (B : Set (SemLoc sig × HIx 1)) (c : Dev nD) (t : Fin cfg1.N) (Y X) : (rdat1 V B c).after 3 t Y X := trivial

/-! ## The body obligation -/

set_option maxHeartbeats 1000000 in
/-- The body at point `t`, the windows' current buffers at any contents `Y w`: `sound_kernel1` at the point's
    staging memrefs; the invariant and what the core owes pass through unread. -/
theorem sound_body1 (B : Set (SemLoc sig × HIx 1)) (c : Dev nD) (t : Fin cfg1.N)
    (Y : (w : Fin cfg1.W) → (cfg1.win w).block.Idx → Elt F (cfg1.win w).elt) :
    iprop((rdat1 V B c).Φ t.castSucc ∗ (rdat1 V B c).owesAt (none : HIx 1) t.castSucc
        ∗ owns (c : Thread nD τ) (ms1_0 t) fullShare (Y 0) ∗ owns (c : Thread nD τ) (ms1_1 t) fullShare (Y 1)
        ∗ owns (c : Thread nD τ) (ms1_2 t) fullShare (Y 2) ∗ owns (c : Thread nD τ) (ms1_3 t) fullShare (Y 3))
      ⊢ wp frame (wpE (defs₀ (F := F)) Variants.none c none) Set.univ (bodyAt1 t) (fun _ =>
          iprop((rdat1 V B c).Φ t.succ ∗ (rdat1 V B c).owesAt (none : HIx 1) t.succ
            ∗ (∃ X, ⌜(rdat1 V B c).after 0 t (Y 0) X⌝ ∗ owns (c : Thread nD τ) (ms1_0 t) fullShare X)
            ∗ (∃ X, ⌜(rdat1 V B c).after 1 t (Y 1) X⌝ ∗ owns (c : Thread nD τ) (ms1_1 t) fullShare X)
            ∗ (∃ X, ⌜(rdat1 V B c).after 2 t (Y 2) X⌝ ∗ owns (c : Thread nD τ) (ms1_2 t) fullShare X)
            ∗ (∃ X, ⌜(rdat1 V B c).after 3 t (Y 3) X⌝ ∗ owns (c : Thread nD τ) (ms1_3 t) fullShare X))) := by
  unfold bodyAt1
  rw [show (rdat1 V B c).Φ t.succ = (rdat1 V B c).Φ t.castSucc from rfl,
    show (rdat1 V B c).owesAt (none : HIx 1) t.succ = (rdat1 V B c).owesAt (none : HIx 1) t.castSucc from rfl]
  iintro ⟨HΦ, Ho, H0, H1, H2, H3⟩
  iapply (sound_kernel1 c Set.univ (grid1.coords t) (ms1_0 t) (hs1_0 t) (ms1_1 t) (hs1_1 t) (ms1_2 t) (hs1_2 t) (ms1_3 t) (hs1_3 t) (Y 0) (Y 1) (Y 2) (Y 3) _)
  isplitl [H0]; · iexact H0
  isplitl [H1]; · iexact H1
  isplitl [H2]; · iexact H2
  isplitl [H3]; · iexact H3
  iintro ⟨H0, H1, H2, ⟨%X3, H3⟩⟩
  isplitl [HΦ]; · iexact HΦ
  isplitl [Ho]; · iexact Ho
  isplitl [H0]
  · iexists (Y 0); isplitr; · ipureintro; exact (after1_0 V B c t _ _).mpr rfl
    iexact H0
  isplitl [H1]
  · iexists (Y 1); isplitr; · ipureintro; exact (after1_1 V B c t _ _).mpr rfl
    iexact H1
  isplitl [H2]
  · iexists (Y 2); isplitr; · ipureintro; exact (after1_2 V B c t _ _).mpr rfl
    iexact H2
  iexists X3; isplitr; · ipureintro; exact after1_3 V B c t _ _
  iexact H3

/-- The library's relational body obligation, at every point and whatever the buffers are found holding. -/
theorem body_obligation1 (B : Set (SemLoc sig × HIx 1)) (c : Dev nD) :
    (rdat1 (F := F) V B c).BodyObligation (defs₀ (F := F)) Variants.none (none : HIx 1) Set.univ := fun t Y _ => by
  rw [bigSep_W1, bigSep_W1]
  exact sound_body1 V B c t Y

end Cert.Proof.Kernel

end
-- ==== Proof.Kernel.Region2.lean ====
/-
  The second TensorCore pipeline (the gridless combine kernel: one point, every window a whole array) at the
  TensorCore's buffer contents `V` when the region is entered: each window's block, what the body leaves in the
  output window's buffer as a function of the three input blocks, the body's triple, the pipeline's proof data and
  the body obligation.
-/
import proofs.«211348_g14766097563893_cont_week2b_353_46_alg».proof.Proof.Kernel.Setup
import Idealize.ShloMosaic.Lib.Pipeline.FrameBody
import Idealize.ShloMosaic.Lib.Tactic

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place; the windows are uncut and never idle. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the thirty-two slices of sixty-four of the first input, and the whole of the others -/

abbrev r2_0 : Rect S2048 := Rect.unit (s := S2048) ![0] S64.size inb_S2048_S64_0
abbrev r2_1 : Rect S2048 := Rect.unit (s := S2048) ![64] S64.size inb_S2048_S64_64
abbrev r2_2 : Rect S2048 := Rect.unit (s := S2048) ![128] S64.size inb_S2048_S64_128
abbrev r2_3 : Rect S2048 := Rect.unit (s := S2048) ![192] S64.size inb_S2048_S64_192
abbrev r2_4 : Rect S2048 := Rect.unit (s := S2048) ![256] S64.size inb_S2048_S64_256
abbrev r2_5 : Rect S2048 := Rect.unit (s := S2048) ![320] S64.size inb_S2048_S64_320
abbrev r2_6 : Rect S2048 := Rect.unit (s := S2048) ![384] S64.size inb_S2048_S64_384
abbrev r2_7 : Rect S2048 := Rect.unit (s := S2048) ![448] S64.size inb_S2048_S64_448
abbrev r2_8 : Rect S2048 := Rect.unit (s := S2048) ![512] S64.size inb_S2048_S64_512
abbrev r2_9 : Rect S2048 := Rect.unit (s := S2048) ![576] S64.size inb_S2048_S64_576
abbrev r2_10 : Rect S2048 := Rect.unit (s := S2048) ![640] S64.size inb_S2048_S64_640
abbrev r2_11 : Rect S2048 := Rect.unit (s := S2048) ![704] S64.size inb_S2048_S64_704
abbrev r2_12 : Rect S2048 := Rect.unit (s := S2048) ![768] S64.size inb_S2048_S64_768
abbrev r2_13 : Rect S2048 := Rect.unit (s := S2048) ![832] S64.size inb_S2048_S64_832
abbrev r2_14 : Rect S2048 := Rect.unit (s := S2048) ![896] S64.size inb_S2048_S64_896
abbrev r2_15 : Rect S2048 := Rect.unit (s := S2048) ![960] S64.size inb_S2048_S64_960
abbrev r2_16 : Rect S2048 := Rect.unit (s := S2048) ![1024] S64.size inb_S2048_S64_1024
abbrev r2_17 : Rect S2048 := Rect.unit (s := S2048) ![1088] S64.size inb_S2048_S64_1088
abbrev r2_18 : Rect S2048 := Rect.unit (s := S2048) ![1152] S64.size inb_S2048_S64_1152
abbrev r2_19 : Rect S2048 := Rect.unit (s := S2048) ![1216] S64.size inb_S2048_S64_1216
abbrev r2_20 : Rect S2048 := Rect.unit (s := S2048) ![1280] S64.size inb_S2048_S64_1280
abbrev r2_21 : Rect S2048 := Rect.unit (s := S2048) ![1344] S64.size inb_S2048_S64_1344
abbrev r2_22 : Rect S2048 := Rect.unit (s := S2048) ![1408] S64.size inb_S2048_S64_1408
abbrev r2_23 : Rect S2048 := Rect.unit (s := S2048) ![1472] S64.size inb_S2048_S64_1472
abbrev r2_24 : Rect S2048 := Rect.unit (s := S2048) ![1536] S64.size inb_S2048_S64_1536
abbrev r2_25 : Rect S2048 := Rect.unit (s := S2048) ![1600] S64.size inb_S2048_S64_1600
abbrev r2_26 : Rect S2048 := Rect.unit (s := S2048) ![1664] S64.size inb_S2048_S64_1664
abbrev r2_27 : Rect S2048 := Rect.unit (s := S2048) ![1728] S64.size inb_S2048_S64_1728
abbrev r2_28 : Rect S2048 := Rect.unit (s := S2048) ![1792] S64.size inb_S2048_S64_1792
abbrev r2_29 : Rect S2048 := Rect.unit (s := S2048) ![1856] S64.size inb_S2048_S64_1856
abbrev r2_30 : Rect S2048 := Rect.unit (s := S2048) ![1920] S64.size inb_S2048_S64_1920
abbrev r2_31 : Rect S2048 := Rect.unit (s := S2048) ![1984] S64.size inb_S2048_S64_1984
abbrev r2_32 : Rect S2x64 := Rect.unit (s := S2x64) ![0, 0] S2x64.size inb_S2x64_S2x64_0_0
abbrev r2_33 : Rect S2x1 := Rect.unit (s := S2x1) ![0, 0] S2x1.size inb_S2x1_S2x1_0_0

/-! ## What the body leaves in the output window's buffer -/

/-- Window 3's staging buffer after the body, from the input windows' blocks: its one store, over the payloads of
    the slices loaded of the first input and the whole second and third. -/
def out2_3 (x0 : Vec F S2048 .f32) (x1 : Vec F S2x64 .f32) (x2 : Vec F S2x1 .f32) : Vec F S2x64 .f32 :=
  View.canon [⟨r2_32, k2_pay1 (k2_pay3 (k2_pay2 (View.ld x0 r2_0) (View.ld x0 r2_1) (View.ld x0 r2_2) (View.ld x0 r2_3) (View.ld x0 r2_4) (View.ld x0 r2_5) (View.ld x0 r2_6) (View.ld x0 r2_7) (View.ld x0 r2_8) (View.ld x0 r2_9) (View.ld x0 r2_10) (View.ld x0 r2_11) (View.ld x0 r2_12) (View.ld x0 r2_13) (View.ld x0 r2_14)) (View.ld x0 r2_15) (View.ld x0 r2_16) (View.ld x0 r2_17) (View.ld x0 r2_18) (View.ld x0 r2_19) (View.ld x0 r2_20) (View.ld x0 r2_21) (View.ld x0 r2_22) (View.ld x0 r2_23) (View.ld x0 r2_24) (View.ld x0 r2_25) (View.ld x0 r2_26) (View.ld x0 r2_27) (View.ld x0 r2_28) (View.ld x0 r2_29)) (View.ld x0 r2_30) (View.ld x0 r2_31) (View.ld x1 r2_32) (View.ld x2 r2_33)⟩]

/-- The store is of the whole buffer, so it covers it. -/
theorem cover2_3 (p0 : Vec F S2x64 .f32) (y : S2x64.Idx) :
    ∃ pc ∈ ([⟨r2_32, p0⟩] : List (View.Piece (Elt F) S2x64 .f32)), y ∈ pc.1.set :=
  View.cover_of_tiled [⟨r2_32, p0⟩] S2x64.size (by rfl) y

/-! ## The body's triple -/

set_option maxHeartbeats 4000000 in
/-- The kernel body on whole staging memrefs, the inputs' at read contents `x0 x1 x2` and the output's at anything,
    runs to the continuation holding the inputs' as they were and the output's at `out2_3` of the inputs': the
    printed functions are their skeletons, run statement by statement through the two part calls. -/
theorem sound_kernel2 (c : Dev nD) (E : Set ℕ) (arg0 : Memref sig .tc .vmem S2048 .f32) (harg0 : arg0.IsWhole) (arg1 : Memref sig .tc .vmem S2x64 .f32) (harg1 : arg1.IsWhole) (arg2 : Memref sig .tc .vmem S2x1 .f32) (harg2 : arg2.IsWhole) (arg3 : Memref sig .tc .vmem S2x64 .f32) (harg3 : arg3.IsWhole)
    (x0 : Vec F S2048 .f32) (x1 : Vec F S2x64 .f32) (x2 : Vec F S2x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__combine_body arg0 harg0 arg1 harg1 arg2 harg2 arg3 harg3) K := by
  simp only [cc2__combine_body_eq_skeleton]; unfold cc2__combine_body_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The pipeline's proof data -/

/-- The region's invariant on core `c`: the core's scoped buffers that are no staging buffer of this pipeline, at some
    contents each, and its generator register at some state — what the body may use and need not describe. -/
def Φ2 (c : Dev nD) : sProp 𝕄 :=
  iprop(Pipeline.scopedRest (Ix := HIx 1) (Name := ℕ) (U := UU) (Lvl := ℕ) (Val := Elt F) spec2 c ∗ ∃ r, prngReg c r)

/-- The proof data of the pipeline on core `c`: the arrays as the region finds them (`V`); after the body at the one
    point each input's buffer at its block and the output's at `out2_3` of the input blocks; the invariant `Φ2`;
    nothing owed, the recorded wait pairs within `B`; full shares. -/
def dat2 (B : Set (SemLoc sig × HIx 1)) (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Φ2 c
  q _ := fullShare
  owed _ := 0
  recorded _ := B

/-- The proof data's arrays are the region-entry contents. -/
theorem A_eq2 (B : Set (SemLoc sig × HIx 1)) (c : Dev nD) (w : Fin cfg2.W) : (dat2 V B c).A w = V c (Pipeline.arrRef spec2 w) := by
  dsimp only [dat2]

/-- What the body leaves, window by window. -/
theorem after2_0 (B : Set (SemLoc sig × HIx 1)) (c : Dev nD) (t : Fin cfg2.N) : (dat2 V B c).after 0 t = iblk2 V c 0 t := by dsimp only [dat2]
theorem after2_1 (B : Set (SemLoc sig × HIx 1)) (c : Dev nD) (t : Fin cfg2.N) : (dat2 V B c).after 1 t = iblk2 V c 1 t := by dsimp only [dat2]
theorem after2_2 (B : Set (SemLoc sig × HIx 1)) (c : Dev nD) (t : Fin cfg2.N) : (dat2 V B c).after 2 t = iblk2 V c 2 t := by dsimp only [dat2]
theorem after2_3 (B : Set (SemLoc sig × HIx 1)) (c : Dev nD) (t : Fin cfg2.N) : (dat2 V B c).after 3 t = out2_3 (iblk2 V c 0 t) (iblk2 V c 1 t) (iblk2 V c 2 t) := by dsimp only [dat2]

/-- Each input's current staging buffer holds its block at the point. -/
theorem before2_0 (B : Set (SemLoc sig × HIx 1)) (c : Dev nD) (t : Fin cfg2.N) (d) : (dat2 V B c).before 0 t d = iblk2 V c 0 t :=
  before2_0_of V (dat2 V B c) (A_eq2 V B c 0) (after2_0 V B c) t d
theorem before2_1 (B : Set (SemLoc sig × HIx 1)) (c : Dev nD) (t : Fin cfg2.N) (d) : (dat2 V B c).before 1 t d = iblk2 V c 1 t :=
  before2_1_of V (dat2 V B c) (A_eq2 V B c 1) (after2_1 V B c) t d
theorem before2_2 (B : Set (SemLoc sig × HIx 1)) (c : Dev nD) (t : Fin cfg2.N) (d) : (dat2 V B c).before 2 t d = iblk2 V c 2 t :=
  before2_2_of V (dat2 V B c) (A_eq2 V B c 2) (after2_2 V B c) t d

/-! ## The body obligation -/

/-- What the body is called with at point `t`, the windows one by one, -/
def bodyPre2 (B : Set (SemLoc sig × HIx 1)) (c : Dev nD) (t : Fin cfg2.N) : sProp 𝕄 :=
  iprop((dat2 V B c).Φ t.castSucc ∗ (dat2 V B c).owesAt (none : HIx 1) t.castSucc
    ∗ (∃ d, owns (c : Thread nD τ) (st2_0 t) fullShare ((dat2 V B c).before 0 t d))
    ∗ (∃ d, owns (c : Thread nD τ) (st2_1 t) fullShare ((dat2 V B c).before 1 t d))
    ∗ (∃ d, owns (c : Thread nD τ) (st2_2 t) fullShare ((dat2 V B c).before 2 t d))
    ∗ (∃ d, owns (c : Thread nD τ) (st2_3 t) fullShare ((dat2 V B c).before 3 t d)))

/-- and what it returns. -/
def bodyPost2 (B : Set (SemLoc sig × HIx 1)) (c : Dev nD) (t : Fin cfg2.N) : sProp 𝕄 :=
  iprop((dat2 V B c).Φ t.succ ∗ (dat2 V B c).owesAt (none : HIx 1) t.succ
    ∗ owns (c : Thread nD τ) (st2_0 t) fullShare ((dat2 V B c).after 0 t)
    ∗ owns (c : Thread nD τ) (st2_1 t) fullShare ((dat2 V B c).after 1 t)
    ∗ owns (c : Thread nD τ) (st2_2 t) fullShare ((dat2 V B c).after 2 t)
    ∗ owns (c : Thread nD τ) (st2_3 t) fullShare ((dat2 V B c).after 3 t))

/-- The body at the point: the inputs' memrefs hold their blocks, so the body's triple applies; the invariant and the
    core's debts pass through unread. -/
theorem sound_body2 (B : Set (SemLoc sig × HIx 1)) (c : Dev nD) (t : Fin cfg2.N) :
    bodyPre2 V B c t ⊢ wp frame (wpE (defs₀ (F := F)) Variants.none c none) Set.univ (bodyAt2 t) (fun _ => bodyPost2 V B c t) := by
  unfold bodyPre2 bodyPost2 bodyAt2
  simp only [before2_0, before2_1, before2_2]
  rw [show (dat2 V B c).Φ t.succ = (dat2 V B c).Φ t.castSucc from rfl,
    show (dat2 V B c).owesAt (none : HIx 1) t.succ = (dat2 V B c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (B : Set (SemLoc sig × HIx 1)) (c : Dev nD) :
    BodyObligation (dat2 (F := F) V B c) (defs₀ (F := F)) Variants.none (none : HIx 1) Set.univ := fun t => by
  rw [bigSep_W2, bigSep_W2]
  exact sound_body2 V B c t

end Cert.Proof.Kernel

end
-- ==== Proof.Kernel.Region2Exit.lean ====
/-
  The second pipeline's arrays at exit: each window's one block is its whole array, so the inputs' blocks are the
  arrays as the region finds them and the output array ends holding the body's result of them.
-/
import proofs.«211348_g14766097563893_cont_week2b_353_46_alg».proof.Proof.Kernel.Region2
import Idealize.ShloMosaic.Lib.Pipeline.Value

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The inputs' blocks are the arrays -/

theorem iblk2_0 (c : Dev nD) (t : Fin cfg2.N) : iblk2 V c 0 t = V c main_v0 := by
  funext j
  show V c main_v0 (((cfg2.win 0).blk t).view.emb j) = V c main_v0 j
  refine congrArg _ (funext fun a => Fin.ext ?_)
  match a with
  | ⟨0, _⟩ => show 0 * 2048 + 1 * (j 0).val = (j 0).val; omega

theorem iblk2_1 (c : Dev nD) (t : Fin cfg2.N) : iblk2 V c 1 t = V c main_v1 := by
  funext j
  show V c main_v1 (((cfg2.win 1).blk t).view.emb j) = V c main_v1 j
  refine congrArg _ (funext fun a => Fin.ext ?_)
  match a with
  | ⟨0, _⟩ => show 0 * 2 + 1 * (j 0).val = (j 0).val; omega
  | ⟨1, _⟩ => show 0 * 64 + 1 * (j 1).val = (j 1).val; omega

theorem iblk2_2 (c : Dev nD) (t : Fin cfg2.N) : iblk2 V c 2 t = V c main_v2 := by
  funext j
  show V c main_v2 (((cfg2.win 2).blk t).view.emb j) = V c main_v2 j
  refine congrArg _ (funext fun a => Fin.ext ?_)
  match a with
  | ⟨0, _⟩ => show 0 * 2 + 1 * (j 0).val = (j 0).val; omega
  | ⟨1, _⟩ => show 0 * 1 + 1 * (j 1).val = (j 1).val; omega

/-! ## The output array at exit -/

/-- The output window's one block, read off any contents of its array, is the contents. -/
theorem read_blk2_3 (t : Fin cfg2.N) (G : Vec F S2x64 .f32) :
    ((cfg2.win 3).blk t).view.read (Elt F) G = G := by
  funext j
  show G (((cfg2.win 3).blk t).view.emb j) = G j
  refine congrArg _ (funext fun a => Fin.ext ?_)
  match a with
  | ⟨0, _⟩ => show 0 * 2 + 1 * (j 0).val = (j 0).val; omega
  | ⟨1, _⟩ => show 0 * 64 + 1 * (j 1).val = (j 1).val; omega

/-- What the one point writes back is the body's result of the three arrays as the region finds them. -/
theorem flushed2_3 (B : Set (SemLoc sig × HIx 1)) (c : Dev nD) (t : Fin cfg2.N) :
    (dat2 V B c).flushed 3 t = ((cfg2.win 3).blk t).view.read (Elt F) (out2_3 (V c main_v0) (V c main_v1) (V c main_v2)) := by
  show (cfg2.win 3).cut (grid2.coords t) ((dat2 V B c).after 3 t) = _
  rw [after2_3, iblk2_0, iblk2_1, iblk2_2, read_blk2_3]
  rfl

/-- Every index of the output array is in the one point's block. -/
theorem cover2_arr (i : S2x64.Idx) : ∃ t : Fin cfg2.N, (cfg2.win 3).flush t = true ∧ i ∈ ((cfg2.win 3).blk t).view.set := by
  refine ⟨t2_0, flush2_3 t2_0, ?_⟩
  show i ∈ ((View.whole main_v3).slice (win2_3.rect t2_0)).set
  rw [View.set_slice_whole, Rect.mem_set_unit]
  intro a
  match a with
  | ⟨0, _⟩ => show 0 * 2 ≤ (i 0).val ∧ (i 0).val < 0 * 2 + 2; have h : (i 0).val < 2 := (i 0).isLt; omega
  | ⟨1, _⟩ => show 0 * 64 ≤ (i 1).val ∧ (i 1).val < 0 * 64 + 64; have h : (i 1).val < 64 := (i 1).isLt; omega

/-- The output array after the run: the body's result of the three input arrays as the region finds them. -/
theorem final2_3 (B : Set (SemLoc sig × HIx 1)) (c : Dev nD) :
    (dat2 V B c).arrAt 3 cfg2.N = out2_3 (V c main_v0) (V c main_v1) (V c main_v2) :=
  (dat2 V B c).arrAt_eq_of_cover 3 (out2_3 (V c main_v0) (V c main_v1) (V c main_v2)) (fun t _ => flushed2_3 V B c t) cover2_arr

/-- An input array is as the region finds it, at every point. -/
theorem final2_in (B : Set (SemLoc sig × HIx 1)) (c : Dev nD) (w : Fin cfg2.W) (hw : (cfg2.win w).isOut = false) (n : Nat) :
    (dat2 V B c).arrAt w n = V c (Pipeline.arrRef spec2 w) :=
  ((dat2 V B c).arrAt_in w hw n).trans (A_eq2 V B c w)

/-- The exact obligation in the form the loop uses. -/
theorem body_obligation2_loose (B : Set (SemLoc sig × HIx 1)) (c : Dev nD) :
    Pipeline.BodyObligationLoose (dat2 (F := F) V B c) (defs₀ (F := F)) Variants.none (none : HIx 1) Set.univ :=
  (body_obligation2 V B c).loose

end Cert.Proof.Kernel

end
-- ==== Proof.Kernel.LaunchRegions.lean ====
/-
  The two TensorCore pipelines as segments of the TensorCore's run: each region entered from every unscoped buffer
  held at a valuation and left with the region's arrays at contents they may hold after the write-backs and every
  other unscoped buffer as it was; the generator register and the core's debts ride along.
-/
import proofs.«211348_g14766097563893_cont_week2b_353_46_alg».proof.Proof.Kernel.Region1
import proofs.«211348_g14766097563893_cont_week2b_353_46_alg».proof.Proof.Kernel.Region2Exit
import Idealize.ShloMosaic.Lib.Pipeline.RegionsLoop
import Idealize.ShloMosaic.Lib.Pipeline.FrameSuffix

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm

/-! ## The first pipeline's relational proof data, as the launch needs it -/

/-- Relational proof data for the first pipeline at any entry contents and any bound on the recorded wait pairs, with
    what the segments use of it: the arrays are the entry contents, the invariant the region's, full shares, nothing
    owed, the recorded pairs within the bound, and the body obligation. -/
structure R1Data (F : FTy → Type) [FloatOps F] where
  rd : ((c : Dev nD) → (b : Ref sig .tc) → Buf (Elt F) ((c : Thread nD τ).loc b)) → Set (SemLoc sig × HIx 1) → (c : Dev nD) →
    Pipeline.RDat τ (Elt F) (HIx 1) ℕ UU ℕ cfg1 c
  hA : ∀ V B c w, (rd V B c).A w = V c (Pipeline.arrRef spec1 w)
  hΦ : ∀ V B c t, (rd V B c).Φ t = Φreg1 c
  hq : ∀ V B c w, (rd V B c).q w = fullShare
  howed : ∀ V B c t, (rd V B c).owed t = 0
  hrec : ∀ V B c t, (rd V B c).recorded t = B
  hbody : ∀ V B c, (rd V B c).BodyObligation (defs₀ (F := F)) Variants.none (none : HIx 1) Set.univ

/-- The data that says nothing of what the body leaves in the output window. -/
def r1Frame : R1Data F where
  rd := rdat1
  hA := A_eq1
  hΦ _ _ _ _ := rfl
  hq _ _ _ _ := rfl
  howed _ _ _ _ := rfl
  hrec _ _ _ _ := rfl
  hbody := body_obligation1

/-- Both pipelines' proof data, the first at the entry contents `V`, the second at `V'` — a literal `match`. -/
def rdats (R1 : R1Data F) (V V' : (c : Dev nD) → (b : Ref sig .tc) → Buf (Elt F) ((c : Thread nD τ).loc b))
    (B : Set (SemLoc sig × HIx 1)) :
    (p : Fin 2) → (c : Dev nD) → Pipeline.RDat τ (Elt F) (HIx 1) ℕ UU ℕ (Pipeline.pin (pcfgs (F := F)) adm p) c
  | ⟨0, _⟩ => fun c => R1.rd V B c
  | ⟨1, _⟩ => fun c => (dat2 V' B c).toR

/-- What rides beside the buffers through every segment: the generator register at some state, and the core owing
    nothing with its recorded wait pairs within `B`. -/
abbrev Rst (B : Set (SemLoc sig × HIx 1)) (c : Dev nD) : sProp 𝕄 :=
  iprop((∃ r, prngReg c r) ∗ Pipeline.owesWithin c (0 : CellTallies nD τ sig (HIx 1)) B)

/-! ## The arrays out of the unscoped buffers and back -/

/-- The arrays after the write-backs below `n`, each at some contents it may then hold: one family of contents. -/
theorem arraysAt_open {cfg : Pipeline.Cfg sig Λ₀} {c : Dev nD} (rd : Pipeline.RDat τ (Elt F) (HIx 1) ℕ UU ℕ cfg c) (n : Nat) :
    (rd.arraysAt n : sProp 𝕄) ⊢ iprop(∃ Fs : (w : Fin cfg.W) → Buf (Elt F) ((cfg.win w).arr.view.loc (c.tc : Thread nD τ)),
      ⌜∀ w, rd.ArrAt w n (Fs w)⌝ ∗ rd.arrays Fs) := by
  classical
  unfold Pipeline.RDat.arraysAt Pipeline.RDat.arrays
  iintro Ha
  ihave Ha' := (BI.bigSep_exists_pi Finset.univ (fun w G => iprop(⌜rd.ArrAt w n G⌝
      ∗ (cfg.win w).arr.view.loc (c.tc : Thread nD τ) ↦[(cfg.win w).arr.view.set]{rd.share w} G))) $$ Ha
  icases Ha' with ⟨%Fs, Ha⟩
  ihave Ha2 := (BI.bigSep_pure_sep Finset.univ (fun w => rd.ArrAt w n (Fs w))
      (fun w => (cfg.win w).arr.view.loc (c.tc : Thread nD τ) ↦[(cfg.win w).arr.view.set]{rd.share w} Fs w)) $$ Ha
  icases Ha2 with ⟨%hFs, Ha⟩
  iexists Fs
  isplitr; · ipureintro; exact fun w => hFs w (Finset.mem_univ w)
  iexact Ha

/-- A pipeline's arrays at contents `Fs` and the unscoped rest at `V` are the core's unscoped buffers at any
    valuation that has the arrays at `Fs` and agrees with `V` off them. -/
theorem unscopedBufs_of_arraysR {p : Fin 2}
    (rds : (p : Fin 2) → (c : Dev nD) → Pipeline.RDat τ (Elt F) (HIx 1) ℕ UU ℕ (Pipeline.pin (pcfgs (F := F)) adm p) c)
    (hw : Pipeline.WinFacts (Pipeline.pin (pcfgs (F := F)) adm p).spec)
    (harr : ∀ w, ((Pipeline.pin (pcfgs (F := F)) adm p).spec w).arr.IsWhole)
    (c : Dev nD) (hshare : ∀ w, (rds p c).share w = fullShare)
    (V V' : (b : Ref sig .tc) → Buf (Elt F) ((c.tc : Thread nD τ).loc b))
    (Fs : (w : Fin (Pipeline.pin (pcfgs (F := F)) adm p).W) → Buf (Elt F) (((Pipeline.pin (pcfgs (F := F)) adm p).spec w).arr.view.loc (c.tc : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays Fs ∗ Pipeline.unscopedRest (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-- EXIT, the arrays' part: the arrays after the write-backs below `n` and the unscoped rest as entered are the
    unscoped buffers held at the entry valuation with the arrays at some contents they may then hold. -/
theorem held_of_arraysAt {p : Fin 2}
    (rds : (p : Fin 2) → (c : Dev nD) → Pipeline.RDat τ (Elt F) (HIx 1) ℕ UU ℕ (Pipeline.pin (pcfgs (F := F)) adm p) c)
    (hw : Pipeline.WinFacts (Pipeline.pin (pcfgs (F := F)) adm p).spec)
    (harr : ∀ w, ((Pipeline.pin (pcfgs (F := F)) adm p).spec w).arr.IsWhole)
    (c : Dev nD) (hshare : ∀ w, (rds p c).share w = fullShare) (W : Valuation τ sig (Elt F)) (n : Nat) :
    iprop((rds p c).arraysAt n ∗ Pipeline.unscopedRest (Ix := HIx 1) (Name := ℕ) (U := UU) (Lvl := ℕ) (Pipeline.pin (pcfgs (F := F)) adm p).spec c (fun b => W b))
      ⊢ (iprop(∃ Fs : (w : Fin (Pipeline.pin (pcfgs (F := F)) adm p).W) → Buf (Elt F) (((Pipeline.pin (pcfgs (F := F)) adm p).spec w).arr.view.loc (c.tc : Thread nD τ)),
          ⌜∀ w, (rds p c).ArrAt w n (Fs w)⌝
          ∗ StableHlo.held (c : Thread nD τ) (Pipeline.ucRefs τ sig) (Pipeline.withArrays (Pipeline.pin (pcfgs (F := F)) adm p).spec c W Fs)) : sProp 𝕄) := by
  iintro ⟨Ha, Hrest⟩
  ihave Ha' := (arraysAt_open (rds p c) n) $$ Ha
  icases Ha' with ⟨%Fs, %hFs, Ha⟩
  have hjoin := unscopedBufs_of_arraysR (p := p) rds hw harr c hshare (fun b => W b)
    (fun b => Pipeline.withArrays (Pipeline.pin (pcfgs (F := F)) adm p).spec c W Fs b) Fs
    (fun w => (Pipeline.withArrays_arr (Pipeline.pin (pcfgs (F := F)) adm p).spec hw.arr_inj c W Fs w).symm)
    (fun b hb => Pipeline.withArrays_of_ne (Pipeline.pin (pcfgs (F := F)) adm p).spec c W Fs b fun w e =>
      hb (Finset.mem_image.mpr ⟨w, Finset.mem_univ _, e⟩))
  rw [Pipeline.unscopedBufs_held] at hjoin
  iexists Fs
  isplitr; · ipureintro; exact hFs
  iapply hjoin
  isplitl [Ha] <;> iassumption

set_option backward.isDefEq.respectTransparency.types false in
/-- REGION 1 (the gridded pipeline) as a segment: entered from every unscoped buffer held at `W`, left with its arrays at contents they
    may hold after the write-backs and every other unscoped buffer as entered; the generator register into the region's
    invariant and out; nothing owed; no semaphore of the kernel's own. -/
def regA (R1 : R1Data F) (L : GSem nD τ sig → Finset (HIx 1)) (lv : GSem nD τ sig → HIx 1 → ℕ)
    (W : Dev nD → Valuation τ sig (Elt F)) (V' : (c : Dev nD) → (b : Ref sig .tc) → Buf (Elt F) ((c : Thread nD τ).loc b))
    (B : Set (SemLoc sig × HIx 1)) (hB : cfg1.waitPairs (none : HIx 1) ⊆ B) :
    Pipeline.RDat.RegionSeg (pcfgs (F := F)) adm (rdats R1 (fun c b => W c b) V' B) (none : HIx 1) defs₀ 𝒱₀ L lv 0 where
  win := launch1.win.to₀
  block_pos := launch1.block_pos
  stage_whole := launch1.stage_whole
  K := PEmpty
  osem k := k.elim
  ho := Pipeline.OwnSemFacts.none _
  hbody c := R1.hbody (fun c b => W c b) B c
  hwaits := Pipeline.RDat.hwaits_of_owed_zero _ _ _ _ L lv 0 fun c t => R1.howed (fun c b => W c b) B c t
  pre c := iprop(StableHlo.held (c : Thread nD τ) (Pipeline.ucRefs τ sig) (W c) ∗ Rst B c)
  post c := iprop(∃ Fs : (w : Fin cfg1.W) → Buf (Elt F) ((cfg1.win w).arr.view.loc (c.tc : Thread nD τ)),
    ⌜∀ w, (R1.rd (fun c b => W c b) B c).ArrAt w cfg1.N (Fs w)⌝
      ∗ StableHlo.held (c : Thread nD τ) (Pipeline.ucRefs τ sig) (Pipeline.withArrays spec1 c (W c) Fs) ∗ Rst B c)
  X c := iprop(∃ r, prngReg c r)
  Y c := iprop(∃ r, prngReg c r)
  Z c := Pipeline.unscopedRest (Ix := HIx 1) (Name := ℕ) (U := UU) (Lvl := ℕ) spec1 c (fun b => W c b)
  hentry c := by
    rw [Pipeline.ownSems0_none]
    have hsplit := Pipeline.RDat.arrays_of_unscopedBufs (p := 0) (pcfgs (F := F)) adm (rdats R1 (fun c b => W c b) V' B) launch1.win launch1.arr_whole c
      ((R1.rd (fun c b => W c b) B c).share_full fun w => R1.hq (fun c b => W c b) B c w) (fun b => W c b) fun w => R1.hA (fun c b => W c b) B c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats R1 (fun c b => W c b) V' B 0 c).owesAt (none : HIx 1) 0
          = Pipeline.owesWithin c ((R1.rd (fun c b => W c b) B c).owed 0) ((R1.rd (fun c b => W c b) B c).recorded 0 ∪ cfg1.waitPairs (none : HIx 1)) from rfl,
        show (R1.rd (fun c b => W c b) B c).owed 0 = 0 from R1.howed (fun c b => W c b) B c 0, show (R1.rd (fun c b => W c b) B c).recorded 0 = B from R1.hrec (fun c b => W c b) B c 0]
      iapply (Pipeline.owesWithin_mono c 0 Set.subset_union_left); iexact HO
    isplitl [Hp]; · iexact Hp
    iexact Hrest
  hin c := by
    rw [show (rdats R1 (fun c b => W c b) V' B 0 c).Φ 0 = Φreg1 c from R1.hΦ (fun c b => W c b) B c 0]; unfold Φreg1
    iintro ⟨Hp, -, Hr⟩
    isplitl [Hr]; · iexact Hr
    iexact Hp
  hout c := by
    rw [Pipeline.ownSems0_none, show (rdats R1 (fun c b => W c b) V' B 0 c).Φ (Fin.last _) = Φreg1 c from R1.hΦ (fun c b => W c b) B c (Fin.last _)]; unfold Φreg1
    iintro ⟨Hr, Hp⟩
    isplitl [Hp]; · iexact Hp
    isplitr; · iempintro
    iexact Hr
  hexit c := by
    have hjoin := held_of_arraysAt (p := 0) (rdats R1 (fun c b => W c b) V' B) launch1.win launch1.arr_whole c
      ((R1.rd (fun c b => W c b) B c).share_full fun w => R1.hq (fun c b => W c b) B c w) (W c) cfg1.N
    have hO : ((rdats R1 (fun c b => W c b) V' B 0 c).owesAt (none : HIx 1) (Fin.last _) : sProp 𝕄) ⊢ Pipeline.owesWithin c 0 B := by
      rw [show (rdats R1 (fun c b => W c b) V' B 0 c).owesAt (none : HIx 1) (Fin.last _)
          = Pipeline.owesWithin c ((R1.rd (fun c b => W c b) B c).owed (Fin.last _)) ((R1.rd (fun c b => W c b) B c).recorded (Fin.last _) ∪ cfg1.waitPairs (none : HIx 1)) from rfl,
        show (R1.rd (fun c b => W c b) B c).owed (Fin.last _) = 0 from R1.howed (fun c b => W c b) B c (Fin.last _), show (R1.rd (fun c b => W c b) B c).recorded (Fin.last _) = B from R1.hrec (fun c b => W c b) B c (Fin.last _)]
      exact Pipeline.owesWithin_mono c 0 (Set.union_subset (le_refl B) hB)
    iintro ⟨Ha, HO, HY, Hrest⟩
    ihave H := hjoin $$ [Ha Hrest]
    · isplitl [Ha] <;> iassumption
    icases H with ⟨%Fs, %hFs, Hh⟩
    imodintro
    iexists Fs
    isplitr; · ipureintro; exact hFs
    isplitl [Hh]; · iexact Hh
    isplitl [HY]; · iexact HY
    iapply hO; iexact HO

set_option backward.isDefEq.respectTransparency.types false in
/-- REGION 2 (the gridless combine pipeline) as a segment: entered from every unscoped buffer held at `W'`, left with its arrays at contents they
    may hold after the write-backs and every other unscoped buffer as entered; the generator register into the region's
    invariant and out; nothing owed; no semaphore of the kernel's own. -/
def regB (R1 : R1Data F) (L : GSem nD τ sig → Finset (HIx 1)) (lv : GSem nD τ sig → HIx 1 → ℕ)
    (V : (c : Dev nD) → (b : Ref sig .tc) → Buf (Elt F) ((c : Thread nD τ).loc b)) (W' : Dev nD → Valuation τ sig (Elt F))
    (B : Set (SemLoc sig × HIx 1)) (hB : cfg2.waitPairs (none : HIx 1) ⊆ B) :
    Pipeline.RDat.RegionSeg (pcfgs (F := F)) adm (rdats R1 V (fun c b => W' c b) B) (none : HIx 1) defs₀ 𝒱₀ L lv 1 where
  win := launch2.win.to₀
  block_pos := launch2.block_pos
  stage_whole := launch2.stage_whole
  K := PEmpty
  osem k := k.elim
  ho := Pipeline.OwnSemFacts.none _
  hbody c := (body_obligation2 (fun c b => W' c b) B c).toR
  hwaits := Pipeline.RDat.hwaits_of_owed_zero _ _ _ _ L lv 1 fun c t => rfl
  pre c := iprop(StableHlo.held (c : Thread nD τ) (Pipeline.ucRefs τ sig) (W' c) ∗ Rst B c)
  post c := iprop(∃ Fs : (w : Fin cfg2.W) → Buf (Elt F) ((cfg2.win w).arr.view.loc (c.tc : Thread nD τ)),
    ⌜∀ w, ((dat2 (fun c b => W' c b) B c).toR).ArrAt w cfg2.N (Fs w)⌝
      ∗ StableHlo.held (c : Thread nD τ) (Pipeline.ucRefs τ sig) (Pipeline.withArrays spec2 c (W' c) Fs) ∗ Rst B c)
  X c := iprop(∃ r, prngReg c r)
  Y c := iprop(∃ r, prngReg c r)
  Z c := Pipeline.unscopedRest (Ix := HIx 1) (Name := ℕ) (U := UU) (Lvl := ℕ) spec2 c (fun b => W' c b)
  hentry c := by
    rw [Pipeline.ownSems0_none]
    have hsplit := Pipeline.RDat.arrays_of_unscopedBufs (p := 1) (pcfgs (F := F)) adm (rdats R1 V (fun c b => W' c b) B) launch2.win launch2.arr_whole c
      (((dat2 (fun c b => W' c b) B c).toR).share_full fun w => rfl) (fun b => W' c b) fun w => A_eq2 (fun c b => W' c b) B c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats R1 V (fun c b => W' c b) B 1 c).owesAt (none : HIx 1) 0
          = Pipeline.owesWithin c (((dat2 (fun c b => W' c b) B c).toR).owed 0) (((dat2 (fun c b => W' c b) B c).toR).recorded 0 ∪ cfg2.waitPairs (none : HIx 1)) from rfl,
        show ((dat2 (fun c b => W' c b) B c).toR).owed 0 = 0 from rfl, show ((dat2 (fun c b => W' c b) B c).toR).recorded 0 = B from rfl]
      iapply (Pipeline.owesWithin_mono c 0 Set.subset_union_left); iexact HO
    isplitl [Hp]; · iexact Hp
    iexact Hrest
  hin c := by
    rw [show (rdats R1 V (fun c b => W' c b) B 1 c).Φ 0 = Φ2 c from rfl]; unfold Φ2
    iintro ⟨Hp, -, Hr⟩
    isplitl [Hr]; · iexact Hr
    iexact Hp
  hout c := by
    rw [Pipeline.ownSems0_none, show (rdats R1 V (fun c b => W' c b) B 1 c).Φ (Fin.last _) = Φ2 c from rfl]; unfold Φ2
    iintro ⟨Hr, Hp⟩
    isplitl [Hp]; · iexact Hp
    isplitr; · iempintro
    iexact Hr
  hexit c := by
    have hjoin := held_of_arraysAt (p := 1) (rdats R1 V (fun c b => W' c b) B) launch2.win launch2.arr_whole c
      (((dat2 (fun c b => W' c b) B c).toR).share_full fun w => rfl) (W' c) cfg2.N
    have hO : ((rdats R1 V (fun c b => W' c b) B 1 c).owesAt (none : HIx 1) (Fin.last _) : sProp 𝕄) ⊢ Pipeline.owesWithin c 0 B := by
      rw [show (rdats R1 V (fun c b => W' c b) B 1 c).owesAt (none : HIx 1) (Fin.last _)
          = Pipeline.owesWithin c (((dat2 (fun c b => W' c b) B c).toR).owed (Fin.last _)) (((dat2 (fun c b => W' c b) B c).toR).recorded (Fin.last _) ∪ cfg2.waitPairs (none : HIx 1)) from rfl,
        show ((dat2 (fun c b => W' c b) B c).toR).owed (Fin.last _) = 0 from rfl, show ((dat2 (fun c b => W' c b) B c).toR).recorded (Fin.last _) = B from rfl]
      exact Pipeline.owesWithin_mono c 0 (Set.union_subset (le_refl B) hB)
    iintro ⟨Ha, HO, HY, Hrest⟩
    ihave H := hjoin $$ [Ha Hrest]
    · isplitl [Ha] <;> iassumption
    icases H with ⟨%Fs, %hFs, Hh⟩
    imodintro
    iexists Fs
    isplitr; · ipureintro; exact hFs
    isplitl [Hh]; · iexact Hh
    isplitl [HY]; · iexact HY
    iapply hO; iexact HO

end Cert.Proof.Kernel

end
-- ==== Proof.Kernel.LaunchMain.lean ====
/-
  @main on the TensorCore, from what the launch deals it to what the claims read at the end: the SparseCore call (the
  segment ids lent out as read shares, the counts array as its thirty-two runs, both back whole), the accumulating
  pipeline, the reshape of the bias, the combining pipeline, the transpose.
-/
import proofs.«211348_g14766097563893_cont_week2b_353_46_alg».proof.Proof.Kernel.LaunchVals
import proofs.«211348_g14766097563893_cont_week2b_353_46_alg».proof.Proof.Kernel.LaunchElem
import proofs.«211348_g14766097563893_cont_week2b_353_46_alg».proof.Proof.Kernel.LaunchRegions

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

variable [FloatOps F]

open Idealize.ShloMosaic.StableHlo (held held_split held_sdiff_result wp_hlo_within held_sub_split held_congr)
open Idealize.ShloMosaic.TcCoe

variable (ρ : Dev nD → PrngReg) [FloatOps F]

omit [FloatOps F] in
theorem held_S2 (d : Dev nD) (W : Valuation τ sig (Elt F)) :
    (held (T d) S2 W : sProp 𝕄) = iprop((bLoc d ↦{fullShare} W b') ∗ (cLoc d ↦{fullShare} W c')) := by
  unfold held S2
  rw [SparseCore.bigSep_insert' (by decide), bigSep_singleton]

omit [FloatOps F] in
theorem W1_b (d : Dev nD) (g : Buf (Elt F) (cLoc d)) : W1 m d g b' = m (bLoc d) := Function.update_of_ne (show b' ≠ c' by decide) _ _
omit [FloatOps F] in
theorem W1_c (d : Dev nD) (g : Buf (Elt F) (cLoc d)) : W1 m d g c' = g := Function.update_self _ _ _
omit [FloatOps F] in
theorem W1_away (d : Dev nD) (g : Buf (Elt F) (cLoc d)) (b : DevRef τ sig) (h : b ≠ c') : W1 m d g b = W0 m d b := Function.update_of_ne h _ _

omit [FloatOps F] in
/-- The TensorCore's buffers once the call's results are back: the counts array at what the tiles wrote, everything else as launched. -/
theorem held_W1 (d : Dev nD) (g : Buf (Elt F) (cLoc d)) :
    (iprop((bLoc d ↦{fullShare} m (bLoc d)) ∗ (cLoc d ↦{fullShare} g) ∗ held (T d) (Pipeline.ucRefs τ sig \ S2) (W0 m d)) : sProp 𝕄)
      ⊢ held (T d) (Pipeline.ucRefs τ sig) (W1 m d g) := by
  rw [held_sub_split (T d) S2_sub (W1 m d g), held_S2, W1_b, W1_c,
    held_congr (T d) (V := W1 m d g) (V' := W0 m d) (S := Pipeline.ucRefs τ sig \ S2) (fun b hb => W1_away m d g b (by
      intro e; subst e; exact (Finset.mem_sdiff.mp hb).2 (by decide)))]
  iintro ⟨Hb, Hc, Hr⟩
  isplitl [Hb Hc]
  · isplitl [Hb]; · iexact Hb
    iexact Hc
  iexact Hr

/-- The recorded pairs the TensorCore may hold once the one SparseCore call is over. -/
def Bnd (d : Dev nD) : Set (SemLoc sig × HIx 1) := {p | (K (F := F)).lev (T d, p.1) p.2 ≤ 8}

omit [FloatOps F] in
theorem waitPairs_sub (cfg : Pipeline.Cfg sig Λ₀) (d : Dev nD) : cfg.waitPairs (none : HIx 1) ⊆ Bnd (F := F) d := by
  rintro p ⟨w, s, rfl⟩
  show (K (F := F)).lev _ none ≤ 8
  rw [SparseCore.Cfg.lev_none]; omega

omit [FloatOps F] in
/-- After its one call the TensorCore owes the launch nothing: its handshake state holds exactly an `owes` at nothing, within the bound. -/
theorem tcSt_open (d : Dev nD) :
    ((K (F := F)).tcSt EH d 1 : sProp 𝕄)
      ⊢ iprop(Pipeline.owesWithin d (0 : CellTallies nD τ sig (HIx 1)) (Bnd (F := F) d)
          ∗ (Pipeline.owesWithin d (0 : CellTallies nD τ sig (HIx 1)) (Bnd (F := F) d) -∗ (K (F := F)).tcSt EH d 1)) := by
  unfold SparseCore.Cfg.tcSt
  rw [(K (F := F)).Otc_end d (le_refl 1)]
  iintro ⟨⟨%W, %hW, HO⟩, Hrest⟩
  isplitl [HO]
  · iexists W; isplitr
    · ipureintro; intro p hp; exact hW p hp
    · iexact HO
  iintro ⟨%W', %hW', HO'⟩
  isplitl [HO']
  · iexists W'; isplitr
    · ipureintro; intro p hp; exact hW' hp
    · iexact HO'
  iexact Hrest

set_option backward.isDefEq.respectTransparency.types false in
set_option maxHeartbeats 1600000 in
/-- The accumulating pipeline's call from the TensorCore's thread state. -/
theorem wp_regionA (R1 : R1Data F) (d : Dev nD) (W : Valuation τ sig (Elt F)) (V' : (c : Dev nD) → (b : Ref sig .tc) → Buf (Elt F) ((c : Thread nD τ).loc b))
    (B : Set (SemLoc sig × HIx 1)) (hB : cfg1.waitPairs (none : HIx 1) ⊆ B) (Φ : PUnit → sProp 𝕄) :
    iprop((iprop(boundary (SparseCore.T d) ∗ (regA R1 (K (F := F)).L (K (F := F)).lev (fun _ => W) V' B hB).post d) -∗ |={Set.univ}=> Φ ⟨⟩)
        ∗ boundary (SparseCore.T d) ∗ (regA R1 (K (F := F)).L (K (F := F)).lev (fun _ => W) V' B hB).pre d ∗ levAts (K (F := F)).L (K (F := F)).lev
        ∗ Pipeline.cellsGhost cfgs EP 0 d ∗ Pipeline.toksInit cfgs EP 0 d)
      ⊢ wp frame (wpE (D (F := F)) 𝒱 (SparseCore.T d) none) Set.univ (Prog.lift (.customCall (Pipeline.entry (0 : Fin 2)) ())) Φ := by
  have hwp := Pipeline.RDat.RegionSeg.wp (pcfgs (F := F)) adm (rdats R1 (fun c b => (fun _ : Dev nD => W) c b) V' B) (none : HIx 1) cellOf_inj EP defs₀ 𝒱₀
      (K (F := F)).L (K (F := F)).lev (regA R1 (K (F := F)).L (K (F := F)).lev (fun _ => W) V' B hB) d none (fun _ h => nomatch h)
      (fun u => .ret u) Φ
  refine BI.Entails.trans (show (_ : sProp 𝕄) ⊢ _ from ?_) hwp
  iintro ⟨Hk, Hrest⟩
  isplitl [Hk]
  · iintro H; rw [wp_ret]; iapply Hk; iexact H
  iexact Hrest

set_option backward.isDefEq.respectTransparency.types false in
set_option maxHeartbeats 1600000 in
/-- The combining pipeline's call from the TensorCore's thread state. -/
theorem wp_regionB (R1 : R1Data F) (d : Dev nD) (V : (c : Dev nD) → (b : Ref sig .tc) → Buf (Elt F) ((c : Thread nD τ).loc b)) (W' : Valuation τ sig (Elt F))
    (B : Set (SemLoc sig × HIx 1)) (hB : cfg2.waitPairs (none : HIx 1) ⊆ B) (Φ : PUnit → sProp 𝕄) :
    iprop((iprop(boundary (SparseCore.T d) ∗ (regB R1 (K (F := F)).L (K (F := F)).lev V (fun _ => W') B hB).post d) -∗ |={Set.univ}=> Φ ⟨⟩)
        ∗ boundary (SparseCore.T d) ∗ (regB R1 (K (F := F)).L (K (F := F)).lev V (fun _ => W') B hB).pre d ∗ levAts (K (F := F)).L (K (F := F)).lev
        ∗ Pipeline.cellsGhost cfgs EP 1 d ∗ Pipeline.toksInit cfgs EP 1 d)
      ⊢ wp frame (wpE (D (F := F)) 𝒱 (SparseCore.T d) none) Set.univ (Prog.lift (.customCall (Pipeline.entry (1 : Fin 2)) ())) Φ := by
  have hwp := Pipeline.RDat.RegionSeg.wp (pcfgs (F := F)) adm (rdats R1 V (fun c b => (fun _ : Dev nD => W') c b) B) (none : HIx 1) cellOf_inj EP defs₀ 𝒱₀
      (K (F := F)).L (K (F := F)).lev (regB R1 (K (F := F)).L (K (F := F)).lev V (fun _ => W') B hB) d none (fun _ h => nomatch h)
      (fun u => .ret u) Φ
  refine BI.Entails.trans (show (_ : sProp 𝕄) ⊢ _ from ?_) hwp
  iintro ⟨Hk, Hrest⟩
  isplitl [Hk]
  · iintro H; rw [wp_ret]; iapply Hk; iexact H
  iexact Hrest

/-- What @main leaves the claims: every unscoped buffer at the last boundary's contents, for some counts the tiles
    wrote and some arrays the two pipelines may have left. -/
def FIN (R1 : R1Data F) (d : Dev nD) : sProp 𝕄 :=
  iprop(∃ (g : Buf (Elt F) (cLoc d))
      (Fs1 : (w : Fin cfg1.W) → Buf (Elt F) ((cfg1.win w).arr.view.loc (d.tc : Thread nD τ)))
      (Fs2 : (w : Fin cfg2.W) → Buf (Elt F) ((cfg2.win w).arr.view.loc (d.tc : Thread nD τ))),
    ⌜CountsDone m d g ∧ (∀ w, (R1.rd (V1 m d g) (Bnd (F := F) d) d).ArrAt w cfg1.N (Fs1 w))
      ∧ (∀ w, (dat2 (V3 m d g Fs1) (Bnd (F := F) d) d).toR.ArrAt w cfg2.N (Fs2 w))⌝
    ∗ held (T d) (Pipeline.ucRefs τ sig) (W5 m d g Fs1 Fs2))

set_option backward.isDefEq.respectTransparency.types false in
theorem hmain (R1 : R1Data F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R1 d) := by
  unfold SparseCore.Cfg.tcRes
  rw [show (unscopedBufs d (fun b => m ((SparseCore.T d).loc b)) : sProp 𝕄) = held (T d) (Pipeline.ucRefs τ sig) (W0 m d)
    from Pipeline.unscopedBufs_held d (W0 m d)]
  simp only [main, wp_bind, wp_pure]
  iintro ⟨#Hctx, Hst, ⟨Hbd, Hheld, -, Hprng⟩, HG⟩
  ihave Hh := (Entails.of_eq (held_sub_split (T d) S2_sub (W0 m d))) $$ Hheld
  icases Hh with ⟨H2, Hrest⟩
  ihave H2' := (Entails.of_eq (held_S2 (F := F) d (W0 m d))) $$ H2
  ihave Hst0 := (st_intro m d (W0 m d c')) $$ H2'
  icases Hst0 with ⟨Hdrop, Hsts⟩
  -- the SparseCore call
  iapply ((K (F := F)).wp_run (D (F := F)) 𝒱 (EH := EH) (P := P m) κ d 0) $$ [Hst Hsts Hbd Hrest Hprng HG Hdrop]
  isplitr; · iexact Hctx
  isplitl [Hst]; · iexact Hst
  isplitl [Hsts]; · iexact Hsts
  iintro ⟨Hst, Hdn⟩
  ihave Hdn' := (dn_elim m d) $$ [Hdrop Hdn]
  · isplitl [Hdrop]; · iexact Hdrop
    iexact Hdn
  icases Hdn' with ⟨Hb, %g, %hg, Hc⟩
  ihave Hheld := (held_W1 m d g) $$ [Hb Hc Hrest]
  · isplitl [Hb]; · iexact Hb
    isplitl [Hc]; · iexact Hc
    iexact Hrest
  ihave Hst1 := (show ((K (F := F)).tcSt EH d ((0 : Fin 1).val + 1) : sProp 𝕄) ⊢ (K (F := F)).tcSt EH d 1 from .rfl) $$ Hst
  ihave Hst' := (tcSt_open (F := F) d) $$ Hst1
  icases Hst' with ⟨Howes, Hk⟩
  ihave Hlev := ((K (F := F)).ctx_levAts (EH := EH) (P := P m) κ) $$ Hctx
  unfold G
  ihave HG' := (Entails.of_eq (bigSep_univ_two _)) $$ HG
  icases HG' with ⟨⟨Hcg0, Htk0⟩, ⟨Hcg1, Htk1⟩⟩
  -- the accumulating pipeline
  iapply ((K (F := F)).wp_liftProg (D (F := F)) 𝒱 (SparseCore.T d) Set.univ none (Prog.lift (.customCall (Pipeline.entry (0 : Fin 2)) ())) _)
  iapply (wp_regionA R1 d (W1 m d g) (V1 m d g) (Bnd (F := F) d) (waitPairs_sub cfg1 d) _) $$ [Hbd Hheld Hprng Howes Hcg0 Htk0 Hk Hcg1 Htk1]
  isplitl [Hk Hcg1 Htk1]
  swap
  · isplitl [Hbd]; · iexact Hbd
    isplitl [Hheld Hprng Howes]
    · iapply (show (iprop(held (SparseCore.T d) (Pipeline.ucRefs τ sig) (W1 m d g) ∗ Rst (Bnd (F := F) d) d) : sProp 𝕄)
          ⊢ (regA R1 (K (F := F)).L (K (F := F)).lev (fun _ => W1 m d g) (V1 m d g) (Bnd (F := F) d) (waitPairs_sub cfg1 d)).pre d from .rfl)
      isplitl [Hheld]; · iexact Hheld
      isplitl [Hprng]; · iexists _; iexact Hprng
      iexact Howes
    isplitr; · iexact Hlev
    isplitl [Hcg0]; · iexact Hcg0
    iexact Htk0
  iintro ⟨Hbd, Hpost⟩
  ihave Hpost' := (show ((regA R1 (K (F := F)).L (K (F := F)).lev (fun _ => W1 m d g) (V1 m d g) (Bnd (F := F) d) (waitPairs_sub cfg1 d)).post d : sProp 𝕄)
      ⊢ iprop(∃ Fs : (w : Fin cfg1.W) → Buf (Elt F) ((cfg1.win w).arr.view.loc (d.tc : Thread nD τ)),
          ⌜∀ w, (R1.rd (V1 m d g) (Bnd (F := F) d) d).ArrAt w cfg1.N (Fs w)⌝
          ∗ held (SparseCore.T d) (Pipeline.ucRefs τ sig) (W2 m d g Fs) ∗ Rst (Bnd (F := F) d) d) from .rfl) $$ Hpost
  icases Hpost' with ⟨%Fs1, %hFs1, Hheld, ⟨%r1, Hprng⟩, Howes⟩
  imodintro
  -- the reshape of the bias
  iapply (wp_hlo_within 𝒱 (SparseCore.T d) none Set.univ (op := opR (F := F)) (S := Pipeline.ucRefs τ sig) opR_sub (V := W2 m d g Fs1)) $$ [Hbd Hheld]
  · isplitl [Hbd]; · iexact Hbd
    iexact Hheld
  iintro ⟨Hbd, Hheld⟩
  rw [wp_ret]; imodintro
  -- the combining pipeline
  iapply ((K (F := F)).wp_liftProg (D (F := F)) 𝒱 (SparseCore.T d) Set.univ none (Prog.lift (.customCall (Pipeline.entry (1 : Fin 2)) ())) _)
  iapply (wp_regionB R1 d (V1 m d g) (W3 m d g Fs1) (Bnd (F := F) d) (waitPairs_sub cfg2 d) _) $$ [Hbd Hheld Hprng Howes Hk Hcg1 Htk1]
  isplitl [Hk]
  swap
  · isplitl [Hbd]; · iexact Hbd
    isplitl [Hheld Hprng Howes]
    · iapply (show (iprop(held (SparseCore.T d) (Pipeline.ucRefs τ sig) (W3 m d g Fs1) ∗ Rst (Bnd (F := F) d) d) : sProp 𝕄)
          ⊢ (regB R1 (K (F := F)).L (K (F := F)).lev (V1 m d g) (fun _ => W3 m d g Fs1) (Bnd (F := F) d) (waitPairs_sub cfg2 d)).pre d from .rfl)
      isplitl [Hheld]; · iexact Hheld
      isplitl [Hprng]; · iexists _; iexact Hprng
      iexact Howes
    isplitr; · iexact Hlev
    isplitl [Hcg1]; · iexact Hcg1
    iexact Htk1
  iintro ⟨Hbd, Hpost⟩
  ihave Hpost' := (show ((regB R1 (K (F := F)).L (K (F := F)).lev (V1 m d g) (fun _ => W3 m d g Fs1) (Bnd (F := F) d) (waitPairs_sub cfg2 d)).post d : sProp 𝕄)
      ⊢ iprop(∃ Fs : (w : Fin cfg2.W) → Buf (Elt F) ((cfg2.win w).arr.view.loc (d.tc : Thread nD τ)),
          ⌜∀ w, (dat2 (V3 m d g Fs1) (Bnd (F := F) d) d).toR.ArrAt w cfg2.N (Fs w)⌝
          ∗ held (SparseCore.T d) (Pipeline.ucRefs τ sig) (W4 m d g Fs1 Fs) ∗ Rst (Bnd (F := F) d) d) from .rfl) $$ Hpost
  icases Hpost' with ⟨%Fs2, %hFs2, Hheld, ⟨%r2, Hprng⟩, Howes⟩
  imodintro
  -- the transpose
  iapply (wp_hlo_within 𝒱 (SparseCore.T d) none Set.univ (op := opT (F := F)) (S := Pipeline.ucRefs τ sig) opT_sub (V := W4 m d g Fs1 Fs2)) $$ [Hbd Hheld]
  · isplitl [Hbd]; · iexact Hbd
    iexact Hheld
  iintro ⟨Hbd, Hheld⟩
  rw [wp_ret]; imodintro; imodintro
  isplitl [Hk Howes]; · iapply Hk; iexact Howes
  unfold FIN
  iexists g, Fs1, Fs2
  isplitr
  · ipureintro; exact ⟨hg, hFs1, hFs2⟩
  · iexact Hheld

end Cert.Proof.Kernel
end
-- ==== Proof.Kernel.LaunchValsRead.lean ====
/-
  The boundary contents of @main read at the buffers the value proof names: the five arguments at the return are the
  launch memory's (no stage writes an argument: a pipeline leaves its input arrays as entered, the reshape writes the
  bias column, the transpose the result); the result is the transpose of what the combining pipeline leaves in its
  output array; and what the two pipelines find in the counts array, the sums array, the bias column and the arguments.
-/
import proofs.«211348_g14766097563893_cont_week2b_353_46_alg».proof.Proof.Kernel.LaunchVals

noncomputable section

namespace Cert.Proof.Kernel

open Cert.Kernel Cert.Kernel.Gen
open Idealize.ShloMosaic
open Idealize.ShloMosaic.SparseCore (S V T)
open Idealize.SL.Sem
open Idealize.ShloMosaic.TcCoe

variable {F : FTy → Type} [FloatOps F]

variable (m : (ℓ : Loc nD τ sig) → Buf (Elt F) ℓ)
variable (d : Dev nD) (g : Buf (Elt F) (cLoc d))
  (Fs1 : (w : Fin cfg1.W) → Buf (Elt F) ((cfg1.win w).arr.view.loc (d.tc : Thread nD τ)))
  (Fs2 : (w : Fin cfg2.W) → Buf (Elt F) ((cfg2.win w).arr.view.loc (d.tc : Thread nD τ)))

/-! ## One stage at a time -/

theorem W1_of_ne (b : Ref sig .tc) (hb : b ≠ main_v0) :
    W1 m d g (Proc.devRef .tc b) = m ((d.tc : Thread nD τ).loc b) := by
  unfold W1
  rw [Function.update_of_ne (StableHlo.devRef_ne_of_ne hb)]

theorem W1_v0 : W1 m d g (Proc.devRef .tc main_v0) = g := by
  unfold W1
  exact Function.update_self _ _ _

theorem W2_arr (w : Fin cfg1.W) : W2 m d g Fs1 (Proc.devRef .tc (Pipeline.arrRef spec1 w)) = Fs1 w := by
  unfold W2; exact Pipeline.withArrays_arr spec1 launch1.win.arr_inj d _ _ w
theorem W2_of_ne (b : Ref sig .tc) (hb : ∀ w, Pipeline.arrRef spec1 w ≠ b) :
    W2 m d g Fs1 (Proc.devRef .tc b) = W1 m d g (Proc.devRef .tc b) := by
  unfold W2; exact Pipeline.withArrays_of_ne spec1 d _ _ b hb

theorem W3_of_ne (b : Ref sig .tc) (hb : b ≠ main_v2) :
    W3 m d g Fs1 (Proc.devRef .tc b) = W2 m d g Fs1 (Proc.devRef .tc b) := by
  unfold W3
  exact (opR (F := F)).result_of_not_mem _ (by
    rw [show (opR (F := F)).writes = {Proc.devRef .tc main_v2} from rfl, Finset.mem_singleton]
    exact StableHlo.devRef_ne_of_ne hb)

theorem W4_arr (w : Fin cfg2.W) : W4 m d g Fs1 Fs2 (Proc.devRef .tc (Pipeline.arrRef spec2 w)) = Fs2 w := by
  unfold W4; exact Pipeline.withArrays_arr spec2 launch2.win.arr_inj d _ _ w
theorem W4_of_ne (b : Ref sig .tc) (hb : ∀ w, Pipeline.arrRef spec2 w ≠ b) :
    W4 m d g Fs1 Fs2 (Proc.devRef .tc b) = W3 m d g Fs1 (Proc.devRef .tc b) := by
  unfold W4; exact Pipeline.withArrays_of_ne spec2 d _ _ b hb

theorem W5_of_ne (b : Ref sig .tc) (hb : b ≠ main_v4) :
    W5 m d g Fs1 Fs2 (Proc.devRef .tc b) = W4 m d g Fs1 Fs2 (Proc.devRef .tc b) := by
  unfold W5
  exact (opT (F := F)).result_of_not_mem _ (by
    rw [show (opT (F := F)).writes = {Proc.devRef .tc main_v4} from rfl, Finset.mem_singleton]
    exact StableHlo.devRef_ne_of_ne hb)

/-! ## The arguments at the return -/

/-- A buffer no stage writes and no pipeline holds as an array keeps the launch memory's contents to the return. -/
theorem W5_bypass (b : Ref sig .tc) (h4 : b ≠ main_v4) (hs2 : ∀ w, Pipeline.arrRef spec2 w ≠ b) (h2 : b ≠ main_v2)
    (hs1 : ∀ w, Pipeline.arrRef spec1 w ≠ b) (h0 : b ≠ main_v0) :
    W5 m d g Fs1 Fs2 (Proc.devRef .tc b) = m ((d.tc : Thread nD τ).loc b) := by
  rw [W5_of_ne m d g Fs1 Fs2 b h4, W4_of_ne m d g Fs1 Fs2 b hs2, W3_of_ne m d g Fs1 b h2, W2_of_ne m d g Fs1 b hs1,
    W1_of_ne m d g b h0]

/-- An input array of the accumulating pipeline, left as entered, keeps the launch memory's contents to the return. -/
theorem W5_input1 (w : Fin cfg1.W) (hw : (cfg1.win w).isOut = false)
    (hin1 : ∀ w, (cfg1.win w).isOut = false → Fs1 w = W1 m d g (Proc.devRef .tc (Pipeline.arrRef spec1 w)))
    (h4 : Pipeline.arrRef spec1 w ≠ main_v4) (hs2 : ∀ w', Pipeline.arrRef spec2 w' ≠ Pipeline.arrRef spec1 w)
    (h2 : Pipeline.arrRef spec1 w ≠ main_v2) (h0 : Pipeline.arrRef spec1 w ≠ main_v0) :
    W5 m d g Fs1 Fs2 (Proc.devRef .tc (Pipeline.arrRef spec1 w)) = m ((d.tc : Thread nD τ).loc (Pipeline.arrRef spec1 w)) := by
  rw [W5_of_ne m d g Fs1 Fs2 _ h4, W4_of_ne m d g Fs1 Fs2 _ hs2, W3_of_ne m d g Fs1 _ h2, W2_arr m d g Fs1 w, hin1 w hw,
    W1_of_ne m d g _ h0]

variable (hin1 : ∀ w, (cfg1.win w).isOut = false → Fs1 w = W1 m d g (Proc.devRef .tc (Pipeline.arrRef spec1 w)))
include hin1

theorem W5_main_arg0 : W5 m d g Fs1 Fs2 (Proc.devRef .tc main_arg0) = m ((d.tc : Thread nD τ).loc main_arg0) :=
  W5_input1 m d g Fs1 Fs2 0 rfl hin1 (by decide) (by decide) (by decide) (by decide)
theorem W5_main_arg2 : W5 m d g Fs1 Fs2 (Proc.devRef .tc main_arg2) = m ((d.tc : Thread nD τ).loc main_arg2) :=
  W5_input1 m d g Fs1 Fs2 1 rfl hin1 (by decide) (by decide) (by decide) (by decide)
theorem W5_main_arg3 : W5 m d g Fs1 Fs2 (Proc.devRef .tc main_arg3) = m ((d.tc : Thread nD τ).loc main_arg3) :=
  W5_input1 m d g Fs1 Fs2 2 rfl hin1 (by decide) (by decide) (by decide) (by decide)
omit hin1 in
theorem W5_main_arg1 : W5 m d g Fs1 Fs2 (Proc.devRef .tc main_arg1) = m ((d.tc : Thread nD τ).loc main_arg1) :=
  W5_bypass m d g Fs1 Fs2 main_arg1 (by decide) (by decide) (by decide) (by decide) (by decide)
omit hin1 in
theorem W5_main_arg4 : W5 m d g Fs1 Fs2 (Proc.devRef .tc main_arg4) = m ((d.tc : Thread nD τ).loc main_arg4) :=
  W5_bypass m d g Fs1 Fs2 main_arg4 (by decide) (by decide) (by decide) (by decide) (by decide)

omit hin1 in
/-- The result: the transpose of what the combining pipeline leaves in its output array. -/
theorem W5_v4 : W5 m d g Fs1 Fs2 (Proc.devRef .tc main_v4)
    = transpose S64x2 [1, 0] (Fs2 3) transposes_S2x64_S64x2_1_0 := by
  unfold W5
  refine (StableHlo.unary_result main_v3 main_v4 _ _ _ _).trans ?_
  exact congrArg (fun z => transpose S64x2 [1, 0] z transposes_S2x64_S64x2_1_0) (W4_arr m d g Fs1 Fs2 3)

/-! ## What the pipelines find -/

omit hin1 in
theorem V3_v0 : V3 m d g Fs1 d main_v0 = g := by
  show W3 m d g Fs1 (Proc.devRef .tc main_v0) = g
  rw [W3_of_ne m d g Fs1 main_v0 (by decide), W2_of_ne m d g Fs1 main_v0 (by decide), W1_v0]

omit hin1 in
theorem V3_v1 : V3 m d g Fs1 d main_v1 = Fs1 3 := by
  show W3 m d g Fs1 (Proc.devRef .tc main_v1) = Fs1 3
  rw [W3_of_ne m d g Fs1 main_v1 (by decide)]
  exact W2_arr m d g Fs1 3

omit hin1 in
theorem V3_v2 : V3 m d g Fs1 d main_v2
    = shapeCast S2x1 (m ((d.tc : Thread nD τ).loc main_arg4)) shapeCasts_S2_S2x1 := by
  show W3 m d g Fs1 (Proc.devRef .tc main_v2) = _
  unfold W3
  rw [StableHlo.reshape_result, W2_of_ne m d g Fs1 main_arg4 (by decide), W1_of_ne m d g main_arg4 (by decide)]
  rfl

omit hin1 in
theorem V1_arg0 : V1 m d g d main_arg0 = m ((d.tc : Thread nD τ).loc main_arg0) := W1_of_ne m d g main_arg0 (by decide)
omit hin1 in
theorem V1_arg2 : V1 m d g d main_arg2 = m ((d.tc : Thread nD τ).loc main_arg2) := W1_of_ne m d g main_arg2 (by decide)
omit hin1 in
theorem V1_arg3 : V1 m d g d main_arg3 = m ((d.tc : Thread nD τ).loc main_arg3) := W1_of_ne m d g main_arg3 (by decide)

end Cert.Proof.Kernel

end
-- ==== Proof.PreFacts.lean ====
/- What the precondition says of the five arrays: every segment word is a segment number below 64, and (at the ideal
   instance) every entry of the three float arrays is a real. Decoded from the printed predicate: a conjunction of
   all-quantified comparisons, each a reduction by `and` from the constant one. -/
import proofs.«211348_g14766097563893_cont_week2b_353_46_alg».proof.Pre_input_domain
import proofs.«211348_g14766097563893_cont_week2b_353_46_alg».proof.Proof.Gen.Pre_input_domain
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Pre_input_domain Cert.Pre_input_domain.Gen

abbrev S50000x1024 : Shape := ⟨2, ![50000, 1024]⟩
abbrev S2x800000 : Shape := ⟨2, ![2, 800000]⟩
abbrev S50000 : Shape := ⟨1, ![50000]⟩
abbrev S2x1024 : Shape := ⟨2, ![2, 1024]⟩
abbrev S2 : Shape := ⟨1, ![2]⟩
abbrev S_ : Shape := ⟨0, ![]⟩

instance : Subsingleton S_.Idx := ⟨fun a b => funext fun d => d.elim0⟩

variable {F : FTy → Type} [FloatOps F]

/-- The predicate's conjuncts, one per all-quantified comparison. -/
theorem decode (x : FVec F S50000x1024 .f32) (e : IVec S2x800000 32) (bt : IVec S50000 32) (W : FVec F S2x1024 .f32)
    (b : FVec F S2 .f32) (h : Cert.Pre_input_domain.fn (F := F) x e bt W b = fun _ => 1#1) :
    (∀ i, FloatOps.cmpf .olt (FloatOps.hostAbsf (x i)) (FloatOps.ofBits (F := F) .f32 0x7F800000#32) = 1#1)
    ∧ (∀ i, FloatOps.cmpf .olt (FloatOps.hostAbsf (W i)) (FloatOps.ofBits (F := F) .f32 0x7F800000#32) = 1#1)
    ∧ (∀ i, FloatOps.cmpf .olt (FloatOps.hostAbsf (b i)) (FloatOps.ofBits (F := F) .f32 0x7F800000#32) = 1#1)
    ∧ (∀ i, IntOp.cmpi .sge (bt i) 0#32 = 1#1 ∧ IntOp.cmpi .sle (bt i) 63#32 = 1#1) := by
  have h0 := congrFun h ix0
  dsimp only [Cert.Pre_input_domain.fn, Cert.Pre_input_domain.fn_part1] at h0
  obtain ⟨h20, h26⟩ := IntOp.andi_eq_one.1 h0
  obtain ⟨h13, h19⟩ := IntOp.andi_eq_one.1 h20
  obtain ⟨h8, h12⟩ := IntOp.andi_eq_one.1 h13
  obtain ⟨h3, h7⟩ := IntOp.andi_eq_one.1 h8
  refine ⟨fun i => ?_, fun i => ?_, fun i => ?_, fun i => ?_⟩
  · exact Host.reduce_andi_all _ _ _ _ _ h3 i
  · exact Host.reduce_andi_all _ _ _ _ _ h7 i
  · exact Host.reduce_andi_all _ _ _ _ _ h12 i
  · exact IntOp.andi_eq_one.1 (Host.reduce_andi_all _ _ _ _ _ h26 i)

/-- Every segment word is a segment number below 64. -/
theorem batch_lt (x : FVec F S50000x1024 .f32) (e : IVec S2x800000 32) (bt : IVec S50000 32) (W : FVec F S2x1024 .f32)
    (b : FVec F S2 .f32) (h : Cert.Pre_input_domain.fn (F := F) x e bt W b = fun _ => 1#1) : ∀ i, (bt i).toNat < 64 := by
  intro i
  obtain ⟨hge, hle⟩ := (decode x e bt W b h).2.2.2 i
  rw [IntOp.cmpi_sge] at hge
  rw [IntOp.cmpi_sle] at hle
  have z : (0#32 : BitVec 32).toInt = 0 := by decide
  have s : (63#32 : BitVec 32).toInt = 63 := by decide
  rw [z] at hge
  rw [s] at hle
  have hw : (bt i).toNat < 2 ^ 32 := (bt i).isLt
  rw [BitVec.toInt_eq_toNat_cond] at hge hle
  split at hge <;> omega

/-! ## At the ideal instance: the float entries are reals -/

/-- An extended real whose absolute value is below the f32 infinity pattern's value is a real. -/
theorem real_of_abs_lt (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  have hinf : Ideal.ofBits .f32 0x7F800000#32 = ⊤ := by simp [Ideal.ofBits, Ideal.ieee]
  have h' : max v (-v) < (⊤ : EReal) := by
    have h1 : Ideal.cmp .olt (max v (-v)) (Ideal.ofBits .f32 0x7F800000#32) = 1#1 := h
    rw [hinf] at h1
    by_contra hn
    have : Ideal.cmp .olt (max v (-v)) ⊤ = 0#1 := by simp [Ideal.cmp, hn]
    rw [this] at h1
    exact absurd h1 (by decide)
  induction v using EReal.rec with
  | bot => simp at h'
  | coe r => exact ⟨r, rfl⟩
  | top => simp at h'

theorem finite_x (x : FVec Ideal S50000x1024 .f32) (e : IVec S2x800000 32) (bt : IVec S50000 32) (W : FVec Ideal S2x1024 .f32)
    (b : FVec Ideal S2 .f32) (h : Cert.Pre_input_domain.fn (F := Ideal) x e bt W b = fun _ => 1#1) :
    ∀ i, ∃ r : ℝ, x i = (r : EReal) :=
  fun i => real_of_abs_lt _ ((decode x e bt W b h).1 i)

theorem finite_W (x : FVec Ideal S50000x1024 .f32) (e : IVec S2x800000 32) (bt : IVec S50000 32) (W : FVec Ideal S2x1024 .f32)
    (b : FVec Ideal S2 .f32) (h : Cert.Pre_input_domain.fn (F := Ideal) x e bt W b = fun _ => 1#1) :
    ∀ i, ∃ r : ℝ, W i = (r : EReal) :=
  fun i => real_of_abs_lt _ ((decode x e bt W b h).2.1 i)

theorem finite_b (x : FVec Ideal S50000x1024 .f32) (e : IVec S2x800000 32) (bt : IVec S50000 32) (W : FVec Ideal S2x1024 .f32)
    (b : FVec Ideal S2 .f32) (h : Cert.Pre_input_domain.fn (F := Ideal) x e bt W b = fun _ => 1#1) :
    ∀ i, ∃ r : ℝ, b i = (r : EReal) :=
  fun i => real_of_abs_lt _ ((decode x e bt W b h).2.2.1 i)

end Cert.PreFacts

end
-- ==== Proof.Kernel.PreBridge.lean ====
/-
  The certificate's precondition, read on the kernel's memory: every segment id names one of the sixty-four counters.
  Stated for either float instance: the integer part of the precondition does not depend on it.
-/
import proofs.«211348_g14766097563893_cont_week2b_353_46_alg».proof.Proof.Kernel.TileDefs
import proofs.«211348_g14766097563893_cont_week2b_353_46_alg».proof.Proof.PreFacts

noncomputable section

namespace Cert.Proof.Kernel

open Cert.Kernel Cert.Kernel.Gen
open Idealize.ShloMosaic
open Idealize.SL.Sem

variable {F : FTy → Type} [FloatOps F]

theorem preOK_of (m : (ℓ : Loc nD τ sig) → Buf (Elt F) ℓ)
    (h : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1) :
    PreOK m :=
  fun d i => Cert.PreFacts.batch_lt _ _ _ _ _ (h d) i

end Cert.Proof.Kernel

end
-- ==== Proof.Kernel.Run.lean ====
/-
  The kernel program's run: the launch of the SparseCore call and the TensorCore's @main composed into one statement
  about every weakly fair execution of all the threads — it terminates, nothing faults, and the final memory holds every
  unscoped buffer at the last boundary's contents — and, from it, that the arguments end as launched.
-/
import proofs.«211348_g14766097563893_cont_week2b_353_46_alg».proof.Proof.Kernel.LaunchMain
import proofs.«211348_g14766097563893_cont_week2b_353_46_alg».proof.Proof.Kernel.LaunchValsRead
import proofs.«211348_g14766097563893_cont_week2b_353_46_alg».proof.Proof.Kernel.PreBridge

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.Kernel.main_arg2_scv : Memref Cert.Kernel.sig Kind.scVector Space.hbm Cert.Kernel.S50000 EltTy.i32)
local notation "cW" => (Memref.whole Cert.Kernel.main_v0_scv : Memref Cert.Kernel.sig Kind.scVector Space.hbm Cert.Kernel.S2048 EltTy.f32)
local notation "s0W" => (Memref.whole Cert.Kernel.cc0_scratch0 : Memref Cert.Kernel.sig Kind.scVector Space.vmem Cert.Kernel.S1568 EltTy.i32)
local notation "s1W" => (Memref.whole Cert.Kernel.cc0_scratch1 : Memref Cert.Kernel.sig Kind.scVector Space.vmem Cert.Kernel.S64 EltTy.f32)

variable [FloatOps F]

open Idealize.ShloMosaic.StableHlo (held)
open Idealize.ShloMosaic.TcCoe

variable (ρ : Dev nD → PrngReg) [FloatOps F]

/-- What a final state tells of device `d`: some counts the tiles wrote, some arrays the pipelines may have left, and
    every unscoped buffer at the contents they determine. -/
def fq (R1 : R1Data F) (d : Dev nD) (s' : Phys nD τ sig (Elt F)) : Prop :=
  ∃ (g : Buf (Elt F) (cLoc d))
    (Fs1 : (w : Fin cfg1.W) → Buf (Elt F) ((cfg1.win w).arr.view.loc (d.tc : Thread nD τ)))
    (Fs2 : (w : Fin cfg2.W) → Buf (Elt F) ((cfg2.win w).arr.view.loc (d.tc : Thread nD τ))),
    (CountsDone m d g ∧ (∀ w, (R1.rd (V1 m d g) (Bnd (F := F) d) d).ArrAt w cfg1.N (Fs1 w))
      ∧ (∀ w, (dat2 (V3 m d g Fs1) (Bnd (F := F) d) d).toR.ArrAt w cfg2.N (Fs2 w)))
    ∧ ∀ b ∈ Pipeline.ucRefs τ sig, s'.mem.mem ((d : Dev nD), b) = W5 m d g Fs1 Fs2 b

theorem hfin (R1 : R1Data F) (d : Dev nD) (s' : Phys nD τ sig (Elt F)) : iprop(FIN m R1 d ∗ SI s') ⊢ (⌜fq m R1 d s'⌝ : sProp 𝕄) := by
  unfold FIN
  iintro ⟨⟨%g, %Fs1, %Fs2, %h, Hh⟩, HSI⟩
  unfold held
  ihave H := (pointsTo_read_all (Pipeline.ucRefs τ sig) (fun b => ((d : Dev nD), b)) (W5 m d g Fs1 Fs2) s') $$ [Hh HSI]
  · isplitl [Hh] <;> iassumption
  icases H with ⟨%h2, -⟩
  ipureintro; exact ⟨g, Fs1, Fs2, h, h2⟩

def QC (R1 : R1Data F) : PUnit × MemSt nD τ sig (Elt F) → Prop := fun r => ∀ d : Dev nD,
  ∃ (g : Buf (Elt F) (cLoc d))
    (Fs1 : (w : Fin cfg1.W) → Buf (Elt F) ((cfg1.win w).arr.view.loc (d.tc : Thread nD τ)))
    (Fs2 : (w : Fin cfg2.W) → Buf (Elt F) ((cfg2.win w).arr.view.loc (d.tc : Thread nD τ))),
    (CountsDone m d g ∧ (∀ w, (R1.rd (V1 m d g) (Bnd (F := F) d) d).ArrAt w cfg1.N (Fs1 w))
      ∧ (∀ w, (dat2 (V3 m d g Fs1) (Bnd (F := F) d) d).toR.ArrAt w cfg2.N (Fs2 w)))
    ∧ ∀ b ∈ Pipeline.ucRefs τ sig, r.2.mem ((d : Dev nD), b) = W5 m d g Fs1 Fs2 b

/-- THE RUN: under the precondition's range of the segment ids, every weakly fair execution of the device's threads —
    the TensorCore's @main, the two sequencers, the thirty-two tiles — terminates, nothing faulting, and every final
    memory is as `QC` says. -/
theorem run_main [∀ e, Nonempty (Elt F e)] (R1 : R1Data F) (hpre : PreOK m) :
    θ_run (Cert.Kernel.defs (F := F)) (Cert.Kernel.threads (F := F)) ⟨m, fun _ => 0, ρ⟩ (QC m R1) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m R1) (u₀ (F := F)) (hu₀ m) (hmain m ρ R1) (fq m R1) (hfin m R1) (QC m R1) (fun _ h => h)

omit [FloatOps F] in
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An input array of the accumulating pipeline ends as it was entered. -/
theorem hin1 (R1 : R1Data F) (B : Set (SemLoc sig × HIx 1)) (d : Dev nD) (g : Buf (Elt F) (cLoc d))
    (Fs1 : (w : Fin cfg1.W) → Buf (Elt F) ((cfg1.win w).arr.view.loc (d.tc : Thread nD τ)))
    (h1 : ∀ w, (R1.rd (V1 m d g) B d).ArrAt w cfg1.N (Fs1 w)) :
    ∀ w, (cfg1.win w).isOut = false → Fs1 w = W1 m d g (Proc.devRef .tc (Pipeline.arrRef spec1 w)) := fun w hw => by
  have h := h1 w
  rw [(R1.rd (V1 m d g) B d).ArrAt_in w hw] at h
  exact h.trans (R1.hA _ _ _ w)

/-- THE FRAME's post from the run's: every argument array ends as launched. -/
theorem args_of_QC (R1 : R1Data F) {r : PUnit × MemSt nD τ sig (Elt F)} (h : QC m R1 r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  obtain ⟨g, Fs1, Fs2, ⟨_, h1, _⟩, hb⟩ := h c
  have hin := hin1 m R1 _ c g Fs1 h1
  exact ⟨(hb _ (mem_uc main_arg0 (by decide))).trans (W5_main_arg0 m c g Fs1 Fs2 hin),
    (hb _ (mem_uc main_arg1 (by decide))).trans (W5_main_arg1 m c g Fs1 Fs2),
    (hb _ (mem_uc main_arg2 (by decide))).trans (W5_main_arg2 m c g Fs1 Fs2 hin),
    (hb _ (mem_uc main_arg3 (by decide))).trans (W5_main_arg3 m c g Fs1 Fs2 hin),
    (hb _ (mem_uc main_arg4 (by decide))).trans (W5_main_arg4 m c g Fs1 Fs2)⟩

/-- THE FRAME at either instance: under the precondition every weakly fair execution terminates, nothing faulting, the
    arguments unchanged. -/
theorem frame_run [∀ e, Nonempty (Elt F e)] (hpre : PreOK m) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.Kernel.defs (F := F)) _ _).mono (fun _ h c => args_of_QC m r1Frame h c) (run_main m ρ r1Frame hpre)

end Cert.Proof.Kernel
end
-- ==== Proof.KernelIdeal.Setup.lean ====
/-
  The common setting of the kernel program's run: the program as a SparseCore launch sees it (one vector-subcore
  call over two SparseCores of sixteen tiles, two TensorCore pipelines after it), the ghost state (the launch
  handshakes' rounds, the pipelines' staging cells' rounds, the counters of the tiles' own copies), the arrays'
  locations, and the pure functions the three kernels compute.
-/
import proofs.«211348_g14766097563893_cont_week2b_353_46_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«211348_g14766097563893_cont_week2b_353_46_alg».proof.Proof.Gen.KernelIdeal
import proofs.«211348_g14766097563893_cont_week2b_353_46_alg».proof.Proof.Gen.KernelIdeal.Skeleton
import proofs.«211348_g14766097563893_cont_week2b_353_46_alg».proof.Proof.Gen.KernelIdeal.Launch
import proofs.«211348_g14766097563893_cont_week2b_353_46_alg».proof.Proof.Gen.KernelIdeal.Points

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof.KernelIdeal

end
-- ==== Proof.KernelIdeal.TileDefs.lean ====
/-
  One tile's task of the counting kernel: it copies its chunk of the segment ids into its own memory, clears its
  sixty-four counters, adds one to the counter each id names, sixteen ids at a time, and copies the counters out to its
  sixty-four words of the per-tile counts array. Stated once for every tile and either float instance: what the tile
  leaves is named by the fold of the indexed add over the chunk's vectors (`CntUpTo`), and every id it reads is one of
  the segment-id array's own words at the tile's offset (`ChunkHeld`).
-/
import proofs.«211348_g14766097563893_cont_week2b_353_46_alg».proof.Proof.KernelIdeal.Setup
import Idealize.ShloMosaic.Lib.ValueIdx

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

/-- The segment ids and the per-tile counts, as locations of device `d`. -/
abbrev bLoc (d : Dev nD) : Loc nD τ sig := (SparseCore.T d).loc main_arg2
abbrev cLoc (d : Dev nD) : Loc nD τ sig := (SparseCore.T d).loc main_v0

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)
/-- The tile's number among the thirty-two. -/
abbrev wid (L : grid0.Coords) : ℕ := 16 * (L 0).val + (L 1).val

/-- The sixty-four words of the counts array a tile writes, as the kernel slices them. -/
abbrev cSl (L : grid0.Coords) : Memref sig .scVector .hbm S64 .f32 :=
  (cW).slice (Rect.unit (s := S2048) (k0_off4 L) S64.size (k0_off4_inb L)) (fun _ => rfl)

/-- How many vectors of sixteen ids the tile counts: the last tile's chunk is shorter. -/
theorem trips_eq : ∀ L : grid0.Coords, (k0_t1_loop L).trips = if wid L = 31 then 87 else 98 := by decide +kernel
theorem trips2_eq (L : grid0.Coords) : (k0_t2_loop L).trips = 0 := Nat.le_zero.mp (k0_t2_abs L).2.1
theorem cond1_iff : ∀ L : grid0.Coords, k0_cond1 L = 1#1 ↔ wid L ≠ 31 := by decide +kernel
theorem cond2_iff : ∀ L : grid0.Coords,
    (Scalar.cmpi .ne (Scalar.extui (Scalar.cmpi .eq (Scalar.addi (Scalar.muli (BitVec.ofNat 32 (L 0).val) 16#32) (BitVec.ofNat 32 (L 1).val)) 31#32)) 0#32 = 1#1) ↔ wid L = 31 := by
  decide +kernel

/-- The `k`-th vector of sixteen ids of the tile's chunk, as the counting loop loads it. -/
abbrev vecAt (s : Buf (Elt F) ((thrV d L).loc cc0_scratch0)) (k : Fin (k0_t1_loop L).trips) : IVec S16 32 :=
  (s0W).view.readAt (Elt F) (Rect.unit (s := S1568) (k0_off2 L k) S16.size (k0_off2_inb L k)).toLoadRect s

/-- One trip of the counting loop on the counters: one added at the counter each of the sixteen ids names. -/
def stepG (s : Buf (Elt F) ((thrV d L).loc cc0_scratch0)) (g : Buf (Elt F) ((thrV d L).loc cc0_scratch1)) (k : Fin (k0_t1_loop L).trips)
    (h : k0_chk1 (vecAt (F := F) d L s k)) : Buf (Elt F) ((thrV d L).loc cc0_scratch1) :=
  ((s1W).access (.whole S64)).write (Elt F) g
    (storeIdx (((s1W).access (.whole S64)).read (Elt F) g) ![vecAt (F := F) d L s k] (k0_pay2 (F := F)) (fun _ => 1#1) true (k0_idx1_inb _ h)) Finset.univ

/-- The counters after `n` trips over the chunk `s`: cleared, then `n` trips' adds. -/
def CntUpTo (s : Buf (Elt F) ((thrV d L).loc cc0_scratch0)) : ℕ → Buf (Elt F) ((thrV d L).loc cc0_scratch1) → Prop
  | 0, g => ∀ j, g j = Scalar.ofBits .f32 0x00000000#32
  | n + 1, g => ∃ (hn : n < (k0_t1_loop L).trips) (g0 : Buf (Elt F) ((thrV d L).loc cc0_scratch1)) (h : k0_chk1 (vecAt (F := F) d L s ⟨n, hn⟩)),
      CntUpTo s n g0 ∧ g = stepG (F := F) d L s g0 ⟨n, hn⟩ h

/-- The ids the tile counts are the segment-id array's words from the tile's offset on. -/
def ChunkHeld (s : Buf (Elt F) ((thrV d L).loc cc0_scratch0)) : Prop :=
  ∀ (j : S1568.Idx) (i : S50000.Idx), (j 0).val < 16 * (k0_t1_loop L).trips → (i 0).val = 1568 * wid L + (j 0).val → s j = m (bLoc d) i

/-- What a tile leaves in its sixty-four words of the counts array. -/
def TileDone (fo : Buf (Elt F) (cLoc d)) : Prop :=
  ∃ (s : Buf (Elt F) ((thrV d L).loc cc0_scratch0)) (g : Buf (Elt F) ((thrV d L).loc cc0_scratch1)),
    ChunkHeld m d L s ∧ CntUpTo (F := F) d L s (k0_t1_loop L).trips g ∧ ∀ j : S64.Idx, fo ((cSl L).view.emb j) = g j

/-- Every segment id names one of the sixty-four counters (the certificate's precondition says so). -/
def PreOK : Prop := ∀ (d : Dev nD) (i : S50000.Idx), (m (bLoc d) i).toNat < 64

/-- The counting loop's invariant: the chunk kept, the counters after `k` trips. -/
def inv (s : Buf (Elt F) ((thrV d L).loc cc0_scratch0)) (k : Nat) (_ : Unit) : sProp 𝕄 :=
  iprop(((s0W).view.loc (thrV d L) ↦{fullShare} s)
    ∗ ∃ g, ⌜CntUpTo (F := F) d L s k g⌝ ∗ ((s1W).view.loc (thrV d L) ↦{fullShare} g))

/-- The remainder loop's: it runs no trip. -/
def inv2 (s : Buf (Elt F) ((thrV d L).loc cc0_scratch0)) (_ : Nat) (_ : Unit) : sProp 𝕄 := inv (F := F) d L s (k0_t1_loop L).trips ()

/-- What a tile's task starts from, past the launch's bookkeeping. -/
def tilePre (q : PosShare TreeShare) (O : CellTallies nD τ sig (HIx 1)) (W : Waits sig (HIx 1))
    (fs : Buf (Elt F) ((thrV d L).loc cc0_scratch0)) (fc : Buf (Elt F) ((thrV d L).loc cc0_scratch1)) (fo : Buf (Elt F) (cLoc d)) : sProp 𝕄 :=
  (iprop(Transfers.MayWaits (thrV d L) (none : HIx 1) O
      ∗ ((bW).view.loc (thrV d L) ↦{q} m (bLoc d))
      ∗ ((s0W).view.loc (thrV d L) ↦{fullShare} fs)
      ∗ ((s1W).view.loc (thrV d L) ↦{fullShare} fc)
      ∗ ((cSl L).view.loc (thrV d L) ↦[(cSl L).view.set]{fullShare} fo)
      ∗ semVal (thrV d L, SemLoc.dma cc0_scoped0.sem) 0 ∗ semVal (thrV d L, SemLoc.dma cc0_scoped1.sem) 0 ∗ semVal (thrV d L, SemLoc.dma cc0_scoped2.sem) 0
      ∗ owes (thrV d L) O W) : sProp 𝕄)

/-- and what it ends with. -/
def tilePost (q : PosShare TreeShare) (O : CellTallies nD τ sig (HIx 1)) (W : Waits sig (HIx 1)) : sProp 𝕄 :=
  (iprop(((bW).view.loc (thrV d L) ↦{q} m (bLoc d))
      ∗ (∃ fs, (s0W).view.loc (thrV d L) ↦{fullShare} fs)
      ∗ (∃ fc, (s1W).view.loc (thrV d L) ↦{fullShare} fc)
      ∗ (∃ fo, ⌜TileDone m d L fo⌝ ∗ (cSl L).view.loc (thrV d L) ↦[(cSl L).view.set]{fullShare} fo)
      ∗ semVal (thrV d L, SemLoc.dma cc0_scoped0.sem) 0 ∗ semVal (thrV d L, SemLoc.dma cc0_scoped1.sem) 0 ∗ semVal (thrV d L, SemLoc.dma cc0_scoped2.sem) 0
      ∗ ∃ W', ⌜∀ p ∈ W', p ∈ W ∨ p.2 = none⌝ ∗ owes (thrV d L) O W') : sProp 𝕄)

omit [FloatOps F] in
theorem pts_s1_access (g : Buf (Elt F) ((thrV d L).loc cc0_scratch1)) :
    ((((s1W).access (.whole S64)).loc (thrV d L) ↦[((s1W).access (.whole S64)).set]{fullShare} g : sProp 𝕄))
      = ((s1W).view.loc (thrV d L) ↦{fullShare} g) := by
  have h : ((s1W).access (.whole S64)).set = Finset.univ := Memref.set_access_whole cc0_scratch1
  rw [h]

/-- Ids below sixty-four over the part of the chunk the loop reads pass the loop's check at every trip. -/
theorem chk_of_lt64 (s : Buf (Elt F) ((thrV d L).loc cc0_scratch0))
    (hs : ∀ j : S1568.Idx, (j 0).val < 16 * (k0_t1_loop L).trips → (s j).toNat < 64) (k : Fin (k0_t1_loop L).trips) :
    k0_chk1 (vecAt (F := F) d L s k) := by
  intro a x
  obtain rfl : a = 0 := Subsingleton.elim _ _
  show ((s0W).view.readAt (Elt F) (Rect.unit (s := S1568) (k0_off2 L k) S16.size (k0_off2_inb L k)).toLoadRect s x).toNat < 64
  simp only [View.readAt_apply, Memref.view_whole, View.read_whole]
  apply hs
  rw [LoadRect.idx_apply]
  show (k0_off2 L k) 0 + 1 * (x 0).val < 16 * (k0_t1_loop L).trips
  rw [k0_off2_eq]
  have hx : (x 0).val < 16 := (x 0).isLt
  have hk := k.isLt
  simp only [Matrix.cons_val_zero]
  omega

/-- The four cleared quarters are the whole of the counters. -/
theorem cleared (f : Buf (Elt F) ((thrV d L).loc cc0_scratch1)) (j) :
    (s1W).view.writes (Elt F) f
      [⟨Rect.unit (s := S64) ![48] S16.size inb_S64_S16_48, k0_pay1 (F := F)⟩, ⟨Rect.unit (s := S64) ![32] S16.size inb_S64_S16_32, k0_pay1 (F := F)⟩,
       ⟨Rect.unit (s := S64) ![16] S16.size inb_S64_S16_16, k0_pay1 (F := F)⟩, ⟨Rect.unit (s := S64) ![0] S16.size inb_S64_S16_0, k0_pay1 (F := F)⟩] j
      = Scalar.ofBits .f32 0x00000000#32 := by
  have h := View.read_writes_apply_of_pieces (v := (s1W).view) (Val := Elt F) (f := f) (fun _ => (Scalar.ofBits .f32 0x00000000#32 : F .f32))
    [⟨Rect.unit (s := S64) ![48] S16.size inb_S64_S16_48, k0_pay1 (F := F)⟩, ⟨Rect.unit (s := S64) ![32] S16.size inb_S64_S16_32, k0_pay1 (F := F)⟩,
       ⟨Rect.unit (s := S64) ![16] S16.size inb_S64_S16_16, k0_pay1 (F := F)⟩, ⟨Rect.unit (s := S64) ![0] S16.size inb_S64_S16_0, k0_pay1 (F := F)⟩]
    (by
      intro p hp x
      rcases List.mem_cons.mp hp with rfl | hp; · rfl
      rcases List.mem_cons.mp hp with rfl | hp; · rfl
      rcases List.mem_cons.mp hp with rfl | hp; · rfl
      rcases List.mem_cons.mp hp with rfl | hp; · rfl
      exact absurd hp List.not_mem_nil)
    j (View.cover_of_tiled (s := S64) _ ![16] (by rfl) j)
  simpa only [Memref.view_whole, View.read_whole] using h

omit [FloatOps F] in
/-- An element of the tile's chunk, read through the slice the kernel copies, is the array's word at the tile's offset. -/
theorem chunk_read (h1 : k0_cond1 L = 1#1) (j : S1568.Idx) (i : S50000.Idx) (hi : (i 0).val = 1568 * wid L + (j 0).val) :
    View.read (Elt F) ((bW).slice (Rect.unit (s := S50000) (k0_off1 L) S1568.size (k0_off1_inb L h1)) (fun _ => rfl)).view (m (bLoc d)) j = m (bLoc d) i := by
  have he : ((bW).slice (Rect.unit (s := S50000) (k0_off1 L) S1568.size (k0_off1_inb L h1)) (fun _ => rfl)).view.emb j = i := by
    refine funext fun (a : Fin 1) => ?_
    obtain rfl : a = 0 := Subsingleton.elim _ _; apply Fin.ext
    show (k0_off1 L) 0 + 1 * (j 0).val = (i 0).val
    rw [k0_off1_eq, hi]; simp only [Matrix.cons_val_zero, wid]; omega
  exact (View.read_apply _ _).trans ((cast_eq _ _).trans (congrArg (m (bLoc d)) he))

end Tile
end Cert.Proof.KernelIdeal
end
-- ==== Proof.KernelIdeal.TileA.lean ====
/-
  A tile's task when the tile is not the last: its chunk is a full one, copied whole.
-/
import proofs.«211348_g14766097563893_cont_week2b_353_46_alg».proof.Proof.KernelIdeal.TileDefs

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable [FloatOps F]

section Tile
variable (d : Dev nD) (L : grid0.Coords)

theorem tile_body_A (hpre : PreOK m) (q : PosShare TreeShare) (O : CellTallies nD τ sig (HIx 1)) (W : Waits sig (HIx 1))
    (fs : Buf (Elt F) ((thrV d L).loc cc0_scratch0)) (fc : Buf (Elt F) ((thrV d L).loc cc0_scratch1)) (fo : Buf (Elt F) (cLoc d))
    (k0_h1 : k0_cond1 L = 1#1) :
    tilePre m d L q O W fs fc fo
      ⊢ wp frame (wpE (defs₀ (F := F)) 𝒱₀ (thrV d L) none) Set.univ
          (cc0__sc_counts L bW (Memref.isWhole_whole _) cW (Memref.isWhole_whole _) s0W (Memref.isWhole_whole _) s1W (Memref.isWhole_whole _) cc0_scoped0 cc0_scoped1 cc0_scoped2)
          fun _ => tilePost m d L q O W := by
  have k0_h2 : ¬ (Scalar.cmpi .ne (Scalar.extui (Scalar.cmpi .eq (Scalar.addi (Scalar.muli (BitVec.ofNat 32 (L 0).val) 16#32) (BitVec.ofNat 32 (L 1).val)) 31#32)) 0#32 = 1#1) :=
    fun h => (cond1_iff L).mp k0_h1 ((cond2_iff L).mp h)
  simp only [cc0__sc_counts_eq_skeleton]; unfold cc0__sc_counts_skel
  unfold tilePre
  iintro ⟨Hmw, Hb, Hs0, Hs1, Hc, Hsem0, Hsem1, Hsem2, HO⟩
  sl_exec
  have hheld : ChunkHeld m d L (View.write (Elt F) (s0W).view fs (tile_body_A.sl.dma0 m d L k0_h1) Finset.univ) := by
    intro j i hj hi
    rw [View.write_whole_univ]; unfold tile_body_A.sl.dma0
    exact chunk_read (F := F) m d L k0_h1 j i hi
  have hs64 : ∀ j : S1568.Idx, (j 0).val < 16 * (k0_t1_loop L).trips → (View.write (Elt F) (s0W).view fs (tile_body_A.sl.dma0 m d L k0_h1) Finset.univ j).toNat < 64 := by
    intro j hj
    have hw : wid L ≠ 31 := (cond1_iff L).mp k0_h1
    have hL0 : (L 0).val < 2 := (L 0).isLt
    have hL1 : (L 1).val < 16 := (L 1).isLt
    have hj' : (j 0).val < 1568 := (j 0).isLt
    have hb : 1568 * wid L + (j 0).val < 50000 := by
      have : wid L ≤ 30 := by unfold wid at hw ⊢; omega
      omega
    rw [hheld j (Idealize.ShloMosaic.ValueIdx.ix1 ⟨1568 * wid L + (j 0).val, hb⟩) hj rfl]
    exact hpre d _
  sl_for (inv (F := F) d L (View.write (Elt F) (s0W).view fs (tile_body_A.sl.dma0 m d L k0_h1) Finset.univ)) $$ [Hs0 Hs1]
  case region =>
    intro k _
    unfold inv
    iintro ⟨Hs0, %g, %hg, Hs1⟩
    sl_exec
    have hchk : k0_chk1 (vecAt (F := F) d L (View.write (Elt F) (s0W).view fs (tile_body_A.sl.dma0 m d L k0_h1) Finset.univ) k) :=
      chk_of_lt64 (F := F) d L _ hs64 k
    rw [wp_assume_of _ _ _ _ hchk]
    ihave Hs1' := (Entails.of_eq (pts_s1_access (F := F) d L g).symm) $$ Hs1
    iapply (SparseCore.wp_vectorStoreIdx 𝒱₀ (thrV d L) none Set.univ (base := (s1W))) $$ Hs1'
    iintro Hs1'
    rw [Prog.pure_eq_ret, wp_ret]; imodintro
    isplitl [Hs0]; · iexact Hs0
    iexists (stepG (F := F) d L _ g k hchk)
    isplitr
    · ipureintro; exact ⟨k.isLt, g, hchk, hg, rfl⟩
    · iapply (Entails.of_eq (pts_s1_access (F := F) d L _)); iexact Hs1'
  · unfold inv
    isplitl [Hs0]; · iexact Hs0
    iexists ((s1W).view.writes (Elt F) (s1W).view.junk (tile_body_A.sl.Hs1_4 (F := F))); isplitr
    · ipureintro; show ∀ j, _ = _; unfold tile_body_A.sl.Hs1_4; exact cleared (F := F) d L _
    · iexact Hs1
  iintro %_ HI
  unfold inv
  icases HI with ⟨Hs0, %g, %hg, Hs1⟩
  sl_exec
  sl_for (inv2 (F := F) d L (View.write (Elt F) (s0W).view fs (tile_body_A.sl.dma0 m d L k0_h1) Finset.univ)) $$ [Hs0 Hs1]
  case region =>
    intro k _
    exact absurd (show k.val < (k0_t2_loop L).trips from k.isLt) (by rw [trips2_eq L]; exact Nat.not_lt_zero _)
  · unfold inv2 inv
    isplitl [Hs0]; · iexact Hs0
    iexists g; isplitr
    · ipureintro; exact hg
    · iexact Hs1
  iintro %_ HI
  unfold inv2 inv
  icases HI with ⟨Hs0, %g', %hg', Hs1⟩
  sl_exec
  rw [wp_ret]; imodintro
  unfold tilePost
  isplitl [Hb]; · iexact Hb
  isplitl [Hs0]; · iexists _; iexact Hs0
  isplitl [Hs1]; · iexists _; iexact Hs1
  isplitl [Hc]
  · iexists _; isplitr
    swap; · iexact Hc
    ipureintro
    refine ⟨_, g', hheld, hg', fun j => ?_⟩
    have h := View.read_writes_cons_emb (v := (cSl L).view) (Val := Elt F) (f := fo) (Rect.whole S64) (tile_body_A.sl.dma0_1 (F := F) d L g') [] j
    rw [View.read_apply, Rect.emb_whole_apply] at h
    unfold tile_body_A.sl.dma0_1 at h ⊢
    exact (cast_eq _ _).symm.trans (h.trans rfl)
  isplitl [Hsem0]; · iexact Hsem0
  isplitl [Hsem1]; · iexact Hsem1
  isplitl [Hsem2]; · iexact Hsem2
  iexists _; isplitr
  swap; · iexact HO
  ipureintro; intro p hp
  rcases Finset.mem_insert.mp hp with rfl | hp
  · exact .inr rfl
  rcases Finset.mem_insert.mp hp with rfl | hp
  · exact .inr rfl
  · exact .inl hp

end Tile
end Cert.Proof.KernelIdeal
end
-- ==== Proof.KernelIdeal.TileB.lean ====
/-
  The last tile's task: its chunk is the array's tail, shorter than the others', copied into the head of the tile's buffer.
-/
import proofs.«211348_g14766097563893_cont_week2b_353_46_alg».proof.Proof.KernelIdeal.TileDefs

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable [FloatOps F]

section Tile
variable (d : Dev nD) (L : grid0.Coords)

omit [FloatOps F] in
/-- An element of the last tile's chunk: the head of the buffer holds the array's tail. -/
theorem chunk_read_B (fs : Buf (Elt F) ((thrV d L).loc cc0_scratch0)) (j : S1568.Idx) (hj : (j 0).val < 1392) (i : S50000.Idx) (hi : (i 0).val = 48608 + (j 0).val) :
    (s0W).view.writes (Elt F) fs
      [⟨Rect.unit (s := S1568) ![0] S1392.size inb_S1568_S1392_0,
        ReadAs.same.apply (View.read (Elt F) ((bW).slice (Rect.unit (s := S50000) ![48608] S1392.size inb_S50000_S1392_48608) (fun _ => rfl)).view (m (bLoc d)))⟩] j
      = m (bLoc d) i := by
  have hjx : (Rect.unit (s := S1568) ![0] S1392.size inb_S1568_S1392_0).emb (Idealize.ShloMosaic.ValueIdx.ix1 ⟨(j 0).val, hj⟩) = j := by
    refine funext fun (a : Fin 1) => ?_
    obtain rfl : a = 0 := Subsingleton.elim _ _; apply Fin.ext
    show 0 + 1 * (j 0).val = (j 0).val
    omega
  have he : ((bW).slice (Rect.unit (s := S50000) ![48608] S1392.size inb_S50000_S1392_48608) (fun _ => rfl)).view.emb (Idealize.ShloMosaic.ValueIdx.ix1 ⟨(j 0).val, hj⟩) = i := by
    refine funext fun (a : Fin 1) => ?_
    obtain rfl : a = 0 := Subsingleton.elim _ _; apply Fin.ext
    show 48608 + 1 * (j 0).val = (i 0).val
    omega
  have h := View.read_writes_cons_emb (v := (s0W).view) (Val := Elt F) (f := fs) (Rect.unit (s := S1568) ![0] S1392.size inb_S1568_S1392_0)
    (ReadAs.same.apply (View.read (Elt F) ((bW).slice (Rect.unit (s := S50000) ![48608] S1392.size inb_S50000_S1392_48608) (fun _ => rfl)).view (m (bLoc d)))) []
    (Idealize.ShloMosaic.ValueIdx.ix1 ⟨(j 0).val, hj⟩)
  rw [hjx] at h
  simp only [Memref.view_whole, View.read_whole] at h
  rw [h]
  exact (View.read_apply _ _).trans ((cast_eq _ _).trans (congrArg (m (bLoc d)) he))

theorem tile_body_B (hpre : PreOK m) (q : PosShare TreeShare) (O : CellTallies nD τ sig (HIx 1)) (W : Waits sig (HIx 1))
    (fs : Buf (Elt F) ((thrV d L).loc cc0_scratch0)) (fc : Buf (Elt F) ((thrV d L).loc cc0_scratch1)) (fo : Buf (Elt F) (cLoc d))
    (k0_h1 : ¬ k0_cond1 L = 1#1) :
    tilePre m d L q O W fs fc fo
      ⊢ wp frame (wpE (defs₀ (F := F)) 𝒱₀ (thrV d L) none) Set.univ
          (cc0__sc_counts L bW (Memref.isWhole_whole _) cW (Memref.isWhole_whole _) s0W (Memref.isWhole_whole _) s1W (Memref.isWhole_whole _) cc0_scoped0 cc0_scoped1 cc0_scoped2)
          fun _ => tilePost m d L q O W := by
  have hw : wid L = 31 := by by_contra h; exact k0_h1 ((cond1_iff L).mpr h)
  have k0_h2 : (Scalar.cmpi .ne (Scalar.extui (Scalar.cmpi .eq (Scalar.addi (Scalar.muli (BitVec.ofNat 32 (L 0).val) 16#32) (BitVec.ofNat 32 (L 1).val)) 31#32)) 0#32 = 1#1) :=
    (cond2_iff L).mpr hw
  have ht : (k0_t1_loop L).trips = 87 := by rw [trips_eq L, if_pos hw]
  simp only [cc0__sc_counts_eq_skeleton]; unfold cc0__sc_counts_skel
  unfold tilePre
  iintro ⟨Hmw, Hb, Hs0, Hs1, Hc, Hsem0, Hsem1, Hsem2, HO⟩
  sl_exec
  have hheld : ChunkHeld m d L ((s0W).view.writes (Elt F) fs [⟨Rect.unit (s := S1568) ![0] S1392.size inb_S1568_S1392_0, tile_body_B.sl.dma0 m d⟩]) := by
    intro j i hj hi
    rw [ht] at hj; rw [hw] at hi
    unfold tile_body_B.sl.dma0
    exact chunk_read_B (F := F) m d L fs j (by omega) i (by omega)
  have hs64 : ∀ j : S1568.Idx, (j 0).val < 16 * (k0_t1_loop L).trips →
      ((s0W).view.writes (Elt F) fs [⟨Rect.unit (s := S1568) ![0] S1392.size inb_S1568_S1392_0, tile_body_B.sl.dma0 m d⟩] j).toNat < 64 := by
    intro j hj
    have hb : 1568 * wid L + (j 0).val < 50000 := by rw [ht] at hj; rw [hw]; omega
    rw [hheld j (Idealize.ShloMosaic.ValueIdx.ix1 ⟨1568 * wid L + (j 0).val, hb⟩) hj rfl]
    exact hpre d _
  sl_for (inv (F := F) d L ((s0W).view.writes (Elt F) fs [⟨Rect.unit (s := S1568) ![0] S1392.size inb_S1568_S1392_0, tile_body_B.sl.dma0 m d⟩])) $$ [Hs0 Hs1]
  case region =>
    intro k _
    unfold inv
    iintro ⟨Hs0, %g, %hg, Hs1⟩
    sl_exec
    have hchk : k0_chk1 (vecAt (F := F) d L ((s0W).view.writes (Elt F) fs [⟨Rect.unit (s := S1568) ![0] S1392.size inb_S1568_S1392_0, tile_body_B.sl.dma0 m d⟩]) k) :=
      chk_of_lt64 (F := F) d L _ hs64 k
    unfold tile_body_B.sl.v24
    rw [wp_assume_of _ _ _ _ hchk]
    ihave Hs1' := (Entails.of_eq (pts_s1_access (F := F) d L g).symm) $$ Hs1
    iapply (SparseCore.wp_vectorStoreIdx 𝒱₀ (thrV d L) none Set.univ (base := (s1W))) $$ Hs1'
    iintro Hs1'
    rw [Prog.pure_eq_ret, wp_ret]; imodintro
    isplitl [Hs0]; · iexact Hs0
    iexists (stepG (F := F) d L _ g k hchk)
    isplitr
    · ipureintro; exact ⟨k.isLt, g, hchk, hg, rfl⟩
    · iapply (Entails.of_eq (pts_s1_access (F := F) d L _)); iexact Hs1'
  · unfold inv
    isplitl [Hs0]; · iexact Hs0
    iexists ((s1W).view.writes (Elt F) (s1W).view.junk (tile_body_B.sl.Hs1_4 (F := F))); isplitr
    · ipureintro; show ∀ j, _ = _; unfold tile_body_B.sl.Hs1_4; exact cleared (F := F) d L _
    · iexact Hs1
  iintro %_ HI
  unfold inv
  icases HI with ⟨Hs0, %g, %hg, Hs1⟩
  sl_exec
  sl_for (inv2 (F := F) d L ((s0W).view.writes (Elt F) fs [⟨Rect.unit (s := S1568) ![0] S1392.size inb_S1568_S1392_0, tile_body_B.sl.dma0 m d⟩])) $$ [Hs0 Hs1]
  case region =>
    intro k _
    exact absurd (show k.val < (k0_t2_loop L).trips from k.isLt) (by rw [trips2_eq L]; exact Nat.not_lt_zero _)
  · unfold inv2 inv
    isplitl [Hs0]; · iexact Hs0
    iexists g; isplitr
    · ipureintro; exact hg
    · iexact Hs1
  iintro %_ HI
  unfold inv2 inv
  icases HI with ⟨Hs0, %g', %hg', Hs1⟩
  sl_exec
  rw [wp_ret]; imodintro
  unfold tilePost
  isplitl [Hb]; · iexact Hb
  isplitl [Hs0]; · iexists _; iexact Hs0
  isplitl [Hs1]; · iexists _; iexact Hs1
  isplitl [Hc]
  · iexists _; isplitr
    swap; · iexact Hc
    ipureintro
    refine ⟨_, g', hheld, hg', fun j => ?_⟩
    have h := View.read_writes_cons_emb (v := (cSl L).view) (Val := Elt F) (f := fo) (Rect.whole S64) (tile_body_B.sl.dma0_1 (F := F) d L g') [] j
    rw [View.read_apply, Rect.emb_whole_apply] at h
    unfold tile_body_B.sl.dma0_1 at h ⊢
    exact (cast_eq _ _).symm.trans (h.trans rfl)
  isplitl [Hsem0]; · iexact Hsem0
  isplitl [Hsem1]; · iexact Hsem1
  isplitl [Hsem2]; · iexact Hsem2
  iexists _; isplitr
  swap; · iexact HO
  ipureintro; intro p hp
  rcases Finset.mem_insert.mp hp with rfl | hp
  · exact .inr rfl
  rcases Finset.mem_insert.mp hp with rfl | hp
  · exact .inr rfl
  · exact .inl hp

end Tile
end Cert.Proof.KernelIdeal
end
-- ==== Proof.KernelIdeal.TileObl.lean ====
/-
  The counting kernel's part of the launch: what the one SparseCore call hands each tile and takes back (a read share of
  the segment ids and the tile's sixty-four words of the counts array, back with the counts written), the tile's task from
  the launch's own spelling of it, and the call's split of a SparseCore's operands among its sixteen tiles.
-/
import proofs.«211348_g14766097563893_cont_week2b_353_46_alg».proof.Proof.KernelIdeal.TileA
import proofs.«211348_g14766097563893_cont_week2b_353_46_alg».proof.Proof.KernelIdeal.TileB

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable [FloatOps F]

/-- A tile's coordinates from its SparseCore and its place in it. -/
def coordsV (c : Fin (grid0.bound 0)) (s : Fin (grid0.bound 1)) : grid0.Coords :=
  fun | 0 => c | 1 => s | ⟨_ + 2, h⟩ => absurd h (Nat.not_lt.2 (Nat.le_add_left _ _))

/-- A tile's read share of the segment ids: its SparseCore's share of the whole, split again among the sixteen tiles. -/
abbrev tokOf (L : grid0.Coords) : PosShare TreeShare := Transfers.shareTokN (Transfers.shareTokN fullShare (L 0).val) (L 1).val

/-- What the call hands a tile: a read share of the segment ids, and its words of the counts array at any contents. -/
def goOf (d : Dev nD) (L : grid0.Coords) : sProp 𝕄 :=
  iprop((bLoc d ↦{tokOf L} m (bLoc d)) ∗ ∃ f : Buf (Elt F) (cLoc d), cLoc d ↦[(cSl L).view.set]{fullShare} f)
/-- What the tile hands back: the share, and its words at the chunk's counts. -/
def tdOf (d : Dev nD) (L : grid0.Coords) : sProp 𝕄 :=
  iprop((bLoc d ↦{tokOf L} m (bLoc d)) ∗ ∃ f : Buf (Elt F) (cLoc d), ⌜TileDone m d L f⌝ ∗ cLoc d ↦[(cSl L).view.set]{fullShare} f)

/-- What is left of a SparseCore's share once its sixteen tiles have theirs. -/
def restOf (d : Dev nD) (c : ℕ) : sProp 𝕄 := bLoc d ↦{Transfers.shareDrop (Transfers.shareTokN fullShare c) 16} m (bLoc d)

/-- The one call: each SparseCore takes its sixteen tiles' parts and brings them back. -/
def P : (K (F := F)).Pay (nD := nD) (Val := Elt F) (Name := ℕ) (U := UU) where
  st := fun q d c => match q with
    | 0 => iprop(restOf m d c.val ∗ bigSep Finset.univ fun i : Fin ((K (F := F)).nSub 0) => goOf m d (coordsV (Fin.cast nCore_zero c) (Fin.cast nSub_zero i)))
  dn := fun q d c => match q with
    | 0 => iprop(restOf m d c.val ∗ bigSep Finset.univ fun i : Fin ((K (F := F)).nSub 0) => tdOf m d (coordsV (Fin.cast nCore_zero c) (Fin.cast nSub_zero i)))
  go := fun q d c i => match q with
    | 0 => goOf m d (coordsV (Fin.cast nCore_zero c) (Fin.cast nSub_zero i))
  td := fun q d c i => match q with
    | 0 => tdOf m d (coordsV (Fin.cast nCore_zero c) (Fin.cast nSub_zero i))
  x := fun _ _ => iprop(emp)

instance restOf_storable (d : Dev nD) (c : ℕ) : BI.Storable (upEmb : UEmb _ 𝕄) (restOf m d c) := by unfold restOf; infer_instance
instance goOf_storable (d : Dev nD) (L : grid0.Coords) : BI.Storable (upEmb : UEmb _ 𝕄) (goOf m d L) := by unfold goOf; infer_instance
instance tdOf_storable (d : Dev nD) (L : grid0.Coords) : BI.Storable (upEmb : UEmb _ 𝕄) (tdOf m d L) := by unfold tdOf; infer_instance

instance P_storable : (P (F := F) m).IsStorable where
  st q d c := match q with | 0 => (inferInstance : BI.Storable (upEmb : UEmb _ 𝕄) iprop(restOf m d c.val ∗ bigSep Finset.univ fun i : Fin ((K (F := F)).nSub 0) => goOf m d (coordsV (Fin.cast nCore_zero c) (Fin.cast nSub_zero i))))
  dn q d c := match q with | 0 => (inferInstance : BI.Storable (upEmb : UEmb _ 𝕄) iprop(restOf m d c.val ∗ bigSep Finset.univ fun i : Fin ((K (F := F)).nSub 0) => tdOf m d (coordsV (Fin.cast nCore_zero c) (Fin.cast nSub_zero i))))
  go q d c i := match q with | 0 => (inferInstance : BI.Storable (upEmb : UEmb _ 𝕄) (goOf m d (coordsV (Fin.cast nCore_zero c) (Fin.cast nSub_zero i))))
  td q d c i := match q with | 0 => (inferInstance : BI.Storable (upEmb : UEmb _ 𝕄) (tdOf m d (coordsV (Fin.cast nCore_zero c) (Fin.cast nSub_zero i))))

variable [FloatOps F]

section Tile
variable (d : Dev nD) (L : grid0.Coords)

abbrev c0cell (d : Dev nD) (L : grid0.Coords) : GSem nD τ sig := (thrV d L, .dma cc0_scoped0.sem)
abbrev c1cell (d : Dev nD) (L : grid0.Coords) : GSem nD τ sig := (thrV d L, .dma cc0_scoped1.sem)
abbrev c2cell (d : Dev nD) (L : grid0.Coords) : GSem nD τ sig := (thrV d L, .dma cc0_scoped2.sem)

omit [FloatOps F] in
theorem ownSems0_V :
    (ownSems0 (thrV d L) : sProp 𝕄)
      = iprop(semVal (c0cell d L) 0 ∗ semVal (c1cell d L) 0 ∗ semVal (c2cell d L) 0
          ∗ bigSep ((((ownCells (thrV d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

omit [FloatOps F] in
/-- The two scratch buffers are among the tile's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The tile's task from what the launch deals a tile: the scoped storage opened into the two buffers and the three
    semaphores, the waits admissible under what the tile owes the launch, the task run, the storage closed again. -/
theorem tile_task (hF : (K (F := F)).Facts) (hpre : PreOK m) (O : CellTallies nD τ sig (HIx 1)) (W : Waits sig (HIx 1)) (hO : ∀ g, O g none = 0) :
    iprop(levAts (K (F := F)).L (K (F := F)).lev ∗ emp ∗ goOf m d L
        ∗ scopedBufs (thrV d L) ∗ scopedSems0 (thrV d L) ∗ owes (thrV d L) O W)
      ⊢ wp frame (wpE (defs₀ (F := F)) 𝒱₀ (thrV d L) none) Set.univ
          (cc0__sc_counts L bW (Memref.isWhole_whole _) cW (Memref.isWhole_whole _) s0W (Memref.isWhole_whole _) s1W (Memref.isWhole_whole _) cc0_scoped0 cc0_scoped1 cc0_scoped2)
          fun _ => iprop(tdOf m d L ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), ownSems0_V, ownBufs_V]
  unfold goOf
  iintro ⟨#Hlv, -, ⟨Hb, %fo, Hc⟩, ⟨⟨%fs, Hs0⟩, ⟨%fc, Hs1⟩, Hbufs⟩, ⟨Hsem0, Hsem1, Hsem2, Hsems⟩, HO⟩
  ihave Hmw := ((K (F := F)).mayWaits_none (thr := thrV d L) hO) $$ Hlv
  iapply (wp_wand_r frame _ Set.univ)
  isplitl [Hmw Hb Hc Hs0 Hs1 Hsem0 Hsem1 Hsem2 HO]
  · by_cases h1 : k0_cond1 L = 1#1
    · iapply (tile_body_A (F := F) m d L hpre (tokOf L) O W fs fc fo h1)
      unfold tilePre
      isplitl [Hmw]; · iexact Hmw
      isplitl [Hb]; · iexact Hb
      isplitl [Hs0]; · iexact Hs0
      isplitl [Hs1]; · iexact Hs1
      isplitl [Hc]; · iexact Hc
      isplitl [Hsem0]; · iexact Hsem0
      isplitl [Hsem1]; · iexact Hsem1
      isplitl [Hsem2]; · iexact Hsem2
      iexact HO
    · iapply (tile_body_B (F := F) m d L hpre (tokOf L) O W fs fc fo h1)
      unfold tilePre
      isplitl [Hmw]; · iexact Hmw
      isplitl [Hb]; · iexact Hb
      isplitl [Hs0]; · iexact Hs0
      isplitl [Hs1]; · iexact Hs1
      isplitl [Hc]; · iexact Hc
      isplitl [Hsem0]; · iexact Hsem0
      isplitl [Hsem1]; · iexact Hsem1
      isplitl [Hsem2]; · iexact Hsem2
      iexact HO
  iintro %_ Hpost
  unfold tilePost tdOf
  icases Hpost with ⟨Hb, ⟨%fs', Hs0⟩, ⟨%fc', Hs1⟩, ⟨%fo', %hdone, Hc⟩, Hsem0, Hsem1, Hsem2, HW⟩
  isplitl [Hb Hc]
  · isplitl [Hb]; · iexact Hb
    iexists fo'; isplitr
    · ipureintro; exact hdone
    · iexact Hc
  isplitl [Hs0 Hs1 Hbufs]
  · isplitl [Hs0]; · iexists _; iexact Hs0
    isplitl [Hs1]; · iexists _; iexact Hs1
    iexact Hbufs
  isplitl [Hsem0 Hsem1 Hsem2 Hsems]
  · isplitl [Hsem0]; · iexact Hsem0
    isplitl [Hsem1]; · iexact Hsem1
    isplitl [Hsem2]; · iexact Hsem2
    iexact Hsems
  iexact HW

end Tile

theorem defs₀_vector (c : Fin τ.nSC) (s : Fin τ.nSub) :
    defs₀ (F := F) (.scVector c s) 0 ()
      = SparseCore.onTile hcore0 hsub0 (fun c s => cc0__sc_counts (coordsV c s)
          bW (Memref.isWhole_whole _) cW (Memref.isWhole_whole _) s0W (Memref.isWhole_whole _) s1W (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the counting kernel as a tile's task. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF hpre O W hO).trans (wp_mono frame _ _ fun _ => obl_post)

/-- The call's operands for a SparseCore are its sixteen tiles' parts, and its results theirs. -/
theorem vecSplit : (K (F := F)).VecSplit' (P m) 0 := by
  intro d c
  show iprop(restOf m d c.val ∗ bigSep Finset.univ fun i : Fin ((K (F := F)).nSub 0) => goOf m d (coordsV (Fin.cast nCore_zero c) (Fin.cast nSub_zero i)))
    ⊢ |={Set.univ}=> iprop((bigSep Finset.univ fun i : Fin ((K (F := F)).nSub 0) => goOf m d (coordsV (Fin.cast nCore_zero c) (Fin.cast nSub_zero i)))
      ∗ ((bigSep Finset.univ fun i : Fin ((K (F := F)).nSub 0) => tdOf m d (coordsV (Fin.cast nCore_zero c) (Fin.cast nSub_zero i)))
        -∗ iprop(restOf m d c.val ∗ bigSep Finset.univ fun i : Fin ((K (F := F)).nSub 0) => tdOf m d (coordsV (Fin.cast nCore_zero c) (Fin.cast nSub_zero i)))))
  iintro ⟨Hr, H⟩; imodintro
  isplitl [H]; · iexact H
  iintro H
  isplitl [Hr]; · iexact Hr
  iexact H

end Cert.Proof.KernelIdeal
end
-- ==== Proof.KernelIdeal.LaunchSplit.lean ====
/-
  How the one SparseCore call's operands are cut out of the TensorCore's arrays and put back: the segment ids go out as
  read shares (one per SparseCore, each split again among its sixteen tiles), the counts array as its thirty-two runs of
  sixty-four words, which tile it; what comes back is the counts array whole, each run as its tile left it.
-/
import proofs.«211348_g14766097563893_cont_week2b_353_46_alg».proof.Proof.KernelIdeal.TileObl

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable [FloatOps F]

variable [FloatOps F]

/-- The counts array once every tile has written its run. -/
def CountsDone (d : Dev nD) (g : Buf (Elt F) (cLoc d)) : Prop := ∀ L : grid0.Coords, TileDone m d L g

/-- A tile's run of the counts array. -/
abbrev cSet (L : grid0.Coords) : Finset S2048.Idx := (cSl L).view.set

omit [FloatOps F] in
theorem mem_cSet (L : grid0.Coords) (i : S2048.Idx) : i ∈ cSet L ↔ 64 * wid L ≤ (i 0).val ∧ (i 0).val < 64 * wid L + 64 := by
  show i ∈ ((View.whole (main_v0_scv : Ref sig .scVector)).slice (Rect.unit (s := S2048) (k0_off4 L) S64.size (k0_off4_inb L))).set ↔ _
  rw [View.set_slice_whole, Rect.mem_set_unit]
  constructor
  · intro h; have := h 0; rw [k0_off4_eq] at this; simp only [Matrix.cons_val_zero, wid] at this ⊢
    have e : S64.size 0 = 64 := rfl
    omega
  · intro h a; have ha : a = (0 : Fin 1) := Subsingleton.elim (α := Fin 1) a 0
    subst ha
    rw [k0_off4_eq]; simp only [Matrix.cons_val_zero, wid] at h ⊢
    have e : S64.size 0 = 64 := rfl
    omega

omit [FloatOps F] in
theorem coords_ext {L L' : grid0.Coords} (h : wid L = wid L') : L = L' := by
  have h0 : (L 0).val < 2 := (L 0).isLt; have h1 : (L 1).val < 16 := (L 1).isLt
  have h0' : (L' 0).val < 2 := (L' 0).isLt; have h1' : (L' 1).val < 16 := (L' 1).isLt
  unfold wid at h
  funext a
  match a with
  | ⟨0, _⟩ => exact Fin.ext (by show (L 0).val = (L' 0).val; omega)
  | ⟨1, _⟩ => exact Fin.ext (by show (L 1).val = (L' 1).val; omega)

omit [FloatOps F] in
theorem cSet_disjoint {L L' : grid0.Coords} (h : L ≠ L') : Disjoint (cSet L) (cSet L') := by
  rw [Finset.disjoint_left]; intro i hi hi'
  rw [mem_cSet] at hi hi'
  exact h (coords_ext (by omega))

/-- The pairs (SparseCore, tile) as coordinates. -/
abbrev Lof (ci : Fin (grid0.bound 0) × Fin (grid0.bound 1)) : grid0.Coords := coordsV ci.1 ci.2

omit [FloatOps F] in
theorem Lof_inj : Function.Injective Lof := by
  rintro ⟨c, i⟩ ⟨c', i'⟩ e
  have h0 := congrFun e 0; have h1 := congrFun e 1
  exact Prod.ext h0 h1

omit [FloatOps F] in
theorem cSet_cover : (Finset.univ : Finset (Fin (grid0.bound 0) × Fin (grid0.bound 1))).biUnion (fun ci => cSet (Lof ci)) = Finset.univ := by
  ext i; simp only [Finset.mem_biUnion, Finset.mem_univ, true_and, iff_true]
  have hi : (i 0).val < 2048 := (i 0).isLt
  refine ⟨(⟨(i 0).val / 1024, by show _ < 2; omega⟩, ⟨(i 0).val % 1024 / 64, by show _ < 16; omega⟩), ?_⟩
  rw [mem_cSet]
  show 64 * (16 * ((i 0).val / 1024) + (i 0).val % 1024 / 64) ≤ (i 0).val ∧ (i 0).val < 64 * (16 * ((i 0).val / 1024) + (i 0).val % 1024 / 64) + 64
  omega

omit [FloatOps F] in
theorem cPts_split (d : Dev nD) (f : Buf (Elt F) (cLoc d)) :
    (cLoc d ↦{fullShare} f : sProp 𝕄)
      = bigSep Finset.univ fun c : Fin (grid0.bound 0) => bigSep Finset.univ fun i : Fin (grid0.bound 1) => cLoc d ↦[cSet (coordsV c i)]{fullShare} f := by
  rw [← bigSep_univ_prod (fun ci : Fin (grid0.bound 0) × Fin (grid0.bound 1) => (cLoc d ↦[cSet (Lof ci)]{fullShare} f : sProp 𝕄)),
    ← pointsTo_biUnion Finset.univ (ℓ := cLoc d) (fun ci => cSet (Lof ci)) (fun ci _ ci' _ h => cSet_disjoint fun e => h (Lof_inj e)), cSet_cover]

/-- One SparseCore's operands from its share of the segment ids and its sixteen runs of the counts array. -/
theorem core_intro (d : Dev nD) (f : Buf (Elt F) (cLoc d)) (c : Fin (grid0.bound 0)) :
    iprop((bLoc d ↦{Transfers.shareTok fullShare 2 c} m (bLoc d))
        ∗ bigSep Finset.univ fun i : Fin (grid0.bound 1) => cLoc d ↦[cSet (coordsV c i)]{fullShare} f)
      ⊢ (iprop(restOf m d c.val ∗ bigSep Finset.univ fun i : Fin (grid0.bound 1) => goOf m d (coordsV c i)) : sProp 𝕄) := by
  iintro ⟨HA, HB⟩
  ihave H := (Transfers.pointsTo_toks_split (ℓ := bLoc d) (S := Finset.univ) (f := m (bLoc d)) (Transfers.shareTokN fullShare c.val) 16) $$ HA
  icases H with ⟨Hr, Ht⟩
  isplitl [Hr]; · unfold restOf; iexact Hr
  ihave H2 := (Entails.of_eq (bigSep_sep' (Finset.univ : Finset (Fin (grid0.bound 1)))
    (fun i => (bLoc d ↦{tokOf (coordsV c i)} m (bLoc d) : sProp 𝕄)) (fun i => (cLoc d ↦[cSet (coordsV c i)]{fullShare} f : sProp 𝕄))).symm) $$ [Ht HB]
  · isplitl [Ht]; · iexact Ht
    iexact HB
  have hm : (bigSep (Finset.univ : Finset (Fin (grid0.bound 1))) fun i => iprop((bLoc d ↦{tokOf (coordsV c i)} m (bLoc d)) ∗ (cLoc d ↦[cSet (coordsV c i)]{fullShare} f)) : sProp 𝕄)
      ⊢ bigSep Finset.univ fun i : Fin (grid0.bound 1) => goOf m d (coordsV c i) :=
    bigSep_mono fun i _ => show (iprop((bLoc d ↦{tokOf (coordsV c i)} m (bLoc d)) ∗ (cLoc d ↦[cSet (coordsV c i)]{fullShare} f)) : sProp 𝕄) ⊢ goOf m d (coordsV c i) from by
      unfold goOf
      iintro ⟨H1, H2⟩
      isplitl [H1]; · iexact H1
      iexists f; iexact H2
  iapply hm; iexact H2

/-- The call's operands out of the TensorCore's arrays: what is left is the share no SparseCore took. -/
theorem st_intro (d : Dev nD) (f : Buf (Elt F) (cLoc d)) :
    iprop((bLoc d ↦{fullShare} m (bLoc d)) ∗ cLoc d ↦{fullShare} f)
      ⊢ iprop((bLoc d ↦{Transfers.shareDrop fullShare 2} m (bLoc d)) ∗ bigSep Finset.univ fun c : Fin ((K (F := F)).nCore 0) => (P m).st 0 d c) := by
  show _ ⊢ iprop(_ ∗ bigSep Finset.univ fun c : Fin (grid0.bound 0) =>
    iprop(restOf m d c.val ∗ bigSep Finset.univ fun i : Fin (grid0.bound 1) => goOf m d (coordsV c i)))
  rw [cPts_split]
  iintro ⟨Hb, Hc⟩
  ihave H := (Transfers.pointsTo_toks_split (ℓ := bLoc d) (S := Finset.univ) (f := m (bLoc d)) fullShare 2) $$ Hb
  icases H with ⟨Hd, Ht⟩
  isplitl [Hd]; · iexact Hd
  ihave H2 := (Entails.of_eq (bigSep_sep' (Finset.univ : Finset (Fin (grid0.bound 0)))
    (fun c => (bLoc d ↦{Transfers.shareTok fullShare 2 c} m (bLoc d) : sProp 𝕄))
    (fun c => bigSep Finset.univ fun i : Fin (grid0.bound 1) => (cLoc d ↦[cSet (coordsV c i)]{fullShare} f : sProp 𝕄))).symm) $$ [Ht Hc]
  · isplitl [Ht]; · iexact Ht
    iexact Hc
  have hm : (bigSep (Finset.univ : Finset (Fin (grid0.bound 0))) fun c => iprop((bLoc d ↦{Transfers.shareTok fullShare 2 c} m (bLoc d))
        ∗ bigSep Finset.univ fun i : Fin (grid0.bound 1) => (cLoc d ↦[cSet (coordsV c i)]{fullShare} f : sProp 𝕄)) : sProp 𝕄)
      ⊢ bigSep Finset.univ fun c : Fin (grid0.bound 0) => iprop(restOf m d c.val ∗ bigSep Finset.univ fun i : Fin (grid0.bound 1) => goOf m d (coordsV c i)) :=
    bigSep_mono fun c _ => core_intro m d f c
  iapply hm; iexact H2

/-- What a tile wrote is what the joined array holds on the tile's run. -/
theorem tileDone_congr (d : Dev nD) (L : grid0.Coords) {f g : Buf (Elt F) (cLoc d)} (h : TileDone m d L f) (hfg : ∀ i ∈ cSet L, g i = f i) : TileDone m d L g := by
  obtain ⟨s, gg, h1, h2, h3⟩ := h
  exact ⟨s, gg, h1, h2, fun j => (hfg _ ((cSl L).view.emb_mem_set j)).trans (h3 j)⟩

/-- One SparseCore's results: its share of the segment ids back, and its sixteen runs, each as its tile left it. -/
theorem core_elim (d : Dev nD) (c : Fin (grid0.bound 0)) :
    (iprop(restOf m d c.val ∗ bigSep Finset.univ fun i : Fin (grid0.bound 1) => tdOf m d (coordsV c i)) : sProp 𝕄)
      ⊢ iprop((bLoc d ↦{Transfers.shareTok fullShare 2 c} m (bLoc d))
        ∗ bigSep Finset.univ fun i : Fin (grid0.bound 1) => iprop(∃ f : Buf (Elt F) (cLoc d), ⌜TileDone m d (coordsV c i) f⌝ ∗ cLoc d ↦[cSet (coordsV c i)]{fullShare} f)) := by
  unfold tdOf restOf
  rw [bigSep_sep']
  iintro ⟨Hr, Ht, Hc⟩
  isplitl [Hr Ht]
  · iapply (Transfers.pointsTo_toks_join (ℓ := bLoc d) (S := Finset.univ) (f := m (bLoc d)) (Transfers.shareTokN fullShare c.val) 16)
    isplitl [Hr]; · iexact Hr
    iexact Ht
  iexact Hc

/-- The call's results back into the TensorCore's arrays: the segment ids whole, the counts array whole at every tile's counts. -/
theorem dn_elim' (d : Dev nD) :
    (iprop((bLoc d ↦{Transfers.shareDrop fullShare 2} m (bLoc d)) ∗ bigSep Finset.univ fun c : Fin (grid0.bound 0) =>
        iprop(restOf m d c.val ∗ bigSep Finset.univ fun i : Fin (grid0.bound 1) => tdOf m d (coordsV c i))) : sProp 𝕄)
      ⊢ iprop((bLoc d ↦{fullShare} m (bLoc d)) ∗ ∃ g : Buf (Elt F) (cLoc d), ⌜CountsDone m d g⌝ ∗ cLoc d ↦{fullShare} g) := by
  iintro ⟨Hd, H⟩
  have hm : (bigSep (Finset.univ : Finset (Fin (grid0.bound 0))) fun c => iprop(restOf m d c.val ∗ bigSep Finset.univ fun i : Fin (grid0.bound 1) => tdOf m d (coordsV c i)) : sProp 𝕄)
      ⊢ bigSep Finset.univ fun c : Fin (grid0.bound 0) => iprop((bLoc d ↦{Transfers.shareTok fullShare 2 c} m (bLoc d))
        ∗ bigSep Finset.univ fun i : Fin (grid0.bound 1) => iprop(∃ f : Buf (Elt F) (cLoc d), ⌜TileDone m d (coordsV c i) f⌝ ∗ cLoc d ↦[cSet (coordsV c i)]{fullShare} f)) :=
    bigSep_mono fun c _ => core_elim m d c
  ihave H1 := hm $$ H
  ihave H2 := (Entails.of_eq (bigSep_sep' (Finset.univ : Finset (Fin (grid0.bound 0)))
    (fun c => (bLoc d ↦{Transfers.shareTok fullShare 2 c} m (bLoc d) : sProp 𝕄))
    (fun c => bigSep Finset.univ fun i : Fin (grid0.bound 1) => iprop(∃ f : Buf (Elt F) (cLoc d), ⌜TileDone m d (coordsV c i) f⌝ ∗ cLoc d ↦[cSet (coordsV c i)]{fullShare} f)))) $$ H1
  icases H2 with ⟨Ht, Hc⟩
  isplitl [Hd Ht]
  · iapply (Transfers.pointsTo_toks_join (ℓ := bLoc d) (S := Finset.univ) (f := m (bLoc d)) fullShare 2)
    isplitl [Hd]; · iexact Hd
    iexact Ht
  ihave Hc2 := (Entails.of_eq (bigSep_univ_prod (fun ci : Fin (grid0.bound 0) × Fin (grid0.bound 1) =>
    iprop(∃ f : Buf (Elt F) (cLoc d), ⌜TileDone m d (Lof ci) f⌝ ∗ cLoc d ↦[cSet (Lof ci)]{fullShare} f))).symm) $$ Hc
  ihave Hc3 := (bigSep_exists_pi Finset.univ (fun (ci : Fin (grid0.bound 0) × Fin (grid0.bound 1)) (f : Buf (Elt F) (cLoc d)) =>
    iprop(⌜TileDone m d (Lof ci) f⌝ ∗ cLoc d ↦[cSet (Lof ci)]{fullShare} f))) $$ Hc2
  icases Hc3 with ⟨%fs, Hc3⟩
  ihave Hc4 := (bigSep_pure_sep Finset.univ (fun ci : Fin (grid0.bound 0) × Fin (grid0.bound 1) => TileDone m d (Lof ci) (fs ci))
    (fun ci => (cLoc d ↦[cSet (Lof ci)]{fullShare} fs ci : sProp 𝕄))) $$ Hc3
  icases Hc4 with ⟨%hdone, Hc4⟩
  ihave Hc5 := (pointsTo_biUnion_join Finset.univ (fun ci : Fin (grid0.bound 0) × Fin (grid0.bound 1) => cSet (Lof ci)) fs (fs (⟨0, by decide⟩, ⟨0, by decide⟩))
    (fun ci _ ci' _ h => cSet_disjoint fun e => h (Lof_inj e))) $$ Hc4
  icases Hc5 with ⟨%g, %hg, Hg⟩
  rw [cSet_cover]
  iexists g; isplitr
  · ipureintro
    intro L
    have hL : Lof (L 0, L 1) = L := by
      funext a; match a with | ⟨0, _⟩ => rfl | ⟨1, _⟩ => rfl
    rw [← hL]
    exact tileDone_congr m d _ (hdone (L 0, L 1) (Finset.mem_univ _)) (hg (L 0, L 1) (Finset.mem_univ _))
  · iexact Hg

theorem dn_elim (d : Dev nD) :
    iprop((bLoc d ↦{Transfers.shareDrop fullShare 2} m (bLoc d)) ∗ bigSep Finset.univ fun c : Fin ((K (F := F)).nCore 0) => (P m).dn 0 d c)
      ⊢ iprop((bLoc d ↦{fullShare} m (bLoc d)) ∗ ∃ g : Buf (Elt F) (cLoc d), ⌜CountsDone m d g⌝ ∗ cLoc d ↦{fullShare} g) :=
  dn_elim' m d

end Cert.Proof.KernelIdeal
end
-- ==== Proof.KernelIdeal.LaunchVals.lean ====
/-
  The TensorCore's buffer contents at each boundary of @main, as a fold from the launch memory: after the SparseCore
  call (the counts array written), after the accumulating pipeline (its arrays at what it leaves), after the reshape of the
  bias, after the combining pipeline, after the transpose.
-/
import proofs.«211348_g14766097563893_cont_week2b_353_46_alg».proof.Proof.KernelIdeal.LaunchSplit
import Idealize.ShloMosaic.Lib.Pipeline.FrameSuffix

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable [FloatOps F]

open Idealize.ShloMosaic.StableHlo (held held_split held_sdiff_result wp_hlo_within held_sub_split held_congr)
open Idealize.ShloMosaic.TcCoe

variable [FloatOps F]

/-- The segment ids and the counts array, as the TensorCore's references. -/
abbrev b' : DevRef τ sig := Proc.devRef .tc (main_arg2 : Ref sig .tc)
abbrev c' : DevRef τ sig := Proc.devRef .tc (main_v0 : Ref sig .tc)
abbrev S2 : Finset (DevRef τ sig) := {b', c'}

omit [FloatOps F] in
theorem S2_sub : S2 ⊆ Pipeline.ucRefs τ sig := by decide

/-- The reshape of the bias and the final transpose, as host operations. -/
abbrev opR : HloOp τ sig (Elt F) := StableHlo.reshape main_arg4 main_v2 rfl shapeCasts_S2_S2x1
abbrev opT : HloOp τ sig (Elt F) :=
  StableHlo.unary main_v3 main_v4 ((transpose S64x2 [1, 0] · transposes_S2x64_S64x2_1_0) : (⟨S2x64, .f32⟩ : BufTy).Contents (Elt F) → (⟨S64x2, .f32⟩ : BufTy).Contents (Elt F))

theorem opR_sub : (opR (F := F)).bufs ⊆ Pipeline.ucRefs τ sig :=
  show ({Proc.devRef .tc (main_arg4 : Ref sig .tc), Proc.devRef .tc (main_v2 : Ref sig .tc)} : Finset (DevRef τ sig)) ⊆ Pipeline.ucRefs τ sig by decide
theorem opT_sub : (opT (F := F)).bufs ⊆ Pipeline.ucRefs τ sig :=
  show ({Proc.devRef .tc (main_v3 : Ref sig .tc), Proc.devRef .tc (main_v4 : Ref sig .tc)} : Finset (DevRef τ sig)) ⊆ Pipeline.ucRefs τ sig by decide

section Vals
variable (d : Dev nD) (g : Buf (Elt F) (cLoc d))
  (Fs1 : (w : Fin cfg1.W) → Buf (Elt F) ((cfg1.win w).arr.view.loc (d.tc : Thread nD τ)))
  (Fs2 : (w : Fin cfg2.W) → Buf (Elt F) ((cfg2.win w).arr.view.loc (d.tc : Thread nD τ)))

/-- The launch contents. -/
abbrev W0 : Valuation τ sig (Elt F) := fun b => m (d, b)
/-- Once the SparseCore call has written the counts. -/
def W1 : Valuation τ sig (Elt F) := Function.update (W0 m d) c' g
/-- Once the accumulating pipeline has left its arrays at `Fs1`. -/
def W2 : Valuation τ sig (Elt F) := Pipeline.withArrays spec1 d (W1 m d g) Fs1
/-- Once the bias is reshaped. -/
def W3 : Valuation τ sig (Elt F) := (opR (F := F)).result (W2 m d g Fs1)
/-- Once the combining pipeline has left its arrays at `Fs2`. -/
def W4 : Valuation τ sig (Elt F) := Pipeline.withArrays spec2 d (W3 m d g Fs1) Fs2
/-- At the return. -/
def W5 : Valuation τ sig (Elt F) := (opT (F := F)).result (W4 m d g Fs1 Fs2)

/-- The same read at the TensorCore's references, on any core (the mesh has one). -/
abbrev V1 : (c : Dev nD) → (b : Ref sig .tc) → Buf (Elt F) ((c : Thread nD τ).loc b) := fun _ b => W1 m d g b
abbrev V3 : (c : Dev nD) → (b : Ref sig .tc) → Buf (Elt F) ((c : Thread nD τ).loc b) := fun _ b => W3 m d g Fs1 b

end Vals

end Cert.Proof.KernelIdeal
end
-- ==== Proof.KernelIdeal.LaunchElem.lean ====
/-
  The launch element: the launch handshakes' rounds beside the two pipelines' staging cells' rounds and the copies'
  counters; from it the handshakes' initial rounds and, per device, each pipeline's cells' ghost state and duty tokens.
-/
import proofs.«211348_g14766097563893_cont_week2b_353_46_alg».proof.Proof.KernelIdeal.TileObl
import Idealize.ShloMosaic.Lib.Pipeline.Sound
import Idealize.ShloMosaic.Lib.Pipeline.Kit

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

/-- The launch element: the handshakes' rounds; the pipelines' staging cells' rounds; the counters at their unit. -/
def u₀ : UU :=
  (initOf (K (F := F)).hsCells (K (F := F)).hsToks,
    (initOf (Pipeline.cells cfgs cellOf_inj) (Pipeline.launchToks cfgs cellOf_inj), 1))

/-- What the launch deals a device beside the handshakes: each pipeline's cells' ghost state and duty tokens. -/
def G (d : Dev nD) : sProp 𝕄 :=
  bigSep Finset.univ fun p : Fin 2 =>
    iprop(Pipeline.cellsGhost (Ix := HIx 1) (Name := ℕ) (U := UU) (Lvl := ℕ) (Val := Elt F) cfgs EP p d
      ∗ Pipeline.toksInit (Ix := HIx 1) (Name := ℕ) (U := UU) (Lvl := ℕ) (Val := Elt F) cfgs EP p d)

theorem bigSep_emp' {I : Type} (s : Finset I) : (bigSep s fun _ => iprop(emp)) = (iprop(emp) : sProp 𝕄) := bigSep_emp_const s

variable [FloatOps F]

theorem hu₀ : iprop(ownU (u₀ (F := F)) ∗ (P m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  have hEP : ∀ a : UP, (BI.own (((Emb.inl : Emb UP (UP × Counters)).trans
      (embR : Emb (UP × Counters) (MT nD τ sig (HIx 1) (Elt F) ℕ (UH × (UP × Counters)) ℕ))) a) : sProp 𝕄) ⊢ BI.own (EP a) := fun a => by
    unfold EP embR; exact BI.Entails.refl _
  unfold u₀
  iintro ⟨Hu, -, -⟩
  ihave H := (ownU_pair _ _) $$ Hu
  icases H with ⟨HH, HR⟩
  ihave H2 := (own_pair_emb _ _ _) $$ HR
  icases H2 with ⟨HP, -⟩
  ihave HP' := (hEP _) $$ HP
  imod (Pipeline.fund_ghost (Ix := HIx 1) (Name := ℕ) (U := UU) (Lvl := ℕ) (Val := Elt F) cfgs EP cellOf_inj) $$ HP' with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal

end
-- ==== Proof.KernelIdeal.Region1Run.lean ====
/-
  The accumulating matmul kernel's body, run whole on its four staging memrefs, in each of its two control cases:
  at the first grid point the output block is zeroed before the partial sums are added to it (case A); at every later
  point they are added to what the block holds (case B). Each run finds, as its witness, the pieces the body's
  stores leave in the output's staging memref.
-/
import proofs.«211348_g14766097563893_cont_week2b_353_46_alg».proof.Proof.KernelIdeal.Setup
import Idealize.ShloMosaic.Lib.Pipeline.FrameBody
import Idealize.ShloMosaic.Lib.Ring
import Idealize.ShloMosaic.Lib.Tactic

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The body's branch condition -/

/-- The condition of the body's one conditional, from the grid coordinate: the coordinate is zero. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val = 0 :=
  (by decide +kernel : ∀ t : Fin grid1.N, cond1_0 (grid1.coords t) ↔ t.val = 0)

/-! ## The staging memrefs at a point -/

/-- One staging buffer of the output window, through which its contents are stated. -/
abbrev VO1_3 : View sig .tc .vmem S2x64 .f32 := (Memref.whole cc1_stg3_0 : Memref sig .tc .vmem S2x64 .f32).view
/-- Each window's current staging memref at point `t`, as the pipeline passes it to the body, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x64 .f32 := win1_3.stage (cfg1.slots t 3)
abbrev hs1_3 (t : Fin cfg1.N) : (ms1_3 t).IsWhole := hstage1_3 ((cfg1.slots t 3).cast nbuf1_3)

/-! ## The body's runs -/

set_option maxHeartbeats 4000000 in
/-- CASE A (the conditional taken: the first point). On whole staging memrefs, the three inputs' at contents
    `x0`, `x1`, `x2` and the output's at anything, the body runs to the continuation holding the inputs' as they
    were and the output's with the pieces its two stores wrote (last first): the witness the run finds. -/
noncomputable def kernelRun1_A (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : cond1_0 i)
    (x0 : Vec F S2048x1024 .f32) (x1 : Vec F S2048 .i32) (x2 : Vec F S2x1024 .f32) :
    { L3 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__tc_body i arg1 harg1 arg2 harg2 arg3 harg3 arg4 harg4) K } := by
  refine ⟨?_, fun E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- CASE B (the conditional not taken: every later point). As case A, the output's memref at its running contents
    `xo3`, which the body reads before it covers the block. -/
noncomputable def kernelRun1_B (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : ¬cond1_0 i)
    (x0 : Vec F S2048x1024 .f32) (x1 : Vec F S2048 .i32) (x2 : Vec F S2x1024 .f32) (xo3 : Vec F S2x64 .f32) :
    { L3 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__tc_body i arg1 harg1 arg2 harg2 arg3 harg3 arg4 harg4) K } := by
  refine ⟨?_, fun E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Proof.KernelIdeal

end
-- ==== Proof.KernelIdeal.Region1.lean ====
/-
  Region 1, the accumulating matmul pipeline over the row blocks of its two clipped inputs: its relational proof data
  and its body obligation, for any float values. The body leaves each of its three inputs' staging buffers as it found
  them, whatever they held (past the arrays' end a clipped block's buffer holds words nothing names), and its output's
  buffer at some contents, of which nothing is stated here.
-/
import proofs.«211348_g14766097563893_cont_week2b_353_46_alg».proof.Proof.KernelIdeal.Region1Run

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The body on any contents -/

set_option maxHeartbeats 1000000 in
/-- The body at any grid coordinate, on whole staging memrefs at any contents: it runs to the continuation holding
    the three inputs' memrefs as they were and the output's at some contents. By cases on the one conditional: the
    block is zeroed first (the first point), or is read and added to (every later point). -/
theorem sound_kernel1 (c : Dev nD) (E : Set ℕ) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole)
    (x0 : Vec F S2048x1024 .f32) (x1 : Vec F S2048 .i32) (x2 : Vec F S2x1024 .f32) (xo3 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo3
        ∗ (iprop(owns (c : Thread nD τ) arg1 fullShare x0 ∗ owns (c : Thread nD τ) arg2 fullShare x1 ∗ owns (c : Thread nD τ) arg3 fullShare x2 ∗ (∃ X, owns (c : Thread nD τ) arg4 fullShare X)) -∗ K ⟨⟩))
      ⊢ wp frame (wpE (defs₀ (F := F)) Variants.none c none) E (cc1__tc_body i arg1 harg1 arg2 harg2 arg3 harg3 arg4 harg4) K := by
  by_cases hc0 : cond1_0 i
  · iintro ⟨H0, H1, H2, H3, Hk⟩
    iapply ((kernelRun1_A c i arg1 harg1 arg2 harg2 arg3 harg3 arg4 harg4 hc0 x0 x1 x2).2 E K)
    isplitl [H0]; · iexact H0
    isplitl [H1]; · iexact H1
    isplitl [H2]; · iexact H2
    isplitl [H3]; · iexists _; iexact H3
    iintro ⟨H0, H1, H2, ⟨%f, H3⟩⟩
    iapply Hk
    isplitl [H0]; · iexact H0
    isplitl [H1]; · iexact H1
    isplitl [H2]; · iexact H2
    unfold owns; iexists _; iexists _; isplitr
    swap; · iexact H3
    ipureintro; rfl
  · iintro ⟨H0, H1, H2, H3, Hk⟩
    iapply ((kernelRun1_B c i arg1 harg1 arg2 harg2 arg3 harg3 arg4 harg4 hc0 x0 x1 x2 xo3).2 E K)
    isplitl [H0]; · iexact H0
    isplitl [H1]; · iexact H1
    isplitl [H2]; · iexact H2
    isplitl [H3]; · iexact H3
    iintro ⟨H0, H1, H2, ⟨%f, H3⟩⟩
    iapply Hk
    isplitl [H0]; · iexact H0
    isplitl [H1]; · iexact H1
    isplitl [H2]; · iexact H2
    unfold owns; iexists _; iexists _; isplitr
    swap; · iexact H3
    ipureintro; rfl

/-! ## The pipeline's proof data -/

/-- The region's invariant on core `c`: the core's scoped buffers that are no staging buffer of this pipeline, each at
    some contents, and its generator register at some state. The body uses neither. -/
def Φreg1 (c : Dev nD) : sProp 𝕄 :=
  iprop(Pipeline.scopedRest (Ix := HIx 1) (Name := ℕ) (U := UU) (Lvl := ℕ) (Val := Elt F) spec1 c ∗ ∃ r, prngReg c r)

variable (V : (c : Dev nD) → (b : Ref sig .tc) → Buf (Elt F) ((c : Thread nD τ).loc b))

/-- The relational proof data of the pipeline on core `c`: the arrays as the region finds them (`V`); the body leaves
    each input's current buffer as it found it, and of what it leaves in the output's nothing is said; the invariant
    `Φreg1`; nothing owed; full shares; the recorded wait pairs within `B`. -/
def rdat1 (B : Set (SemLoc sig × HIx 1)) (c : Dev nD) : Pipeline.RDat τ (Elt F) (HIx 1) ℕ UU ℕ cfg1 c where
  A w := V c (Pipeline.arrRef spec1 w)
  after w _ Y X := match w with
    | ⟨0, _⟩ => X = Y
    | ⟨1, _⟩ => X = Y
    | ⟨2, _⟩ => X = Y
    | ⟨3, _⟩ => True
  Φ _ := Φreg1 c
  q _ := fullShare
  owed _ := 0
  recorded _ := B

/-- The proof data's arrays are the region-entry contents. -/
theorem A_eq1 (B : Set (SemLoc sig × HIx 1)) (c : Dev nD) (w : Fin cfg1.W) : (rdat1 V B c).A w = V c (Pipeline.arrRef spec1 w) := by
  dsimp only [rdat1]

/-- What the relation says, window by window. -/
theorem after1_0 (B : Set (SemLoc sig × HIx 1)) (c : Dev nD) (t : Fin cfg1.N) (Y X) : (rdat1 V B c).after 0 t Y X ↔ X = Y := Iff.rfl
theorem after1_1 (B : Set (SemLoc sig × HIx 1)) (c : Dev nD) (t : Fin cfg1.N) (Y X) : (rdat1 V B c).after 1 t Y X ↔ X = Y := Iff.rfl
theorem after1_2 (B : Set (SemLoc sig × HIx 1)) (c : Dev nD) (t : Fin cfg1.N) (Y X) : (rdat1 V B c).after 2 t Y X ↔ X = Y := Iff.rfl
theorem after1_3 (B : Set (SemLoc sig × HIx 1)) (c : Dev nD) (t : Fin cfg1.N) (Y X) : (rdat1 V B c).after 3 t Y X := trivial

/-! ## The body obligation -/

set_option maxHeartbeats 1000000 in
/-- The body at point `t`, the windows' current buffers at any contents `Y w`: `sound_kernel1` at the point's
    staging memrefs; the invariant and what the core owes pass through unread. -/
theorem sound_body1 (B : Set (SemLoc sig × HIx 1)) (c : Dev nD) (t : Fin cfg1.N)
    (Y : (w : Fin cfg1.W) → (cfg1.win w).block.Idx → Elt F (cfg1.win w).elt) :
    iprop((rdat1 V B c).Φ t.castSucc ∗ (rdat1 V B c).owesAt (none : HIx 1) t.castSucc
        ∗ owns (c : Thread nD τ) (ms1_0 t) fullShare (Y 0) ∗ owns (c : Thread nD τ) (ms1_1 t) fullShare (Y 1)
        ∗ owns (c : Thread nD τ) (ms1_2 t) fullShare (Y 2) ∗ owns (c : Thread nD τ) (ms1_3 t) fullShare (Y 3))
      ⊢ wp frame (wpE (defs₀ (F := F)) Variants.none c none) Set.univ (bodyAt1 t) (fun _ =>
          iprop((rdat1 V B c).Φ t.succ ∗ (rdat1 V B c).owesAt (none : HIx 1) t.succ
            ∗ (∃ X, ⌜(rdat1 V B c).after 0 t (Y 0) X⌝ ∗ owns (c : Thread nD τ) (ms1_0 t) fullShare X)
            ∗ (∃ X, ⌜(rdat1 V B c).after 1 t (Y 1) X⌝ ∗ owns (c : Thread nD τ) (ms1_1 t) fullShare X)
            ∗ (∃ X, ⌜(rdat1 V B c).after 2 t (Y 2) X⌝ ∗ owns (c : Thread nD τ) (ms1_2 t) fullShare X)
            ∗ (∃ X, ⌜(rdat1 V B c).after 3 t (Y 3) X⌝ ∗ owns (c : Thread nD τ) (ms1_3 t) fullShare X))) := by
  unfold bodyAt1
  rw [show (rdat1 V B c).Φ t.succ = (rdat1 V B c).Φ t.castSucc from rfl,
    show (rdat1 V B c).owesAt (none : HIx 1) t.succ = (rdat1 V B c).owesAt (none : HIx 1) t.castSucc from rfl]
  iintro ⟨HΦ, Ho, H0, H1, H2, H3⟩
  iapply (sound_kernel1 c Set.univ (grid1.coords t) (ms1_0 t) (hs1_0 t) (ms1_1 t) (hs1_1 t) (ms1_2 t) (hs1_2 t) (ms1_3 t) (hs1_3 t) (Y 0) (Y 1) (Y 2) (Y 3) _)
  isplitl [H0]; · iexact H0
  isplitl [H1]; · iexact H1
  isplitl [H2]; · iexact H2
  isplitl [H3]; · iexact H3
  iintro ⟨H0, H1, H2, ⟨%X3, H3⟩⟩
  isplitl [HΦ]; · iexact HΦ
  isplitl [Ho]; · iexact Ho
  isplitl [H0]
  · iexists (Y 0); isplitr; · ipureintro; exact (after1_0 V B c t _ _).mpr rfl
    iexact H0
  isplitl [H1]
  · iexists (Y 1); isplitr; · ipureintro; exact (after1_1 V B c t _ _).mpr rfl
    iexact H1
  isplitl [H2]
  · iexists (Y 2); isplitr; · ipureintro; exact (after1_2 V B c t _ _).mpr rfl
    iexact H2
  iexists X3; isplitr; · ipureintro; exact after1_3 V B c t _ _
  iexact H3

/-- The library's relational body obligation, at every point and whatever the buffers are found holding. -/
theorem body_obligation1 (B : Set (SemLoc sig × HIx 1)) (c : Dev nD) :
    (rdat1 (F := F) V B c).BodyObligation (defs₀ (F := F)) Variants.none (none : HIx 1) Set.univ := fun t Y _ => by
  rw [bigSep_W1, bigSep_W1]
  exact sound_body1 V B c t Y

end Cert.Proof.KernelIdeal

end
-- ==== Proof.KernelIdeal.Region2.lean ====
/-
  The second TensorCore pipeline (the gridless combine kernel: one point, every window a whole array) at the
  TensorCore's buffer contents `V` when the region is entered: each window's block, what the body leaves in the
  output window's buffer as a function of the three input blocks, the body's triple, the pipeline's proof data and
  the body obligation.
-/
import proofs.«211348_g14766097563893_cont_week2b_353_46_alg».proof.Proof.KernelIdeal.Setup
import Idealize.ShloMosaic.Lib.Pipeline.FrameBody
import Idealize.ShloMosaic.Lib.Tactic

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place; the windows are uncut and never idle. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the thirty-two slices of sixty-four of the first input, and the whole of the others -/

abbrev r2_0 : Rect S2048 := Rect.unit (s := S2048) ![0] S64.size inb_S2048_S64_0
abbrev r2_1 : Rect S2048 := Rect.unit (s := S2048) ![64] S64.size inb_S2048_S64_64
abbrev r2_2 : Rect S2048 := Rect.unit (s := S2048) ![128] S64.size inb_S2048_S64_128
abbrev r2_3 : Rect S2048 := Rect.unit (s := S2048) ![192] S64.size inb_S2048_S64_192
abbrev r2_4 : Rect S2048 := Rect.unit (s := S2048) ![256] S64.size inb_S2048_S64_256
abbrev r2_5 : Rect S2048 := Rect.unit (s := S2048) ![320] S64.size inb_S2048_S64_320
abbrev r2_6 : Rect S2048 := Rect.unit (s := S2048) ![384] S64.size inb_S2048_S64_384
abbrev r2_7 : Rect S2048 := Rect.unit (s := S2048) ![448] S64.size inb_S2048_S64_448
abbrev r2_8 : Rect S2048 := Rect.unit (s := S2048) ![512] S64.size inb_S2048_S64_512
abbrev r2_9 : Rect S2048 := Rect.unit (s := S2048) ![576] S64.size inb_S2048_S64_576
abbrev r2_10 : Rect S2048 := Rect.unit (s := S2048) ![640] S64.size inb_S2048_S64_640
abbrev r2_11 : Rect S2048 := Rect.unit (s := S2048) ![704] S64.size inb_S2048_S64_704
abbrev r2_12 : Rect S2048 := Rect.unit (s := S2048) ![768] S64.size inb_S2048_S64_768
abbrev r2_13 : Rect S2048 := Rect.unit (s := S2048) ![832] S64.size inb_S2048_S64_832
abbrev r2_14 : Rect S2048 := Rect.unit (s := S2048) ![896] S64.size inb_S2048_S64_896
abbrev r2_15 : Rect S2048 := Rect.unit (s := S2048) ![960] S64.size inb_S2048_S64_960
abbrev r2_16 : Rect S2048 := Rect.unit (s := S2048) ![1024] S64.size inb_S2048_S64_1024
abbrev r2_17 : Rect S2048 := Rect.unit (s := S2048) ![1088] S64.size inb_S2048_S64_1088
abbrev r2_18 : Rect S2048 := Rect.unit (s := S2048) ![1152] S64.size inb_S2048_S64_1152
abbrev r2_19 : Rect S2048 := Rect.unit (s := S2048) ![1216] S64.size inb_S2048_S64_1216
abbrev r2_20 : Rect S2048 := Rect.unit (s := S2048) ![1280] S64.size inb_S2048_S64_1280
abbrev r2_21 : Rect S2048 := Rect.unit (s := S2048) ![1344] S64.size inb_S2048_S64_1344
abbrev r2_22 : Rect S2048 := Rect.unit (s := S2048) ![1408] S64.size inb_S2048_S64_1408
abbrev r2_23 : Rect S2048 := Rect.unit (s := S2048) ![1472] S64.size inb_S2048_S64_1472
abbrev r2_24 : Rect S2048 := Rect.unit (s := S2048) ![1536] S64.size inb_S2048_S64_1536
abbrev r2_25 : Rect S2048 := Rect.unit (s := S2048) ![1600] S64.size inb_S2048_S64_1600
abbrev r2_26 : Rect S2048 := Rect.unit (s := S2048) ![1664] S64.size inb_S2048_S64_1664
abbrev r2_27 : Rect S2048 := Rect.unit (s := S2048) ![1728] S64.size inb_S2048_S64_1728
abbrev r2_28 : Rect S2048 := Rect.unit (s := S2048) ![1792] S64.size inb_S2048_S64_1792
abbrev r2_29 : Rect S2048 := Rect.unit (s := S2048) ![1856] S64.size inb_S2048_S64_1856
abbrev r2_30 : Rect S2048 := Rect.unit (s := S2048) ![1920] S64.size inb_S2048_S64_1920
abbrev r2_31 : Rect S2048 := Rect.unit (s := S2048) ![1984] S64.size inb_S2048_S64_1984
abbrev r2_32 : Rect S2x64 := Rect.unit (s := S2x64) ![0, 0] S2x64.size inb_S2x64_S2x64_0_0
abbrev r2_33 : Rect S2x1 := Rect.unit (s := S2x1) ![0, 0] S2x1.size inb_S2x1_S2x1_0_0

/-! ## What the body leaves in the output window's buffer -/

/-- Window 3's staging buffer after the body, from the input windows' blocks: its one store, over the payloads of
    the slices loaded of the first input and the whole second and third. -/
def out2_3 (x0 : Vec F S2048 .f32) (x1 : Vec F S2x64 .f32) (x2 : Vec F S2x1 .f32) : Vec F S2x64 .f32 :=
  View.canon [⟨r2_32, k2_pay1 (k2_pay3 (k2_pay2 (View.ld x0 r2_0) (View.ld x0 r2_1) (View.ld x0 r2_2) (View.ld x0 r2_3) (View.ld x0 r2_4) (View.ld x0 r2_5) (View.ld x0 r2_6) (View.ld x0 r2_7) (View.ld x0 r2_8) (View.ld x0 r2_9) (View.ld x0 r2_10) (View.ld x0 r2_11) (View.ld x0 r2_12) (View.ld x0 r2_13) (View.ld x0 r2_14)) (View.ld x0 r2_15) (View.ld x0 r2_16) (View.ld x0 r2_17) (View.ld x0 r2_18) (View.ld x0 r2_19) (View.ld x0 r2_20) (View.ld x0 r2_21) (View.ld x0 r2_22) (View.ld x0 r2_23) (View.ld x0 r2_24) (View.ld x0 r2_25) (View.ld x0 r2_26) (View.ld x0 r2_27) (View.ld x0 r2_28) (View.ld x0 r2_29)) (View.ld x0 r2_30) (View.ld x0 r2_31) (View.ld x1 r2_32) (View.ld x2 r2_33)⟩]

/-- The store is of the whole buffer, so it covers it. -/
theorem cover2_3 (p0 : Vec F S2x64 .f32) (y : S2x64.Idx) :
    ∃ pc ∈ ([⟨r2_32, p0⟩] : List (View.Piece (Elt F) S2x64 .f32)), y ∈ pc.1.set :=
  View.cover_of_tiled [⟨r2_32, p0⟩] S2x64.size (by rfl) y

/-! ## The body's triple -/

set_option maxHeartbeats 4000000 in
/-- The kernel body on whole staging memrefs, the inputs' at read contents `x0 x1 x2` and the output's at anything,
    runs to the continuation holding the inputs' as they were and the output's at `out2_3` of the inputs': the
    printed functions are their skeletons, run statement by statement through the two part calls. -/
theorem sound_kernel2 (c : Dev nD) (E : Set ℕ) (arg0 : Memref sig .tc .vmem S2048 .f32) (harg0 : arg0.IsWhole) (arg1 : Memref sig .tc .vmem S2x64 .f32) (harg1 : arg1.IsWhole) (arg2 : Memref sig .tc .vmem S2x1 .f32) (harg2 : arg2.IsWhole) (arg3 : Memref sig .tc .vmem S2x64 .f32) (harg3 : arg3.IsWhole)
    (x0 : Vec F S2048 .f32) (x1 : Vec F S2x64 .f32) (x2 : Vec F S2x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__combine_body arg0 harg0 arg1 harg1 arg2 harg2 arg3 harg3) K := by
  simp only [cc2__combine_body_eq_skeleton]; unfold cc2__combine_body_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The pipeline's proof data -/

/-- The region's invariant on core `c`: the core's scoped buffers that are no staging buffer of this pipeline, at some
    contents each, and its generator register at some state — what the body may use and need not describe. -/
def Φ2 (c : Dev nD) : sProp 𝕄 :=
  iprop(Pipeline.scopedRest (Ix := HIx 1) (Name := ℕ) (U := UU) (Lvl := ℕ) (Val := Elt F) spec2 c ∗ ∃ r, prngReg c r)

/-- The proof data of the pipeline on core `c`: the arrays as the region finds them (`V`); after the body at the one
    point each input's buffer at its block and the output's at `out2_3` of the input blocks; the invariant `Φ2`;
    nothing owed, the recorded wait pairs within `B`; full shares. -/
def dat2 (B : Set (SemLoc sig × HIx 1)) (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Φ2 c
  q _ := fullShare
  owed _ := 0
  recorded _ := B

/-- The proof data's arrays are the region-entry contents. -/
theorem A_eq2 (B : Set (SemLoc sig × HIx 1)) (c : Dev nD) (w : Fin cfg2.W) : (dat2 V B c).A w = V c (Pipeline.arrRef spec2 w) := by
  dsimp only [dat2]

/-- What the body leaves, window by window. -/
theorem after2_0 (B : Set (SemLoc sig × HIx 1)) (c : Dev nD) (t : Fin cfg2.N) : (dat2 V B c).after 0 t = iblk2 V c 0 t := by dsimp only [dat2]
theorem after2_1 (B : Set (SemLoc sig × HIx 1)) (c : Dev nD) (t : Fin cfg2.N) : (dat2 V B c).after 1 t = iblk2 V c 1 t := by dsimp only [dat2]
theorem after2_2 (B : Set (SemLoc sig × HIx 1)) (c : Dev nD) (t : Fin cfg2.N) : (dat2 V B c).after 2 t = iblk2 V c 2 t := by dsimp only [dat2]
theorem after2_3 (B : Set (SemLoc sig × HIx 1)) (c : Dev nD) (t : Fin cfg2.N) : (dat2 V B c).after 3 t = out2_3 (iblk2 V c 0 t) (iblk2 V c 1 t) (iblk2 V c 2 t) := by dsimp only [dat2]

/-- Each input's current staging buffer holds its block at the point. -/
theorem before2_0 (B : Set (SemLoc sig × HIx 1)) (c : Dev nD) (t : Fin cfg2.N) (d) : (dat2 V B c).before 0 t d = iblk2 V c 0 t :=
  before2_0_of V (dat2 V B c) (A_eq2 V B c 0) (after2_0 V B c) t d
theorem before2_1 (B : Set (SemLoc sig × HIx 1)) (c : Dev nD) (t : Fin cfg2.N) (d) : (dat2 V B c).before 1 t d = iblk2 V c 1 t :=
  before2_1_of V (dat2 V B c) (A_eq2 V B c 1) (after2_1 V B c) t d
theorem before2_2 (B : Set (SemLoc sig × HIx 1)) (c : Dev nD) (t : Fin cfg2.N) (d) : (dat2 V B c).before 2 t d = iblk2 V c 2 t :=
  before2_2_of V (dat2 V B c) (A_eq2 V B c 2) (after2_2 V B c) t d

/-! ## The body obligation -/

/-- What the body is called with at point `t`, the windows one by one, -/
def bodyPre2 (B : Set (SemLoc sig × HIx 1)) (c : Dev nD) (t : Fin cfg2.N) : sProp 𝕄 :=
  iprop((dat2 V B c).Φ t.castSucc ∗ (dat2 V B c).owesAt (none : HIx 1) t.castSucc
    ∗ (∃ d, owns (c : Thread nD τ) (st2_0 t) fullShare ((dat2 V B c).before 0 t d))
    ∗ (∃ d, owns (c : Thread nD τ) (st2_1 t) fullShare ((dat2 V B c).before 1 t d))
    ∗ (∃ d, owns (c : Thread nD τ) (st2_2 t) fullShare ((dat2 V B c).before 2 t d))
    ∗ (∃ d, owns (c : Thread nD τ) (st2_3 t) fullShare ((dat2 V B c).before 3 t d)))

/-- and what it returns. -/
def bodyPost2 (B : Set (SemLoc sig × HIx 1)) (c : Dev nD) (t : Fin cfg2.N) : sProp 𝕄 :=
  iprop((dat2 V B c).Φ t.succ ∗ (dat2 V B c).owesAt (none : HIx 1) t.succ
    ∗ owns (c : Thread nD τ) (st2_0 t) fullShare ((dat2 V B c).after 0 t)
    ∗ owns (c : Thread nD τ) (st2_1 t) fullShare ((dat2 V B c).after 1 t)
    ∗ owns (c : Thread nD τ) (st2_2 t) fullShare ((dat2 V B c).after 2 t)
    ∗ owns (c : Thread nD τ) (st2_3 t) fullShare ((dat2 V B c).after 3 t))

/-- The body at the point: the inputs' memrefs hold their blocks, so the body's triple applies; the invariant and the
    core's debts pass through unread. -/
theorem sound_body2 (B : Set (SemLoc sig × HIx 1)) (c : Dev nD) (t : Fin cfg2.N) :
    bodyPre2 V B c t ⊢ wp frame (wpE (defs₀ (F := F)) Variants.none c none) Set.univ (bodyAt2 t) (fun _ => bodyPost2 V B c t) := by
  unfold bodyPre2 bodyPost2 bodyAt2
  simp only [before2_0, before2_1, before2_2]
  rw [show (dat2 V B c).Φ t.succ = (dat2 V B c).Φ t.castSucc from rfl,
    show (dat2 V B c).owesAt (none : HIx 1) t.succ = (dat2 V B c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (B : Set (SemLoc sig × HIx 1)) (c : Dev nD) :
    BodyObligation (dat2 (F := F) V B c) (defs₀ (F := F)) Variants.none (none : HIx 1) Set.univ := fun t => by
  rw [bigSep_W2, bigSep_W2]
  exact sound_body2 V B c t

end Cert.Proof.KernelIdeal

end
-- ==== Proof.KernelIdeal.Region2Exit.lean ====
/-
  The second pipeline's arrays at exit: each window's one block is its whole array, so the inputs' blocks are the
  arrays as the region finds them and the output array ends holding the body's result of them.
-/
import proofs.«211348_g14766097563893_cont_week2b_353_46_alg».proof.Proof.KernelIdeal.Region2
import Idealize.ShloMosaic.Lib.Pipeline.Value

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The inputs' blocks are the arrays -/

theorem iblk2_0 (c : Dev nD) (t : Fin cfg2.N) : iblk2 V c 0 t = V c main_v0 := by
  funext j
  show V c main_v0 (((cfg2.win 0).blk t).view.emb j) = V c main_v0 j
  refine congrArg _ (funext fun a => Fin.ext ?_)
  match a with
  | ⟨0, _⟩ => show 0 * 2048 + 1 * (j 0).val = (j 0).val; omega

theorem iblk2_1 (c : Dev nD) (t : Fin cfg2.N) : iblk2 V c 1 t = V c main_v1 := by
  funext j
  show V c main_v1 (((cfg2.win 1).blk t).view.emb j) = V c main_v1 j
  refine congrArg _ (funext fun a => Fin.ext ?_)
  match a with
  | ⟨0, _⟩ => show 0 * 2 + 1 * (j 0).val = (j 0).val; omega
  | ⟨1, _⟩ => show 0 * 64 + 1 * (j 1).val = (j 1).val; omega

theorem iblk2_2 (c : Dev nD) (t : Fin cfg2.N) : iblk2 V c 2 t = V c main_v2 := by
  funext j
  show V c main_v2 (((cfg2.win 2).blk t).view.emb j) = V c main_v2 j
  refine congrArg _ (funext fun a => Fin.ext ?_)
  match a with
  | ⟨0, _⟩ => show 0 * 2 + 1 * (j 0).val = (j 0).val; omega
  | ⟨1, _⟩ => show 0 * 1 + 1 * (j 1).val = (j 1).val; omega

/-! ## The output array at exit -/

/-- The output window's one block, read off any contents of its array, is the contents. -/
theorem read_blk2_3 (t : Fin cfg2.N) (G : Vec F S2x64 .f32) :
    ((cfg2.win 3).blk t).view.read (Elt F) G = G := by
  funext j
  show G (((cfg2.win 3).blk t).view.emb j) = G j
  refine congrArg _ (funext fun a => Fin.ext ?_)
  match a with
  | ⟨0, _⟩ => show 0 * 2 + 1 * (j 0).val = (j 0).val; omega
  | ⟨1, _⟩ => show 0 * 64 + 1 * (j 1).val = (j 1).val; omega

/-- What the one point writes back is the body's result of the three arrays as the region finds them. -/
theorem flushed2_3 (B : Set (SemLoc sig × HIx 1)) (c : Dev nD) (t : Fin cfg2.N) :
    (dat2 V B c).flushed 3 t = ((cfg2.win 3).blk t).view.read (Elt F) (out2_3 (V c main_v0) (V c main_v1) (V c main_v2)) := by
  show (cfg2.win 3).cut (grid2.coords t) ((dat2 V B c).after 3 t) = _
  rw [after2_3, iblk2_0, iblk2_1, iblk2_2, read_blk2_3]
  rfl

/-- Every index of the output array is in the one point's block. -/
theorem cover2_arr (i : S2x64.Idx) : ∃ t : Fin cfg2.N, (cfg2.win 3).flush t = true ∧ i ∈ ((cfg2.win 3).blk t).view.set := by
  refine ⟨t2_0, flush2_3 t2_0, ?_⟩
  show i ∈ ((View.whole main_v3).slice (win2_3.rect t2_0)).set
  rw [View.set_slice_whole, Rect.mem_set_unit]
  intro a
  match a with
  | ⟨0, _⟩ => show 0 * 2 ≤ (i 0).val ∧ (i 0).val < 0 * 2 + 2; have h : (i 0).val < 2 := (i 0).isLt; omega
  | ⟨1, _⟩ => show 0 * 64 ≤ (i 1).val ∧ (i 1).val < 0 * 64 + 64; have h : (i 1).val < 64 := (i 1).isLt; omega

/-- The output array after the run: the body's result of the three input arrays as the region finds them. -/
theorem final2_3 (B : Set (SemLoc sig × HIx 1)) (c : Dev nD) :
    (dat2 V B c).arrAt 3 cfg2.N = out2_3 (V c main_v0) (V c main_v1) (V c main_v2) :=
  (dat2 V B c).arrAt_eq_of_cover 3 (out2_3 (V c main_v0) (V c main_v1) (V c main_v2)) (fun t _ => flushed2_3 V B c t) cover2_arr

/-- An input array is as the region finds it, at every point. -/
theorem final2_in (B : Set (SemLoc sig × HIx 1)) (c : Dev nD) (w : Fin cfg2.W) (hw : (cfg2.win w).isOut = false) (n : Nat) :
    (dat2 V B c).arrAt w n = V c (Pipeline.arrRef spec2 w) :=
  ((dat2 V B c).arrAt_in w hw n).trans (A_eq2 V B c w)

/-- The exact obligation in the form the loop uses. -/
theorem body_obligation2_loose (B : Set (SemLoc sig × HIx 1)) (c : Dev nD) :
    Pipeline.BodyObligationLoose (dat2 (F := F) V B c) (defs₀ (F := F)) Variants.none (none : HIx 1) Set.univ :=
  (body_obligation2 V B c).loose

end Cert.Proof.KernelIdeal

end
-- ==== Proof.KernelIdeal.LaunchRegions.lean ====
/-
  The two TensorCore pipelines as segments of the TensorCore's run: each region entered from every unscoped buffer
  held at a valuation and left with the region's arrays at contents they may hold after the write-backs and every
  other unscoped buffer as it was; the generator register and the core's debts ride along.
-/
import proofs.«211348_g14766097563893_cont_week2b_353_46_alg».proof.Proof.KernelIdeal.Region1
import proofs.«211348_g14766097563893_cont_week2b_353_46_alg».proof.Proof.KernelIdeal.Region2Exit
import Idealize.ShloMosaic.Lib.Pipeline.RegionsLoop
import Idealize.ShloMosaic.Lib.Pipeline.FrameSuffix

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm

/-! ## The first pipeline's relational proof data, as the launch needs it -/

/-- Relational proof data for the first pipeline at any entry contents and any bound on the recorded wait pairs, with
    what the segments use of it: the arrays are the entry contents, the invariant the region's, full shares, nothing
    owed, the recorded pairs within the bound, and the body obligation. -/
structure R1Data (F : FTy → Type) [FloatOps F] where
  rd : ((c : Dev nD) → (b : Ref sig .tc) → Buf (Elt F) ((c : Thread nD τ).loc b)) → Set (SemLoc sig × HIx 1) → (c : Dev nD) →
    Pipeline.RDat τ (Elt F) (HIx 1) ℕ UU ℕ cfg1 c
  hA : ∀ V B c w, (rd V B c).A w = V c (Pipeline.arrRef spec1 w)
  hΦ : ∀ V B c t, (rd V B c).Φ t = Φreg1 c
  hq : ∀ V B c w, (rd V B c).q w = fullShare
  howed : ∀ V B c t, (rd V B c).owed t = 0
  hrec : ∀ V B c t, (rd V B c).recorded t = B
  hbody : ∀ V B c, (rd V B c).BodyObligation (defs₀ (F := F)) Variants.none (none : HIx 1) Set.univ

/-- The data that says nothing of what the body leaves in the output window. -/
def r1Frame : R1Data F where
  rd := rdat1
  hA := A_eq1
  hΦ _ _ _ _ := rfl
  hq _ _ _ _ := rfl
  howed _ _ _ _ := rfl
  hrec _ _ _ _ := rfl
  hbody := body_obligation1

/-- Both pipelines' proof data, the first at the entry contents `V`, the second at `V'` — a literal `match`. -/
def rdats (R1 : R1Data F) (V V' : (c : Dev nD) → (b : Ref sig .tc) → Buf (Elt F) ((c : Thread nD τ).loc b))
    (B : Set (SemLoc sig × HIx 1)) :
    (p : Fin 2) → (c : Dev nD) → Pipeline.RDat τ (Elt F) (HIx 1) ℕ UU ℕ (Pipeline.pin (pcfgs (F := F)) adm p) c
  | ⟨0, _⟩ => fun c => R1.rd V B c
  | ⟨1, _⟩ => fun c => (dat2 V' B c).toR

/-- What rides beside the buffers through every segment: the generator register at some state, and the core owing
    nothing with its recorded wait pairs within `B`. -/
abbrev Rst (B : Set (SemLoc sig × HIx 1)) (c : Dev nD) : sProp 𝕄 :=
  iprop((∃ r, prngReg c r) ∗ Pipeline.owesWithin c (0 : CellTallies nD τ sig (HIx 1)) B)

/-! ## The arrays out of the unscoped buffers and back -/

/-- The arrays after the write-backs below `n`, each at some contents it may then hold: one family of contents. -/
theorem arraysAt_open {cfg : Pipeline.Cfg sig Λ₀} {c : Dev nD} (rd : Pipeline.RDat τ (Elt F) (HIx 1) ℕ UU ℕ cfg c) (n : Nat) :
    (rd.arraysAt n : sProp 𝕄) ⊢ iprop(∃ Fs : (w : Fin cfg.W) → Buf (Elt F) ((cfg.win w).arr.view.loc (c.tc : Thread nD τ)),
      ⌜∀ w, rd.ArrAt w n (Fs w)⌝ ∗ rd.arrays Fs) := by
  classical
  unfold Pipeline.RDat.arraysAt Pipeline.RDat.arrays
  iintro Ha
  ihave Ha' := (BI.bigSep_exists_pi Finset.univ (fun w G => iprop(⌜rd.ArrAt w n G⌝
      ∗ (cfg.win w).arr.view.loc (c.tc : Thread nD τ) ↦[(cfg.win w).arr.view.set]{rd.share w} G))) $$ Ha
  icases Ha' with ⟨%Fs, Ha⟩
  ihave Ha2 := (BI.bigSep_pure_sep Finset.univ (fun w => rd.ArrAt w n (Fs w))
      (fun w => (cfg.win w).arr.view.loc (c.tc : Thread nD τ) ↦[(cfg.win w).arr.view.set]{rd.share w} Fs w)) $$ Ha
  icases Ha2 with ⟨%hFs, Ha⟩
  iexists Fs
  isplitr; · ipureintro; exact fun w => hFs w (Finset.mem_univ w)
  iexact Ha

/-- A pipeline's arrays at contents `Fs` and the unscoped rest at `V` are the core's unscoped buffers at any
    valuation that has the arrays at `Fs` and agrees with `V` off them. -/
theorem unscopedBufs_of_arraysR {p : Fin 2}
    (rds : (p : Fin 2) → (c : Dev nD) → Pipeline.RDat τ (Elt F) (HIx 1) ℕ UU ℕ (Pipeline.pin (pcfgs (F := F)) adm p) c)
    (hw : Pipeline.WinFacts (Pipeline.pin (pcfgs (F := F)) adm p).spec)
    (harr : ∀ w, ((Pipeline.pin (pcfgs (F := F)) adm p).spec w).arr.IsWhole)
    (c : Dev nD) (hshare : ∀ w, (rds p c).share w = fullShare)
    (V V' : (b : Ref sig .tc) → Buf (Elt F) ((c.tc : Thread nD τ).loc b))
    (Fs : (w : Fin (Pipeline.pin (pcfgs (F := F)) adm p).W) → Buf (Elt F) (((Pipeline.pin (pcfgs (F := F)) adm p).spec w).arr.view.loc (c.tc : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays Fs ∗ Pipeline.unscopedRest (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-- EXIT, the arrays' part: the arrays after the write-backs below `n` and the unscoped rest as entered are the
    unscoped buffers held at the entry valuation with the arrays at some contents they may then hold. -/
theorem held_of_arraysAt {p : Fin 2}
    (rds : (p : Fin 2) → (c : Dev nD) → Pipeline.RDat τ (Elt F) (HIx 1) ℕ UU ℕ (Pipeline.pin (pcfgs (F := F)) adm p) c)
    (hw : Pipeline.WinFacts (Pipeline.pin (pcfgs (F := F)) adm p).spec)
    (harr : ∀ w, ((Pipeline.pin (pcfgs (F := F)) adm p).spec w).arr.IsWhole)
    (c : Dev nD) (hshare : ∀ w, (rds p c).share w = fullShare) (W : Valuation τ sig (Elt F)) (n : Nat) :
    iprop((rds p c).arraysAt n ∗ Pipeline.unscopedRest (Ix := HIx 1) (Name := ℕ) (U := UU) (Lvl := ℕ) (Pipeline.pin (pcfgs (F := F)) adm p).spec c (fun b => W b))
      ⊢ (iprop(∃ Fs : (w : Fin (Pipeline.pin (pcfgs (F := F)) adm p).W) → Buf (Elt F) (((Pipeline.pin (pcfgs (F := F)) adm p).spec w).arr.view.loc (c.tc : Thread nD τ)),
          ⌜∀ w, (rds p c).ArrAt w n (Fs w)⌝
          ∗ StableHlo.held (c : Thread nD τ) (Pipeline.ucRefs τ sig) (Pipeline.withArrays (Pipeline.pin (pcfgs (F := F)) adm p).spec c W Fs)) : sProp 𝕄) := by
  iintro ⟨Ha, Hrest⟩
  ihave Ha' := (arraysAt_open (rds p c) n) $$ Ha
  icases Ha' with ⟨%Fs, %hFs, Ha⟩
  have hjoin := unscopedBufs_of_arraysR (p := p) rds hw harr c hshare (fun b => W b)
    (fun b => Pipeline.withArrays (Pipeline.pin (pcfgs (F := F)) adm p).spec c W Fs b) Fs
    (fun w => (Pipeline.withArrays_arr (Pipeline.pin (pcfgs (F := F)) adm p).spec hw.arr_inj c W Fs w).symm)
    (fun b hb => Pipeline.withArrays_of_ne (Pipeline.pin (pcfgs (F := F)) adm p).spec c W Fs b fun w e =>
      hb (Finset.mem_image.mpr ⟨w, Finset.mem_univ _, e⟩))
  rw [Pipeline.unscopedBufs_held] at hjoin
  iexists Fs
  isplitr; · ipureintro; exact hFs
  iapply hjoin
  isplitl [Ha] <;> iassumption

set_option backward.isDefEq.respectTransparency.types false in
/-- REGION 1 (the gridded pipeline) as a segment: entered from every unscoped buffer held at `W`, left with its arrays at contents they
    may hold after the write-backs and every other unscoped buffer as entered; the generator register into the region's
    invariant and out; nothing owed; no semaphore of the kernel's own. -/
def regA (R1 : R1Data F) (L : GSem nD τ sig → Finset (HIx 1)) (lv : GSem nD τ sig → HIx 1 → ℕ)
    (W : Dev nD → Valuation τ sig (Elt F)) (V' : (c : Dev nD) → (b : Ref sig .tc) → Buf (Elt F) ((c : Thread nD τ).loc b))
    (B : Set (SemLoc sig × HIx 1)) (hB : cfg1.waitPairs (none : HIx 1) ⊆ B) :
    Pipeline.RDat.RegionSeg (pcfgs (F := F)) adm (rdats R1 (fun c b => W c b) V' B) (none : HIx 1) defs₀ 𝒱₀ L lv 0 where
  win := launch1.win.to₀
  block_pos := launch1.block_pos
  stage_whole := launch1.stage_whole
  K := PEmpty
  osem k := k.elim
  ho := Pipeline.OwnSemFacts.none _
  hbody c := R1.hbody (fun c b => W c b) B c
  hwaits := Pipeline.RDat.hwaits_of_owed_zero _ _ _ _ L lv 0 fun c t => R1.howed (fun c b => W c b) B c t
  pre c := iprop(StableHlo.held (c : Thread nD τ) (Pipeline.ucRefs τ sig) (W c) ∗ Rst B c)
  post c := iprop(∃ Fs : (w : Fin cfg1.W) → Buf (Elt F) ((cfg1.win w).arr.view.loc (c.tc : Thread nD τ)),
    ⌜∀ w, (R1.rd (fun c b => W c b) B c).ArrAt w cfg1.N (Fs w)⌝
      ∗ StableHlo.held (c : Thread nD τ) (Pipeline.ucRefs τ sig) (Pipeline.withArrays spec1 c (W c) Fs) ∗ Rst B c)
  X c := iprop(∃ r, prngReg c r)
  Y c := iprop(∃ r, prngReg c r)
  Z c := Pipeline.unscopedRest (Ix := HIx 1) (Name := ℕ) (U := UU) (Lvl := ℕ) spec1 c (fun b => W c b)
  hentry c := by
    rw [Pipeline.ownSems0_none]
    have hsplit := Pipeline.RDat.arrays_of_unscopedBufs (p := 0) (pcfgs (F := F)) adm (rdats R1 (fun c b => W c b) V' B) launch1.win launch1.arr_whole c
      ((R1.rd (fun c b => W c b) B c).share_full fun w => R1.hq (fun c b => W c b) B c w) (fun b => W c b) fun w => R1.hA (fun c b => W c b) B c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats R1 (fun c b => W c b) V' B 0 c).owesAt (none : HIx 1) 0
          = Pipeline.owesWithin c ((R1.rd (fun c b => W c b) B c).owed 0) ((R1.rd (fun c b => W c b) B c).recorded 0 ∪ cfg1.waitPairs (none : HIx 1)) from rfl,
        show (R1.rd (fun c b => W c b) B c).owed 0 = 0 from R1.howed (fun c b => W c b) B c 0, show (R1.rd (fun c b => W c b) B c).recorded 0 = B from R1.hrec (fun c b => W c b) B c 0]
      iapply (Pipeline.owesWithin_mono c 0 Set.subset_union_left); iexact HO
    isplitl [Hp]; · iexact Hp
    iexact Hrest
  hin c := by
    rw [show (rdats R1 (fun c b => W c b) V' B 0 c).Φ 0 = Φreg1 c from R1.hΦ (fun c b => W c b) B c 0]; unfold Φreg1
    iintro ⟨Hp, -, Hr⟩
    isplitl [Hr]; · iexact Hr
    iexact Hp
  hout c := by
    rw [Pipeline.ownSems0_none, show (rdats R1 (fun c b => W c b) V' B 0 c).Φ (Fin.last _) = Φreg1 c from R1.hΦ (fun c b => W c b) B c (Fin.last _)]; unfold Φreg1
    iintro ⟨Hr, Hp⟩
    isplitl [Hp]; · iexact Hp
    isplitr; · iempintro
    iexact Hr
  hexit c := by
    have hjoin := held_of_arraysAt (p := 0) (rdats R1 (fun c b => W c b) V' B) launch1.win launch1.arr_whole c
      ((R1.rd (fun c b => W c b) B c).share_full fun w => R1.hq (fun c b => W c b) B c w) (W c) cfg1.N
    have hO : ((rdats R1 (fun c b => W c b) V' B 0 c).owesAt (none : HIx 1) (Fin.last _) : sProp 𝕄) ⊢ Pipeline.owesWithin c 0 B := by
      rw [show (rdats R1 (fun c b => W c b) V' B 0 c).owesAt (none : HIx 1) (Fin.last _)
          = Pipeline.owesWithin c ((R1.rd (fun c b => W c b) B c).owed (Fin.last _)) ((R1.rd (fun c b => W c b) B c).recorded (Fin.last _) ∪ cfg1.waitPairs (none : HIx 1)) from rfl,
        show (R1.rd (fun c b => W c b) B c).owed (Fin.last _) = 0 from R1.howed (fun c b => W c b) B c (Fin.last _), show (R1.rd (fun c b => W c b) B c).recorded (Fin.last _) = B from R1.hrec (fun c b => W c b) B c (Fin.last _)]
      exact Pipeline.owesWithin_mono c 0 (Set.union_subset (le_refl B) hB)
    iintro ⟨Ha, HO, HY, Hrest⟩
    ihave H := hjoin $$ [Ha Hrest]
    · isplitl [Ha] <;> iassumption
    icases H with ⟨%Fs, %hFs, Hh⟩
    imodintro
    iexists Fs
    isplitr; · ipureintro; exact hFs
    isplitl [Hh]; · iexact Hh
    isplitl [HY]; · iexact HY
    iapply hO; iexact HO

set_option backward.isDefEq.respectTransparency.types false in
/-- REGION 2 (the gridless combine pipeline) as a segment: entered from every unscoped buffer held at `W'`, left with its arrays at contents they
    may hold after the write-backs and every other unscoped buffer as entered; the generator register into the region's
    invariant and out; nothing owed; no semaphore of the kernel's own. -/
def regB (R1 : R1Data F) (L : GSem nD τ sig → Finset (HIx 1)) (lv : GSem nD τ sig → HIx 1 → ℕ)
    (V : (c : Dev nD) → (b : Ref sig .tc) → Buf (Elt F) ((c : Thread nD τ).loc b)) (W' : Dev nD → Valuation τ sig (Elt F))
    (B : Set (SemLoc sig × HIx 1)) (hB : cfg2.waitPairs (none : HIx 1) ⊆ B) :
    Pipeline.RDat.RegionSeg (pcfgs (F := F)) adm (rdats R1 V (fun c b => W' c b) B) (none : HIx 1) defs₀ 𝒱₀ L lv 1 where
  win := launch2.win.to₀
  block_pos := launch2.block_pos
  stage_whole := launch2.stage_whole
  K := PEmpty
  osem k := k.elim
  ho := Pipeline.OwnSemFacts.none _
  hbody c := (body_obligation2 (fun c b => W' c b) B c).toR
  hwaits := Pipeline.RDat.hwaits_of_owed_zero _ _ _ _ L lv 1 fun c t => rfl
  pre c := iprop(StableHlo.held (c : Thread nD τ) (Pipeline.ucRefs τ sig) (W' c) ∗ Rst B c)
  post c := iprop(∃ Fs : (w : Fin cfg2.W) → Buf (Elt F) ((cfg2.win w).arr.view.loc (c.tc : Thread nD τ)),
    ⌜∀ w, ((dat2 (fun c b => W' c b) B c).toR).ArrAt w cfg2.N (Fs w)⌝
      ∗ StableHlo.held (c : Thread nD τ) (Pipeline.ucRefs τ sig) (Pipeline.withArrays spec2 c (W' c) Fs) ∗ Rst B c)
  X c := iprop(∃ r, prngReg c r)
  Y c := iprop(∃ r, prngReg c r)
  Z c := Pipeline.unscopedRest (Ix := HIx 1) (Name := ℕ) (U := UU) (Lvl := ℕ) spec2 c (fun b => W' c b)
  hentry c := by
    rw [Pipeline.ownSems0_none]
    have hsplit := Pipeline.RDat.arrays_of_unscopedBufs (p := 1) (pcfgs (F := F)) adm (rdats R1 V (fun c b => W' c b) B) launch2.win launch2.arr_whole c
      (((dat2 (fun c b => W' c b) B c).toR).share_full fun w => rfl) (fun b => W' c b) fun w => A_eq2 (fun c b => W' c b) B c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats R1 V (fun c b => W' c b) B 1 c).owesAt (none : HIx 1) 0
          = Pipeline.owesWithin c (((dat2 (fun c b => W' c b) B c).toR).owed 0) (((dat2 (fun c b => W' c b) B c).toR).recorded 0 ∪ cfg2.waitPairs (none : HIx 1)) from rfl,
        show ((dat2 (fun c b => W' c b) B c).toR).owed 0 = 0 from rfl, show ((dat2 (fun c b => W' c b) B c).toR).recorded 0 = B from rfl]
      iapply (Pipeline.owesWithin_mono c 0 Set.subset_union_left); iexact HO
    isplitl [Hp]; · iexact Hp
    iexact Hrest
  hin c := by
    rw [show (rdats R1 V (fun c b => W' c b) B 1 c).Φ 0 = Φ2 c from rfl]; unfold Φ2
    iintro ⟨Hp, -, Hr⟩
    isplitl [Hr]; · iexact Hr
    iexact Hp
  hout c := by
    rw [Pipeline.ownSems0_none, show (rdats R1 V (fun c b => W' c b) B 1 c).Φ (Fin.last _) = Φ2 c from rfl]; unfold Φ2
    iintro ⟨Hr, Hp⟩
    isplitl [Hp]; · iexact Hp
    isplitr; · iempintro
    iexact Hr
  hexit c := by
    have hjoin := held_of_arraysAt (p := 1) (rdats R1 V (fun c b => W' c b) B) launch2.win launch2.arr_whole c
      (((dat2 (fun c b => W' c b) B c).toR).share_full fun w => rfl) (W' c) cfg2.N
    have hO : ((rdats R1 V (fun c b => W' c b) B 1 c).owesAt (none : HIx 1) (Fin.last _) : sProp 𝕄) ⊢ Pipeline.owesWithin c 0 B := by
      rw [show (rdats R1 V (fun c b => W' c b) B 1 c).owesAt (none : HIx 1) (Fin.last _)
          = Pipeline.owesWithin c (((dat2 (fun c b => W' c b) B c).toR).owed (Fin.last _)) (((dat2 (fun c b => W' c b) B c).toR).recorded (Fin.last _) ∪ cfg2.waitPairs (none : HIx 1)) from rfl,
        show ((dat2 (fun c b => W' c b) B c).toR).owed (Fin.last _) = 0 from rfl, show ((dat2 (fun c b => W' c b) B c).toR).recorded (Fin.last _) = B from rfl]
      exact Pipeline.owesWithin_mono c 0 (Set.union_subset (le_refl B) hB)
    iintro ⟨Ha, HO, HY, Hrest⟩
    ihave H := hjoin $$ [Ha Hrest]
    · isplitl [Ha] <;> iassumption
    icases H with ⟨%Fs, %hFs, Hh⟩
    imodintro
    iexists Fs
    isplitr; · ipureintro; exact hFs
    isplitl [Hh]; · iexact Hh
    isplitl [HY]; · iexact HY
    iapply hO; iexact HO

end Cert.Proof.KernelIdeal

end
-- ==== Proof.KernelIdeal.LaunchMain.lean ====
/-
  @main on the TensorCore, from what the launch deals it to what the claims read at the end: the SparseCore call (the
  segment ids lent out as read shares, the counts array as its thirty-two runs, both back whole), the accumulating
  pipeline, the reshape of the bias, the combining pipeline, the transpose.
-/
import proofs.«211348_g14766097563893_cont_week2b_353_46_alg».proof.Proof.KernelIdeal.LaunchVals
import proofs.«211348_g14766097563893_cont_week2b_353_46_alg».proof.Proof.KernelIdeal.LaunchElem
import proofs.«211348_g14766097563893_cont_week2b_353_46_alg».proof.Proof.KernelIdeal.LaunchRegions

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable [FloatOps F]

open Idealize.ShloMosaic.StableHlo (held held_split held_sdiff_result wp_hlo_within held_sub_split held_congr)
open Idealize.ShloMosaic.TcCoe

variable (ρ : Dev nD → PrngReg) [FloatOps F]

omit [FloatOps F] in
theorem held_S2 (d : Dev nD) (W : Valuation τ sig (Elt F)) :
    (held (T d) S2 W : sProp 𝕄) = iprop((bLoc d ↦{fullShare} W b') ∗ (cLoc d ↦{fullShare} W c')) := by
  unfold held S2
  rw [SparseCore.bigSep_insert' (by decide), bigSep_singleton]

omit [FloatOps F] in
theorem W1_b (d : Dev nD) (g : Buf (Elt F) (cLoc d)) : W1 m d g b' = m (bLoc d) := Function.update_of_ne (show b' ≠ c' by decide) _ _
omit [FloatOps F] in
theorem W1_c (d : Dev nD) (g : Buf (Elt F) (cLoc d)) : W1 m d g c' = g := Function.update_self _ _ _
omit [FloatOps F] in
theorem W1_away (d : Dev nD) (g : Buf (Elt F) (cLoc d)) (b : DevRef τ sig) (h : b ≠ c') : W1 m d g b = W0 m d b := Function.update_of_ne h _ _

omit [FloatOps F] in
/-- The TensorCore's buffers once the call's results are back: the counts array at what the tiles wrote, everything else as launched. -/
theorem held_W1 (d : Dev nD) (g : Buf (Elt F) (cLoc d)) :
    (iprop((bLoc d ↦{fullShare} m (bLoc d)) ∗ (cLoc d ↦{fullShare} g) ∗ held (T d) (Pipeline.ucRefs τ sig \ S2) (W0 m d)) : sProp 𝕄)
      ⊢ held (T d) (Pipeline.ucRefs τ sig) (W1 m d g) := by
  rw [held_sub_split (T d) S2_sub (W1 m d g), held_S2, W1_b, W1_c,
    held_congr (T d) (V := W1 m d g) (V' := W0 m d) (S := Pipeline.ucRefs τ sig \ S2) (fun b hb => W1_away m d g b (by
      intro e; subst e; exact (Finset.mem_sdiff.mp hb).2 (by decide)))]
  iintro ⟨Hb, Hc, Hr⟩
  isplitl [Hb Hc]
  · isplitl [Hb]; · iexact Hb
    iexact Hc
  iexact Hr

/-- The recorded pairs the TensorCore may hold once the one SparseCore call is over. -/
def Bnd (d : Dev nD) : Set (SemLoc sig × HIx 1) := {p | (K (F := F)).lev (T d, p.1) p.2 ≤ 8}

omit [FloatOps F] in
theorem waitPairs_sub (cfg : Pipeline.Cfg sig Λ₀) (d : Dev nD) : cfg.waitPairs (none : HIx 1) ⊆ Bnd (F := F) d := by
  rintro p ⟨w, s, rfl⟩
  show (K (F := F)).lev _ none ≤ 8
  rw [SparseCore.Cfg.lev_none]; omega

omit [FloatOps F] in
/-- After its one call the TensorCore owes the launch nothing: its handshake state holds exactly an `owes` at nothing, within the bound. -/
theorem tcSt_open (d : Dev nD) :
    ((K (F := F)).tcSt EH d 1 : sProp 𝕄)
      ⊢ iprop(Pipeline.owesWithin d (0 : CellTallies nD τ sig (HIx 1)) (Bnd (F := F) d)
          ∗ (Pipeline.owesWithin d (0 : CellTallies nD τ sig (HIx 1)) (Bnd (F := F) d) -∗ (K (F := F)).tcSt EH d 1)) := by
  unfold SparseCore.Cfg.tcSt
  rw [(K (F := F)).Otc_end d (le_refl 1)]
  iintro ⟨⟨%W, %hW, HO⟩, Hrest⟩
  isplitl [HO]
  · iexists W; isplitr
    · ipureintro; intro p hp; exact hW p hp
    · iexact HO
  iintro ⟨%W', %hW', HO'⟩
  isplitl [HO']
  · iexists W'; isplitr
    · ipureintro; intro p hp; exact hW' hp
    · iexact HO'
  iexact Hrest

set_option backward.isDefEq.respectTransparency.types false in
set_option maxHeartbeats 1600000 in
/-- The accumulating pipeline's call from the TensorCore's thread state. -/
theorem wp_regionA (R1 : R1Data F) (d : Dev nD) (W : Valuation τ sig (Elt F)) (V' : (c : Dev nD) → (b : Ref sig .tc) → Buf (Elt F) ((c : Thread nD τ).loc b))
    (B : Set (SemLoc sig × HIx 1)) (hB : cfg1.waitPairs (none : HIx 1) ⊆ B) (Φ : PUnit → sProp 𝕄) :
    iprop((iprop(boundary (SparseCore.T d) ∗ (regA R1 (K (F := F)).L (K (F := F)).lev (fun _ => W) V' B hB).post d) -∗ |={Set.univ}=> Φ ⟨⟩)
        ∗ boundary (SparseCore.T d) ∗ (regA R1 (K (F := F)).L (K (F := F)).lev (fun _ => W) V' B hB).pre d ∗ levAts (K (F := F)).L (K (F := F)).lev
        ∗ Pipeline.cellsGhost cfgs EP 0 d ∗ Pipeline.toksInit cfgs EP 0 d)
      ⊢ wp frame (wpE (D (F := F)) 𝒱 (SparseCore.T d) none) Set.univ (Prog.lift (.customCall (Pipeline.entry (0 : Fin 2)) ())) Φ := by
  have hwp := Pipeline.RDat.RegionSeg.wp (pcfgs (F := F)) adm (rdats R1 (fun c b => (fun _ : Dev nD => W) c b) V' B) (none : HIx 1) cellOf_inj EP defs₀ 𝒱₀
      (K (F := F)).L (K (F := F)).lev (regA R1 (K (F := F)).L (K (F := F)).lev (fun _ => W) V' B hB) d none (fun _ h => nomatch h)
      (fun u => .ret u) Φ
  refine BI.Entails.trans (show (_ : sProp 𝕄) ⊢ _ from ?_) hwp
  iintro ⟨Hk, Hrest⟩
  isplitl [Hk]
  · iintro H; rw [wp_ret]; iapply Hk; iexact H
  iexact Hrest

set_option backward.isDefEq.respectTransparency.types false in
set_option maxHeartbeats 1600000 in
/-- The combining pipeline's call from the TensorCore's thread state. -/
theorem wp_regionB (R1 : R1Data F) (d : Dev nD) (V : (c : Dev nD) → (b : Ref sig .tc) → Buf (Elt F) ((c : Thread nD τ).loc b)) (W' : Valuation τ sig (Elt F))
    (B : Set (SemLoc sig × HIx 1)) (hB : cfg2.waitPairs (none : HIx 1) ⊆ B) (Φ : PUnit → sProp 𝕄) :
    iprop((iprop(boundary (SparseCore.T d) ∗ (regB R1 (K (F := F)).L (K (F := F)).lev V (fun _ => W') B hB).post d) -∗ |={Set.univ}=> Φ ⟨⟩)
        ∗ boundary (SparseCore.T d) ∗ (regB R1 (K (F := F)).L (K (F := F)).lev V (fun _ => W') B hB).pre d ∗ levAts (K (F := F)).L (K (F := F)).lev
        ∗ Pipeline.cellsGhost cfgs EP 1 d ∗ Pipeline.toksInit cfgs EP 1 d)
      ⊢ wp frame (wpE (D (F := F)) 𝒱 (SparseCore.T d) none) Set.univ (Prog.lift (.customCall (Pipeline.entry (1 : Fin 2)) ())) Φ := by
  have hwp := Pipeline.RDat.RegionSeg.wp (pcfgs (F := F)) adm (rdats R1 V (fun c b => (fun _ : Dev nD => W') c b) B) (none : HIx 1) cellOf_inj EP defs₀ 𝒱₀
      (K (F := F)).L (K (F := F)).lev (regB R1 (K (F := F)).L (K (F := F)).lev V (fun _ => W') B hB) d none (fun _ h => nomatch h)
      (fun u => .ret u) Φ
  refine BI.Entails.trans (show (_ : sProp 𝕄) ⊢ _ from ?_) hwp
  iintro ⟨Hk, Hrest⟩
  isplitl [Hk]
  · iintro H; rw [wp_ret]; iapply Hk; iexact H
  iexact Hrest

/-- What @main leaves the claims: every unscoped buffer at the last boundary's contents, for some counts the tiles
    wrote and some arrays the two pipelines may have left. -/
def FIN (R1 : R1Data F) (d : Dev nD) : sProp 𝕄 :=
  iprop(∃ (g : Buf (Elt F) (cLoc d))
      (Fs1 : (w : Fin cfg1.W) → Buf (Elt F) ((cfg1.win w).arr.view.loc (d.tc : Thread nD τ)))
      (Fs2 : (w : Fin cfg2.W) → Buf (Elt F) ((cfg2.win w).arr.view.loc (d.tc : Thread nD τ))),
    ⌜CountsDone m d g ∧ (∀ w, (R1.rd (V1 m d g) (Bnd (F := F) d) d).ArrAt w cfg1.N (Fs1 w))
      ∧ (∀ w, (dat2 (V3 m d g Fs1) (Bnd (F := F) d) d).toR.ArrAt w cfg2.N (Fs2 w))⌝
    ∗ held (T d) (Pipeline.ucRefs τ sig) (W5 m d g Fs1 Fs2))

set_option backward.isDefEq.respectTransparency.types false in
theorem hmain (R1 : R1Data F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R1 d) := by
  unfold SparseCore.Cfg.tcRes
  rw [show (unscopedBufs d (fun b => m ((SparseCore.T d).loc b)) : sProp 𝕄) = held (T d) (Pipeline.ucRefs τ sig) (W0 m d)
    from Pipeline.unscopedBufs_held d (W0 m d)]
  simp only [main, wp_bind, wp_pure]
  iintro ⟨#Hctx, Hst, ⟨Hbd, Hheld, -, Hprng⟩, HG⟩
  ihave Hh := (Entails.of_eq (held_sub_split (T d) S2_sub (W0 m d))) $$ Hheld
  icases Hh with ⟨H2, Hrest⟩
  ihave H2' := (Entails.of_eq (held_S2 (F := F) d (W0 m d))) $$ H2
  ihave Hst0 := (st_intro m d (W0 m d c')) $$ H2'
  icases Hst0 with ⟨Hdrop, Hsts⟩
  -- the SparseCore call
  iapply ((K (F := F)).wp_run (D (F := F)) 𝒱 (EH := EH) (P := P m) κ d 0) $$ [Hst Hsts Hbd Hrest Hprng HG Hdrop]
  isplitr; · iexact Hctx
  isplitl [Hst]; · iexact Hst
  isplitl [Hsts]; · iexact Hsts
  iintro ⟨Hst, Hdn⟩
  ihave Hdn' := (dn_elim m d) $$ [Hdrop Hdn]
  · isplitl [Hdrop]; · iexact Hdrop
    iexact Hdn
  icases Hdn' with ⟨Hb, %g, %hg, Hc⟩
  ihave Hheld := (held_W1 m d g) $$ [Hb Hc Hrest]
  · isplitl [Hb]; · iexact Hb
    isplitl [Hc]; · iexact Hc
    iexact Hrest
  ihave Hst1 := (show ((K (F := F)).tcSt EH d ((0 : Fin 1).val + 1) : sProp 𝕄) ⊢ (K (F := F)).tcSt EH d 1 from .rfl) $$ Hst
  ihave Hst' := (tcSt_open (F := F) d) $$ Hst1
  icases Hst' with ⟨Howes, Hk⟩
  ihave Hlev := ((K (F := F)).ctx_levAts (EH := EH) (P := P m) κ) $$ Hctx
  unfold G
  ihave HG' := (Entails.of_eq (bigSep_univ_two _)) $$ HG
  icases HG' with ⟨⟨Hcg0, Htk0⟩, ⟨Hcg1, Htk1⟩⟩
  -- the accumulating pipeline
  iapply ((K (F := F)).wp_liftProg (D (F := F)) 𝒱 (SparseCore.T d) Set.univ none (Prog.lift (.customCall (Pipeline.entry (0 : Fin 2)) ())) _)
  iapply (wp_regionA R1 d (W1 m d g) (V1 m d g) (Bnd (F := F) d) (waitPairs_sub cfg1 d) _) $$ [Hbd Hheld Hprng Howes Hcg0 Htk0 Hk Hcg1 Htk1]
  isplitl [Hk Hcg1 Htk1]
  swap
  · isplitl [Hbd]; · iexact Hbd
    isplitl [Hheld Hprng Howes]
    · iapply (show (iprop(held (SparseCore.T d) (Pipeline.ucRefs τ sig) (W1 m d g) ∗ Rst (Bnd (F := F) d) d) : sProp 𝕄)
          ⊢ (regA R1 (K (F := F)).L (K (F := F)).lev (fun _ => W1 m d g) (V1 m d g) (Bnd (F := F) d) (waitPairs_sub cfg1 d)).pre d from .rfl)
      isplitl [Hheld]; · iexact Hheld
      isplitl [Hprng]; · iexists _; iexact Hprng
      iexact Howes
    isplitr; · iexact Hlev
    isplitl [Hcg0]; · iexact Hcg0
    iexact Htk0
  iintro ⟨Hbd, Hpost⟩
  ihave Hpost' := (show ((regA R1 (K (F := F)).L (K (F := F)).lev (fun _ => W1 m d g) (V1 m d g) (Bnd (F := F) d) (waitPairs_sub cfg1 d)).post d : sProp 𝕄)
      ⊢ iprop(∃ Fs : (w : Fin cfg1.W) → Buf (Elt F) ((cfg1.win w).arr.view.loc (d.tc : Thread nD τ)),
          ⌜∀ w, (R1.rd (V1 m d g) (Bnd (F := F) d) d).ArrAt w cfg1.N (Fs w)⌝
          ∗ held (SparseCore.T d) (Pipeline.ucRefs τ sig) (W2 m d g Fs) ∗ Rst (Bnd (F := F) d) d) from .rfl) $$ Hpost
  icases Hpost' with ⟨%Fs1, %hFs1, Hheld, ⟨%r1, Hprng⟩, Howes⟩
  imodintro
  -- the reshape of the bias
  iapply (wp_hlo_within 𝒱 (SparseCore.T d) none Set.univ (op := opR (F := F)) (S := Pipeline.ucRefs τ sig) opR_sub (V := W2 m d g Fs1)) $$ [Hbd Hheld]
  · isplitl [Hbd]; · iexact Hbd
    iexact Hheld
  iintro ⟨Hbd, Hheld⟩
  rw [wp_ret]; imodintro
  -- the combining pipeline
  iapply ((K (F := F)).wp_liftProg (D (F := F)) 𝒱 (SparseCore.T d) Set.univ none (Prog.lift (.customCall (Pipeline.entry (1 : Fin 2)) ())) _)
  iapply (wp_regionB R1 d (V1 m d g) (W3 m d g Fs1) (Bnd (F := F) d) (waitPairs_sub cfg2 d) _) $$ [Hbd Hheld Hprng Howes Hk Hcg1 Htk1]
  isplitl [Hk]
  swap
  · isplitl [Hbd]; · iexact Hbd
    isplitl [Hheld Hprng Howes]
    · iapply (show (iprop(held (SparseCore.T d) (Pipeline.ucRefs τ sig) (W3 m d g Fs1) ∗ Rst (Bnd (F := F) d) d) : sProp 𝕄)
          ⊢ (regB R1 (K (F := F)).L (K (F := F)).lev (V1 m d g) (fun _ => W3 m d g Fs1) (Bnd (F := F) d) (waitPairs_sub cfg2 d)).pre d from .rfl)
      isplitl [Hheld]; · iexact Hheld
      isplitl [Hprng]; · iexists _; iexact Hprng
      iexact Howes
    isplitr; · iexact Hlev
    isplitl [Hcg1]; · iexact Hcg1
    iexact Htk1
  iintro ⟨Hbd, Hpost⟩
  ihave Hpost' := (show ((regB R1 (K (F := F)).L (K (F := F)).lev (V1 m d g) (fun _ => W3 m d g Fs1) (Bnd (F := F) d) (waitPairs_sub cfg2 d)).post d : sProp 𝕄)
      ⊢ iprop(∃ Fs : (w : Fin cfg2.W) → Buf (Elt F) ((cfg2.win w).arr.view.loc (d.tc : Thread nD τ)),
          ⌜∀ w, (dat2 (V3 m d g Fs1) (Bnd (F := F) d) d).toR.ArrAt w cfg2.N (Fs w)⌝
          ∗ held (SparseCore.T d) (Pipeline.ucRefs τ sig) (W4 m d g Fs1 Fs) ∗ Rst (Bnd (F := F) d) d) from .rfl) $$ Hpost
  icases Hpost' with ⟨%Fs2, %hFs2, Hheld, ⟨%r2, Hprng⟩, Howes⟩
  imodintro
  -- the transpose
  iapply (wp_hlo_within 𝒱 (SparseCore.T d) none Set.univ (op := opT (F := F)) (S := Pipeline.ucRefs τ sig) opT_sub (V := W4 m d g Fs1 Fs2)) $$ [Hbd Hheld]
  · isplitl [Hbd]; · iexact Hbd
    iexact Hheld
  iintro ⟨Hbd, Hheld⟩
  rw [wp_ret]; imodintro; imodintro
  isplitl [Hk Howes]; · iapply Hk; iexact Howes
  unfold FIN
  iexists g, Fs1, Fs2
  isplitr
  · ipureintro; exact ⟨hg, hFs1, hFs2⟩
  · iexact Hheld

end Cert.Proof.KernelIdeal
end
-- ==== Proof.KernelIdeal.LaunchValsRead.lean ====
/-
  The boundary contents of @main read at the buffers the value proof names: the five arguments at the return are the
  launch memory's (no stage writes an argument: a pipeline leaves its input arrays as entered, the reshape writes the
  bias column, the transpose the result); the result is the transpose of what the combining pipeline leaves in its
  output array; and what the two pipelines find in the counts array, the sums array, the bias column and the arguments.
-/
import proofs.«211348_g14766097563893_cont_week2b_353_46_alg».proof.Proof.KernelIdeal.LaunchVals

noncomputable section

namespace Cert.Proof.KernelIdeal

open Cert.KernelIdeal Cert.KernelIdeal.Gen
open Idealize.ShloMosaic
open Idealize.ShloMosaic.SparseCore (S V T)
open Idealize.SL.Sem
open Idealize.ShloMosaic.TcCoe

variable {F : FTy → Type} [FloatOps F]

variable (m : (ℓ : Loc nD τ sig) → Buf (Elt F) ℓ)
variable (d : Dev nD) (g : Buf (Elt F) (cLoc d))
  (Fs1 : (w : Fin cfg1.W) → Buf (Elt F) ((cfg1.win w).arr.view.loc (d.tc : Thread nD τ)))
  (Fs2 : (w : Fin cfg2.W) → Buf (Elt F) ((cfg2.win w).arr.view.loc (d.tc : Thread nD τ)))

/-! ## One stage at a time -/

theorem W1_of_ne (b : Ref sig .tc) (hb : b ≠ main_v0) :
    W1 m d g (Proc.devRef .tc b) = m ((d.tc : Thread nD τ).loc b) := by
  unfold W1
  rw [Function.update_of_ne (StableHlo.devRef_ne_of_ne hb)]

theorem W1_v0 : W1 m d g (Proc.devRef .tc main_v0) = g := by
  unfold W1
  exact Function.update_self _ _ _

theorem W2_arr (w : Fin cfg1.W) : W2 m d g Fs1 (Proc.devRef .tc (Pipeline.arrRef spec1 w)) = Fs1 w := by
  unfold W2; exact Pipeline.withArrays_arr spec1 launch1.win.arr_inj d _ _ w
theorem W2_of_ne (b : Ref sig .tc) (hb : ∀ w, Pipeline.arrRef spec1 w ≠ b) :
    W2 m d g Fs1 (Proc.devRef .tc b) = W1 m d g (Proc.devRef .tc b) := by
  unfold W2; exact Pipeline.withArrays_of_ne spec1 d _ _ b hb

theorem W3_of_ne (b : Ref sig .tc) (hb : b ≠ main_v2) :
    W3 m d g Fs1 (Proc.devRef .tc b) = W2 m d g Fs1 (Proc.devRef .tc b) := by
  unfold W3
  exact (opR (F := F)).result_of_not_mem _ (by
    rw [show (opR (F := F)).writes = {Proc.devRef .tc main_v2} from rfl, Finset.mem_singleton]
    exact StableHlo.devRef_ne_of_ne hb)

theorem W4_arr (w : Fin cfg2.W) : W4 m d g Fs1 Fs2 (Proc.devRef .tc (Pipeline.arrRef spec2 w)) = Fs2 w := by
  unfold W4; exact Pipeline.withArrays_arr spec2 launch2.win.arr_inj d _ _ w
theorem W4_of_ne (b : Ref sig .tc) (hb : ∀ w, Pipeline.arrRef spec2 w ≠ b) :
    W4 m d g Fs1 Fs2 (Proc.devRef .tc b) = W3 m d g Fs1 (Proc.devRef .tc b) := by
  unfold W4; exact Pipeline.withArrays_of_ne spec2 d _ _ b hb

theorem W5_of_ne (b : Ref sig .tc) (hb : b ≠ main_v4) :
    W5 m d g Fs1 Fs2 (Proc.devRef .tc b) = W4 m d g Fs1 Fs2 (Proc.devRef .tc b) := by
  unfold W5
  exact (opT (F := F)).result_of_not_mem _ (by
    rw [show (opT (F := F)).writes = {Proc.devRef .tc main_v4} from rfl, Finset.mem_singleton]
    exact StableHlo.devRef_ne_of_ne hb)

/-! ## The arguments at the return -/

/-- A buffer no stage writes and no pipeline holds as an array keeps the launch memory's contents to the return. -/
theorem W5_bypass (b : Ref sig .tc) (h4 : b ≠ main_v4) (hs2 : ∀ w, Pipeline.arrRef spec2 w ≠ b) (h2 : b ≠ main_v2)
    (hs1 : ∀ w, Pipeline.arrRef spec1 w ≠ b) (h0 : b ≠ main_v0) :
    W5 m d g Fs1 Fs2 (Proc.devRef .tc b) = m ((d.tc : Thread nD τ).loc b) := by
  rw [W5_of_ne m d g Fs1 Fs2 b h4, W4_of_ne m d g Fs1 Fs2 b hs2, W3_of_ne m d g Fs1 b h2, W2_of_ne m d g Fs1 b hs1,
    W1_of_ne m d g b h0]

/-- An input array of the accumulating pipeline, left as entered, keeps the launch memory's contents to the return. -/
theorem W5_input1 (w : Fin cfg1.W) (hw : (cfg1.win w).isOut = false)
    (hin1 : ∀ w, (cfg1.win w).isOut = false → Fs1 w = W1 m d g (Proc.devRef .tc (Pipeline.arrRef spec1 w)))
    (h4 : Pipeline.arrRef spec1 w ≠ main_v4) (hs2 : ∀ w', Pipeline.arrRef spec2 w' ≠ Pipeline.arrRef spec1 w)
    (h2 : Pipeline.arrRef spec1 w ≠ main_v2) (h0 : Pipeline.arrRef spec1 w ≠ main_v0) :
    W5 m d g Fs1 Fs2 (Proc.devRef .tc (Pipeline.arrRef spec1 w)) = m ((d.tc : Thread nD τ).loc (Pipeline.arrRef spec1 w)) := by
  rw [W5_of_ne m d g Fs1 Fs2 _ h4, W4_of_ne m d g Fs1 Fs2 _ hs2, W3_of_ne m d g Fs1 _ h2, W2_arr m d g Fs1 w, hin1 w hw,
    W1_of_ne m d g _ h0]

variable (hin1 : ∀ w, (cfg1.win w).isOut = false → Fs1 w = W1 m d g (Proc.devRef .tc (Pipeline.arrRef spec1 w)))
include hin1

theorem W5_main_arg0 : W5 m d g Fs1 Fs2 (Proc.devRef .tc main_arg0) = m ((d.tc : Thread nD τ).loc main_arg0) :=
  W5_input1 m d g Fs1 Fs2 0 rfl hin1 (by decide) (by decide) (by decide) (by decide)
theorem W5_main_arg2 : W5 m d g Fs1 Fs2 (Proc.devRef .tc main_arg2) = m ((d.tc : Thread nD τ).loc main_arg2) :=
  W5_input1 m d g Fs1 Fs2 1 rfl hin1 (by decide) (by decide) (by decide) (by decide)
theorem W5_main_arg3 : W5 m d g Fs1 Fs2 (Proc.devRef .tc main_arg3) = m ((d.tc : Thread nD τ).loc main_arg3) :=
  W5_input1 m d g Fs1 Fs2 2 rfl hin1 (by decide) (by decide) (by decide) (by decide)
omit hin1 in
theorem W5_main_arg1 : W5 m d g Fs1 Fs2 (Proc.devRef .tc main_arg1) = m ((d.tc : Thread nD τ).loc main_arg1) :=
  W5_bypass m d g Fs1 Fs2 main_arg1 (by decide) (by decide) (by decide) (by decide) (by decide)
omit hin1 in
theorem W5_main_arg4 : W5 m d g Fs1 Fs2 (Proc.devRef .tc main_arg4) = m ((d.tc : Thread nD τ).loc main_arg4) :=
  W5_bypass m d g Fs1 Fs2 main_arg4 (by decide) (by decide) (by decide) (by decide) (by decide)

omit hin1 in
/-- The result: the transpose of what the combining pipeline leaves in its output array. -/
theorem W5_v4 : W5 m d g Fs1 Fs2 (Proc.devRef .tc main_v4)
    = transpose S64x2 [1, 0] (Fs2 3) transposes_S2x64_S64x2_1_0 := by
  unfold W5
  refine (StableHlo.unary_result main_v3 main_v4 _ _ _ _).trans ?_
  exact congrArg (fun z => transpose S64x2 [1, 0] z transposes_S2x64_S64x2_1_0) (W4_arr m d g Fs1 Fs2 3)

/-! ## What the pipelines find -/

omit hin1 in
theorem V3_v0 : V3 m d g Fs1 d main_v0 = g := by
  show W3 m d g Fs1 (Proc.devRef .tc main_v0) = g
  rw [W3_of_ne m d g Fs1 main_v0 (by decide), W2_of_ne m d g Fs1 main_v0 (by decide), W1_v0]

omit hin1 in
theorem V3_v1 : V3 m d g Fs1 d main_v1 = Fs1 3 := by
  show W3 m d g Fs1 (Proc.devRef .tc main_v1) = Fs1 3
  rw [W3_of_ne m d g Fs1 main_v1 (by decide)]
  exact W2_arr m d g Fs1 3

omit hin1 in
theorem V3_v2 : V3 m d g Fs1 d main_v2
    = shapeCast S2x1 (m ((d.tc : Thread nD τ).loc main_arg4)) shapeCasts_S2_S2x1 := by
  show W3 m d g Fs1 (Proc.devRef .tc main_v2) = _
  unfold W3
  rw [StableHlo.reshape_result, W2_of_ne m d g Fs1 main_arg4 (by decide), W1_of_ne m d g main_arg4 (by decide)]
  rfl

omit hin1 in
theorem V1_arg0 : V1 m d g d main_arg0 = m ((d.tc : Thread nD τ).loc main_arg0) := W1_of_ne m d g main_arg0 (by decide)
omit hin1 in
theorem V1_arg2 : V1 m d g d main_arg2 = m ((d.tc : Thread nD τ).loc main_arg2) := W1_of_ne m d g main_arg2 (by decide)
omit hin1 in
theorem V1_arg3 : V1 m d g d main_arg3 = m ((d.tc : Thread nD τ).loc main_arg3) := W1_of_ne m d g main_arg3 (by decide)

end Cert.Proof.KernelIdeal

end
-- ==== Proof.KernelIdeal.PreBridge.lean ====
/-
  The certificate's precondition, read on the kernel's memory: every segment id names one of the sixty-four counters.
  Stated for either float instance: the integer part of the precondition does not depend on it.
-/
import proofs.«211348_g14766097563893_cont_week2b_353_46_alg».proof.Proof.KernelIdeal.TileDefs
import proofs.«211348_g14766097563893_cont_week2b_353_46_alg».proof.Proof.PreFacts

noncomputable section

namespace Cert.Proof.KernelIdeal

open Cert.KernelIdeal Cert.KernelIdeal.Gen
open Idealize.ShloMosaic
open Idealize.SL.Sem

variable {F : FTy → Type} [FloatOps F]

theorem preOK_of (m : (ℓ : Loc nD τ sig) → Buf (Elt F) ℓ)
    (h : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1) :
    PreOK m :=
  fun d i => Cert.PreFacts.batch_lt _ _ _ _ _ (h d) i

end Cert.Proof.KernelIdeal

end
-- ==== Proof.KernelIdeal.Run.lean ====
/-
  The kernel program's run: the launch of the SparseCore call and the TensorCore's @main composed into one statement
  about every weakly fair execution of all the threads — it terminates, nothing faults, and the final memory holds every
  unscoped buffer at the last boundary's contents — and, from it, that the arguments end as launched.
-/
import proofs.«211348_g14766097563893_cont_week2b_353_46_alg».proof.Proof.KernelIdeal.LaunchMain
import proofs.«211348_g14766097563893_cont_week2b_353_46_alg».proof.Proof.KernelIdeal.LaunchValsRead
import proofs.«211348_g14766097563893_cont_week2b_353_46_alg».proof.Proof.KernelIdeal.PreBridge

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

local notation "bW" => (Memref.whole Cert.KernelIdeal.main_arg2_scv : Memref Cert.KernelIdeal.sig Kind.scVector Space.hbm Cert.KernelIdeal.S50000 EltTy.i32)
local notation "cW" => (Memref.whole Cert.KernelIdeal.main_v0_scv : Memref Cert.KernelIdeal.sig Kind.scVector Space.hbm Cert.KernelIdeal.S2048 EltTy.f32)
local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable [FloatOps F]

open Idealize.ShloMosaic.StableHlo (held)
open Idealize.ShloMosaic.TcCoe

variable (ρ : Dev nD → PrngReg) [FloatOps F]

/-- What a final state tells of device `d`: some counts the tiles wrote, some arrays the pipelines may have left, and
    every unscoped buffer at the contents they determine. -/
def fq (R1 : R1Data F) (d : Dev nD) (s' : Phys nD τ sig (Elt F)) : Prop :=
  ∃ (g : Buf (Elt F) (cLoc d))
    (Fs1 : (w : Fin cfg1.W) → Buf (Elt F) ((cfg1.win w).arr.view.loc (d.tc : Thread nD τ)))
    (Fs2 : (w : Fin cfg2.W) → Buf (Elt F) ((cfg2.win w).arr.view.loc (d.tc : Thread nD τ))),
    (CountsDone m d g ∧ (∀ w, (R1.rd (V1 m d g) (Bnd (F := F) d) d).ArrAt w cfg1.N (Fs1 w))
      ∧ (∀ w, (dat2 (V3 m d g Fs1) (Bnd (F := F) d) d).toR.ArrAt w cfg2.N (Fs2 w)))
    ∧ ∀ b ∈ Pipeline.ucRefs τ sig, s'.mem.mem ((d : Dev nD), b) = W5 m d g Fs1 Fs2 b

theorem hfin (R1 : R1Data F) (d : Dev nD) (s' : Phys nD τ sig (Elt F)) : iprop(FIN m R1 d ∗ SI s') ⊢ (⌜fq m R1 d s'⌝ : sProp 𝕄) := by
  unfold FIN
  iintro ⟨⟨%g, %Fs1, %Fs2, %h, Hh⟩, HSI⟩
  unfold held
  ihave H := (pointsTo_read_all (Pipeline.ucRefs τ sig) (fun b => ((d : Dev nD), b)) (W5 m d g Fs1 Fs2) s') $$ [Hh HSI]
  · isplitl [Hh] <;> iassumption
  icases H with ⟨%h2, -⟩
  ipureintro; exact ⟨g, Fs1, Fs2, h, h2⟩

def QC (R1 : R1Data F) : PUnit × MemSt nD τ sig (Elt F) → Prop := fun r => ∀ d : Dev nD,
  ∃ (g : Buf (Elt F) (cLoc d))
    (Fs1 : (w : Fin cfg1.W) → Buf (Elt F) ((cfg1.win w).arr.view.loc (d.tc : Thread nD τ)))
    (Fs2 : (w : Fin cfg2.W) → Buf (Elt F) ((cfg2.win w).arr.view.loc (d.tc : Thread nD τ))),
    (CountsDone m d g ∧ (∀ w, (R1.rd (V1 m d g) (Bnd (F := F) d) d).ArrAt w cfg1.N (Fs1 w))
      ∧ (∀ w, (dat2 (V3 m d g Fs1) (Bnd (F := F) d) d).toR.ArrAt w cfg2.N (Fs2 w)))
    ∧ ∀ b ∈ Pipeline.ucRefs τ sig, r.2.mem ((d : Dev nD), b) = W5 m d g Fs1 Fs2 b

/-- THE RUN: under the precondition's range of the segment ids, every weakly fair execution of the device's threads —
    the TensorCore's @main, the two sequencers, the thirty-two tiles — terminates, nothing faulting, and every final
    memory is as `QC` says. -/
theorem run_main [∀ e, Nonempty (Elt F e)] (R1 : R1Data F) (hpre : PreOK m) :
    θ_run (Cert.KernelIdeal.defs (F := F)) (Cert.KernelIdeal.threads (F := F)) ⟨m, fun _ => 0, ρ⟩ (QC m R1) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m R1) (u₀ (F := F)) (hu₀ m) (hmain m ρ R1) (fq m R1) (hfin m R1) (QC m R1) (fun _ h => h)

omit [FloatOps F] in
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An input array of the accumulating pipeline ends as it was entered. -/
theorem hin1 (R1 : R1Data F) (B : Set (SemLoc sig × HIx 1)) (d : Dev nD) (g : Buf (Elt F) (cLoc d))
    (Fs1 : (w : Fin cfg1.W) → Buf (Elt F) ((cfg1.win w).arr.view.loc (d.tc : Thread nD τ)))
    (h1 : ∀ w, (R1.rd (V1 m d g) B d).ArrAt w cfg1.N (Fs1 w)) :
    ∀ w, (cfg1.win w).isOut = false → Fs1 w = W1 m d g (Proc.devRef .tc (Pipeline.arrRef spec1 w)) := fun w hw => by
  have h := h1 w
  rw [(R1.rd (V1 m d g) B d).ArrAt_in w hw] at h
  exact h.trans (R1.hA _ _ _ w)

/-- THE FRAME's post from the run's: every argument array ends as launched. -/
theorem args_of_QC (R1 : R1Data F) {r : PUnit × MemSt nD τ sig (Elt F)} (h : QC m R1 r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  obtain ⟨g, Fs1, Fs2, ⟨_, h1, _⟩, hb⟩ := h c
  have hin := hin1 m R1 _ c g Fs1 h1
  exact ⟨(hb _ (mem_uc main_arg0 (by decide))).trans (W5_main_arg0 m c g Fs1 Fs2 hin),
    (hb _ (mem_uc main_arg1 (by decide))).trans (W5_main_arg1 m c g Fs1 Fs2),
    (hb _ (mem_uc main_arg2 (by decide))).trans (W5_main_arg2 m c g Fs1 Fs2 hin),
    (hb _ (mem_uc main_arg3 (by decide))).trans (W5_main_arg3 m c g Fs1 Fs2 hin),
    (hb _ (mem_uc main_arg4 (by decide))).trans (W5_main_arg4 m c g Fs1 Fs2)⟩

/-- THE FRAME at either instance: under the precondition every weakly fair execution terminates, nothing faulting, the
    arguments unchanged. -/
theorem frame_run [∀ e, Nonempty (Elt F e)] (hpre : PreOK m) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := F)) _ _).mono (fun _ h c => args_of_QC m r1Frame h c) (run_main m ρ r1Frame hpre)

end Cert.Proof.KernelIdeal
end
-- ==== Proof.KernelIdeal.Region2Value.lean ====
/-
  The combine kernel's result read at an index, over the extended reals: entry (j, s) of the output is
  (x1[j, s] + n_s · x2[j, 0]) / max(n_s, 1), where n_s is the sum over the thirty-two slices of sixty-four of the
  first input of their entry s.
-/
import proofs.«211348_g14766097563893_cont_week2b_353_46_alg».proof.Proof.KernelIdeal.Region2
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.Proof.KernelIdeal

open Cert.KernelIdeal Cert.KernelIdeal.Gen
open Idealize.ShloMosaic Idealize.ShloMosaic.ValueIdx
open scoped BigOperators

theorem hz2 : (![0, 0] : Fin 2 → Nat) = fun _ => 0 := funext fun a => by fin_cases a <;> rfl

/-- A column `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A slice of sixty-four from offset `o` of the first input, read at `s`, is the input at `o + s`. -/
theorem r2_lt {o : Nat} (inb : ∀ a, (![o] : Fin 1 → Nat) a + S64.size a ≤ S2048.size a) (s : Fin 64) : o + s.val < 2048 := by
  have h : o + 64 ≤ 2048 := inb 0
  have := s.isLt; omega

theorem ld_r2 (x0 : Vec Ideal S2048 .f32) (o : Nat) (inb : ∀ a, (![o] : Fin 1 → Nat) a + S64.size a ≤ S2048.size a) (s : Fin 64) :
    View.ld x0 (Rect.unit (s := S2048) ![o] S64.size inb) (ix1 s) = x0 (ix1 ⟨o + s.val, r2_lt inb s⟩) := by
  show x0 _ = x0 _
  refine congrArg x0 (funext fun a => Fin.ext ?_)
  match a with
  | ⟨0, _⟩ => show o + 1 * s.val = o + s.val; omega

/-! ## The payloads at an index -/

theorem pay2_apply (v0 : Vec Ideal S64 .f32) (v2 : Vec Ideal S64 .f32) (v5 : Vec Ideal S64 .f32) (v8 : Vec Ideal S64 .f32) (v11 : Vec Ideal S64 .f32) (v14 : Vec Ideal S64 .f32) (v17 : Vec Ideal S64 .f32) (v20 : Vec Ideal S64 .f32) (v23 : Vec Ideal S64 .f32) (v26 : Vec Ideal S64 .f32) (v29 : Vec Ideal S64 .f32) (v32 : Vec Ideal S64 .f32) (v35 : Vec Ideal S64 .f32) (v38 : Vec Ideal S64 .f32) (v41 : Vec Ideal S64 .f32) (s : Fin 64) :
    k2_pay2 v0 v2 v5 v8 v11 v14 v17 v20 v23 v26 v29 v32 v35 v38 v41 (ix1 s) = v0 (ix1 s) + v2 (ix1 s) + v5 (ix1 s) + v8 (ix1 s) + v11 (ix1 s) + v14 (ix1 s) + v17 (ix1 s) + v20 (ix1 s) + v23 (ix1 s) + v26 (ix1 s) + v29 (ix1 s) + v32 (ix1 s) + v35 (ix1 s) + v38 (ix1 s) + v41 (ix1 s) := by
  unfold k2_pay2
  simp only [addf_apply, shapeCast_self]

theorem pay3_apply (v43 : FVec Ideal S64 .f32) (v44 : Vec Ideal S64 .f32) (v47 : Vec Ideal S64 .f32) (v50 : Vec Ideal S64 .f32) (v53 : Vec Ideal S64 .f32) (v56 : Vec Ideal S64 .f32) (v59 : Vec Ideal S64 .f32) (v62 : Vec Ideal S64 .f32) (v65 : Vec Ideal S64 .f32) (v68 : Vec Ideal S64 .f32) (v71 : Vec Ideal S64 .f32) (v74 : Vec Ideal S64 .f32) (v77 : Vec Ideal S64 .f32) (v80 : Vec Ideal S64 .f32) (v83 : Vec Ideal S64 .f32) (v86 : Vec Ideal S64 .f32) (s : Fin 64) :
    k2_pay3 v43 v44 v47 v50 v53 v56 v59 v62 v65 v68 v71 v74 v77 v80 v83 v86 (ix1 s) = v43 (ix1 s) + v44 (ix1 s) + v47 (ix1 s) + v50 (ix1 s) + v53 (ix1 s) + v56 (ix1 s) + v59 (ix1 s) + v62 (ix1 s) + v65 (ix1 s) + v68 (ix1 s) + v71 (ix1 s) + v74 (ix1 s) + v77 (ix1 s) + v80 (ix1 s) + v83 (ix1 s) + v86 (ix1 s) := by
  unfold k2_pay3
  simp only [addf_apply, shapeCast_self]

theorem pay1_apply (v88 : FVec Ideal S64 .f32) (v89 v92 : Vec Ideal S64 .f32) (v96 : Vec Ideal S2x64 .f32) (v98 : Vec Ideal S2x1 .f32) (j : Fin 2) (s : Fin 64) :
    k2_pay1 v88 v89 v92 v96 v98 (ix2 j s)
      = Ideal.div (v96 (ix2 j s) + (v88 (ix1 s) + v89 (ix1 s) + v92 (ix1 s)) * v98 (ix2 j (0 : Fin 1)))
          (max (v88 (ix1 s) + v89 (ix1 s) + v92 (ix1 s)) 1) := by
  unfold k2_pay1
  simp only [divf_apply, addf_apply, mulf_apply, maximumf_apply, shapeCast_self, broadcast_apply,
    broadcastTo_1b_ab_apply, broadcastTo_a1_ab_apply, shapeCast_a_1a_apply]
  rw [show Scalar.ofBits (F := Ideal) .f32 0x3F800000#32 = Ideal.ofBits .f32 0x3F800000#32 from rfl, Ideal.ofBits_one_f32]

/-! ## The count of a segment: the thirty-two slices' entries at `s`, added left to right from slice 0 -/

/-- The sum over the thirty-two slices of the first input of their entry `s`. -/
def cnt2 (x0 : Vec Ideal S2048 .f32) (s : Fin 64) : Ideal .f32 :=
  ∑ t : Fin 32, x0 (ix1 ⟨64 * t.val + s.val, by have := t.isLt; have := s.isLt; omega⟩)

/-- The kernel's chain of additions, slice 0 first, is that sum. -/
theorem cnt2_eq (x0 : Vec Ideal S2048 .f32) (s : Fin 64) :
    x0 (ix1 ⟨0 + s.val, r2_lt inb_S2048_S64_0 s⟩) + x0 (ix1 ⟨64 + s.val, r2_lt inb_S2048_S64_64 s⟩) + x0 (ix1 ⟨128 + s.val, r2_lt inb_S2048_S64_128 s⟩) + x0 (ix1 ⟨192 + s.val, r2_lt inb_S2048_S64_192 s⟩) + x0 (ix1 ⟨256 + s.val, r2_lt inb_S2048_S64_256 s⟩) + x0 (ix1 ⟨320 + s.val, r2_lt inb_S2048_S64_320 s⟩) + x0 (ix1 ⟨384 + s.val, r2_lt inb_S2048_S64_384 s⟩) + x0 (ix1 ⟨448 + s.val, r2_lt inb_S2048_S64_448 s⟩) + x0 (ix1 ⟨512 + s.val, r2_lt inb_S2048_S64_512 s⟩) + x0 (ix1 ⟨576 + s.val, r2_lt inb_S2048_S64_576 s⟩) + x0 (ix1 ⟨640 + s.val, r2_lt inb_S2048_S64_640 s⟩) + x0 (ix1 ⟨704 + s.val, r2_lt inb_S2048_S64_704 s⟩) + x0 (ix1 ⟨768 + s.val, r2_lt inb_S2048_S64_768 s⟩) + x0 (ix1 ⟨832 + s.val, r2_lt inb_S2048_S64_832 s⟩) + x0 (ix1 ⟨896 + s.val, r2_lt inb_S2048_S64_896 s⟩) + x0 (ix1 ⟨960 + s.val, r2_lt inb_S2048_S64_960 s⟩) + x0 (ix1 ⟨1024 + s.val, r2_lt inb_S2048_S64_1024 s⟩) + x0 (ix1 ⟨1088 + s.val, r2_lt inb_S2048_S64_1088 s⟩) + x0 (ix1 ⟨1152 + s.val, r2_lt inb_S2048_S64_1152 s⟩) + x0 (ix1 ⟨1216 + s.val, r2_lt inb_S2048_S64_1216 s⟩) + x0 (ix1 ⟨1280 + s.val, r2_lt inb_S2048_S64_1280 s⟩) + x0 (ix1 ⟨1344 + s.val, r2_lt inb_S2048_S64_1344 s⟩) + x0 (ix1 ⟨1408 + s.val, r2_lt inb_S2048_S64_1408 s⟩) + x0 (ix1 ⟨1472 + s.val, r2_lt inb_S2048_S64_1472 s⟩) + x0 (ix1 ⟨1536 + s.val, r2_lt inb_S2048_S64_1536 s⟩) + x0 (ix1 ⟨1600 + s.val, r2_lt inb_S2048_S64_1600 s⟩) + x0 (ix1 ⟨1664 + s.val, r2_lt inb_S2048_S64_1664 s⟩) + x0 (ix1 ⟨1728 + s.val, r2_lt inb_S2048_S64_1728 s⟩) + x0 (ix1 ⟨1792 + s.val, r2_lt inb_S2048_S64_1792 s⟩) + x0 (ix1 ⟨1856 + s.val, r2_lt inb_S2048_S64_1856 s⟩) + x0 (ix1 ⟨1920 + s.val, r2_lt inb_S2048_S64_1920 s⟩) + x0 (ix1 ⟨1984 + s.val, r2_lt inb_S2048_S64_1984 s⟩) = cnt2 x0 s := by
  unfold cnt2
  conv_rhs => simp only [Fin.sum_univ_castSucc, Fin.sum_univ_zero, zero_add]
  rfl

/-! ## The output block at an index -/

/-- Entry `(j, s)` of what the body leaves in the output window's buffer. -/
theorem out2_3_apply (x0 : Vec Ideal S2048 .f32) (x1 : Vec Ideal S2x64 .f32) (x2 : Vec Ideal S2x1 .f32) (j : Fin 2) (s : Fin 64) :
    out2_3 x0 x1 x2 (ix2 j s)
      = Ideal.div (x1 (ix2 j s) + cnt2 x0 s * x2 (ix2 j (0 : Fin 1))) (max (cnt2 x0 s) 1) := by
  unfold out2_3
  rw [View.canon_unit_zero hz2]
  simp only [View.ld_unit_zero (S := S2x64) hz2, View.ld_unit_zero (S := S2x1) hz2]
  refine (pay1_apply _ _ _ _ _ j s).trans ?_
  rw [pay3_apply, pay2_apply]
  rw [ld_r2 x0 0 inb_S2048_S64_0 s,
    ld_r2 x0 64 inb_S2048_S64_64 s,
    ld_r2 x0 128 inb_S2048_S64_128 s,
    ld_r2 x0 192 inb_S2048_S64_192 s,
    ld_r2 x0 256 inb_S2048_S64_256 s,
    ld_r2 x0 320 inb_S2048_S64_320 s,
    ld_r2 x0 384 inb_S2048_S64_384 s,
    ld_r2 x0 448 inb_S2048_S64_448 s,
    ld_r2 x0 512 inb_S2048_S64_512 s,
    ld_r2 x0 576 inb_S2048_S64_576 s,
    ld_r2 x0 640 inb_S2048_S64_640 s,
    ld_r2 x0 704 inb_S2048_S64_704 s,
    ld_r2 x0 768 inb_S2048_S64_768 s,
    ld_r2 x0 832 inb_S2048_S64_832 s,
    ld_r2 x0 896 inb_S2048_S64_896 s,
    ld_r2 x0 960 inb_S2048_S64_960 s,
    ld_r2 x0 1024 inb_S2048_S64_1024 s,
    ld_r2 x0 1088 inb_S2048_S64_1088 s,
    ld_r2 x0 1152 inb_S2048_S64_1152 s,
    ld_r2 x0 1216 inb_S2048_S64_1216 s,
    ld_r2 x0 1280 inb_S2048_S64_1280 s,
    ld_r2 x0 1344 inb_S2048_S64_1344 s,
    ld_r2 x0 1408 inb_S2048_S64_1408 s,
    ld_r2 x0 1472 inb_S2048_S64_1472 s,
    ld_r2 x0 1536 inb_S2048_S64_1536 s,
    ld_r2 x0 1600 inb_S2048_S64_1600 s,
    ld_r2 x0 1664 inb_S2048_S64_1664 s,
    ld_r2 x0 1728 inb_S2048_S64_1728 s,
    ld_r2 x0 1792 inb_S2048_S64_1792 s,
    ld_r2 x0 1856 inb_S2048_S64_1856 s,
    ld_r2 x0 1920 inb_S2048_S64_1920 s,
    ld_r2 x0 1984 inb_S2048_S64_1984 s]
  rw [← cnt2_eq x0 s]

end Cert.Proof.KernelIdeal

end
-- ==== Proof.Spec.lean ====
/- The specification: the segment mean of an affine map, as one index-by-index function of the four arrays.

   For rows `r < 50000` with a segment word `batch r`, features `x r ·`, a weight matrix `W` and a bias `b`,
     G (s, j) = (∑ r with batch r = s, (∑ d, x (r, d) · W (j, d)) + b j) / max (#{r | batch r = s}) 1
   over the extended reals, the quotient being `Ideal.div`. A row whose word is no segment number below 64
   (read as a natural number) contributes to no segment. -/
import Idealize.ShloMosaic.PureOps.Ideal
import Idealize.ShloMosaic.Lib.ValueIdx

noncomputable section

open scoped BigOperators

namespace Cert.Spec

open Idealize.ShloMosaic Idealize.ShloMosaic.ValueIdx

abbrev S50000x1024 : Shape := ⟨2, ![50000, 1024]⟩
abbrev S50000 : Shape := ⟨1, ![50000]⟩
abbrev S2x1024 : Shape := ⟨2, ![2, 1024]⟩
abbrev S2 : Shape := ⟨1, ![2]⟩
abbrev S64x2 : Shape := ⟨2, ![64, 2]⟩

/-- The affine map's value at row `r`, output feature `j`: `(∑ d, x (r, d) · W (j, d)) + b j`. -/
def lin (x : S50000x1024.Idx → EReal) (W : S2x1024.Idx → EReal) (b : S2.Idx → EReal) (r : Fin 50000) (j : Fin 2) : EReal :=
  (∑ d : Fin 1024, x (ix2 r d) * W (ix2 j d)) + b (ix1 j)

/-- How many rows carry the segment number `s`. -/
def segCount (batch : S50000.Idx → BitVec 32) (s : Fin 64) : ℕ :=
  (Finset.univ.filter fun r : Fin 50000 => (batch (ix1 r)).toNat = s.val).card

/-- The sum of the affine map's values over the rows of segment `s`. -/
def segSum (x : S50000x1024.Idx → EReal) (batch : S50000.Idx → BitVec 32) (W : S2x1024.Idx → EReal) (b : S2.Idx → EReal)
    (s : Fin 64) (j : Fin 2) : EReal :=
  ∑ r : Fin 50000, if (batch (ix1 r)).toNat = s.val then lin x W b r j else 0

/-- The segment mean, index by index. -/
def G (x : S50000x1024.Idx → EReal) (batch : S50000.Idx → BitVec 32) (W : S2x1024.Idx → EReal) (b : S2.Idx → EReal) :
    S64x2.Idx → EReal :=
  fun i => Ideal.div (segSum x batch W b (i 0) (i 1)) (max (segCount batch (i 0) : EReal) 1)

theorem G_apply (x : S50000x1024.Idx → EReal) (batch : S50000.Idx → BitVec 32) (W : S2x1024.Idx → EReal) (b : S2.Idx → EReal)
    (s : Fin 64) (j : Fin 2) :
    G x batch W b (ix2 s j)
      = Ideal.div (∑ r : Fin 50000, if (batch (ix1 r)).toNat = s.val
            then (∑ d : Fin 1024, x (ix2 r d) * W (ix2 j d)) + b (ix1 j) else 0)
          (max (segCount batch s : EReal) 1) := rfl

/-- The number of rows of a segment as the sum of ones over them. -/
theorem segCount_eq_sum (batch : S50000.Idx → BitVec 32) (s : Fin 64) :
    (segCount batch s : EReal) = ∑ r : Fin 50000, if (batch (ix1 r)).toNat = s.val then (1 : EReal) else 0 := by
  unfold segCount
  rw [Finset.card_eq_sum_ones, Finset.sum_filter]
  push_cast
  rfl

/-- A 32-bit word read signed is the segment number `s < 64` exactly when it is `s` read unsigned: a word with its
    top bit set is negative read signed and at least `2 ^ 31` read unsigned. -/
theorem toInt_eq_iff (w : BitVec 32) (s : Fin 64) : w.toInt = (s.val : Int) ↔ w.toNat = s.val := by
  have hs : s.val < 64 := s.isLt
  have hw : w.toNat < 2 ^ 32 := w.isLt
  rw [BitVec.toInt_eq_toNat_cond]
  split <;> omega

end Cert.Spec

end
-- ==== Proof.Algebra.lean ====
/- The algebra that joins a blockwise arrangement of the segment mean to the specification `Cert.Spec.G`:
   the sum of an affine map over a segment is the sum of its linear part plus the segment's count times the bias
   (the bias being a real: multiplication does not distribute over addition at the infinities); thirty-two chunks
   partition the fifty thousand rows; twenty-five blocks of 2048 rows cover them, the overhang contributing nothing. -/
import proofs.«211348_g14766097563893_cont_week2b_353_46_alg».proof.Proof.Spec

noncomputable section

open scoped BigOperators

namespace Cert.Algebra

open Idealize.ShloMosaic Idealize.ShloMosaic.ValueIdx Cert.Spec

/-- The coercion of the reals into the extended reals commutes with a finite sum. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A real constant summed over the indices satisfying `p` is their number times the constant. -/
theorem sum_ite_const {ι : Type*} [Fintype ι] (p : ι → Prop) [DecidablePred p] (β : ℝ) :
    ∑ r : ι, (if p r then (β : EReal) else 0) = ((Finset.univ.filter p).card : EReal) * (β : EReal) := by
  have e : ∀ r : ι, (if p r then (β : EReal) else 0) = (((if p r then β else 0 : ℝ)) : EReal) := fun r => by
    split <;> simp
  rw [Finset.sum_congr rfl fun r _ => e r, ← coe_sum, Finset.sum_ite, Finset.sum_const_zero, add_zero, Finset.sum_const,
    nsmul_eq_mul, EReal.coe_mul, EReal.coe_natCast]

/-- The segment's sum of the affine map is the segment's sum of the linear part plus its count times the bias. -/
theorem segSum_split (x : S50000x1024.Idx → EReal) (batch : S50000.Idx → BitVec 32) (W : S2x1024.Idx → EReal)
    (b : S2.Idx → EReal) (hb : ∀ i, ∃ r : ℝ, b i = (r : EReal)) (s : Fin 64) (j : Fin 2) :
    segSum x batch W b s j
      = (∑ r : Fin 50000, if (batch (ix1 r)).toNat = s.val then (∑ d : Fin 1024, W (ix2 j d) * x (ix2 r d)) else 0)
        + (segCount batch s : EReal) * b (ix1 j) := by
  obtain ⟨β, hβ⟩ := hb (ix1 j)
  unfold segSum lin segCount
  rw [hβ, ← sum_ite_const, ← Finset.sum_add_distrib]
  refine Finset.sum_congr rfl fun r _ => ?_
  by_cases h : (batch (ix1 r)).toNat = s.val
  · rw [if_pos h, if_pos h, if_pos h]
    exact congrArg (· + (β : EReal)) (Finset.sum_congr rfl fun d _ => mul_comm _ _)
  · rw [if_neg h, if_neg h, if_neg h, add_zero]

/-- The specification at row `s`, column `j`. -/
theorem G_ix2 (x : S50000x1024.Idx → EReal) (batch : S50000.Idx → BitVec 32) (W : S2x1024.Idx → EReal)
    (b : S2.Idx → EReal) (s : Fin 64) (j : Fin 2) :
    G x batch W b (ix2 s j) = Ideal.div (segSum x batch W b s j) (max (segCount batch s : EReal) 1) := rfl

/-- The blockwise arrangement — the segment's sum of the products, plus the count times the bias, over the count
    or one — is the specification. -/
theorem combine_eq (x : S50000x1024.Idx → EReal) (batch : S50000.Idx → BitVec 32) (W : S2x1024.Idx → EReal)
    (b : S2.Idx → EReal) (hx : ∀ i, ∃ r : ℝ, x i = (r : EReal)) (hW : ∀ i, ∃ r : ℝ, W i = (r : EReal))
    (hb : ∀ i, ∃ r : ℝ, b i = (r : EReal)) (dotsum : Fin 2 → Fin 64 → EReal) (cnt : Fin 64 → EReal)
    (hdot : ∀ j s, dotsum j s = ∑ r : Fin 50000, if (batch (ix1 r)).toNat = s.val
      then (∑ d : Fin 1024, W (ix2 j d) * x (ix2 r d)) else 0)
    (hcnt : ∀ s, cnt s = (segCount batch s : EReal)) (s : Fin 64) (j : Fin 2) :
    Ideal.div (dotsum j s + cnt s * b (ix1 j)) (max (cnt s) 1) = G x batch W b (ix2 s j) := by
  rw [G_ix2]
  rw [segSum_split x batch W b hb]
  rw [hcnt s]
  rw [hdot j s]

/-- The same with the products written features first. -/
theorem combine_eq' (x : S50000x1024.Idx → EReal) (batch : S50000.Idx → BitVec 32) (W : S2x1024.Idx → EReal)
    (b : S2.Idx → EReal) (hb : ∀ i, ∃ r : ℝ, b i = (r : EReal)) (dotsum : Fin 2 → Fin 64 → EReal) (cnt : Fin 64 → EReal)
    (hdot : ∀ j s, dotsum j s = ∑ r : Fin 50000, if (batch (ix1 r)).toNat = s.val
      then (∑ d : Fin 1024, x (ix2 r d) * W (ix2 j d)) else 0)
    (hcnt : ∀ s, cnt s = (segCount batch s : EReal)) (s : Fin 64) (j : Fin 2) :
    Ideal.div (dotsum j s + cnt s * b (ix1 j)) (max (cnt s) 1) = G x batch W b (ix2 s j) := by
  have hdot' : ∀ j s, dotsum j s = ∑ r : Fin 50000, if (batch (ix1 r)).toNat = s.val
      then (∑ d : Fin 1024, W (ix2 j d) * x (ix2 r d)) else 0 := fun j s =>
    (hdot j s).trans (Finset.sum_congr rfl fun r _ =>
      if_congr Iff.rfl (Finset.sum_congr rfl fun d _ => mul_comm _ _) rfl)
  rw [G_ix2]
  rw [segSum_split x batch W b hb]
  rw [hcnt s]
  rw [hdot' j s]

/-- The thirty-two chunks of rows — chunk `t` the rows from `1568 t`, 1568 of them, the last 1392 — partition the
    fifty thousand rows: a segment's count is the sum of its counts in the chunks. -/
theorem count_split (batch : S50000.Idx → BitVec 32) (s : Fin 64) :
    (∑ t : Fin 32, ((Finset.univ.filter fun r : Fin 50000 => 1568 * t.val ≤ r.val
        ∧ r.val < 1568 * t.val + (if t.val = 31 then 1392 else 1568) ∧ (batch (ix1 r)).toNat = s.val).card : EReal))
      = (segCount batch s : EReal) := by
  unfold segCount
  rw [← Nat.cast_sum]
  refine congrArg (Nat.cast : ℕ → EReal) ?_
  have hmap : ((Finset.univ.filter fun r : Fin 50000 => (batch (ix1 r)).toNat = s.val : Finset (Fin 50000)) : Set (Fin 50000)).MapsTo
      (fun r : Fin 50000 => (⟨r.val / 1568, by have := r.isLt; omega⟩ : Fin 32)) (Finset.univ : Finset (Fin 32)) :=
    fun _ _ => Finset.mem_coe.2 (Finset.mem_univ _)
  rw [Finset.card_eq_sum_card_fiberwise hmap]
  refine Finset.sum_congr rfl fun t _ => ?_
  refine congrArg Finset.card ?_
  ext r
  simp only [Finset.mem_filter, Finset.mem_univ, true_and]
  have hr : r.val < 50000 := r.isLt
  have ht : t.val < 32 := t.isLt
  constructor
  · rintro ⟨h1, h2, h3⟩
    refine ⟨h3, Fin.ext ?_⟩
    show r.val / 1568 = t.val
    split at h2 <;> omega
  · rintro ⟨h3, h4⟩
    have h4' : r.val / 1568 = t.val := congrArg Fin.val h4
    refine ⟨by omega, ?_, h3⟩
    split <;> omega

/-- The twenty-five blocks of 2048 rows cover the fifty thousand rows, the last block's overhang contributing nothing. -/
theorem rows_split (f : Fin 50000 → EReal) :
    ∑ r : Fin 50000, f r
      = ∑ t : Fin 25, ∑ c : Fin 2048, if h : 2048 * t.val + c.val < 50000 then f ⟨2048 * t.val + c.val, h⟩ else 0 := by
  let g : ℕ → EReal := fun n => if h : n < 50000 then f ⟨n, h⟩ else 0
  have e1 : ∑ r : Fin 50000, f r = ∑ n ∈ Finset.range 50000, g n := by
    rw [← Fin.sum_univ_eq_sum_range g 50000]
    refine Finset.sum_congr rfl fun r _ => ?_
    show f r = if h : r.val < 50000 then f ⟨r.val, h⟩ else 0
    rw [dif_pos r.isLt]
  have e2 : ∑ n ∈ Finset.range 50000, g n = ∑ n ∈ Finset.range (25 * 2048), g n :=
    Finset.sum_subset (Finset.range_mono (by norm_num)) fun n _ hn =>
      dif_neg (by simpa using hn)
  rw [e1, e2, ← Fin.sum_univ_eq_sum_range g (25 * 2048), ← Equiv.sum_comp finProdFinEquiv, Fintype.sum_prod_type]
  refine Finset.sum_congr rfl fun t _ => Finset.sum_congr rfl fun c _ => ?_
  show g (c.val + 2048 * t.val) = _
  rw [Nat.add_comm]

end Cert.Algebra

end
-- ==== Proof.KernelIdeal.FinalValue.lean ====
/-
  The kernel's final value over the extended reals as one pure statement: from the per-chunk segment counts and the
  per-segment sums of products the two earlier stages leave, the combine stage followed by the transposition is the
  specification's segment mean.
-/
import proofs.«211348_g14766097563893_cont_week2b_353_46_alg».proof.Proof.KernelIdeal.Region2Value
import proofs.«211348_g14766097563893_cont_week2b_353_46_alg».proof.Proof.Spec
import proofs.«211348_g14766097563893_cont_week2b_353_46_alg».proof.Proof.Algebra

set_option maxRecDepth 16384

noncomputable section

namespace Cert.Proof.KernelIdeal

open Cert.KernelIdeal Cert.KernelIdeal.Gen
open Idealize.ShloMosaic Idealize.ShloMosaic.ValueIdx
open scoped BigOperators

/-- A vector `[a]` cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The counts of the thirty-two chunks add up to the segment's count. -/
theorem cnt2_eq_segCount (batch : S50000.Idx → BitVec 32) (cnt : Vec Ideal S2048 .f32)
    (hcnt : ∀ (t : Fin 32) (s : Fin 64), cnt (ix1 ⟨64 * t.val + s.val, by have := t.isLt; have := s.isLt; omega⟩)
      = ((Finset.univ.filter fun r : Fin 50000 => 1568 * t.val ≤ r.val
          ∧ r.val < 1568 * t.val + (if t.val = 31 then 1392 else 1568) ∧ (batch (ix1 r)).toNat = s.val).card : EReal))
    (s : Fin 64) : cnt2 cnt s = (Cert.Spec.segCount batch s : EReal) := by
  unfold cnt2
  rw [Finset.sum_congr rfl fun t _ => hcnt t s]
  exact Cert.Algebra.count_split batch s

/-- The twenty-five blocks' sums of products over a segment's rows add up to the segment's sum of products. -/
theorem tcs_eq_segDot (x : S50000x1024.Idx → EReal) (batch : S50000.Idx → BitVec 32) (W : S2x1024.Idx → EReal)
    (tcs : Vec Ideal S2x64 .f32)
    (htcs : ∀ (j : Fin 2) (s : Fin 64), tcs (ix2 j s) = ∑ t : Fin 25, ∑ c : Fin 2048,
      if h : 2048 * t.val + c.val < 50000 then
        (if (batch (ix1 ⟨2048 * t.val + c.val, h⟩)).toNat = s.val
          then ∑ d : Fin 1024, W (ix2 j d) * x (ix2 ⟨2048 * t.val + c.val, h⟩ d) else 0)
      else 0)
    (j : Fin 2) (s : Fin 64) :
    tcs (ix2 j s) = ∑ r : Fin 50000, if (batch (ix1 r)).toNat = s.val then (∑ d : Fin 1024, W (ix2 j d) * x (ix2 r d)) else 0 :=
  (htcs j s).trans
    (Cert.Algebra.rows_split fun r : Fin 50000 =>
      if (batch (ix1 r)).toNat = s.val then (∑ d : Fin 1024, W (ix2 j d) * x (ix2 r d)) else 0).symm

/-- THE FINAL VALUE: the combine stage's result of the chunk counts `cnt`, the segment sums of products `tcs` and
    the bias as a column, transposed, is the segment mean of the affine map. -/
theorem final_value (x : S50000x1024.Idx → EReal) (batch : S50000.Idx → BitVec 32) (W : S2x1024.Idx → EReal)
    (b : S2.Idx → EReal) (hb : ∀ i, ∃ r : ℝ, b i = (r : EReal))
    (cnt : Vec Ideal S2048 .f32)
    (hcnt : ∀ (t : Fin 32) (s : Fin 64), cnt (ix1 ⟨64 * t.val + s.val, by have := t.isLt; have := s.isLt; omega⟩)
      = ((Finset.univ.filter fun r : Fin 50000 => 1568 * t.val ≤ r.val
          ∧ r.val < 1568 * t.val + (if t.val = 31 then 1392 else 1568) ∧ (batch (ix1 r)).toNat = s.val).card : EReal))
    (tcs : Vec Ideal S2x64 .f32)
    (htcs : ∀ (j : Fin 2) (s : Fin 64), tcs (ix2 j s) = ∑ t : Fin 25, ∑ c : Fin 2048,
      if h : 2048 * t.val + c.val < 50000 then
        (if (batch (ix1 ⟨2048 * t.val + c.val, h⟩)).toNat = s.val
          then ∑ d : Fin 1024, W (ix2 j d) * x (ix2 ⟨2048 * t.val + c.val, h⟩ d) else 0)
      else 0) :
    transpose S64x2 [1, 0] (out2_3 cnt tcs (shapeCast S2x1 b shapeCasts_S2_S2x1)) transposes_S2x64_S64x2_1_0
      = Cert.Spec.G x batch W b := by
  funext i
  obtain ⟨s, j, rfl⟩ : ∃ (s : Fin 64) (j : Fin 2), i = ix2 s j := ⟨i 0, i 1, eq_ix2 i⟩
  refine (transpose_ix2_apply _ _ s j).trans ?_
  rw [out2_3_apply, shapeCast_a_a1_apply, Cert.Algebra.G_ix2, Cert.Algebra.segSum_split x batch W b hb s j,
    cnt2_eq_segCount batch cnt hcnt s, tcs_eq_segDot x batch W tcs htcs j s]

end Cert.Proof.KernelIdeal

end
-- ==== Proof.CountFold.lean ====
/- Counting by indexed adds: a store-with-add of sixteen ones, each at the counter its lane's word names, adds to every
   counter the number of lanes naming it; and the count of a value among the first `N` words of a sequence, as a sum
   of zeros and ones, splits at any point and is the count over a window of another sequence that it copies. -/
import Idealize.ShloMosaic.PureOps.Ideal
import Idealize.ShloMosaic.Lib.ValueIdx

noncomputable section

open scoped BigOperators

namespace Cert.CountFold

open Idealize.ShloMosaic Idealize.ShloMosaic.ValueIdx

abbrev S64 : Shape := ⟨1, ![64]⟩
abbrev S16 : Shape := ⟨1, ![16]⟩

/-- Lane `k` of the sixteen, as an index. -/
abbrev lane (k : Fin 16) : S16.Idx := Shape.ofLane (d := ![16]) k

section
variable (v : IVec S16 32) (h : ∀ a x, ((![v] : Fin 1 → IVec S16 32) a x).toNat < S64.size a)

/-- One lane's add: one onto the counter the lane's word names. -/
def step (g : S64.Idx → EReal) (k : Fin 16) : S64.Idx → EReal :=
  fun j => if (∀ a, (j a).val = (idxAt ![v] h (lane k) a).val) then g (idxAt ![v] h (lane k)) + 1 else g j

theorem step_apply (g : S64.Idx → EReal) (k : Fin 16) (j : S64.Idx) :
    step v h g k j = g j + ((if (v (lane k)).toNat = (j 0).val then 1 else 0 : ℕ) : EReal) := by
  unfold step
  by_cases hj : (v (lane k)).toNat = (j 0).val
  · have hall : ∀ a, (j a).val = (idxAt ![v] h (lane k) a).val := fun a => by
      obtain rfl : a = 0 := Subsingleton.elim _ _
      exact hj.symm
    have e : idxAt ![v] h (lane k) = j := funext fun a => Fin.ext (hall a).symm
    rw [if_pos hall, if_pos hj, e]; simp
  · have hall : ¬ ∀ a, (j a).val = (idxAt ![v] h (lane k) a).val := fun H => hj (H 0).symm
    rw [if_neg hall, if_neg hj]; simp

theorem fold_apply (j : S64.Idx) : ∀ (l : List (Fin 16)) (g : S64.Idx → EReal),
    l.foldl (step v h) g j = g j + (((l.map fun k => if (v (lane k)).toNat = (j 0).val then 1 else 0).sum : ℕ) : EReal)
  | [], g => by simp
  | k :: l, g => by
    rw [List.foldl_cons, fold_apply j l, step_apply, List.map_cons, List.sum_cons, add_assoc]
    push_cast
    rfl

/-- The store-with-add of sixteen ones adds to every counter the number of lanes whose word names it. -/
theorem storeIdx_ones (g : Vec Ideal S64 .f32) (one : Vec Ideal S16 .f32) (hone : ∀ x, one x = (1 : EReal)) (j : S64.Idx) :
    storeIdx g ![v] one (fun _ => 1#1) true h j
      = g j + ((∑ k : Fin 16, if (v (lane k)).toNat = (j 0).val then 1 else 0 : ℕ) : EReal) := by
  have e : storeIdx g ![v] one (fun _ => 1#1) true h = (List.finRange 16).foldl (step v h) g := by
    unfold storeIdx
    show List.foldl _ g (List.finRange 16) = _
    congr 1
    funext g k
    funext j
    simp only [step, if_true, hone]
    rfl
  rw [e, fold_apply, Fin.sum_univ_def]

end

/-! ## Counting a value among the first words of a sequence -/

/-- How many of the first `N` words of `w` are `c`. -/
def cntN (w : ℕ → ℕ) (N c : ℕ) : ℕ := ∑ p ∈ Finset.range N, if w p = c then 1 else 0

theorem cntN_zero (w : ℕ → ℕ) (c : ℕ) : cntN w 0 c = 0 := Finset.sum_range_zero _

/-- Sixteen more words: the count grows by the number of them that are `c`. -/
theorem cntN_sixteen (w : ℕ → ℕ) (n c : ℕ) :
    cntN w (16 * (n + 1)) c = cntN w (16 * n) c + ∑ k : Fin 16, if w (16 * n + k.val) = c then 1 else 0 := by
  unfold cntN
  rw [show 16 * (n + 1) = 16 * n + 16 by ring, Finset.sum_range_add,
    Fin.sum_univ_eq_sum_range (fun x => if w (16 * n + x) = c then 1 else 0) 16]

/-- If the first `len` words of `w` copy the words of `W` from `a` on, the count over them is the number of places of
    the window `[a, a + len)` where `W` is `c`. -/
theorem cntN_window (w W : ℕ → ℕ) (a len T c : ℕ) (hT : a + len ≤ T) (hw : ∀ p, p < len → w p = W (a + p)) :
    cntN w len c = ((Finset.range T).filter fun q => a ≤ q ∧ q < a + len ∧ W q = c).card := by
  have e : ((Finset.range T).filter fun q => a ≤ q ∧ q < a + len ∧ W q = c)
      = (Finset.Ico a (a + len)).filter fun q => W q = c := by
    ext q
    simp only [Finset.mem_filter, Finset.mem_range, Finset.mem_Ico]
    constructor
    · rintro ⟨_, h1, h2, h3⟩; exact ⟨⟨h1, h2⟩, h3⟩
    · rintro ⟨⟨h1, h2⟩, h3⟩; exact ⟨by omega, h1, h2, h3⟩
  rw [e, Finset.card_filter, Finset.sum_Ico_eq_sum_range, Nat.add_sub_cancel_left]
  unfold cntN
  exact Finset.sum_congr rfl fun p hp => by rw [hw p (Finset.mem_range.1 hp)]

/-- The same over an array of `T` words. -/
theorem cntN_window_fin {T : ℕ} (Wf : Fin T → ℕ) (w : ℕ → ℕ) (a len c : ℕ) (hT : a + len ≤ T)
    (hw : ∀ p (hp : p < len), w p = Wf ⟨a + p, by omega⟩) :
    cntN w len c = (Finset.univ.filter fun r : Fin T => a ≤ r.val ∧ r.val < a + len ∧ Wf r = c).card := by
  let W : ℕ → ℕ := fun q => if h : q < T then Wf ⟨q, h⟩ else 0
  have hW : ∀ r : Fin T, W r.val = Wf r := fun r => dif_pos r.isLt
  have hW' : ∀ p (hp : p < len), w p = W (a + p) := fun p hp => by
    rw [hw p hp]
    exact (hW ⟨a + p, by omega⟩).symm
  rw [cntN_window w W a len T c hT hW',
    Finset.card_filter, Finset.card_filter,
    ← Fin.sum_univ_eq_sum_range (fun q => if a ≤ q ∧ q < a + len ∧ W q = c then 1 else 0) T]
  exact Finset.sum_congr rfl fun r _ => by rw [hW r]

end Cert.CountFold

end
-- ==== Proof.KernelIdeal.TileValue.lean ====
/-
  What a tile of the counting kernel leaves, at the ideal instance: each of its sixty-four words of the per-tile counts
  array is the number of rows of the tile's chunk whose segment id names that word. The counters start at zero; a trip
  adds, at each counter, the number of the trip's sixteen ids that name it; the chunk's ids are the segment-id array's
  words from the tile's offset on.
-/
import proofs.«211348_g14766097563893_cont_week2b_353_46_alg».proof.Proof.KernelIdeal.TileDefs
import proofs.«211348_g14766097563893_cont_week2b_353_46_alg».proof.Proof.CountFold
import Idealize.ShloMosaic.Lib.IdealHost

noncomputable section

namespace Cert.Proof.KernelIdeal

open Cert.KernelIdeal Cert.KernelIdeal.Gen
open Idealize.ShloMosaic Idealize.ShloMosaic.ValueIdx
open Idealize.ShloMosaic.SparseCore (S V T)
open Idealize.SL.Sem
open Cert.CountFold (lane cntN)

local notation "s0W" => (Memref.whole Cert.KernelIdeal.cc0_scratch0 : Memref Cert.KernelIdeal.sig Kind.scVector Space.vmem Cert.KernelIdeal.S1568 EltTy.i32)
local notation "s1W" => (Memref.whole Cert.KernelIdeal.cc0_scratch1 : Memref Cert.KernelIdeal.sig Kind.scVector Space.vmem Cert.KernelIdeal.S64 EltTy.f32)

variable (m : (ℓ : Loc nD τ sig) → Buf (Elt Ideal) ℓ) (d : Dev nD) (L : grid0.Coords)

/-- The tile's number is one of the thirty-two. -/
theorem wid_lt : ∀ L : grid0.Coords, wid L < 32 := by decide +kernel

/-- The chunk's ids as natural numbers, by position. -/
def wOf (s : Buf (Elt Ideal) ((thrV d L).loc cc0_scratch0)) : ℕ → ℕ :=
  fun p => if h : p < 1568 then (s (ix1 (⟨p, h⟩ : Fin 1568))).toNat else 0

/-- Lane `x` of the `k`-th vector the loop loads is the chunk's id at position `16 k + x`. -/
theorem vecAt_lane (s : Buf (Elt Ideal) ((thrV d L).loc cc0_scratch0)) (k : Fin (k0_t1_loop L).trips) (x : Fin 16) :
    (vecAt (F := Ideal) d L s k (lane x)).toNat = wOf d L s (16 * k.val + x.val) := by
  have hk : k.val < if wid L = 31 then 87 else 98 := (trips_eq L) ▸ k.isLt
  have hx := x.isLt
  have hlt : 16 * k.val + x.val < 1568 := by split at hk <;> omega
  unfold wOf
  rw [dif_pos hlt]
  show ((s0W).view.readAt (Elt Ideal) (Rect.unit (s := S1568) (k0_off2 L k) S16.size (k0_off2_inb L k)).toLoadRect s (lane x)).toNat = _
  simp only [View.readAt_apply, Memref.view_whole, View.read_whole]
  refine congrArg (fun i => BitVec.toNat (s i)) ?_
  refine funext fun (a : Fin 1) => ?_
  obtain rfl : a = 0 := Subsingleton.elim _ _
  apply Fin.ext
  rw [LoadRect.idx_apply]
  show (k0_off2 L k) 0 + 1 * (lane x 0).val = 16 * k.val + x.val
  rw [k0_off2_eq]
  simp only [Matrix.cons_val_zero]
  show 16 * k.val + 1 * x.val = _
  omega

/-- The vector of sixteen ones the loop adds. -/
theorem pay2_one (x : S16.Idx) : k0_pay2 (F := Ideal) x = (1 : EReal) := Ideal.ofBits_one_f32

/-- One trip on the counters, as the pure indexed add. -/
theorem stepG_eq (s : Buf (Elt Ideal) ((thrV d L).loc cc0_scratch0)) (g : Buf (Elt Ideal) ((thrV d L).loc cc0_scratch1))
    (k : Fin (k0_t1_loop L).trips) (h : k0_chk1 (vecAt (F := Ideal) d L s k)) :
    stepG (F := Ideal) d L s g k h
      = storeIdx g ![vecAt (F := Ideal) d L s k] (k0_pay2 (F := Ideal)) (fun _ => 1#1) true (k0_idx1_inb _ h) := by
  have e1 : View.read (Elt Ideal) ((s1W).access (Rect.whole S64)) g = g :=
    Memref.read_access_whole (Elt Ideal) cc0_scratch1 g
  have e2 : ∀ w, View.write (Elt Ideal) ((s1W).access (Rect.whole S64)) g w Finset.univ = w :=
    fun w => Memref.write_access_whole_univ (Elt Ideal) cc0_scratch1 g w
  unfold stepG
  rw [e2]
  simp only [e1]

/-- After `n` trips every counter holds the number of the chunk's first `16 n` ids that name it. -/
theorem cnt_upto (s : Buf (Elt Ideal) ((thrV d L).loc cc0_scratch0)) :
    ∀ (n : ℕ) (g : Buf (Elt Ideal) ((thrV d L).loc cc0_scratch1)), CntUpTo (F := Ideal) d L s n g →
      ∀ j : S64.Idx, g j = ((cntN (wOf d L s) (16 * n) (j 0).val : ℕ) : EReal)
  | 0, g, h, j => by
    rw [h j]
    show Ideal.ofBits .f32 0x00000000#32 = _
    rw [Ideal.ofBits_zero_f32, Nat.mul_zero, Cert.CountFold.cntN_zero]
    simp
  | n + 1, g, ⟨hn, g0, hc, h0, hg⟩, j => by
    have ih := cnt_upto s n g0 h0 j
    rw [hg, stepG_eq, Cert.CountFold.storeIdx_ones _ _ g0 _ (pay2_one) j, ih, Cert.CountFold.cntN_sixteen]
    push_cast
    refine congrArg (fun z : EReal => _ + z) ?_
    refine Finset.sum_congr rfl fun k _ => ?_
    rw [vecAt_lane d L s ⟨n, hn⟩ k]

/-- What a tile leaves in its sixty-four words of the counts array: at word `j`, the number of rows of its chunk whose
    segment id is `j`. -/
theorem tile_count (hpre : PreOK m) (fo : Buf (Elt Ideal) (cLoc d)) (h : TileDone m d L fo) (j : S64.Idx) :
    fo ((cSl L).view.emb j)
      = ((Finset.univ.filter fun r : Fin 50000 => 1568 * wid L ≤ r.val
          ∧ r.val < 1568 * wid L + (if wid L = 31 then 1392 else 1568)
          ∧ (m (bLoc d) (ix1 r)).toNat = (j 0).val).card : EReal) := by
  obtain ⟨s, g, hheld, hcnt, hfo⟩ := h
  rw [hfo j, cnt_upto d L s _ g hcnt j]
  refine congrArg (Nat.cast : ℕ → EReal) ?_
  have hw := wid_lt L
  have hlen : 16 * (k0_t1_loop L).trips = if wid L = 31 then 1392 else 1568 := by
    rw [trips_eq]; split <;> rfl
  have hle : (if wid L = 31 then 1392 else 1568) ≤ 1568 := by split <;> omega
  have hT : 1568 * wid L + (if wid L = 31 then 1392 else 1568) ≤ 50000 := by split <;> omega
  rw [hlen]
  refine Cert.CountFold.cntN_window_fin (T := 50000) (fun r => (m (bLoc d) (ix1 r)).toNat) (wOf d L s) (1568 * wid L) _ (j 0).val hT
    (fun p hp => ?_)
  have hp' : p < 1568 := by omega
  unfold wOf
  rw [dif_pos hp']
  exact congrArg BitVec.toNat (hheld (ix1 (⟨p, hp'⟩ : Fin 1568)) (ix1 (⟨1568 * wid L + p, by omega⟩ : Fin 50000))
    (by rw [hlen]; exact hp) rfl)

end Cert.Proof.KernelIdeal

end
-- ==== Proof.KernelIdeal.CountsValue.lean ====
/-
  The per-tile counts array after all thirty-two tiles, at the ideal instance: word `64 t + s` is the number of rows
  of chunk `t` whose segment id is `s`. Tile `t` is the tile at coordinates `(t / 16, t % 16)`; its sixty-four words
  start at `64 t`.
-/
import proofs.«211348_g14766097563893_cont_week2b_353_46_alg».proof.Proof.KernelIdeal.TileValue

noncomputable section

namespace Cert.Proof.KernelIdeal

open Cert.KernelIdeal Cert.KernelIdeal.Gen
open Idealize.ShloMosaic Idealize.ShloMosaic.ValueIdx
open Idealize.ShloMosaic.SparseCore (S V T)
open Idealize.SL.Sem

/-- The coordinates of tile `t` of the thirty-two. -/
def tileOf (t : Fin 32) : grid0.Coords := fun a =>
  match a with
  | ⟨0, _⟩ => (⟨t.val / 16, by have := t.isLt; omega⟩ : Fin 2)
  | ⟨1, _⟩ => (⟨t.val % 16, Nat.mod_lt _ (by norm_num)⟩ : Fin 16)

theorem wid_tileOf (t : Fin 32) : wid (tileOf t) = t.val := by
  show 16 * (t.val / 16) + t.val % 16 = t.val
  omega

/-- Word `s` of tile `t`'s sixty-four is word `64 t + s` of the counts array. -/
theorem emb_tileOf (t : Fin 32) (s : Fin 64) :
    (cSl (tileOf t)).view.emb (ix1 s : S64.Idx)
      = (ix1 (⟨64 * t.val + s.val, by have := t.isLt; have := s.isLt; omega⟩ : Fin 2048) : S2048.Idx) := by
  refine funext fun (a : Fin 1) => ?_
  obtain rfl : a = 0 := Subsingleton.elim _ _
  apply Fin.ext
  show (k0_off4 (tileOf t)) 0 + 1 * s.val = 64 * t.val + s.val
  rw [k0_off4_eq]
  simp only [Matrix.cons_val_zero]
  show 1024 * (t.val / 16) + 64 * (t.val % 16) + 1 * s.val = _
  omega

/-- The counts array after the thirty-two tiles. -/
theorem counts_value (m : (ℓ : Loc nD τ sig) → Buf (Elt Ideal) ℓ) (d : Dev nD) (hpre : PreOK m)
    (g : Buf (Elt Ideal) (cLoc d)) (hg : ∀ L : grid0.Coords, TileDone m d L g) :
    ∀ (t : Fin 32) (s : Fin 64),
      g (ix1 ⟨64 * t.val + s.val, by have := t.isLt; have := s.isLt; omega⟩)
        = ((Finset.univ.filter fun r : Fin 50000 => 1568 * t.val ≤ r.val
            ∧ r.val < 1568 * t.val + (if t.val = 31 then 1392 else 1568)
            ∧ (m (bLoc d) (ix1 r)).toNat = s.val).card : EReal) := by
  intro t s
  have h := tile_count m d (tileOf t) hpre g (hg (tileOf t)) (ix1 s : S64.Idx)
  rw [emb_tileOf, wid_tileOf] at h
  exact h

end Cert.Proof.KernelIdeal

end
-- ==== Proof.KernelIdeal.Region1Val.lean ====
/-
  Region 1's body, read as a value, for any float values: what each control case's stores leave in the output's staging
  memref is the accumulation payload of the three inputs' contents and of the block's running contents (the zero block
  at the first point).
-/
import proofs.«211348_g14766097563893_cont_week2b_353_46_alg».proof.Proof.KernelIdeal.Region1
import Idealize.ShloMosaic.Lib.Pipeline.Value

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

theorem r1_hz2 : (![0, 0] : Fin 2 → Nat) = fun _ => 0 := funext fun a => by fin_cases a <;> rfl
theorem r1_hz1 : (![0] : Fin 1 → Nat) = fun _ => 0 := funext fun a => by fin_cases a; rfl

/-! ## What each case leaves in the output's staging memref -/

/-- Case A's pieces tile the output block, so they cover it. -/
theorem cover1_A_3 (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : cond1_0 i)
    (x0 : Vec F S2048x1024 .f32) (x1 : Vec F S2048 .i32) (x2 : Vec F S2x1024 .f32) (y : S2x64.Idx) :
    ∃ pc ∈ (kernelRun1_A c i arg1 harg1 arg2 harg2 arg3 harg3 arg4 harg4 hc0 x0 x1 x2).1, y ∈ pc.1.set :=
  View.cover_of_tiledL (kernelRun1_A c i arg1 harg1 arg2 harg2 arg3 harg3 arg4 harg4 hc0 x0 x1 x2).1 S2x64.size (by sl_kernel_rfl) y

/-- What case A leaves in the output's staging buffer: its pieces read back. -/
def out1_A_3 (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : cond1_0 i)
    (x0 : Vec F S2048x1024 .f32) (x1 : Vec F S2048 .i32) (x2 : Vec F S2x1024 .f32) : Vec F S2x64 .f32 :=
  VO1_3.read (Elt F) (VO1_3.writes (Elt F) VO1_3.junk (kernelRun1_A c i arg1 harg1 arg2 harg2 arg3 harg3 arg4 harg4 hc0 x0 x1 x2).1)

/-- Case B's pieces tile the output block, so they cover it. -/
theorem cover1_B_3 (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : ¬cond1_0 i)
    (x0 : Vec F S2048x1024 .f32) (x1 : Vec F S2048 .i32) (x2 : Vec F S2x1024 .f32) (xo3 : Vec F S2x64 .f32) (y : S2x64.Idx) :
    ∃ pc ∈ (kernelRun1_B c i arg1 harg1 arg2 harg2 arg3 harg3 arg4 harg4 hc0 x0 x1 x2 xo3).1, y ∈ pc.1.set :=
  View.cover_of_tiledL (kernelRun1_B c i arg1 harg1 arg2 harg2 arg3 harg3 arg4 harg4 hc0 x0 x1 x2 xo3).1 S2x64.size (by sl_kernel_rfl) y

/-- What case B leaves in the output's staging buffer: its pieces read back. -/
def out1_B_3 (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : ¬cond1_0 i)
    (x0 : Vec F S2048x1024 .f32) (x1 : Vec F S2048 .i32) (x2 : Vec F S2x1024 .f32) (xo3 : Vec F S2x64 .f32) : Vec F S2x64 .f32 :=
  VO1_3.read (Elt F) (VO1_3.writes (Elt F) VO1_3.junk (kernelRun1_B c i arg1 harg1 arg2 harg2 arg3 harg3 arg4 harg4 hc0 x0 x1 x2 xo3).1)

/-- CASE B's value: the one covering store's payload, whose loads read the whole buffers. -/
theorem out1_B_3_eq (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : ¬cond1_0 i)
    (x0 : Vec F S2048x1024 .f32) (x1 : Vec F S2048 .i32) (x2 : Vec F S2x1024 .f32) (xo3 : Vec F S2x64 .f32) :
    out1_B_3 c i arg1 harg1 arg2 harg2 arg3 harg3 arg4 harg4 hc0 x0 x1 x2 xo3 = k1_pay2 i x2 x0 x1 xo3 := by
  unfold out1_B_3
  rw [View.read_writes_eq_canon _ _ _ (cover1_B_3 c i arg1 harg1 arg2 harg2 arg3 harg3 arg4 harg4 hc0 x0 x1 x2 xo3)]
  unfold kernelRun1_B
  dsimp only
  rw [View.canon_unit_zero r1_hz2]
  simp only [View.readAt_eq_ld, harg1.read_unread, harg2.read_unread, harg3.read_unread, harg4.read_unread,
    View.ld_unit_zero (S := S2048x1024) r1_hz2, View.ld_unit_zero (S := S2048) r1_hz1, View.ld_unit_zero (S := S2x1024) r1_hz2,
    View.ld_unit_zero (S := S2x64) r1_hz2]

/-- CASE A's value: the body stores the zero block, reads it back, and leaves the payload over it. -/
theorem out1_A_3_eq (c : Dev nD) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole) (hc0 : cond1_0 i)
    (x0 : Vec F S2048x1024 .f32) (x1 : Vec F S2048 .i32) (x2 : Vec F S2x1024 .f32) :
    out1_A_3 c i arg1 harg1 arg2 harg2 arg3 harg3 arg4 harg4 hc0 x0 x1 x2 = k1_pay2 i x2 x0 x1 (k1_pay1 (F := F)) := by
  unfold out1_A_3
  rw [View.read_writes_eq_canon _ _ _ (cover1_A_3 c i arg1 harg1 arg2 harg2 arg3 harg3 arg4 harg4 hc0 x0 x1 x2)]
  unfold kernelRun1_A
  dsimp only
  sl_unfold_words
  rw [View.canon_cons_unit_zero (S := S2x64) r1_hz2, View.readCov_unit_zero (S := S2x64) _ r1_hz2]
  simp only [View.readAt_eq_ld, harg1.read_unread, harg2.read_unread, harg3.read_unread,
    View.ld_unit_zero (S := S2048x1024) r1_hz2, View.ld_unit_zero (S := S2048) r1_hz1, View.ld_unit_zero (S := S2x1024) r1_hz2,
    View.ld_unit_zero (S := S2x64) r1_hz2]

/-! ## The body's run, the output named -/

/-- What the body leaves in the output's buffer at coordinate `i`, from the inputs' contents and the block's: the
    payload over the zero block at the first point, over the block's contents at a later one. -/
def outVal1 (i : grid1.Coords) (x0 : Vec F S2048x1024 .f32) (x1 : Vec F S2048 .i32) (x2 : Vec F S2x1024 .f32) (xo3 : Vec F S2x64 .f32) : Vec F S2x64 .f32 :=
  if cond1_0 i then k1_pay2 i x2 x0 x1 (k1_pay1 (F := F)) else k1_pay2 i x2 x0 x1 xo3

set_option maxHeartbeats 1000000 in
/-- The body at any grid coordinate, on whole staging memrefs at any contents: it runs to the continuation holding
    the three inputs' memrefs as they were and the output's at `outVal1`. -/
theorem sound_kernel1_val (c : Dev nD) (E : Set ℕ) (i : grid1.Coords) (arg1 : Memref sig .tc .vmem S2048x1024 .f32) (harg1 : arg1.IsWhole) (arg2 : Memref sig .tc .vmem S2048 .i32) (harg2 : arg2.IsWhole) (arg3 : Memref sig .tc .vmem S2x1024 .f32) (harg3 : arg3.IsWhole) (arg4 : Memref sig .tc .vmem S2x64 .f32) (harg4 : arg4.IsWhole)
    (x0 : Vec F S2048x1024 .f32) (x1 : Vec F S2048 .i32) (x2 : Vec F S2x1024 .f32) (xo3 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo3
        ∗ (iprop(owns (c : Thread nD τ) arg1 fullShare x0 ∗ owns (c : Thread nD τ) arg2 fullShare x1 ∗ owns (c : Thread nD τ) arg3 fullShare x2 ∗ owns (c : Thread nD τ) arg4 fullShare (outVal1 i x0 x1 x2 xo3)) -∗ K ⟨⟩))
      ⊢ wp frame (wpE (defs₀ (F := F)) Variants.none c none) E (cc1__tc_body i arg1 harg1 arg2 harg2 arg3 harg3 arg4 harg4) K := by
  unfold outVal1
  by_cases hc0 : cond1_0 i
  · rw [if_pos hc0]
    iintro ⟨H0, H1, H2, H3, Hk⟩
    iapply ((kernelRun1_A c i arg1 harg1 arg2 harg2 arg3 harg3 arg4 harg4 hc0 x0 x1 x2).2 E K)
    isplitl [H0]; · iexact H0
    isplitl [H1]; · iexact H1
    isplitl [H2]; · iexact H2
    isplitl [H3]; · iexists _; iexact H3
    iintro ⟨H0, H1, H2, ⟨%f, H3⟩⟩
    iapply Hk
    isplitl [H0]; · iexact H0
    isplitl [H1]; · iexact H1
    isplitl [H2]; · iexact H2
    unfold owns; iexists _; isplitr
    swap; · iexact H3
    ipureintro
    exact (View.read_writes_of_cover _ _ _ _ _ (cover1_A_3 c i arg1 harg1 arg2 harg2 arg3 harg3 arg4 harg4 hc0 x0 x1 x2)).trans (out1_A_3_eq c i arg1 harg1 arg2 harg2 arg3 harg3 arg4 harg4 hc0 x0 x1 x2)
  · rw [if_neg hc0]
    iintro ⟨H0, H1, H2, H3, Hk⟩
    iapply ((kernelRun1_B c i arg1 harg1 arg2 harg2 arg3 harg3 arg4 harg4 hc0 x0 x1 x2 xo3).2 E K)
    isplitl [H0]; · iexact H0
    isplitl [H1]; · iexact H1
    isplitl [H2]; · iexact H2
    isplitl [H3]; · iexact H3
    iintro ⟨H0, H1, H2, ⟨%f, H3⟩⟩
    iapply Hk
    isplitl [H0]; · iexact H0
    isplitl [H1]; · iexact H1
    isplitl [H2]; · iexact H2
    unfold owns; iexists _; isplitr
    swap; · iexact H3
    ipureintro
    exact (View.read_writes_of_cover _ _ _ _ _ (cover1_B_3 c i arg1 harg1 arg2 harg2 arg3 harg3 arg4 harg4 hc0 x0 x1 x2 xo3)).trans (out1_B_3_eq c i arg1 harg1 arg2 harg2 arg3 harg3 arg4 harg4 hc0 x0 x1 x2 xo3)

end Cert.Proof.KernelIdeal

end
-- ==== Proof.KernelIdeal.Region1Pay.lean ====
/-
  The accumulation payload of region 1's body at the ideal values, read at an output index: the accumulator plus the sum,
  over the block's rows, of each row's product with the weights, masked to the rows inside the arrays, times the one-hot
  entry of the row's segment index.
-/
import proofs.«211348_g14766097563893_cont_week2b_353_46_alg».proof.Proof.KernelIdeal.Region1Val
import Idealize.ShloMosaic.Lib.ValueIdx
import Idealize.ShloMosaic.Lib.Affine
import Idealize.ShloMosaic.PureOps.Ideal.Laws

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig (HIx 1) (Elt Ideal) ℕ UU ℕ

abbrev D1 := dot_S2x1024_S2048x1024_S2x2048_1_1_0_0_n_n
abbrev D2 := dot_S2x2048_S64x2048_S2x64_1_1_0_0_n_n

/-- A one-axis contraction's indices are its coordinate's. -/
def e1 : D1.contr.Idx ≃ Fin 1024 := contrEquiv1 D1 1024 (by decide) (by decide)
def e2 : D2.contr.Idx ≃ Fin 2048 := contrEquiv1 D2 2048 (by decide) (by decide)

theorem lhs1_0 (j : S2x2048.Idx) (k : D1.contr.Idx) : (D1.lhsIdx j k 0 : ℕ) = j 0 := by
  simp [DotDims.lhsIdx, D1, dot_S2x1024_S2048x1024_S2x2048_1_1_0_0_n_n]; rfl
theorem lhs1_1 (j : S2x2048.Idx) (k : D1.contr.Idx) : (D1.lhsIdx j k 1 : ℕ) = k ⟨0, by decide⟩ := by
  simp [DotDims.lhsIdx, D1, dot_S2x1024_S2048x1024_S2x2048_1_1_0_0_n_n]; rfl
theorem rhs1_0 (j : S2x2048.Idx) (k : D1.contr.Idx) : (D1.rhsIdx j k 0 : ℕ) = j 1 := by
  simp [DotDims.rhsIdx, D1, dot_S2x1024_S2048x1024_S2x2048_1_1_0_0_n_n]; rfl
theorem rhs1_1 (j : S2x2048.Idx) (k : D1.contr.Idx) : (D1.rhsIdx j k 1 : ℕ) = k ⟨0, by decide⟩ := by
  simp [DotDims.rhsIdx, D1, dot_S2x1024_S2048x1024_S2x2048_1_1_0_0_n_n]; rfl
theorem lhs2_0 (j : S2x64.Idx) (k : D2.contr.Idx) : (D2.lhsIdx j k 0 : ℕ) = j 0 := by
  simp [DotDims.lhsIdx, D2, dot_S2x2048_S64x2048_S2x64_1_1_0_0_n_n]; rfl
theorem lhs2_1 (j : S2x64.Idx) (k : D2.contr.Idx) : (D2.lhsIdx j k 1 : ℕ) = k ⟨0, by decide⟩ := by
  simp [DotDims.lhsIdx, D2, dot_S2x2048_S64x2048_S2x64_1_1_0_0_n_n]; rfl
theorem rhs2_0 (j : S2x64.Idx) (k : D2.contr.Idx) : (D2.rhsIdx j k 0 : ℕ) = j 1 := by
  simp [DotDims.rhsIdx, D2, dot_S2x2048_S64x2048_S2x64_1_1_0_0_n_n]; rfl
theorem rhs2_1 (j : S2x64.Idx) (k : D2.contr.Idx) : (D2.rhsIdx j k 1 : ℕ) = k ⟨0, by decide⟩ := by
  simp [DotDims.rhsIdx, D2, dot_S2x2048_S64x2048_S2x64_1_1_0_0_n_n]; rfl

/-- The first product's operand indices at result index `(r, col)` and contraction coordinate `d`: `(r, d)` and `(col, d)`. -/
theorem lhsD1 (r : Fin 2) (col : Fin 2048) (d : Fin 1024) : D1.lhsIdx (ix2 r col) (e1.symm d) = ix2 r d := by
  funext a
  match a with
  | ⟨0, _⟩ => exact Fin.ext (lhs1_0 _ _)
  | ⟨1, _⟩ => exact Fin.ext ((lhs1_1 _ _).trans (contrEquiv1_symm_val D1 1024 (by decide) (by decide) d))
theorem rhsD1 (r : Fin 2) (col : Fin 2048) (d : Fin 1024) : D1.rhsIdx (ix2 r col) (e1.symm d) = ix2 col d := by
  funext a
  match a with
  | ⟨0, _⟩ => exact Fin.ext (rhs1_0 _ _)
  | ⟨1, _⟩ => exact Fin.ext ((rhs1_1 _ _).trans (contrEquiv1_symm_val D1 1024 (by decide) (by decide) d))
/-- The second product's at result index `(r, s)` and contraction coordinate `col`: `(r, col)` and `(s, col)`. -/
theorem lhsD2 (r : Fin 2) (s : Fin 64) (col : Fin 2048) : D2.lhsIdx (ix2 r s) (e2.symm col) = ix2 r col := by
  funext a
  match a with
  | ⟨0, _⟩ => exact Fin.ext (lhs2_0 _ _)
  | ⟨1, _⟩ => exact Fin.ext ((lhs2_1 _ _).trans (contrEquiv1_symm_val D2 2048 (by decide) (by decide) col))
theorem rhsD2 (r : Fin 2) (s : Fin 64) (col : Fin 2048) : D2.rhsIdx (ix2 r s) (e2.symm col) = ix2 s col := by
  funext a
  match a with
  | ⟨0, _⟩ => exact Fin.ext (rhs2_0 _ _)
  | ⟨1, _⟩ => exact Fin.ext ((rhs2_1 _ _).trans (contrEquiv1_symm_val D2 2048 (by decide) (by decide) col))

theorem bc_row {α : Type} (v : S1x2048.Idx → α) (j : Fin 2) (col : Fin 2048) :
    broadcastTo S2x2048 v broadcasts_S1x2048_S2x2048 (ix2 j col) = v (ix2 0 col) :=
  broadcastTo_apply v broadcasts_S1x2048_S2x2048 (ix2 j col) (ix2 0 col) (fun a => match a with | ⟨0, _⟩ => rfl | ⟨1, _⟩ => rfl)
theorem bc_seg {α : Type} (v : S1x2048.Idx → α) (s : Fin 64) (col : Fin 2048) :
    broadcastTo S64x2048 v broadcasts_S1x2048_S64x2048 (ix2 s col) = v (ix2 0 col) :=
  broadcastTo_apply v broadcasts_S1x2048_S64x2048 (ix2 s col) (ix2 0 col) (fun a => match a with | ⟨0, _⟩ => rfl | ⟨1, _⟩ => rfl)
theorem sc_bt {α : Type} (Bt : S2048.Idx → α) (col : Fin 2048) :
    shapeCast S1x2048 Bt shapeCasts_S2048_S1x2048 (ix2 0 col) = Bt (ix1 col) :=
  (shapeCast_addUnit_apply ![2048] Bt shapeCasts_S2048_S1x2048 (ix2 0 col)).trans (congrArg Bt (funext fun a => match a with | ⟨0, _⟩ => rfl))
theorem iota_col (col : Fin 2048) : iota .tc S1x2048 32 [1] iota_S1x2048_d1_w32 (ix2 0 col) = BitVec.ofNat 32 col.val :=
  iota_single_apply .tc S1x2048 32 1 iota_S1x2048_d1_w32 (ix2 0 col)
theorem iota_seg (s : Fin 64) (col : Fin 2048) : iota .tc S64x2048 32 [0] iota_S64x2048_d0_w32 (ix2 s col) = BitVec.ofNat 32 s.val :=
  iota_single_apply .tc S64x2048 32 0 iota_S64x2048_d0_w32 (ix2 s col)

/-- The row mask: block row `col` of grid coordinate `i0` lies inside the 50000-row arrays (the signed comparison of 32-bit
    words the body computes, read on the naturals: nothing wraps). -/
theorem mask_iff (i0 : ℕ) (h0 : i0 < 25) (col : ℕ) (hc : col < 2048) :
    IntOp.cmpi .slt (IntOp.addi (BitVec.ofNat 32 col) (Scalar.muli (BitVec.ofNat 32 i0) 2048#32)) 50000#32 = 1#1 ↔ 2048 * i0 + col < 50000 := by
  rw [IntOp.cmpi_slt]
  simp only [IntOp.addi, Scalar.muli, IntOp.muli]
  have e : BitVec.ofNat 32 col + BitVec.ofNat 32 i0 * 2048#32 = BitVec.ofNat 32 (col + i0 * 2048) := by
    simp [BitVec.ofNat_add, BitVec.ofNat_mul]
  have hm : (col + i0 * 2048) % 2 ^ 32 = col + i0 * 2048 := Nat.mod_eq_of_lt (by omega)
  have hx : (BitVec.ofNat 32 (col + i0 * 2048)).toInt = ((col + i0 * 2048 : ℕ) : ℤ) := by
    rw [BitVec.toInt_eq_toNat_of_lt (by rw [BitVec.toNat_ofNat, hm]; omega), BitVec.toNat_ofNat, hm]
  rw [e, hx, show (50000#32).toInt = 50000 from by decide]
  omega

/-- The one-hot entry: a one-bit word widened and read as a signed integer is 1 or 0. -/
theorem onehot_eq (b : BitVec 1) : FloatOps.sitofp (F := Ideal) .f32 (BitVec.setWidth 32 b) = if b = 1#1 then 1 else 0 := by
  rcases BitVec.eq_zero_or_eq_one b with h | h <;> subst h
  · show (((BitVec.setWidth 32 0#1).toInt : ℝ) : EReal) = _
    rw [if_neg (by decide), show (BitVec.setWidth 32 0#1).toInt = 0 from by decide]; simp
  · show (((BitVec.setWidth 32 1#1).toInt : ℝ) : EReal) = _
    rw [if_pos rfl, show (BitVec.setWidth 32 1#1).toInt = 1 from by decide]; simp

theorem zero_f32 : (FloatOps.ofBits (F := Ideal) .f32 0#32) = (0 : EReal) := Ideal.ofBits_zero_f32

/-- THE PAYLOAD at the ideal values, read at an output index `(j, s)`: the accumulator there plus, over the block's rows
    `col`, the row's product with the weights' row `j` — taken as zero where the row lies past the arrays' end — times
    the one-hot entry of the row's segment index at `s`. -/
theorem r1_pay2_apply (i : grid1.Coords) (W : Vec Ideal S2x1024 .f32) (X : Vec Ideal S2048x1024 .f32) (Bt : Vec Ideal S2048 .i32) (acc : Vec Ideal S2x64 .f32) (j : Fin 2) (s : Fin 64) :
    k1_pay2 (F := Ideal) i W X Bt acc (ix2 j s)
      = acc (ix2 j s) + ∑ col : Fin 2048, (if 2048 * (i 0).val + col.val < 50000 then ∑ d : Fin 1024, W (ix2 j d) * X (ix2 col d) else 0)
          * (if Bt (ix1 col) = BitVec.ofNat 32 s.val then 1 else 0) := by
  unfold k1_pay2
  simp only [matmul, addf_apply, shapeCast_self, Ideal.matmul_constant_zero_apply]
  rw [← Equiv.sum_comp e2.symm]
  simp only [lhsD2, rhsD2, select_apply, sitofp_apply, extui_apply, bc_row, bc_seg, sc_bt, Ideal.matmul_constant_zero_apply]
  refine congrArg (acc (ix2 j s) + ·) (Finset.sum_congr rfl fun col _ => ?_)
  refine congrArg₂ (· * ·) ?_ ?_
  · have hm : cmpi .slt (addi (iota .tc S1x2048 32 [1] iota_S1x2048_d1_w32) (broadcast S1x2048 (Scalar.muli (BitVec.ofNat 32 (i 0).val) 2048#32))) (broadcast S1x2048 50000#32) (ix2 0 col)
        = IntOp.cmpi .slt (IntOp.addi (BitVec.ofNat 32 col.val) (Scalar.muli (BitVec.ofNat 32 (i 0).val) 2048#32)) 50000#32 := by
      show IntOp.cmpi .slt (IntOp.addi (iota .tc S1x2048 32 [1] iota_S1x2048_d1_w32 (ix2 0 col)) _) _ = _
      rw [iota_col]; rfl
    rw [hm, ← Equiv.sum_comp e1.symm]
    simp only [lhsD1, rhsD1]
    by_cases h : 2048 * (i 0).val + col.val < 50000
    · rw [if_pos h, (mask_iff _ (show (i 0).val < 25 from (i 0).isLt) _ col.isLt).mpr h, select_one]
    · rw [if_neg h, eq_zero_of_ne_one (fun e => h ((mask_iff _ (show (i 0).val < 25 from (i 0).isLt) _ col.isLt).mp e)), select_zero]
      exact zero_f32
  · have hc : cmpi .eq (broadcastTo S64x2048 (shapeCast S1x2048 Bt shapeCasts_S2048_S1x2048) broadcasts_S1x2048_S64x2048) (iota .tc S64x2048 32 [0] iota_S64x2048_d0_w32) (ix2 s col)
        = IntOp.cmpi .eq (Bt (ix1 col)) (BitVec.ofNat 32 s.val) := by
      show IntOp.cmpi .eq (broadcastTo S64x2048 (shapeCast S1x2048 Bt shapeCasts_S2048_S1x2048) broadcasts_S1x2048_S64x2048 (ix2 s col)) (iota .tc S64x2048 32 [0] iota_S64x2048_d0_w32 (ix2 s col)) = _
      rw [bc_seg, sc_bt, iota_seg]
    rw [hc, onehot_eq]
    by_cases hb : Bt (ix1 col) = BitVec.ofNat 32 s.val
    · rw [if_pos hb, if_pos (IntOp.cmpi_eq.mpr hb)]
    · rw [if_neg hb, if_neg (fun e => hb (IntOp.cmpi_eq.mp e))]

end Cert.Proof.KernelIdeal

end
-- ==== Proof.KernelIdeal.Region1Ideal.lean ====
/-
  Region 1 at the ideal values: the relational proof data that names what the accumulating matmul leaves in its output
  block — at the first point the point's contribution, at a later one what the block held plus the point's
  contribution, a function of the three input arrays alone: past the arrays' end a clipped block's rows are masked to zero
  in the first product, and zero times a one-hot entry is zero —, its body obligation, and the result array after the
  one write-back, at the last point: the sum of the twenty-five contributions.
-/
import proofs.«211348_g14766097563893_cont_week2b_353_46_alg».proof.Proof.KernelIdeal.Region1Pay

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig (HIx 1) (Elt Ideal) ℕ UU ℕ

variable (V : (c : Dev nD) → (b : Ref sig .tc) → Buf (Elt Ideal) ((c : Thread nD τ).loc b))

/-! ## The arrays, and a point's contribution -/

/-- The three input arrays as the region finds them: the rows, their segment indices, the weights. -/
abbrev xArr (c : Dev nD) : Vec Ideal S50000x1024 .f32 := V c main_arg0
abbrev bArr (c : Dev nD) : Vec Ideal S50000 .i32 := V c main_arg2
abbrev wArr (c : Dev nD) : Vec Ideal S2x1024 .f32 := V c main_arg3

/-- Point `t`'s contribution to output entry `(j, s)`: over the rows `2048 t + col` of the arrays, the row's product with
    the weights' row `j` where the row's segment index is `s`. -/
def psumJS (c : Dev nD) (t : Fin cfg1.N) (j : Fin 2) (s : Fin 64) : EReal :=
  ∑ col : Fin 2048, if h : 2048 * t.val + col.val < 50000 then
      (∑ d : Fin 1024, wArr V c (ix2 j d) * xArr V c (ix2 ⟨2048 * t.val + col.val, h⟩ d))
        * (if bArr V c (ix1 ⟨2048 * t.val + col.val, h⟩) = BitVec.ofNat 32 s.val then 1 else 0)
    else 0

/-- The same as a block. -/
def psum1 (c : Dev nD) (t : Fin cfg1.N) : Vec Ideal S2x64 .f32 := fun y => psumJS V c t (y 0) (y 1)

theorem psum1_apply (c : Dev nD) (t : Fin cfg1.N) (j : Fin 2) (s : Fin 64) : psum1 V c t (ix2 j s) = psumJS V c t j s := rfl

/-- What the body makes of the output block's contents `Y` at point `t`. -/
def accStep1 (c : Dev nD) (t : Fin cfg1.N) (Y : Vec Ideal S2x64 .f32) : Vec Ideal S2x64 .f32 :=
  if t.val = 0 then psum1 V c t else fun y => Y y + psum1 V c t y

/-! ## The proof data -/

/-- The relational proof data at the ideal values: as the frame's, but the output's relation names the step. -/
def rdat1I (B : Set (SemLoc sig × HIx 1)) (c : Dev nD) : Pipeline.RDat τ (Elt Ideal) (HIx 1) ℕ UU ℕ cfg1 c where
  A w := V c (Pipeline.arrRef spec1 w)
  after w t Y X := match w with
    | ⟨0, _⟩ => X = Y
    | ⟨1, _⟩ => X = Y
    | ⟨2, _⟩ => X = Y
    | ⟨3, _⟩ => X = accStep1 V c t Y
  Φ _ := Φreg1 (F := Ideal) c
  q _ := fullShare
  owed _ := 0
  recorded _ := B

theorem A_eq1I (B : Set (SemLoc sig × HIx 1)) (c : Dev nD) (w : Fin cfg1.W) : (rdat1I V B c).A w = V c (Pipeline.arrRef spec1 w) := by
  dsimp only [rdat1I]

theorem afterI_0 (B : Set (SemLoc sig × HIx 1)) (c : Dev nD) (t : Fin cfg1.N) (Y X) : (rdat1I V B c).after 0 t Y X ↔ X = Y := Iff.rfl
theorem afterI_1 (B : Set (SemLoc sig × HIx 1)) (c : Dev nD) (t : Fin cfg1.N) (Y X) : (rdat1I V B c).after 1 t Y X ↔ X = Y := Iff.rfl
theorem afterI_2 (B : Set (SemLoc sig × HIx 1)) (c : Dev nD) (t : Fin cfg1.N) (Y X) : (rdat1I V B c).after 2 t Y X ↔ X = Y := Iff.rfl
theorem afterI_3 (B : Set (SemLoc sig × HIx 1)) (c : Dev nD) (t : Fin cfg1.N) (Y X) : (rdat1I V B c).after 3 t Y X ↔ X = accStep1 V c t Y := Iff.rfl

/-! ## The windows on the grid: decided -/

theorem coord1 : ∀ t : Fin cfg1.N, (grid1.coords t 0).val = t.val :=
  (by decide +kernel : ∀ t : Fin grid1.N, (grid1.coords t 0).val = t.val)
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val :=
  (by decide +kernel : ∀ t : Fin grid1.N, win1_1.index t 0 = t.val)
theorem idx1_2 : ∀ t : Fin cfg1.N, win1_2.index t 0 = 0 ∧ win1_2.index t 1 = 0 :=
  (by decide +kernel : ∀ t : Fin grid1.N, win1_2.index t 0 = 0 ∧ win1_2.index t 1 = 0)
theorem xs1_0 : ∀ t : Fin cfg1.N, 2048 * t.val + win1_0.xsize (grid1.coords t) 0 = min (2048 * t.val + 2048) 50000 ∧ win1_0.xsize (grid1.coords t) 1 = 1024 :=
  (by decide +kernel : ∀ t : Fin grid1.N, 2048 * t.val + win1_0.xsize (grid1.coords t) 0 = min (2048 * t.val + 2048) 50000 ∧ win1_0.xsize (grid1.coords t) 1 = 1024)
theorem xs1_1 : ∀ t : Fin cfg1.N, 2048 * t.val + win1_1.xsize (grid1.coords t) 0 = min (2048 * t.val + 2048) 50000 :=
  (by decide +kernel : ∀ t : Fin grid1.N, 2048 * t.val + win1_1.xsize (grid1.coords t) 0 = min (2048 * t.val + 2048) 50000)
theorem xs1_2 : ∀ t : Fin cfg1.N, win1_2.xsize (grid1.coords t) 0 = 2 ∧ win1_2.xsize (grid1.coords t) 1 = 1024 :=
  (by decide +kernel : ∀ t : Fin grid1.N, win1_2.xsize (grid1.coords t) 0 = 2 ∧ win1_2.xsize (grid1.coords t) 1 = 1024)

/-! ## What the body finds in the inputs' buffers -/

/-- A fetched block of the rows, read at a row inside the array: the array's element. -/
theorem fetchedI_0_apply (B : Set (SemLoc sig × HIx 1)) (c : Dev nD) (t : Fin cfg1.N) (d0) (col : Fin 2048) (d' : Fin 1024)
    (h : 2048 * t.val + col.val < 50000) :
    (rdat1I V B c).fetched 0 t d0 (ix2 col d') = xArr V c (ix2 ⟨2048 * t.val + col.val, h⟩ d') := by
  have hm : (cfg1.win 0).moved (cfg1.grid.coords t) (ix2 col d') = true :=
    ((cfg1.win 0).moved_iff _ _).mpr fun a => match a with
      | ⟨0, _⟩ => by have := (xs1_0 t).1; show col.val < win1_0.xsize (grid1.coords t) 0; omega
      | ⟨1, _⟩ => by show d'.val < win1_0.xsize (grid1.coords t) 1; rw [(xs1_0 t).2]; exact d'.isLt
  unfold Pipeline.RDat.fetched Pipeline.Window.fill
  rw [dif_pos hm]
  unfold Pipeline.RDat.blockOf
  rw [View.read_apply, A_eq1I]
  show V c main_arg0 _ = V c main_arg0 _
  congr 1
  funext a
  apply Fin.ext
  match a with
  | ⟨0, _⟩ => show win1_0.index t 0 * 2048 + 1 * col.val = 2048 * t.val + col.val; rw [(idx1_0 t).1]; omega
  | ⟨1, _⟩ => show win1_0.index t 1 * 1024 + 1 * d'.val = d'.val; rw [(idx1_0 t).2]; omega

/-- A fetched block of the segment indices, read at a row inside the array: the array's element. -/
theorem fetchedI_1_apply (B : Set (SemLoc sig × HIx 1)) (c : Dev nD) (t : Fin cfg1.N) (d1) (col : Fin 2048)
    (h : 2048 * t.val + col.val < 50000) :
    (rdat1I V B c).fetched 1 t d1 (ix1 col) = bArr V c (ix1 ⟨2048 * t.val + col.val, h⟩) := by
  have hm : (cfg1.win 1).moved (cfg1.grid.coords t) (ix1 col) = true :=
    ((cfg1.win 1).moved_iff _ _).mpr fun a => match a with
      | ⟨0, _⟩ => by have := xs1_1 t; show col.val < win1_1.xsize (grid1.coords t) 0; omega
  unfold Pipeline.RDat.fetched Pipeline.Window.fill
  rw [dif_pos hm]
  unfold Pipeline.RDat.blockOf
  rw [View.read_apply, A_eq1I]
  show V c main_arg2 _ = V c main_arg2 _
  congr 1
  funext a
  apply Fin.ext
  match a with
  | ⟨0, _⟩ => show win1_1.index t 0 * 2048 + 1 * col.val = 2048 * t.val + col.val; rw [idx1_1 t]; omega

/-- The weights' block is the weights' array, at every point. -/
theorem fetchedI_2_apply (B : Set (SemLoc sig × HIx 1)) (c : Dev nD) (t : Fin cfg1.N) (d2) (j : Fin 2) (d' : Fin 1024) :
    (rdat1I V B c).fetched 2 t d2 (ix2 j d') = wArr V c (ix2 j d') := by
  have hm : (cfg1.win 2).moved (cfg1.grid.coords t) (ix2 j d') = true :=
    ((cfg1.win 2).moved_iff _ _).mpr fun a => match a with
      | ⟨0, _⟩ => by show j.val < win1_2.xsize (grid1.coords t) 0; rw [(xs1_2 t).1]; exact j.isLt
      | ⟨1, _⟩ => by show d'.val < win1_2.xsize (grid1.coords t) 1; rw [(xs1_2 t).2]; exact d'.isLt
  unfold Pipeline.RDat.fetched Pipeline.Window.fill
  rw [dif_pos hm]
  unfold Pipeline.RDat.blockOf
  rw [View.read_apply, A_eq1I]
  show V c main_arg3 _ = V c main_arg3 _
  congr 1
  funext a
  apply Fin.ext
  match a with
  | ⟨0, _⟩ => show win1_2.index t 0 * 2 + 1 * j.val = j.val; rw [(idx1_2 t).1]; omega
  | ⟨1, _⟩ => show win1_2.index t 1 * 1024 + 1 * d'.val = d'.val; rw [(idx1_2 t).2]; omega

/-- The rows' and the segment indices' buffers are found just fetched, at every point; -/
theorem findsI_0 (B : Set (SemLoc sig × HIx 1)) (c : Dev nD) (t : Fin cfg1.N) (Y) (h : (rdat1I V B c).Finds 0 t Y) :
    ∃ d, Y = (rdat1I V B c).fetched 0 t d := ((rdat1I V B c).finds_of_fetch (fetch1_0 t) Y).mp h
theorem findsI_1 (B : Set (SemLoc sig × HIx 1)) (c : Dev nD) (t : Fin cfg1.N) (Y) (h : (rdat1I V B c).Finds 1 t Y) :
    ∃ d, Y = (rdat1I V B c).fetched 1 t d := ((rdat1I V B c).finds_of_fetch (fetch1_1 t) Y).mp h
/-- the weights' holding what its one fetch put there, the body leaving it as found. -/
theorem findsI_2 (B : Set (SemLoc sig × HIx 1)) (c : Dev nD) (t : Fin cfg1.N) (Y) (h : (rdat1I V B c).Finds 2 t Y) :
    ∃ d, Y = (rdat1I V B c).fetched 2 t d :=
  Pipeline.RDat.finds_in_eq_fetched (rdat1I V B c) 2 rfl (fun _ _ _ => rfl) (fun t Y X h => (afterI_2 V B c t Y X).mp h) t Y h

/-! ## The step, as a value -/

/-- The zero block the first point stores. -/
theorem r1_pay1_apply (y : S2x64.Idx) : k1_pay1 (F := Ideal) y = 0 := zero_f32

/-- What the body leaves in the output's buffer at point `t`, its inputs' buffers as the pipeline hands them over and the
    output's at `Y3`: the step of `Y3`. The overhanging rows of the last blocks, whatever they hold, are masked. -/
theorem step_val (B : Set (SemLoc sig × HIx 1)) (c : Dev nD) (t : Fin cfg1.N) (Y0 Y1 Y2) (Y3 : Vec Ideal S2x64 .f32)
    (h0 : (rdat1I V B c).Finds 0 t Y0) (h1 : (rdat1I V B c).Finds 1 t Y1) (h2 : (rdat1I V B c).Finds 2 t Y2) :
    outVal1 (F := Ideal) (grid1.coords t) Y0 Y1 Y2 Y3 = accStep1 V c t Y3 := by
  obtain ⟨d0, rfl⟩ := findsI_0 V B c t Y0 h0
  obtain ⟨d1, rfl⟩ := findsI_1 V B c t Y1 h1
  obtain ⟨d2, rfl⟩ := findsI_2 V B c t Y2 h2
  have key : ∀ (acc : Vec Ideal S2x64 .f32) (j : Fin 2) (s : Fin 64),
      k1_pay2 (F := Ideal) (grid1.coords t) ((rdat1I V B c).fetched 2 t d2) ((rdat1I V B c).fetched 0 t d0) ((rdat1I V B c).fetched 1 t d1) acc (ix2 j s)
        = acc (ix2 j s) + psum1 V c t (ix2 j s) := by
    intro acc j s
    rw [r1_pay2_apply, psum1_apply]
    refine congrArg (acc (ix2 j s) + ·) (Finset.sum_congr rfl fun col _ => ?_)
    rw [coord1 t]
    by_cases h : 2048 * t.val + col.val < 50000
    · rw [if_pos h, dif_pos h, fetchedI_1_apply V B c t d1 col h]
      refine congrArg (· * _) (Finset.sum_congr rfl fun d' _ => ?_)
      rw [fetchedI_2_apply V B c t d2 j d', fetchedI_0_apply V B c t d0 col d' h]
    · rw [if_neg h, dif_neg h, zero_mul]
  unfold outVal1 accStep1
  by_cases ht : t.val = 0
  · rw [if_pos ((hcond1_0 t).mpr ht), if_pos ht]
    funext y
    obtain ⟨j, s, rfl⟩ : ∃ (j : Fin 2) (s : Fin 64), y = ix2 j s := ⟨y 0, y 1, eq_ix2 y⟩
    rw [key, r1_pay1_apply, zero_add]
  · rw [if_neg (fun hc => ht ((hcond1_0 t).mp hc)), if_neg ht]
    funext y
    obtain ⟨j, s, rfl⟩ : ∃ (j : Fin 2) (s : Fin 64), y = ix2 j s := ⟨y 0, y 1, eq_ix2 y⟩
    exact key Y3 j s

/-! ## The body obligation -/

set_option maxHeartbeats 1000000 in
/-- The body at point `t`, the windows' current buffers at contents `Y w` they may then hold: the run that names the
    output (`sound_kernel1_val`) at the point's staging memrefs, its output read by `step_val`. -/
theorem sound_body1I (B : Set (SemLoc sig × HIx 1)) (c : Dev nD) (t : Fin cfg1.N)
    (Y : (w : Fin cfg1.W) → (cfg1.win w).block.Idx → Elt Ideal (cfg1.win w).elt) (hY : ∀ w, (rdat1I V B c).Finds w t (Y w)) :
    iprop((rdat1I V B c).Φ t.castSucc ∗ (rdat1I V B c).owesAt (none : HIx 1) t.castSucc
        ∗ owns (c : Thread nD τ) (ms1_0 t) fullShare (Y 0) ∗ owns (c : Thread nD τ) (ms1_1 t) fullShare (Y 1)
        ∗ owns (c : Thread nD τ) (ms1_2 t) fullShare (Y 2) ∗ owns (c : Thread nD τ) (ms1_3 t) fullShare (Y 3))
      ⊢ wp frame (wpE (defs₀ (F := Ideal)) Variants.none c none) Set.univ (bodyAt1 t) (fun _ =>
          iprop((rdat1I V B c).Φ t.succ ∗ (rdat1I V B c).owesAt (none : HIx 1) t.succ
            ∗ (∃ X, ⌜(rdat1I V B c).after 0 t (Y 0) X⌝ ∗ owns (c : Thread nD τ) (ms1_0 t) fullShare X)
            ∗ (∃ X, ⌜(rdat1I V B c).after 1 t (Y 1) X⌝ ∗ owns (c : Thread nD τ) (ms1_1 t) fullShare X)
            ∗ (∃ X, ⌜(rdat1I V B c).after 2 t (Y 2) X⌝ ∗ owns (c : Thread nD τ) (ms1_2 t) fullShare X)
            ∗ (∃ X, ⌜(rdat1I V B c).after 3 t (Y 3) X⌝ ∗ owns (c : Thread nD τ) (ms1_3 t) fullShare X))) := by
  unfold bodyAt1
  rw [show (rdat1I V B c).Φ t.succ = (rdat1I V B c).Φ t.castSucc from rfl,
    show (rdat1I V B c).owesAt (none : HIx 1) t.succ = (rdat1I V B c).owesAt (none : HIx 1) t.castSucc from rfl]
  iintro ⟨HΦ, Ho, H0, H1, H2, H3⟩
  iapply (sound_kernel1_val c Set.univ (grid1.coords t) (ms1_0 t) (hs1_0 t) (ms1_1 t) (hs1_1 t) (ms1_2 t) (hs1_2 t) (ms1_3 t) (hs1_3 t) (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr; · ipureintro; exact (afterI_0 V B c t _ _).mpr rfl
    iexact H0
  isplitl [H1]
  · iexists (Y 1); isplitr; · ipureintro; exact (afterI_1 V B c t _ _).mpr rfl
    iexact H1
  isplitl [H2]
  · iexists (Y 2); isplitr; · ipureintro; exact (afterI_2 V B c t _ _).mpr rfl
    iexact H2
  iexists (outVal1 (F := Ideal) (grid1.coords t) (Y 0) (Y 1) (Y 2) (Y 3)); isplitr
  · ipureintro; exact (afterI_3 V B c t _ _).mpr (step_val V B c t (Y 0) (Y 1) (Y 2) (Y 3) (hY 0) (hY 1) (hY 2))
  iexact H3

/-- The library's relational body obligation at the ideal values. -/
theorem body_obligation1I (B : Set (SemLoc sig × HIx 1)) (c : Dev nD) :
    (rdat1I V B c).BodyObligation (defs₀ (F := Ideal)) Variants.none (none : HIx 1) Set.univ := fun t Y hY => by
  rw [bigSep_W1, bigSep_W1]
  exact sound_body1I V B c t Y hY

/-! ## The result array -/

/-- The running sum of the contributions through point `n`. -/
def accTo (c : Dev nD) : (n : ℕ) → n < cfg1.N → Vec Ideal S2x64 .f32
  | 0, h => psum1 V c ⟨0, h⟩
  | n + 1, h => fun y => accTo c n (Nat.lt_of_succ_lt h) y + psum1 V c ⟨n + 1, h⟩ y

/-- What the body may leave in the output's buffer at point `n` is the running sum through `n`: by induction on the point —
    the buffer is not written back before the last point, so the body finds what it left. -/
theorem leavesI_3 (B : Set (SemLoc sig × HIx 1)) (c : Dev nD) : ∀ (n : ℕ) (hn : n < cfg1.N) (X), (rdat1I V B c).Leaves 3 ⟨n, hn⟩ X → X = accTo V c n hn
  | 0, hn, X, ⟨Y, _, hA⟩ => ((afterI_3 V B c ⟨0, hn⟩ Y X).mp hA).trans (by unfold accStep1; rw [if_pos rfl]; rfl)
  | n + 1, hn, X, ⟨Y, hF, hA⟩ => by
    have hN : cfg1.N = 25 := N_1
    have hfetch : (cfg1.win 3).fetch ⟨n + 1, hn⟩ = false := (cfg1.win 3).fetch_out rfl _
    rcases ((rdat1I V B c).finds_of_pos hfetch (Nat.succ_ne_zero n) Y).mp hF with hfl | hL
    · exfalso
      have := (flush1_3 _).mp hfl
      dsimp only at this
      omega
    · have hY : Y = accTo V c n (Nat.lt_of_succ_lt hn) := leavesI_3 B c n (Nat.lt_of_succ_lt hn) Y hL
      rw [(afterI_3 V B c ⟨n + 1, hn⟩ Y X).mp hA, hY]
      unfold accStep1
      rw [if_neg (Nat.succ_ne_zero n)]
      rfl

/-- The running sum is the sum. -/
theorem accTo_eq_sum (c : Dev nD) (y : S2x64.Idx) : ∀ (n : ℕ) (hn : n < cfg1.N),
    accTo V c n hn y = ∑ t ∈ Finset.range (n + 1), if ht : t < cfg1.N then psum1 V c ⟨t, ht⟩ y else 0
  | 0, hn => by rw [Finset.sum_range_one, dif_pos hn]; rfl
  | n + 1, hn => by
    rw [Finset.sum_range_succ, dif_pos hn, ← accTo_eq_sum c y n (Nat.lt_of_succ_lt hn)]; rfl

theorem idx1_3 : ∀ t : Fin cfg1.N, win1_3.index t 0 = 0 ∧ win1_3.index t 1 = 0 :=
  (by decide +kernel : ∀ t : Fin grid1.N, win1_3.index t 0 = 0 ∧ win1_3.index t 1 = 0)

/-- THE RESULT ARRAY after the region: whatever contents the library's relation admits for it after the write-backs —
    there is one, at the last point, of the whole array — are, entry by entry, the sum of the twenty-five points'
    contributions. -/
theorem arrAt1I (B : Set (SemLoc sig × HIx 1)) (c : Dev nD) (G : Buf (Elt Ideal) ((cfg1.win 3).arr.view.loc (c.tc : Thread nD τ)))
    (hG : (rdat1I V B c).ArrAt 3 cfg1.N G) (j : Fin 2) (s : Fin 64) :
    (G : Vec Ideal S2x64 .f32) (ix2 j s) = ∑ t : Fin cfg1.N, psum1 V c t (ix2 j s) := by
  have hN : cfg1.N = 25 := N_1
  have h24 : 24 < cfg1.N := by omega
  rw [hN] at hG
  have hstep : (rdat1I V B c).ArrStep 3 ⟨24, h24⟩ ((rdat1I V B c).ArrAt 3 24) G := by
    have h := hG
    unfold Pipeline.RDat.ArrAt at h
    rw [dif_pos h24, if_pos ((flush1_3 ⟨24, h24⟩).mpr rfl)] at h
    exact h
  obtain ⟨G₀, X, -, hL, rfl⟩ := hstep
  have hX := leavesI_3 V B c 24 h24 X hL
  have hz' : (fun a => win1_3.index ⟨24, h24⟩ a * main_v1.ty.shape.size a) = fun _ => 0 := funext fun a => match a with
    | ⟨0, _⟩ => by show win1_3.index ⟨24, h24⟩ 0 * 2 = 0; rw [(idx1_3 ⟨24, h24⟩).1]
    | ⟨1, _⟩ => by show win1_3.index ⟨24, h24⟩ 1 * 64 = 0; rw [(idx1_3 ⟨24, h24⟩).2]
  have hw : ((cfg1.win 3).blk ⟨24, h24⟩).view.write (Elt Ideal) G₀ ((cfg1.win 3).cut (cfg1.grid.coords ⟨24, h24⟩) X) Finset.univ = X :=
    Memref.write_access_unit_zero_univ (Elt Ideal) main_v1 hz' (fun a => by rw [congrFun hz' a]; simp) G₀ X
  rw [hw]
  have e1 : (X : Vec Ideal S2x64 .f32) (ix2 j s) = accTo V c 24 h24 (ix2 j s) := congrFun hX (ix2 j s)
  have hr : Finset.range (24 + 1) = Finset.range cfg1.N := by rw [hN]
  exact e1.trans ((accTo_eq_sum V c (ix2 j s) 24 h24).trans
    ((congrArg (fun r => ∑ t ∈ r, if ht : t < cfg1.N then psum1 V c ⟨t, ht⟩ (ix2 j s) else (0 : EReal)) hr).trans
      ((Fin.sum_univ_eq_sum_range (fun t => if ht : t < cfg1.N then psum1 V c ⟨t, ht⟩ (ix2 j s) else (0 : EReal)) cfg1.N).symm.trans
        (Finset.sum_congr rfl fun t _ => dif_pos t.isLt))))

end Cert.Proof.KernelIdeal

end
-- ==== Proof.KernelIdeal.Region1Bridge.lean ====
/-
  Region 1's result array at the ideal values, entry by entry, as one double sum over the twenty-five grid points and the
  2048 rows of each point's block: a row inside the arrays whose segment index, read as a natural number, is the entry's
  segment contributes its product with the weights' row; every other row nothing.
-/
import proofs.«211348_g14766097563893_cont_week2b_353_46_alg».proof.Proof.KernelIdeal.Region1Ideal

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig (HIx 1) (Elt Ideal) ℕ UU ℕ

variable (V : (c : Dev nD) → (b : Ref sig .tc) → Buf (Elt Ideal) ((c : Thread nD τ).loc b))

/-- A 32-bit word is the word of a segment number below 64 exactly when it reads as that number. -/
theorem word_eq_seg (w : BitVec 32) (s : Fin 64) : w = BitVec.ofNat 32 s.val ↔ w.toNat = s.val := by
  have hs : s.val % 2 ^ 32 = s.val := Nat.mod_eq_of_lt (by have := s.isLt; omega)
  constructor
  · intro h; rw [h, BitVec.toNat_ofNat, hs]
  · intro h; apply BitVec.eq_of_toNat_eq; rw [BitVec.toNat_ofNat, hs, h]

/-- A point's contribution with the one-hot factor read as a choice. -/
theorem psumJS_eq (c : Dev nD) (t : Fin cfg1.N) (j : Fin 2) (s : Fin 64) :
    psumJS V c t j s = ∑ col : Fin 2048, if h : 2048 * t.val + col.val < 50000 then
        (if (bArr V c (ix1 ⟨2048 * t.val + col.val, h⟩)).toNat = s.val then
          ∑ d : Fin 1024, wArr V c (ix2 j d) * xArr V c (ix2 ⟨2048 * t.val + col.val, h⟩ d) else 0)
      else 0 := by
  unfold psumJS
  refine Finset.sum_congr rfl fun col _ => ?_
  by_cases h : 2048 * t.val + col.val < 50000
  · rw [dif_pos h, dif_pos h]
    by_cases hb : bArr V c (ix1 ⟨2048 * t.val + col.val, h⟩) = BitVec.ofNat 32 s.val
    · rw [if_pos hb, if_pos ((word_eq_seg _ s).mp hb), mul_one]
    · rw [if_neg hb, if_neg (fun e => hb ((word_eq_seg _ s).mpr e)), mul_zero]
  · rw [dif_neg h, dif_neg h]

/-- THE RESULT ARRAY after the region, entry by entry, as the double sum over points and block rows. -/
theorem tcs_of_arrAt1I (B : Set (SemLoc sig × HIx 1)) (c : Dev nD) (G : Buf (Elt Ideal) ((cfg1.win 3).arr.view.loc (c.tc : Thread nD τ)))
    (hG : (rdat1I V B c).ArrAt 3 cfg1.N G) : ∀ (j : Fin 2) (s : Fin 64),
    (G : Vec Ideal S2x64 .f32) (ix2 j s) = ∑ t : Fin 25, ∑ col : Fin 2048, if h : 2048 * t.val + col.val < 50000 then
        (if (bArr V c (ix1 ⟨2048 * t.val + col.val, h⟩)).toNat = s.val then
          ∑ d : Fin 1024, wArr V c (ix2 j d) * xArr V c (ix2 ⟨2048 * t.val + col.val, h⟩ d) else 0)
      else 0 := by
  intro j s
  have hN : cfg1.N = 25 := N_1
  have key : (∑ t : Fin cfg1.N, psum1 V c t (ix2 j s)) = ∑ t : Fin 25, ∑ col : Fin 2048, if h : 2048 * t.val + col.val < 50000 then
        (if (bArr V c (ix1 ⟨2048 * t.val + col.val, h⟩)).toNat = s.val then
          ∑ d : Fin 1024, wArr V c (ix2 j d) * xArr V c (ix2 ⟨2048 * t.val + col.val, h⟩ d) else 0)
      else 0 :=
    Fintype.sum_equiv (finCongr hN) _ _ fun t => by rw [psum1_apply, psumJS_eq]; rfl
  exact (arrAt1I V B c G hG j s).trans key

end Cert.Proof.KernelIdeal

end
-- ==== Proof.KernelIdeal.ValueIdeal.lean ====
/-
  THE KERNEL'S VALUE at the ideal values: the array @main returns — the transpose of what the combining pipeline
  leaves, computed from the per-chunk segment counts the counting kernel wrote, the per-segment sums of products the
  accumulating pipeline wrote, and the bias as a column — is the specification's segment mean of the affine map of the
  launch memory's arguments.
-/
import proofs.«211348_g14766097563893_cont_week2b_353_46_alg».proof.Proof.KernelIdeal.LaunchValsRead
import proofs.«211348_g14766097563893_cont_week2b_353_46_alg».proof.Proof.KernelIdeal.Region2Exit
import proofs.«211348_g14766097563893_cont_week2b_353_46_alg».proof.Proof.KernelIdeal.FinalValue
import proofs.«211348_g14766097563893_cont_week2b_353_46_alg».proof.Proof.KernelIdeal.CountsValue
import proofs.«211348_g14766097563893_cont_week2b_353_46_alg».proof.Proof.KernelIdeal.Region1Bridge
import Idealize.ShloMosaic.Lib.Pipeline.Cells

set_option maxRecDepth 16384

noncomputable section

namespace Cert.Proof.KernelIdeal

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.ValueIdx

/-- An input array of region 1 is, after the region, as the region found it (at the ideal values' proof data). -/
theorem hin1_of (B : Set (SemLoc sig × HIx 1)) (m : (ℓ : Loc nD τ sig) → Buf (Elt Ideal) ℓ) (d : Dev nD) (g : Buf (Elt Ideal) (cLoc d))
    (Fs1 : (w : Fin cfg1.W) → Buf (Elt Ideal) ((cfg1.win w).arr.view.loc (d.tc : Thread nD τ)))
    (h1 : ∀ w, (rdat1I (V1 m d g) B d).ArrAt w cfg1.N (Fs1 w)) :
    ∀ w, (cfg1.win w).isOut = false → Fs1 w = W1 m d g (Proc.devRef .tc (Pipeline.arrRef spec1 w)) := by
  intro w hw
  have h := h1 w
  rw [(rdat1I (V1 m d g) B d).ArrAt_in w hw] at h
  exact h.trans (A_eq1I (V1 m d g) B d w)

/-- The result array of region 1 over arrays NAMED by equations: the entry contents `V` read at the three input arrays. -/
theorem tcs_of_arrAt1I' (V : (c : Dev nD) → (b : Ref sig .tc) → Buf (Elt Ideal) ((c : Thread nD τ).loc b))
    (B : Set (SemLoc sig × HIx 1)) (c : Dev nD) (G : Buf (Elt Ideal) ((cfg1.win 3).arr.view.loc (c.tc : Thread nD τ)))
    (hG : (rdat1I V B c).ArrAt 3 cfg1.N G)
    (x : Vec Ideal S50000x1024 .f32) (bt : Vec Ideal S50000 .i32) (W : Vec Ideal S2x1024 .f32)
    (hx : xArr V c = x) (hbt : bArr V c = bt) (hW : wArr V c = W) : ∀ (j : Fin 2) (s : Fin 64),
    (G : Vec Ideal S2x64 .f32) (ix2 j s) = ∑ t : Fin 25, ∑ col : Fin 2048, if h : 2048 * t.val + col.val < 50000 then
        (if (bt (ix1 ⟨2048 * t.val + col.val, h⟩)).toNat = s.val then
          ∑ d : Fin 1024, W (ix2 j d) * x (ix2 ⟨2048 * t.val + col.val, h⟩ d) else 0)
      else 0 := by
  subst hx hbt hW
  exact tcs_of_arrAt1I V B c G hG

/-- THE VALUE. -/
theorem value_ideal (B : Set (SemLoc sig × HIx 1)) (m : (ℓ : Loc nD τ sig) → Buf (Elt Ideal) ℓ) (d : Dev nD) (hpre : PreOK m)
    (hb : ∀ i, ∃ r : ℝ, m ((d.tc : Thread nD τ).loc main_arg4) i = (r : EReal))
    (g : Buf (Elt Ideal) (cLoc d))
    (Fs1 : (w : Fin cfg1.W) → Buf (Elt Ideal) ((cfg1.win w).arr.view.loc (d.tc : Thread nD τ)))
    (Fs2 : (w : Fin cfg2.W) → Buf (Elt Ideal) ((cfg2.win w).arr.view.loc (d.tc : Thread nD τ)))
    (hg : ∀ L : grid0.Coords, TileDone m d L g)
    (h1 : ∀ w, (rdat1I (V1 m d g) B d).ArrAt w cfg1.N (Fs1 w))
    (h2 : ∀ w, (dat2 (V3 m d g Fs1) B d).toR.ArrAt w cfg2.N (Fs2 w)) :
    W5 m d g Fs1 Fs2 (Proc.devRef .tc main_v4)
      = Cert.Spec.G (m ((d.tc : Thread nD τ).loc main_arg0)) (m ((d.tc : Thread nD τ).loc main_arg2))
          (m ((d.tc : Thread nD τ).loc main_arg3)) (m ((d.tc : Thread nD τ).loc main_arg4)) := by
  have hF2 : Fs2 3 = out2_3 (V3 m d g Fs1 d main_v0) (V3 m d g Fs1 d main_v1) (V3 m d g Fs1 d main_v2) :=
    ((dat2 (V3 m d g Fs1) B d).toR_arrAt 3 cfg2.N (Fs2 3) (h2 3)).trans (final2_3 (V3 m d g Fs1) B d)
  rw [W5_v4, hF2, V3_v0, V3_v1, V3_v2]
  exact final_value (m ((d.tc : Thread nD τ).loc main_arg0)) (m ((d.tc : Thread nD τ).loc main_arg2))
    (m ((d.tc : Thread nD τ).loc main_arg3)) (m ((d.tc : Thread nD τ).loc main_arg4)) hb g (counts_value m d hpre g hg)
    (Fs1 3) (tcs_of_arrAt1I' (V1 m d g) B d (Fs1 3) (h1 3) (m ((d.tc : Thread nD τ).loc main_arg0)) (m ((d.tc : Thread nD τ).loc main_arg2))
      (m ((d.tc : Thread nD τ).loc main_arg3)) (V1_arg0 m d g) (V1_arg2 m d g) (V1_arg3 m d g))

end Cert.Proof.KernelIdeal

end
-- ==== Proof.KernelIdeal.ClaimsIdeal.lean ====
/-
  The value claim's kernel half at the ideal instance: the kernel program's run ends with its result array at the
  specification `G` of the arguments — per segment the sum of the rows' affine images over the segment's size, or over one for
  an empty segment — and the arguments unchanged. The run is the launch's with the accumulating pipeline's data carrying its
  value (each grid point adds its block's masked products); the tiles' counts, the pipeline's sums and the combining
  kernel's quotient are joined to `G` by the value lemmas.
-/
import proofs.«211348_g14766097563893_cont_week2b_353_46_alg».proof.Proof.KernelIdeal.Run
import proofs.«211348_g14766097563893_cont_week2b_353_46_alg».proof.Proof.KernelIdeal.ValueIdeal
import proofs.«211348_g14766097563893_cont_week2b_353_46_alg».proof.Proof.PreFacts
import proofs.«211348_g14766097563893_cont_week2b_353_46_alg».proof.Defs

noncomputable section

namespace Cert.Proof.KernelIdeal

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.Sem

/-- The accumulating pipeline's data that carries its value. -/
def r1Ideal : R1Data Ideal where
  rd := rdat1I
  hA := A_eq1I
  hΦ := fun _ _ _ _ => rfl
  hq := fun _ _ _ _ => rfl
  howed := fun _ _ _ _ => rfl
  hrec := fun _ _ _ _ => rfl
  hbody := body_obligation1I

/-- The kernel program's run at the ideal instance, its result named. -/
theorem value_run (m : (ℓ : Loc nD τ sig) → Buf (Elt Ideal) ℓ) (ρ : Dev nD → PrngReg) (hpre : Cert.Pre_KernelIdeal m) :
    θ_run (Cert.KernelIdeal.defs (F := Ideal)) (Cert.KernelIdeal.threads (F := Ideal)) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := Ideal)) _ _).mono (fun _ h c => by
      obtain ⟨g, Fs1, Fs2, ⟨hg, h1, h2⟩, hb⟩ := h c
      exact ⟨(hb _ (mem_uc main_v4 (by decide))).trans
          (value_ideal _ m c (preOK_of m hpre) (Cert.PreFacts.finite_b _ _ _ _ _ (hpre c)) g Fs1 Fs2 hg h1 h2),
        args_of_QC m r1Ideal h c⟩)
    (run_main m ρ r1Ideal (preOK_of m hpre))

end Cert.Proof.KernelIdeal

end
-- ==== Proof.RefScatter.lean ====
/- A scatter-add of 50000 update rows into 64 result rows, the row chosen by a segment word, read at an index.

   The dimension numbers are those of a segment sum: the update's column axis is the window axis, the result's row
   axis is the inserted one and the one the single-component index vector names. At the ideal instance the
   scatter-add's element at row `s`, column `c` is the operand's element plus the sum of the updates at column `c`
   over the rows whose word, read signed, is `s`; a row whose word is no row of the result is dropped. -/
import Idealize.ShloMosaic.PureOps.Ideal
import Idealize.ShloMosaic.Lib.ValueIdx

noncomputable section
open scoped BigOperators
namespace Cert.SegScatter
open Idealize.ShloMosaic Idealize.ShloMosaic.ValueIdx

variable {C : Nat}

abbrev SO (C : Nat) : Shape := ⟨2, ![64, C]⟩
abbrev SI : Shape := ⟨2, ![50000, 1]⟩
abbrev SU (C : Nat) : Shape := ⟨2, ![50000, C]⟩

variable (wf : ScatterDims.WF (SO C) SI (SU C) [1] [0] [0] 1)

abbrev D : ScatterDims (SO C) SI (SU C) := ⟨[1], [0], [0], 1, wf⟩

/-- The result index at row `s`, column `c`. -/
abbrev land (s : Fin 64) (c : Fin C) : (SO C).Idx := ix2 s c

theorem siIdx_eq (j : (SU C).Idx) (c : Fin (D wf).scatterDimsToOperandDims.length) :
    (D wf).siIdx j c = ix2 (j 0) 0 := by
  funext b
  apply Fin.ext
  match b with
  | ⟨0, _⟩ => rfl
  | ⟨1, _⟩ =>
    have : c.val < 1 := c.isLt
    show c.val = 0
    omega

theorem start_0 {w : Nat} (j : (SU C).Idx) (idx : IVec SI w) : (D wf).start j idx 0 = (idx (ix2 (j 0) 0)).toInt := by
  unfold ScatterDims.start
  rw [dif_pos (show (0 : Fin 2) ∈ ([0] : List (Fin 2)) by decide), siIdx_eq]
  rfl

theorem start_1 {w : Nat} (j : (SU C).Idx) (idx : IVec SI w) : (D wf).start j idx 1 = 0 := by
  unfold ScatterDims.start
  rw [dif_neg (show ¬ (1 : Fin 2) ∈ ([0] : List (Fin 2)) by decide)]

theorem sKept_eq : (D wf).sKept = [1] := rfl

theorem window_0 (j : (SU C).Idx) : (D wf).window j 0 = 0 := by
  unfold ScatterDims.window
  rw [dif_neg (by rw [sKept_eq]; exact (by decide : (0 : Fin 2) ∉ ([1] : List (Fin 2))))]

theorem window_1 (j : (SU C).Idx) : (D wf).window j 1 = (j 1).val := by
  unfold ScatterDims.window
  rw [dif_pos (by rw [sKept_eq]; exact (by decide : (1 : Fin 2) ∈ ([1] : List (Fin 2))))]
  rfl

/-- Where an update element lands: at the row its segment word names (read signed), in its own column, when that word
    is a row of the result. -/
theorem resultIdx_some {w : Nat} (j : (SU C).Idx) (idx : IVec SI w) (s : Fin 64)
    (hs : (idx (ix2 (j 0) 0)).toInt = (s.val : Int)) :
    (D wf).resultIdx? j idx = some (land s (j 1)) := by
  have key : ∀ a : Fin 2, (D wf).start j idx a + ((D wf).window j a : Int)
      = ((land s (j 1) : (SO C).Idx) a).val := by
    intro a
    match a with
    | ⟨0, _⟩ => show (D wf).start j idx 0 + ((D wf).window j 0 : Int) = (s.val : Int); rw [start_0, window_0, hs]; simp
    | ⟨1, _⟩ => show (D wf).start j idx 1 + ((D wf).window j 1 : Int) = ((j 1).val : Int); rw [start_1, window_1]; simp
  unfold ScatterDims.resultIdx?
  rw [dif_pos (fun a => by rw [key a]; exact ⟨Int.natCast_nonneg _, by exact_mod_cast ((land s (j 1) : (SO C).Idx) a).isLt⟩)]
  congr 1
  funext a
  apply Fin.ext
  show ((D wf).start j idx a + ((D wf).window j a : Int)).toNat = _
  rw [key a]; simp

/-- An update element whose segment word is no row of the result lands nowhere. -/
theorem resultIdx_none {w : Nat} (j : (SU C).Idx) (idx : IVec SI w)
    (hs : ¬ (0 ≤ (idx (ix2 (j 0) 0)).toInt ∧ (idx (ix2 (j 0) 0)).toInt < 64)) :
    (D wf).resultIdx? j idx = none := by
  unfold ScatterDims.resultIdx?
  rw [dif_neg]
  intro H
  have h0 := H 0
  rw [start_0, window_0] at h0
  apply hs
  have h64 : (((SO C).size 0 : Nat) : Int) = 64 := rfl
  rw [h64] at h0
  constructor <;> omega

/-- The update element at row `r`, column `b` lands at row `s`, column `c` exactly when row `r`'s segment word, read
    signed, is `s`, and `b` is `c`. -/
theorem resultIdx_iff {w : Nat} (r : Fin 50000) (b : Fin C) (idx : IVec SI w) (s : Fin 64) (c : Fin C) :
    (D wf).resultIdx? (ix2 r b) idx = some (land s c) ↔ (idx (ix2 r 0)).toInt = (s.val : Int) ∧ b = c := by
  by_cases hs : 0 ≤ (idx (ix2 r 0)).toInt ∧ (idx (ix2 r 0)).toInt < 64
  · obtain ⟨s', hs'⟩ : ∃ s' : Fin 64, (idx (ix2 r 0)).toInt = (s'.val : Int) :=
      ⟨⟨(idx (ix2 r 0)).toInt.toNat, by omega⟩, by simp; omega⟩
    rw [resultIdx_some wf (ix2 r b) idx s' hs']
    constructor
    · intro h
      have h := Option.some.inj h
      have h0 : s' = s := congrFun h 0
      have h1 : b = c := congrFun h 1
      exact ⟨by rw [hs', h0], h1⟩
    · rintro ⟨h0, h1⟩
      have e : s' = s := Fin.ext (by have := hs'.symm.trans h0; exact_mod_cast this)
      rw [e, ← h1]
      rfl
  · rw [resultIdx_none wf (ix2 r b) idx hs]
    constructor
    · intro h; cases h
    · rintro ⟨h0, _⟩
      exfalso; apply hs
      have : s.val < 64 := s.isLt
      rw [h0]; constructor <;> omega

/-- The host's scatter-add at the ideal instance, read at an index: the operand's element plus the sum, over the rows
    whose segment word (read signed) is the element's row, of the update in the element's column. -/
theorem scatterAdd_apply (x : (SO C).Idx → EReal) (idx : IVec SI 32) (upd : (SU C).Idx → EReal) (s : Fin 64) (c : Fin C) :
    Ideal.hostScatterAdd (D wf) x idx upd (land s c)
      = x (land s c) + ∑ r : Fin 50000, if (idx (ix2 r 0)).toInt = (s.val : Int) then upd (ix2 r c) else 0 := by
  unfold Ideal.hostScatterAdd
  refine congrArg (x (land s c) + ·) ?_
  rw [Finset.sum_filter, sum_idx2]
  refine Finset.sum_congr rfl fun r _ => ?_
  have e := fun b : Fin C => resultIdx_iff wf r b idx s c
  by_cases h : (idx (ix2 r 0)).toInt = (s.val : Int)
  · rw [if_pos h, Finset.sum_eq_single c]
    · exact if_pos ((e _).2 ⟨h, rfl⟩)
    · exact fun b _ hne => if_neg fun hb => hne ((e b).1 hb).2
    · exact fun hn => absurd (Finset.mem_univ _) hn
  · rw [if_neg h]
    exact Finset.sum_eq_zero fun b _ => if_neg fun hb => h ((e b).1 hb).1

end Cert.SegScatter
end
-- ==== Proof.RefValue.lean ====
/- The reference program's result is the specification `Cert.Spec.G` of its argument arrays: the affine map by
   the generated read-at-an-index lemmas, the two scatter-adds (the segment sums and the segment counts) read by
   hand, then the quotient. -/
import proofs.«211348_g14766097563893_cont_week2b_353_46_alg».proof.Proof.Gen.ReferenceIdeal.Read
import proofs.«211348_g14766097563893_cont_week2b_353_46_alg».proof.Defs
import proofs.«211348_g14766097563893_cont_week2b_353_46_alg».proof.Proof.Gen.Pre_input_domain
import proofs.«211348_g14766097563893_cont_week2b_353_46_alg».proof.Proof.Spec
import proofs.«211348_g14766097563893_cont_week2b_353_46_alg».proof.Proof.RefScatter
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.SL.Sem

/-! ## The index functions of the generated lemmas, at coordinates -/

theorem lidx_eq (r : Fin 50000) (j : Fin 2) (k : Fin 1024) : lidx_main_v1 (ix2 r j) k = ix2 r k :=
  funext fun a => Fin.ext (by match a with | ⟨0, _⟩ => rfl | ⟨1, _⟩ => rfl)

theorem ridx_eq (r : Fin 50000) (j : Fin 2) (k : Fin 1024) : idx_main_v0 (ridx_main_v1 (ix2 r j) k) = ix2 j k :=
  funext fun a => Fin.ext (by match a with | ⟨0, _⟩ => rfl | ⟨1, _⟩ => rfl)

theorem bidx_eq (r : Fin 50000) (j : Fin 2) : idx_main_v2 (idx_main_v3 (ix2 r j)) = ix1 j :=
  funext fun a => Fin.ext (by match a with | ⟨0, _⟩ => rfl)

theorem widx6_eq (r : Fin 50000) : idx_main_v6 (ix2 r 0) = ix1 r :=
  funext fun a => Fin.ext (by match a with | ⟨0, _⟩ => rfl)

theorem widx10_eq (r : Fin 50000) : idx_main_v10 (ix2 r 0) = ix1 r :=
  funext fun a => Fin.ext (by match a with | ⟨0, _⟩ => rfl)

theorem cidx_eq (s : Fin 64) (j : Fin 2) : idx_main_v14 (ix2 s j) = ix2 s 0 :=
  funext fun a => Fin.ext (by match a with | ⟨0, _⟩ => rfl | ⟨1, _⟩ => rfl)

/-! ## The affine map -/

/-- The affine map's element at row `r`, output feature `j`. -/
theorem lin_apply (x0 : (⟨S50000x1024, .f32⟩ : BufTy).Contents (Elt Ideal)) (x3 : (⟨S2x1024, .f32⟩ : BufTy).Contents (Elt Ideal))
    (x4 : (⟨S2, .f32⟩ : BufTy).Contents (Elt Ideal)) (r : Fin 50000) (j : Fin 2) :
    val_main_v4 (F := Ideal) x0 x3 x4 (ix2 r j) = Cert.Spec.lin x0 x3 x4 r j := by
  rw [val_main_v4_apply, val_main_v1_apply, val_main_v3_apply, val_main_v2_apply]
  simp only [val_main_v0_apply, lidx_eq, ridx_eq, bidx_eq]
  rfl

/-! ## The segment sums and counts -/

/-- The segment sums: the first scatter-add at row `s`, column `j`. -/
theorem sums_apply (x0 : (⟨S50000x1024, .f32⟩ : BufTy).Contents (Elt Ideal)) (x2 : (⟨S50000, .i32⟩ : BufTy).Contents (Elt Ideal))
    (x3 : (⟨S2x1024, .f32⟩ : BufTy).Contents (Elt Ideal)) (x4 : (⟨S2, .f32⟩ : BufTy).Contents (Elt Ideal)) (s : Fin 64) (j : Fin 2) :
    val_main_v7 (F := Ideal) x0 x2 x3 x4 (ix2 s j) = Cert.Spec.segSum x0 x2 x3 x4 s j := by
  have h := Cert.SegScatter.scatterAdd_apply (C := 2) scatter_S64x2_S50000x1_S50000x2_1_0_0_1_wf
    (val_main_v5 (F := Ideal)) (val_main_v6 (F := Ideal) x2) (val_main_v4 (F := Ideal) x0 x3 x4) s j
  refine h.trans ?_
  rw [val_main_v5_apply, val_main_cst_apply, Ideal.ofBits_def, Ideal.ofBits_zero_f32, zero_add]
  unfold Cert.Spec.segSum
  refine Finset.sum_congr rfl fun r _ => ?_
  rw [val_main_v6_apply, widx6_eq, lin_apply]
  exact if_congr (Cert.Spec.toInt_eq_iff _ s) rfl rfl

/-- The segment counts: the second scatter-add at row `s`. -/
theorem counts_apply (x2 : (⟨S50000, .i32⟩ : BufTy).Contents (Elt Ideal)) (s : Fin 64) :
    val_main_v11 (F := Ideal) x2 (ix2 s 0) = (Cert.Spec.segCount x2 s : EReal) := by
  have h := Cert.SegScatter.scatterAdd_apply (C := 1) scatter_S64x1_S50000x1_S50000x1_1_0_0_1_wf
    (val_main_v9 (F := Ideal)) (val_main_v10 (F := Ideal) x2) (val_main_v8 (F := Ideal)) s 0
  refine h.trans ?_
  rw [val_main_v9_apply, val_main_cst_1_apply, Ideal.ofBits_def, Ideal.ofBits_zero_f32, zero_add, Cert.Spec.segCount_eq_sum]
  refine Finset.sum_congr rfl fun r _ => ?_
  rw [val_main_v10_apply, widx10_eq, val_main_v8_apply, val_main_cst_0_apply, Ideal.ofBits_def, Ideal.ofBits_one_f32]
  exact if_congr (Cert.Spec.toInt_eq_iff _ s) rfl rfl

/-! ## The result -/

/-- The reference's result array is the specification of its four arrays. -/
theorem val_G (x0 : (⟨S50000x1024, .f32⟩ : BufTy).Contents (Elt Ideal)) (x2 : (⟨S50000, .i32⟩ : BufTy).Contents (Elt Ideal))
    (x3 : (⟨S2x1024, .f32⟩ : BufTy).Contents (Elt Ideal)) (x4 : (⟨S2, .f32⟩ : BufTy).Contents (Elt Ideal)) :
    val_main_v15 (F := Ideal) x0 x2 x3 x4 = Cert.Spec.G x0 x2 x3 x4 := by
  funext i
  obtain ⟨s, j, rfl⟩ : ∃ (s : Fin 64) (j : Fin 2), i = ix2 s j := ⟨i 0, i 1, eq_ix2 i⟩
  rw [val_main_v15_apply, Ideal.hostDivf_def, sums_apply, val_main_v14_apply, cidx_eq, val_main_v13_apply,
    Ideal.maximumf_def, counts_apply, val_main_v12_apply, val_main_cst_2_apply, Ideal.ofBits_def, Ideal.ofBits_one_f32]
  rfl

/-! ## The run -/

/-- Every weakly fair execution of the reference terminates with its result array at the specification of the four
    argument arrays, the five arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v15)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v15_eq _ _ _ _).trans (val_G _ _ _ _)), (h c).2⟩)
    (Cert.ReferenceIdeal.Value.run (F := Ideal) m ρ)

/-- The reference runs and leaves its arguments unchanged: its run with the result dropped. -/
theorem frame_ref : Cert.frame_ReferenceIdeal :=
  fun m ρ _ => (θ_run Cert.ReferenceIdeal.defs _ _).mono (fun _ h c => (h c).2) (Cert.ReferenceIdeal.Value.run (F := Ideal) m ρ)

end Cert.ReferenceIdeal.RefValue

end
-- ==== Proof.lean ====
/-
  The certificate's five claims about the segment-mean kernel — a linear layer of two outputs followed by the mean over
  each of sixty-four segments — and its reference.

  The kernel program counts each segment's rows on the SparseCore (thirty-two tiles, each adding one to the counter every
  id of its chunk names, sixteen ids at a time), sums the rows' two products per segment on the TensorCore (twenty-five
  blocks of 2048 rows, the overhang of the last masked, the segments picked by a one-hot product), and combines them:
  (sums + count · bias) / max(count, 1), transposed. The reference adds the bias to every row's two products first, sums
  and counts by segment with scatter-adds, and divides by max(count, 1). Over the extended reals, for finite arguments,
  the two agree: the sum over a segment of (product + bias) is the sum of the products plus the segment's size times the
  bias, the thirty-two chunks partition the rows, and so do the twenty-five blocks.

  Each program's frame (it runs to the end, faults nowhere, leaves its arguments unchanged) comes from the program's run;
  the kernel's needs the segment ids in range, which the precondition states.
-/
import proofs.«211348_g14766097563893_cont_week2b_353_46_alg».proof.Defs
import proofs.«211348_g14766097563893_cont_week2b_353_46_alg».proof.Proof.Gen.Kernel
import proofs.«211348_g14766097563893_cont_week2b_353_46_alg».proof.Proof.Gen.KernelIdeal
import proofs.«211348_g14766097563893_cont_week2b_353_46_alg».proof.Proof.Gen.ReferenceIdeal
import proofs.«211348_g14766097563893_cont_week2b_353_46_alg».proof.Proof.Gen.Pre_input_domain
import proofs.«211348_g14766097563893_cont_week2b_353_46_alg».proof.Proof.Kernel.Run
import proofs.«211348_g14766097563893_cont_week2b_353_46_alg».proof.Proof.KernelIdeal.ClaimsIdeal
import proofs.«211348_g14766097563893_cont_week2b_353_46_alg».proof.Proof.RefValue

noncomputable section

namespace Cert.Proof

open Idealize.ShloMosaic Idealize.SL.Sem

/-- The kernel program as printed runs under the precondition and leaves its arguments unchanged. -/
theorem frame_kernel : Cert.frame_Kernel := fun m ρ hpre =>
  Cert.Proof.Kernel.frame_run m ρ (Cert.Proof.Kernel.preOK_of m hpre)

/-- So does its idealization. -/
theorem frame_kernelIdeal : Cert.frame_KernelIdeal := fun m ρ hpre =>
  Cert.Proof.KernelIdeal.frame_run m ρ (Cert.Proof.KernelIdeal.preOK_of m hpre)

/-- From memories agreeing on the arguments both idealized programs end with the result at the specification of the
    arguments: the kernel's run names it (`value_run`), the reference's run names it (`run_G`), and the arguments agree. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Proof.KernelIdeal.value_run m ρ hpre, ?_⟩
  have hpre' : Cert.Pre_ReferenceIdeal m' := fun c => by
    have h := hpre c
    rw [← (hagree c).1, ← (hagree c).2.1, ← (hagree c).2.2.1, ← (hagree c).2.2.2.1, ← (hagree c).2.2.2.2] at h
    exact h
  refine (θ_run (Cert.ReferenceIdeal.defs (F := Ideal)) _ _).mono (fun _ h c => ⟨(h c).1.trans ?_, (h c).2⟩)
    (Cert.ReferenceIdeal.RefValue.run_G m' ρ' hpre')
  rw [(hagree c).1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_input_domain.Gen.facts,
    frame_kernel, frame_kernelIdeal, Cert.ReferenceIdeal.RefValue.frame_ref, trivial, algebraic⟩

end Cert.Proof

end
